-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x256 : Shape := ⟨3, ![4, 4096, 256]⟩
abbrev S256x256 : Shape := ⟨2, ![256, 256]⟩
abbrev S256 : Shape := ⟨1, ![256]⟩
abbrev S_ : Shape := ⟨0, ![]⟩

class Facts : Prop where
  bcast_S_S4x4096x256 : S_.BroadcastsInDim S4x4096x256 (![] : Fin 0 → Fin S4x4096x256.rank)
  reducesTo_S4x4096x256_S_d0_1_2 : S4x4096x256.ReducesTo [0, 1, 2] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256 .f32) (main_arg5 : FVec F S256x256 .f32) (main_arg6 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg5
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  main_v33

def fn {F : FTy → Type} [FloatOps F] (main_arg0 : FVec F S4x4096x256 .f32) (main_arg1 : FVec F S256x256 .f32) (main_arg2 : FVec F S256 .f32) (main_arg3 : FVec F S256x256 .f32) (main_arg4 : FVec F S256 .f32) (main_arg5 : FVec F S256x256 .f32) (main_arg6 : FVec F S256 .f32) : IVec S_ 1 :=
  let main_v0 : FVec F S4x4096x256 .f32 := Host.absf main_arg0
  let main_cst : FVec F S_ .f32 := constant S_ .f32 0x7F800000#32
  let main_v1 : FVec F S4x4096x256 .f32 := broadcastInDim S4x4096x256 ![] bcast_S_S4x4096x256 main_cst
  let main_v2 : IVec S4x4096x256 1 := cmpf .olt main_v0 main_v1
  let main_c : IVec S_ 1 := constantI S_ 1 1#1
  let main_v3 : IVec S_ 1 := (fun x v => Host.reduce IntOp.andi x v reducesTo_S4x4096x256_S_d0_1_2 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_arg5 main_arg6 main_v13 main_v16
-- ==== Kernel.lean ====
abbrev S4x4096x256 : Shape := ⟨3, ![4, 4096, 256]⟩
abbrev S256x256 : Shape := ⟨2, ![256, 256]⟩
abbrev S256 : Shape := ⟨1, ![256]⟩
abbrev S1x256 : Shape := ⟨2, ![1, 256]⟩
abbrev S1x1024x256 : Shape := ⟨3, ![1, 1024, 256]⟩
abbrev S1024x256 : Shape := ⟨2, ![1024, 256]⟩
abbrev S1024x1 : Shape := ⟨2, ![1024, 1]⟩
abbrev S1024x1024 : Shape := ⟨2, ![1024, 1024]⟩
abbrev S1024 : Shape := ⟨1, ![1024]⟩

abbrev nBuf : Space → Nat
  | .hbm => 14
  | .vmem => 25
  | .smem => 0
  | _ => 0

abbrev bufTy : (tb : Table) → Fin (tcTables nBuf tb) → BufTy
  | .hbm, ⟨0, _⟩ => ⟨S4x4096x256, .f32⟩
  | .hbm, ⟨1, _⟩ => ⟨S256x256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S1x256, .f32⟩
  | .hbm, ⟨8, _⟩ => ⟨S1x256, .f32⟩
  | .hbm, ⟨9, _⟩ => ⟨S1x256, .f32⟩
  | .hbm, ⟨10, _⟩ => ⟨S4x4096x256, .bf16⟩
  | .hbm, ⟨11, _⟩ => ⟨S4x4096x256, .bf16⟩
  | .hbm, ⟨12, _⟩ => ⟨S4x4096x256, .bf16⟩
  | .hbm, ⟨13, _⟩ => ⟨S4x4096x256, .f32⟩
  | .local _ .vmem, ⟨0, _⟩ => ⟨S1x1024x256, .f32⟩
  | .local _ .vmem, ⟨1, _⟩ => ⟨S1x1024x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S1x256, .f32⟩
  | .local _ .vmem, ⟨6, _⟩ => ⟨S1x256, .f32⟩
  | .local _ .vmem, ⟨7, _⟩ => ⟨S1x256, .f32⟩
  | .local _ .vmem, ⟨8, _⟩ => ⟨S1x1024x256, .bf16⟩
  | .local _ .vmem, ⟨9, _⟩ => ⟨S1x1024x256, .bf16⟩
  | .local _ .vmem, ⟨10, _⟩ => ⟨S1x1024x256, .bf16⟩
  | .local _ .vmem, ⟨11, _⟩ => ⟨S1x1024x256, .bf16⟩
  | .local _ .vmem, ⟨12, _⟩ => ⟨S1x1024x256, .bf16⟩
  | .local _ .vmem, ⟨13, _⟩ => ⟨S1x1024x256, .bf16⟩
  | .local _ .vmem, ⟨14, _⟩ => ⟨S1x1024x256, .bf16⟩
  | .local _ .vmem, ⟨15, _⟩ => ⟨S1x1024x256, .bf16⟩
  | .local _ .vmem, ⟨16, _⟩ => ⟨S1x1024x256, .bf16⟩
  | .local _ .vmem, ⟨17, _⟩ => ⟨S1x1024x256, .bf16⟩
  | .local _ .vmem, ⟨18, _⟩ => ⟨S1x1024x256, .bf16⟩
  | .local _ .vmem, ⟨19, _⟩ => ⟨S1x1024x256, .bf16⟩
  | .local _ .vmem, ⟨20, _⟩ => ⟨S1x1024x256, .f32⟩
  | .local _ .vmem, ⟨21, _⟩ => ⟨S1x1024x256, .f32⟩
  | .local _ .vmem, ⟨22, _⟩ => ⟨S1024x1, .f32⟩
  | .local _ .vmem, ⟨23, _⟩ => ⟨S1024x1, .f32⟩
  | .local _ .vmem, ⟨24, _⟩ => ⟨S1024x256, .f32⟩
  | _, _ => ⟨S4x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_scratch0 : Ref sig .tc := ⟨.vmem, 22, rfl⟩
abbrev cc1_scratch1 : Ref sig .tc := ⟨.vmem, 23, rfl⟩
abbrev cc1_scratch2 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1024x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1024x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1024x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev grid1 : Pipeline.Grid := ⟨3, ![4, 4, 4], ![false, false, false]⟩

def k1_cond3 (i : grid1.Coords) : BitVec 1 :=
  let arg2 : BitVec 32 := BitVec.ofNat 32 (i 2).val
  let c3_i32 : BitVec 32 := 3#32
  let v6 : BitVec 1 := Scalar.cmpi .eq arg2 c3_i32
  let v7 : BitVec 32 := Scalar.extui v6
  let c0_i32_2 : BitVec 32 := 0#32
  let v8 : BitVec 1 := Scalar.cmpi .ne v7 c0_i32_2
  v8

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.minsi arg2 arg1
  let c0_i32 : BitVec 32 := 0#32
  let c0_i32_0 : BitVec 32 := 0#32
  ![arg0.toNat, v0.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.minsi arg2 arg1
  let c0_i32 : BitVec 32 := 0#32
  let c0_i32_0 : BitVec 32 := 0#32
  ![arg0.toNat, v0.toNat, c0_i32.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x1024x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x1024x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, true]

abbrev stage1_2 : Fin 2 → Memref sig .tc .vmem S1x1024x256 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, true]

abbrev stage1_3 : Fin 2 → Memref sig .tc .vmem S1x1024x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  shapeCasts_S256_S1x256 : S256.ShapeCasts S1x256
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1024x256 : S1x1024x256.ShapeCasts S1024x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  shapeCasts_S1024x256_S1x1024x256 : S1024x256.ShapeCasts S1x1024x256
  packedbf16_S1x1024x256_S1x1024x256_0_0_0 : (Rect.unit (s := S1x1024x256) ![0, 0, 0] S1x1024x256.size inb_S1x1024x256_S1x1024x256_0_0_0).PackedRows (EltTy.packing .bf16)
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  iota_S1024x1024_d0_w32 : S1024x1024.Iotas .tc 32 [0]
  iota_S1024x1024_d1_w32 : S1024x1024.Iotas .tc 32 [1]
  reduces_S1024x1024_S1024 : S1024x1024.Reduces [1] S1024
  shapeCasts_S1024_S1024x1 : S1024.ShapeCasts S1024x1
  broadcasts_S1024x1_S1024x1024 : S1024x1.Broadcasts S1024x1024
  broadcasts_S1024x1_S1024x256 : S1024x1.Broadcasts S1024x256
  dot_S1024x256_S256x256_S1024x256_1_1_0_0_n_n_wf : DotDims.WF S1024x256 S256x256 S1024x256 [1] [1] [0] [0] [] []
  dot_S1024x256_S1024x256_S1024x1024_1_1_0_0_n_n_wf : DotDims.WF S1024x256 S1024x256 S1024x1024 [1] [1] [0] [0] [] []
  dot_S1024x1024_S1024x256_S1024x256_1_0_0_1_n_n_wf : DotDims.WF S1024x1024 S1024x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x256.size a ≤ S4x4096x256.size a
  hwx0_0 : ∀ i : grid0.Coords, EltTy.bits .f32 = 32 ∨ (Rect.block (s := S4x4096x256) S1x1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1024x256.size a ≤ S4x4096x256.size a
  hwx0_7 : ∀ i : grid0.Coords, EltTy.bits .bf16 = 32 ∨ (Rect.block (s := S4x4096x256) S1x1024x256.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x1024x256.size a ≤ S4x4096x256.size a
  hwx0_8 : ∀ i : grid0.Coords, EltTy.bits .bf16 = 32 ∨ (Rect.block (s := S4x4096x256) S1x1024x256.size (cc0_transform_8 i) (hinb0_8 i)).WholeWords (EltTy.packing .bf16)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x1024x256.size a ≤ S4x4096x256.size a
  hwx0_9 : ∀ i : grid0.Coords, EltTy.bits .bf16 = 32 ∨ (Rect.block (s := S4x4096x256) S1x1024x256.size (cc0_transform_9 i) (hinb0_9 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x256.size a ≤ S4x4096x256.size a
  hwx1_0 : ∀ i : grid1.Coords, EltTy.bits .bf16 = 32 ∨ (Rect.block (s := S4x4096x256) S1x1024x256.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024x256.size a ≤ S4x4096x256.size a
  hwx1_1 : ∀ i : grid1.Coords, EltTy.bits .bf16 = 32 ∨ (Rect.block (s := S4x4096x256) S1x1024x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024x256.size a ≤ S4x4096x256.size a
  hwx1_2 : ∀ i : grid1.Coords, EltTy.bits .bf16 = 32 ∨ (Rect.block (s := S4x4096x256) S1x1024x256.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x256.size a ≤ S4x4096x256.size a
  hwx1_3 : ∀ i : grid1.Coords, EltTy.bits .f32 = 32 ∨ (Rect.block (s := S4x4096x256) S1x1024x256.size (cc1_transform_3 i) (hinb1_3 i)).WholeWords (EltTy.packing .f32)

variable [Facts₀]

def dot_S1024x256_S256x256_S1024x256_1_1_0_0_n_n : DotDims S1024x256 S256x256 S1024x256 where
  lhsContracting := [1]
  rhsContracting := [1]
  lhsNonContracting := [0]
  rhsNonContracting := [0]
  lhsBatch := []
  rhsBatch := []
  wf := dot_S1024x256_S256x256_S1024x256_1_1_0_0_n_n_wf
def dot_S1024x256_S1024x256_S1024x1024_1_1_0_0_n_n : DotDims S1024x256 S1024x256 S1024x1024 where
  lhsContracting := [1]
  rhsContracting := [1]
  lhsNonContracting := [0]
  rhsNonContracting := [0]
  lhsBatch := []
  rhsBatch := []
  wf := dot_S1024x256_S1024x256_S1024x1024_1_1_0_0_n_n_wf
def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf

abbrev win0_0 : Pipeline.Window sig grid0 :=
  Pipeline.Window.ofSpec (Memref.whole main_arg0) S1x1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3_0) S1x1024x256.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v3_1) S1x1024x256.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v3_2) S1x1024x256.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v3_0) S1x1024x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3_1) S1x1024x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3_2) S1x1024x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v4) S1x1024x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond3 i == 1#1) | ⟨_ + 4, h⟩ => absurd h (Nat.not_lt.2 (Nat.le_add_left _ _))

class Facts : Prop extends Facts₀ where

variable [Facts]
-- ==== ReferenceIdeal.lean ====
abbrev S4x4096x256 : Shape := ⟨3, ![4, 4096, 256]⟩
abbrev S256x256 : Shape := ⟨2, ![256, 256]⟩
abbrev S256 : Shape := ⟨1, ![256]⟩
abbrev S1x1x256 : Shape := ⟨3, ![1, 1, 256]⟩
abbrev S4x4096x4096 : Shape := ⟨3, ![4, 4096, 4096]⟩
abbrev S_ : Shape := ⟨0, ![]⟩
abbrev S4096x4096 : Shape := ⟨2, ![4096, 4096]⟩
abbrev S4x4096 : Shape := ⟨2, ![4, 4096]⟩
abbrev S4x4096x1 : Shape := ⟨3, ![4, 4096, 1]⟩

abbrev nBuf : Space → Nat
  | .hbm => 54
  | .vmem => 0
  | .smem => 0
  | _ => 0

abbrev bufTy : (tb : Table) → Fin (tcTables nBuf tb) → BufTy
  | .hbm, ⟨0, _⟩ => ⟨S4x4096x256, .f32⟩
  | .hbm, ⟨1, _⟩ => ⟨S256x256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S4x4096x256, .f32⟩
  | .hbm, ⟨8, _⟩ => ⟨S1x1x256, .f32⟩
  | .hbm, ⟨9, _⟩ => ⟨S4x4096x256, .f32⟩
  | .hbm, ⟨10, _⟩ => ⟨S4x4096x256, .f32⟩
  | .hbm, ⟨11, _⟩ => ⟨S4x4096x256, .f32⟩
  | .hbm, ⟨12, _⟩ => ⟨S1x1x256, .f32⟩
  | .hbm, ⟨13, _⟩ => ⟨S4x4096x256, .f32⟩
  | .hbm, ⟨14, _⟩ => ⟨S4x4096x256, .f32⟩
  | .hbm, ⟨15, _⟩ => ⟨S4x4096x256, .f32⟩
  | .hbm, ⟨16, _⟩ => ⟨S1x1x256, .f32⟩
  | .hbm, ⟨17, _⟩ => ⟨S4x4096x256, .f32⟩
  | .hbm, ⟨18, _⟩ => ⟨S4x4096x256, .f32⟩
  | .hbm, ⟨19, _⟩ => ⟨S4x4096x4096, .f32⟩
  | .hbm, ⟨20, _⟩ => ⟨S_, .f32⟩
  | .hbm, ⟨21, _⟩ => ⟨S4x4096x4096, .f32⟩
  | .hbm, ⟨22, _⟩ => ⟨S4x4096x4096, .f32⟩
  | .hbm, ⟨23, _⟩ => ⟨S_, .i1⟩
  | .hbm, ⟨24, _⟩ => ⟨S4096x4096, .i1⟩
  | .hbm, ⟨25, _⟩ => ⟨S4096x4096, .i32⟩
  | .hbm, ⟨26, _⟩ => ⟨S_, .i32⟩
  | .hbm, ⟨27, _⟩ => ⟨S4096x4096, .i32⟩
  | .hbm, ⟨28, _⟩ => ⟨S4096x4096, .i32⟩
  | .hbm, ⟨29, _⟩ => ⟨S4096x4096, .i32⟩
  | .hbm, ⟨30, _⟩ => ⟨S4096x4096, .i1⟩
  | .hbm, ⟨31, _⟩ => ⟨S_, .i1⟩
  | .hbm, ⟨32, _⟩ => ⟨S4096x4096, .i1⟩
  | .hbm, ⟨33, _⟩ => ⟨S4096x4096, .i1⟩
  | .hbm, ⟨34, _⟩ => ⟨S_, .f32⟩
  | .hbm, ⟨35, _⟩ => ⟨S_, .f32⟩
  | .hbm, ⟨36, _⟩ => ⟨S4x4096x4096, .i1⟩
  | .hbm, ⟨37, _⟩ => ⟨S4x4096x4096, .f32⟩
  | .hbm, ⟨38, _⟩ => ⟨S4x4096x4096, .f32⟩
  | .hbm, ⟨39, _⟩ => ⟨S_, .f32⟩
  | .hbm, ⟨40, _⟩ => ⟨S4x4096, .f32⟩
  | .hbm, ⟨41, _⟩ => ⟨S_, .f32⟩
  | .hbm, ⟨42, _⟩ => ⟨S4x4096, .f32⟩
  | .hbm, ⟨43, _⟩ => ⟨S4x4096, .f32⟩
  | .hbm, ⟨44, _⟩ => ⟨S4x4096x1, .f32⟩
  | .hbm, ⟨45, _⟩ => ⟨S4x4096x4096, .f32⟩
  | .hbm, ⟨46, _⟩ => ⟨S4x4096x4096, .f32⟩
  | .hbm, ⟨47, _⟩ => ⟨S4x4096x4096, .f32⟩
  | .hbm, ⟨48, _⟩ => ⟨S_, .f32⟩
  | .hbm, ⟨49, _⟩ => ⟨S4x4096, .f32⟩
  | .hbm, ⟨50, _⟩ => ⟨S4x4096x1, .f32⟩
  | .hbm, ⟨51, _⟩ => ⟨S4x4096x4096, .f32⟩
  | .hbm, ⟨52, _⟩ => ⟨S4x4096x4096, .f32⟩
  | .hbm, ⟨53, _⟩ => ⟨S4x4096x256, .f32⟩
  | _, _ => ⟨S4x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_c : Ref sig .tc := ⟨.hbm, 23, rfl⟩
abbrev main_v15 : Ref sig .tc := ⟨.hbm, 24, rfl⟩
abbrev main_call0_v0 : Ref sig .tc := ⟨.hbm, 25, rfl⟩
abbrev main_call0_c : Ref sig .tc := ⟨.hbm, 26, rfl⟩
abbrev main_call0_v1 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_c_0 : Ref sig .tc := ⟨.hbm, 31, rfl⟩
abbrev main_call0_v5 : Ref sig .tc := ⟨.hbm, 32, rfl⟩
abbrev main_v16 : Ref sig .tc := ⟨.hbm, 33, rfl⟩
abbrev main_cst_0 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_v17 : Ref sig .tc := ⟨.hbm, 38, rfl⟩
abbrev main_cst_1 : Ref sig .tc := ⟨.hbm, 39, rfl⟩
abbrev main_v18 : Ref sig .tc := ⟨.hbm, 40, rfl⟩
abbrev main_cst_2 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_cst_3 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩

abbrev nD : Nat := 1
abbrev τ : Topo := Topo.v7x

variable {F : FTy → Type} [FloatOps F]

class Facts₀ : Prop where
  bcast_S256_S1x1x256_2 : S256.BroadcastsInDim S1x1x256 (![2] : Fin 1 → Fin S1x1x256.rank)
  bcast_S1x1x256_S4x4096x256_0_1_2 : S1x1x256.BroadcastsInDim S4x4096x256 (![0, 1, 2] : Fin 3 → Fin S4x4096x256.rank)
  bcast_S_S4x4096x4096 : S_.BroadcastsInDim S4x4096x4096 (![] : Fin 0 → Fin S4x4096x4096.rank)
  bcast_S_S4096x4096 : S_.BroadcastsInDim S4096x4096 (![] : Fin 0 → Fin S4096x4096.rank)
  bcast_S4096x4096_S4x4096x4096_1_2 : S4096x4096.BroadcastsInDim S4x4096x4096 (![1, 2] : Fin 2 → Fin S4x4096x4096.rank)
  reducesTo_S4x4096x4096_S4x4096_d2 : S4x4096x4096.ReducesTo [2] S4x4096
  h_S_ : 0 < S_.numel
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  bcast_S4x4096x1_S4x4096x4096_0_1_2 : S4x4096x1.BroadcastsInDim S4x4096x4096 (![0, 1, 2] : Fin 3 → Fin S4x4096x4096.rank)
  dot_S4x4096x256_S256x256_S4x4096x256_2_1_01_0_n_n_wf : DotDims.WF S4x4096x256 S256x256 S4x4096x256 [2] [1] [0, 1] [0] [] []
  dot_S4x4096x256_S4x4096x256_S4x4096x4096_2_2_1_1_0_0_wf : DotDims.WF S4x4096x256 S4x4096x256 S4x4096x4096 [2] [2] [1] [1] [0] [0]
  dot_S4x4096x4096_S4x4096x256_S4x4096x256_2_1_1_2_0_0_wf : DotDims.WF S4x4096x4096 S4x4096x256 S4x4096x256 [2] [1] [1] [2] [0] [0]

variable [Facts₀]

def dot_S4x4096x256_S256x256_S4x4096x256_2_1_01_0_n_n : DotDims S4x4096x256 S256x256 S4x4096x256 where
  lhsContracting := [2]
  rhsContracting := [1]
  lhsNonContracting := [0, 1]
  rhsNonContracting := [0]
  lhsBatch := []
  rhsBatch := []
  wf := dot_S4x4096x256_S256x256_S4x4096x256_2_1_01_0_n_n_wf
def dot_S4x4096x256_S4x4096x256_S4x4096x4096_2_2_1_1_0_0 : DotDims S4x4096x256 S4x4096x256 S4x4096x4096 where
  lhsContracting := [2]
  rhsContracting := [2]
  lhsNonContracting := [1]
  rhsNonContracting := [1]
  lhsBatch := [0]
  rhsBatch := [0]
  wf := dot_S4x4096x256_S4x4096x256_S4x4096x4096_2_2_1_1_0_0_wf
def dot_S4x4096x4096_S4x4096x256_S4x4096x256_2_1_1_2_0_0 : DotDims S4x4096x4096 S4x4096x256 S4x4096x256 where
  lhsContracting := [2]
  rhsContracting := [1]
  lhsNonContracting := [1]
  rhsNonContracting := [2]
  lhsBatch := [0]
  rhsBatch := [0]
  wf := dot_S4x4096x4096_S4x4096x256_S4x4096x256_2_1_1_2_0_0_wf

class Facts : Prop extends Facts₀ where

variable [Facts]
-- ==== Proof.KRegion0.lean ====
/- REGION 0 of @main (custom_call 0, `cc0__qkv_proj_kernel`: three projections q, k, v = x·Wᵀ + b of one row tile of
   the activations), at a PARAMETER `V` — the TensorCore's buffer contents when the region is entered —: each window's
   block at a grid point (`iblk0`), what the body leaves in each output window's staging buffer as a function of the
   input windows' blocks (`out0_7`, `out0_8`, `out0_9`: one whole-buffer store each), the body's triple
   (`sound_kernel0`), the pipeline's proof data (`dat0`) and the body obligation at every grid point
   (`body_obligation0`). Stated at any float model `F`. -/
import proofs.«151727_j7834020348210_2_alg».proof.Proof.Gen.Kernel.Launch
import proofs.«151727_j7834020348210_2_alg».proof.Proof.Gen.Kernel.Skeleton
import proofs.«151727_j7834020348210_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of the tile's extents: the elaborator's structural look recurses once per coordinate
-- of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 (the activations' row tile): its current staging buffer holds its block at every point, fetched there or
    not, for ANY proof data whose array is `V`'s (`hA`) and whose body leaves the block in place (`hafter`): where the
    pipeline does not fetch, the block index has not moved; the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (the first weight matrix): its current staging buffer holds its block at every point, fetched there or
    not, for ANY proof data whose array is `V`'s (`hA`) and whose body leaves the block in place (`hafter`): where the
    pipeline does not fetch, the block index has not moved; the window is uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2 (the second weight matrix): its current staging buffer holds its block at every point, fetched there or
    not, for ANY proof data whose array is `V`'s (`hA`) and whose body leaves the block in place (`hafter`): where the
    pipeline does not fetch, the block index has not moved; the window is uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3 (the third weight matrix): its current staging buffer holds its block at every point, fetched there or
    not, for ANY proof data whose array is `V`'s (`hA`) and whose body leaves the block in place (`hafter`): where the
    pipeline does not fetch, the block index has not moved; the window is uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4 (the first bias row): its current staging buffer holds its block at every point, fetched there or
    not, for ANY proof data whose array is `V`'s (`hA`) and whose body leaves the block in place (`hafter`): where the
    pipeline does not fetch, the block index has not moved; the window is uncut and never idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5 (the second bias row): its current staging buffer holds its block at every point, fetched there or
    not, for ANY proof data whose array is `V`'s (`hA`) and whose body leaves the block in place (`hafter`): where the
    pipeline does not fetch, the block index has not moved; the window is uncut and never idle. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6 (the third bias row): its current staging buffer holds its block at every point, fetched there or
    not, for ANY proof data whose array is `V`'s (`hA`) and whose body leaves the block in place (`hafter`): where the
    pipeline does not fetch, the block index has not moved; the window is uncut and never idle. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and every store is of a whole staging buffer -/

abbrev r0_0 : Rect S1x1024x256 := Rect.unit (s := S1x1024x256) ![0, 0, 0] S1x1024x256.size inb_S1x1024x256_S1x1024x256_0_0_0
abbrev r0_1 : Rect S256x256 := Rect.unit (s := S256x256) ![0, 0] S256x256.size inb_S256x256_S256x256_0_0
abbrev r0_2 : Rect S1x256 := Rect.unit (s := S1x256) ![0, 0] S1x256.size inb_S1x256_S1x256_0_0

/-! ## What the body leaves in each output window's buffer -/

/-- Window 7's staging buffer after the body, from the input windows' blocks: its one store, of the whole buffer —
    the first projection of the row tile (first weight matrix, first bias row). -/
def out0_7 (x0 : Vec F S1x1024x256 .f32) (x1 : Vec F S256x256 .f32) (x2 : Vec F S256x256 .f32) (x3 : Vec F S256x256 .f32) (x4 : Vec F S1x256 .f32) (x5 : Vec F S1x256 .f32) (x6 : Vec F S1x256 .f32) : Vec F S1x1024x256 .bf16 :=
  View.canon [⟨r0_0, k0_pay4 (View.ld x0 r0_0) (View.ld x1 r0_1) (View.ld x4 r0_2)⟩]

/-- The one store is of the whole buffer, so it covers it. -/
theorem cover0_7 (p0 : Vec F S1x1024x256 .bf16) (y : S1x1024x256.Idx) :
    ∃ pc ∈ ([⟨r0_0, p0⟩] : List (View.Piece (Elt F) S1x1024x256 .bf16)), y ∈ pc.1.set :=
  View.cover_of_tiled [⟨r0_0, p0⟩] S1x1024x256.size (by rfl) y

/-- Window 8's staging buffer after the body, from the input windows' blocks: its one store, of the whole buffer —
    the second projection (second weight matrix, second bias row). -/
def out0_8 (x0 : Vec F S1x1024x256 .f32) (x1 : Vec F S256x256 .f32) (x2 : Vec F S256x256 .f32) (x3 : Vec F S256x256 .f32) (x4 : Vec F S1x256 .f32) (x5 : Vec F S1x256 .f32) (x6 : Vec F S1x256 .f32) : Vec F S1x1024x256 .bf16 :=
  View.canon [⟨r0_0, k0_pay5 (View.ld x0 r0_0) (View.ld x2 r0_1) (View.ld x5 r0_2)⟩]

/-- The one store is of the whole buffer, so it covers it. -/
theorem cover0_8 (p0 : Vec F S1x1024x256 .bf16) (y : S1x1024x256.Idx) :
    ∃ pc ∈ ([⟨r0_0, p0⟩] : List (View.Piece (Elt F) S1x1024x256 .bf16)), y ∈ pc.1.set :=
  View.cover_of_tiled [⟨r0_0, p0⟩] S1x1024x256.size (by rfl) y

/-- Window 9's staging buffer after the body, from the input windows' blocks: its one store, of the whole buffer —
    the third projection (third weight matrix, third bias row). -/
def out0_9 (x0 : Vec F S1x1024x256 .f32) (x1 : Vec F S256x256 .f32) (x2 : Vec F S256x256 .f32) (x3 : Vec F S256x256 .f32) (x4 : Vec F S1x256 .f32) (x5 : Vec F S1x256 .f32) (x6 : Vec F S1x256 .f32) : Vec F S1x1024x256 .bf16 :=
  View.canon [⟨r0_0, k0_pay1 (k0_pay3 (View.ld x0 r0_0) (View.ld x3 r0_1) (View.ld x6 r0_2))⟩]

/-- The one store is of the whole buffer, so it covers it. -/
theorem cover0_9 (p0 : Vec F S1x1024x256 .bf16) (y : S1x1024x256.Idx) :
    ∃ pc ∈ ([⟨r0_0, p0⟩] : List (View.Piece (Elt F) S1x1024x256 .bf16)), y ∈ pc.1.set :=
  View.cover_of_tiled [⟨r0_0, p0⟩] S1x1024x256.size (by rfl) y

/-! ## The body's triple -/

set_option maxHeartbeats 1000000 in
/-- The kernel body on whole staging memrefs, the inputs' at read contents `xW` and the outputs' at anything, runs to
    the continuation holding the inputs' as they were and each output's at `out0_W` of the inputs'. (The body loads each
    output buffer before storing it; the loaded value is not used.) -/
theorem sound_kernel0 (c : Dev nD) (E : Set ℕ) (i : grid0.Coords) (arg2 : Memref sig .tc .vmem S1x1024x256 .f32) (harg2 : arg2.IsWhole) (arg3 : Memref sig .tc .vmem S256x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x1024x256 .bf16) (harg9 : arg9.IsWhole) (arg10 : Memref sig .tc .vmem S1x1024x256 .bf16) (harg10 : arg10.IsWhole) (arg11 : Memref sig .tc .vmem S1x1024x256 .bf16) (harg11 : arg11.IsWhole)
    (x0 : Vec F S1x1024x256 .f32) (x1 : Vec F S256x256 .f32) (x2 : Vec F S256x256 .f32) (x3 : Vec F S256x256 .f32) (x4 : Vec F S1x256 .f32) (x5 : Vec F S1x256 .f32) (x6 : Vec F S1x256 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (out0_7 x0 x1 x2 x3 x4 x5 x6) ∗ owns (c : Thread nD τ) arg10 fullShare (out0_8 x0 x1 x2 x3 x4 x5 x6) ∗ owns (c : Thread nD τ) arg11 fullShare (out0_9 x0 x1 x2 x3 x4 x5 x6)) -∗ K ⟨⟩))
      ⊢ wp frame (wpE (defs₀ (F := F)) Variants.none c none) E (cc0__qkv_proj_kernel i arg2 harg2 arg3 harg3 arg4 harg4 arg5 harg5 arg6 harg6 arg7 harg7 arg8 harg8 arg9 harg9 arg10 harg10 arg11 harg11) K := by
  simp only [cc0__qkv_proj_kernel_eq_skeleton]; unfold cc0__qkv_proj_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    try dsimp only
    exact View.read_writes_eq_canon _ _ _ (cover0_7 _)
  isplitl [H8]
  · iexists _; isplitr
    swap; · iexact H8
    ipureintro
    try dsimp only
    exact View.read_writes_eq_canon _ _ _ (cover0_8 _)
  iexists _; isplitr
  swap; · iexact H9
  ipureintro
  try dsimp only
  exact View.read_writes_eq_canon _ _ _ (cover0_9 _)

/-! ## The pipeline's proof data -/

/-- The proof data of pipeline 0 on core `c`: the arrays as the region finds them (`V`); after the body at
    point `t` each input's buffer at its block and each output's at `out0_W` of the input blocks; the invariant:
    the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t) (iblk0 V c 3 t) (iblk0 V c 4 t) (iblk0 V c 5 t) (iblk0 V c 6 t)
    | ⟨8, _⟩ => out0_8 (iblk0 V c 0 t) (iblk0 V c 1 t) (iblk0 V c 2 t) (iblk0 V c 3 t) (iblk0 V c 4 t) (iblk0 V c 5 t) (iblk0 V c 6 t)
    | ⟨9, _⟩ => out0_9 (iblk0 V c 0 t) (iblk0 V c 1 t) (iblk0 V c 2 t) (iblk0 V c 3 t) (iblk0 V c 4 t) (iblk0 V c 5 t) (iblk0 V c 6 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = out0_7 (iblk0 V c 0 t) (iblk0 V c 1 t) (iblk0 V c 2 t) (iblk0 V c 3 t) (iblk0 V c 4 t) (iblk0 V c 5 t) (iblk0 V c 6 t) := by dsimp only [dat0]
theorem after0_8 (c : Dev nD) (t : Fin cfg0.N) : (dat0 V c).after 8 t = out0_8 (iblk0 V c 0 t) (iblk0 V c 1 t) (iblk0 V c 2 t) (iblk0 V c 3 t) (iblk0 V c 4 t) (iblk0 V c 5 t) (iblk0 V c 6 t) := by dsimp only [dat0]
theorem after0_9 (c : Dev nD) (t : Fin cfg0.N) : (dat0 V c).after 9 t = out0_9 (iblk0 V c 0 t) (iblk0 V c 1 t) (iblk0 V c 2 t) (iblk0 V c 3 t) (iblk0 V c 4 t) (iblk0 V c 5 t) (iblk0 V c 6 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-! ## The body obligation, at a generic point -/

/-- What the body is called with at point `t` (the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

set_option maxHeartbeats 1000000 in
/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ (grid0.coords t) _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KRegion1Runs.lean ====
/-
  Region 1 (the causal attention kernel over key/value tiles): what its per-case runs share.
  A grid point is (batch b, query tile qi, key tile ki). The body has three conditionals on the point:
  ki = 0 (reset the running maximum, the running sum and the accumulator), ki ≤ qi (fold one key/value tile
  into them) and ki = 3 (divide the accumulator by the sum and store the output block). The three scratch buffers
  carry the running state from one point to the next; the output block is written only where ki = 3.
-/
import proofs.«151727_j7834020348210_2_alg».proof.Proof.Gen.Kernel.Launch
import proofs.«151727_j7834020348210_2_alg».proof.Proof.Gen.Kernel.Skeleton
import proofs.«151727_j7834020348210_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end

/-! ## The body's branch conditions, from the grid coordinates -/

/-- ki = 0. -/
abbrev cond1_0 (i : grid1.Coords) : Prop := (Scalar.cmpi .ne (Scalar.extui (Scalar.cmpi .eq (BitVec.ofNat 32 (i 2).val) 0#32)) 0#32) = 1#1
/-- ki ≤ qi. -/
abbrev cond1_1 (i : grid1.Coords) : Prop := (Scalar.cmpi .ne (Scalar.extui (Scalar.cmpi .sle (BitVec.ofNat 32 (i 2).val) (BitVec.ofNat 32 (i 1).val))) 0#32) = 1#1
/-- ki = 3. -/
abbrev cond1_2 (i : grid1.Coords) : Prop := k1_cond3 i = 1#1

/-- The key tile 0 is at or below every query tile. -/
theorem c0_imp_c1 : ∀ t : Fin cfg1.N, cond1_0 (grid1.coords t) → cond1_1 (grid1.coords t) :=
  (by decide +kernel : ∀ t : Fin grid1.N, cond1_0 (grid1.coords t) → cond1_1 (grid1.coords t))
/-- The first key tile is not the last. -/
theorem c0_not_c2 : ∀ t : Fin cfg1.N, cond1_0 (grid1.coords t) → ¬cond1_2 (grid1.coords t) :=
  (by decide +kernel : ∀ t : Fin grid1.N, cond1_0 (grid1.coords t) → ¬cond1_2 (grid1.coords t))
/-- The grid's first point has ki = 0. -/
theorem c0_first : ∀ t : Fin cfg1.N, t.val = 0 → cond1_0 (grid1.coords t) :=
  (by decide +kernel : ∀ t : Fin grid1.N, t.val = 0 → cond1_0 (grid1.coords t))

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Where ki ≠ 3 the body stores nothing into the output block, -/
theorem idleAt1_3 : ∀ t : Fin cfg1.N, ¬cond1_2 (grid1.coords t) → cfg1.idle 3 (grid1.coords t) = true := by decide +kernel
/-- and the block is not written back there. -/
theorem noFlush1_3 : ∀ t : Fin cfg1.N, ¬cond1_2 (grid1.coords t) → (cfg1.win 3).flush t = false := by decide +kernel
/-- Where ki = 3 it stores the block. -/
theorem liveAt1_3 : ∀ t : Fin cfg1.N, cond1_2 (grid1.coords t) → cfg1.idle 3 (grid1.coords t) = false := by decide +kernel

/-! ## The memrefs the body is called with -/

abbrev VO1_3 : View sig .tc .vmem S1x1024x256 .f32 := (Memref.whole cc1_stg3_0 : Memref sig .tc .vmem S1x1024x256 .f32).view
abbrev ms1_0 (t : Fin cfg1.N) : Memref sig .tc .vmem S1x1024x256 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1024x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024x256 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024x256 .f32 := win1_3.stage (cfg1.slots t 3)
abbrev hs1_3 (t : Fin cfg1.N) : (ms1_3 t).IsWhole := hstage1_3 ((cfg1.slots t 3).cast nbuf1_3)
/-- The scratch operands: the running row maxima, the running row sums, the accumulator. -/
abbrev scM1_0 : Memref sig .tc .vmem S1024x1 .f32 := Memref.whole cc1_scratch0
abbrev scM1_1 : Memref sig .tc .vmem S1024x1 .f32 := Memref.whole cc1_scratch1
abbrev scM1_2 : Memref sig .tc .vmem S1024x256 .f32 := Memref.whole cc1_scratch2
abbrev VS1_0 : View sig .tc .vmem S1024x1 .f32 := scM1_0.view
abbrev VS1_1 : View sig .tc .vmem S1024x1 .f32 := scM1_1.view
abbrev VS1_2 : View sig .tc .vmem S1024x256 .f32 := scM1_2.view

/-- The scoped buffers of the core that are neither this region's staging buffers nor its scratch (the other region's
    staging buffers), each whole at some contents. -/
def Rst1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f))

/-- The region's invariant before anything is known of the scratch gives the other scoped buffers, the three scratch
    buffers at some contents and the generator register at some state, -/
theorem PhiA1_out (c : Dev nD) :
    (Pipeline.ΦA spec1 c : sProp 𝕄)
      ⊢ iprop(Rst1 c ∗ (∃ d, owns (c : Thread nD τ) scM1_0 fullShare d) ∗ (∃ d, owns (c : Thread nD τ) scM1_1 fullShare d) ∗ (∃ d, owns (c : Thread nD τ) scM1_2 fullShare d) ∗ (∃ r, prngReg c r)) := by
  unfold Pipeline.ΦA Rst1; rw [scopedRest1_eq]; simp only [scM1_0, scM1_1, scM1_2, owns_whole]
  iintro ⟨⟨H1, H2, H3, H4, H5, H6, H7, H8, H9, H10, H11, H12, H13, H14, HS0, HS1, HS2⟩, Hg⟩
  isplitl [H1 H2 H3 H4 H5 H6 H7 H8 H9 H10 H11 H12 H13 H14]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14
  isplitl [HS0]; · iexact HS0
  isplitl [HS1]; · iexact HS1
  isplitl [HS2]; · iexact HS2
  iexact Hg

/-- and is made of them. -/
theorem PhiA1_in (c : Dev nD) :
    iprop(Rst1 c ∗ (∃ d, owns (c : Thread nD τ) scM1_0 fullShare d) ∗ (∃ d, owns (c : Thread nD τ) scM1_1 fullShare d) ∗ (∃ d, owns (c : Thread nD τ) scM1_2 fullShare d) ∗ (∃ r, prngReg c r))
      ⊢ (Pipeline.ΦA spec1 c : sProp 𝕄) := by
  unfold Pipeline.ΦA Rst1; rw [scopedRest1_eq]; simp only [scM1_0, scM1_1, scM1_2, owns_whole]
  iintro ⟨⟨H1, H2, H3, H4, H5, H6, H7, H8, H9, H10, H11, H12, H13, H14⟩, HS0, HS1, HS2, Hg⟩
  isplitr [Hg]
  swap; · iexact Hg
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [HS0]; · iexact HS0
  isplitl [HS1]; · iexact HS1
  iexact HS2

end Cert.Kernel.Hand

end
-- ==== Proof.KRegion1RunA.lean ====
/-
  Region 1, the body's run at the points of case A.
-/
import proofs.«151727_j7834020348210_2_alg».proof.Proof.KRegion1Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a point of case A (ki = 0 holds, ki ≤ qi holds, ki = 3 fails): on whole staging and scratch memrefs the
    body runs to its return, handing back the inputs as they were, the output block untouched and each scratch buffer with its pieces written (the pieces are what the run finds). -/
noncomputable def kernelRun1_A (c : Dev nD) (i : grid1.Coords) (arg3 : Memref sig .tc .vmem S1x1024x256 .bf16) (harg3 : arg3.IsWhole) (arg4 : Memref sig .tc .vmem S1x1024x256 .bf16) (harg4 : arg4.IsWhole) (arg5 : Memref sig .tc .vmem S1x1024x256 .bf16) (harg5 : arg5.IsWhole) (arg6 : Memref sig .tc .vmem S1x1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : cond1_0 i) (hc1 : cond1_1 i) (hc2 : ¬cond1_2 i)
    (x0 x1 x2 : Vec F S1x1024x256 .bf16) :
    Σ' (LS0 : List (View.Piece (Elt F) S1024x1 .f32)) (LS1 : List (View.Piece (Elt F) S1024x1 .f32)), { LS2 : List (View.Piece (Elt F) S1024x256 .f32) //
      ∀ (xi3 : Vec F S1x1024x256 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__flash_causal_kernel i arg3 harg3 arg4 harg4 arg5 harg5 arg6 harg6 arg7 harg7 arg8 harg8 arg9 harg9) K } := by
  refine ⟨?_, ?_, ?_, fun xi3 E K => ?run⟩
  case run =>
    simp only [cc1__flash_causal_kernel_eq_skeleton]; unfold cc1__flash_causal_kernel_skel
    simp only [k1_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]
    · iexists _; iexact HS0
    isplitl [HS1]
    · iexists _; iexact HS1
    iexists _; iexact HS2

end Cert.Kernel.Hand

end
-- ==== Proof.KRegion1RunB.lean ====
/-
  Region 1, the body's run at the points of case B.
-/
import proofs.«151727_j7834020348210_2_alg».proof.Proof.KRegion1Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a point of case B (ki = 0 fails, ki ≤ qi holds, ki = 3 fails): on whole staging and scratch memrefs the
    body runs to its return, handing back the inputs as they were, the output block untouched and each scratch buffer with its pieces written (the pieces are what the run finds). -/
noncomputable def kernelRun1_B (c : Dev nD) (i : grid1.Coords) (arg3 : Memref sig .tc .vmem S1x1024x256 .bf16) (harg3 : arg3.IsWhole) (arg4 : Memref sig .tc .vmem S1x1024x256 .bf16) (harg4 : arg4.IsWhole) (arg5 : Memref sig .tc .vmem S1x1024x256 .bf16) (harg5 : arg5.IsWhole) (arg6 : Memref sig .tc .vmem S1x1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : cond1_1 i) (hc2 : ¬cond1_2 i)
    (x0 x1 x2 : Vec F S1x1024x256 .bf16) (xs0 xs1 : Vec F S1024x1 .f32) (xs2 : Vec F S1024x256 .f32) :
    Σ' (LS0 : List (View.Piece (Elt F) S1024x1 .f32)) (LS1 : List (View.Piece (Elt F) S1024x1 .f32)), { LS2 : List (View.Piece (Elt F) S1024x256 .f32) //
      ∀ (xi3 : Vec F S1x1024x256 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__flash_causal_kernel i arg3 harg3 arg4 harg4 arg5 harg5 arg6 harg6 arg7 harg7 arg8 harg8 arg9 harg9) K } := by
  refine ⟨?_, ?_, ?_, fun xi3 E K => ?run⟩
  case run =>
    simp only [cc1__flash_causal_kernel_eq_skeleton]; unfold cc1__flash_causal_kernel_skel
    simp only [k1_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3; obtain rfl := harg7.eq_unread hfs0; obtain rfl := harg8.eq_unread hfs1; obtain rfl := harg9.eq_unread hfs2
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]
    · iexists _; iexact HS0
    isplitl [HS1]
    · iexists _; iexact HS1
    iexists _; iexact HS2

end Cert.Kernel.Hand

end
-- ==== Proof.KRegion1RunC.lean ====
/-
  Region 1, the body's run at the points of case C.
-/
import proofs.«151727_j7834020348210_2_alg».proof.Proof.KRegion1Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a point of case C (ki = 0 fails, ki ≤ qi fails, ki = 3 fails): on whole staging and scratch memrefs the
    body runs to its return, handing back the inputs as they were, the output block untouched and the scratch buffers as they were. -/
theorem kernelRun1_C (c : Dev nD) (i : grid1.Coords) (arg3 : Memref sig .tc .vmem S1x1024x256 .bf16) (harg3 : arg3.IsWhole) (arg4 : Memref sig .tc .vmem S1x1024x256 .bf16) (harg4 : arg4.IsWhole) (arg5 : Memref sig .tc .vmem S1x1024x256 .bf16) (harg5 : arg5.IsWhole) (arg6 : Memref sig .tc .vmem S1x1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : ¬cond1_1 i) (hc2 : ¬cond1_2 i)
    (x0 x1 x2 : Vec F S1x1024x256 .bf16) (xs0 xs1 : Vec F S1024x1 .f32) (xs2 : Vec F S1024x256 .f32) :
    ∀ (xi3 : Vec F S1x1024x256 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0 ∗ owns (c : Thread nD τ) arg8 fullShare xs1 ∗ owns (c : Thread nD τ) arg9 fullShare xs2) -∗ K ⟨⟩))
          ⊢ wp frame (wpE (defs₀ (F := F)) Variants.none c none) E (cc1__flash_causal_kernel i arg3 harg3 arg4 harg4 arg5 harg5 arg6 harg6 arg7 harg7 arg8 harg8 arg9 harg9) K := by
  intro xi3 E K
  simp only [cc1__flash_causal_kernel_eq_skeleton]; unfold cc1__flash_causal_kernel_skel
  simp only [k1_part1_eq_skeleton]
  unfold owns
  iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
  obtain rfl := harg3.eq_unread hf0; obtain rfl := harg4.eq_unread hf1; obtain rfl := harg5.eq_unread hf2; obtain rfl := harg6.eq_unread hf3; obtain rfl := harg7.eq_unread hfs0; obtain rfl := harg8.eq_unread hfs1; obtain rfl := harg9.eq_unread hfs2
  sl_exec (disch := first | exact hc0 | exact hc1 | exact hc2)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [HS0]
  · iexists _; isplitr; · ipureintro; exact harg7.read_unread _
    iexact HS0
  isplitl [HS1]
  · iexists _; isplitr; · ipureintro; exact harg8.read_unread _
    iexact HS1
  iexists _; isplitr; · ipureintro; exact harg9.read_unread _
  iexact HS2

end Cert.Kernel.Hand

end
-- ==== Proof.KRegion1RunD.lean ====
/-
  Region 1, the body's run at the points of case D.
-/
import proofs.«151727_j7834020348210_2_alg».proof.Proof.KRegion1Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a point of case D (ki = 0 fails, ki ≤ qi holds, ki = 3 holds): on whole staging and scratch memrefs the
    body runs to its return, handing back the inputs as they were, the output block with its pieces written and each scratch buffer with its pieces written (the pieces are what the run finds). -/
noncomputable def kernelRun1_D (c : Dev nD) (i : grid1.Coords) (arg3 : Memref sig .tc .vmem S1x1024x256 .bf16) (harg3 : arg3.IsWhole) (arg4 : Memref sig .tc .vmem S1x1024x256 .bf16) (harg4 : arg4.IsWhole) (arg5 : Memref sig .tc .vmem S1x1024x256 .bf16) (harg5 : arg5.IsWhole) (arg6 : Memref sig .tc .vmem S1x1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : cond1_1 i) (hc2 : cond1_2 i)
    (x0 x1 x2 : Vec F S1x1024x256 .bf16) (xs0 xs1 : Vec F S1024x1 .f32) (xs2 : Vec F S1024x256 .f32) :
    Σ' (LS0 : List (View.Piece (Elt F) S1024x1 .f32)) (LS1 : List (View.Piece (Elt F) S1024x1 .f32)) (LS2 : List (View.Piece (Elt F) S1024x256 .f32)), { L3 : List (View.Piece (Elt F) S1x1024x256 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__flash_causal_kernel i arg3 harg3 arg4 harg4 arg5 harg5 arg6 harg6 arg7 harg7 arg8 harg8 arg9 harg9) K } := by
  refine ⟨?_, ?_, ?_, ?_, fun E K => ?run⟩
  case run =>
    simp only [cc1__flash_causal_kernel_eq_skeleton]; unfold cc1__flash_causal_kernel_skel
    simp only [k1_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg7.eq_unread hfs0; obtain rfl := harg8.eq_unread hfs1; obtain rfl := harg9.eq_unread hfs2
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; iexact H3
    isplitl [HS0]
    · iexists _; iexact HS0
    isplitl [HS1]
    · iexists _; iexact HS1
    iexists _; iexact HS2

end Cert.Kernel.Hand

end
-- ==== Proof.KRegion1RunE.lean ====
/-
  Region 1, the body's run at the points of case E.
-/
import proofs.«151727_j7834020348210_2_alg».proof.Proof.KRegion1Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a point of case E (ki = 0 fails, ki ≤ qi fails, ki = 3 holds): on whole staging and scratch memrefs the
    body runs to its return, handing back the inputs as they were, the output block with its pieces written and the scratch buffers as they were. -/
noncomputable def kernelRun1_E (c : Dev nD) (i : grid1.Coords) (arg3 : Memref sig .tc .vmem S1x1024x256 .bf16) (harg3 : arg3.IsWhole) (arg4 : Memref sig .tc .vmem S1x1024x256 .bf16) (harg4 : arg4.IsWhole) (arg5 : Memref sig .tc .vmem S1x1024x256 .bf16) (harg5 : arg5.IsWhole) (arg6 : Memref sig .tc .vmem S1x1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : ¬cond1_1 i) (hc2 : cond1_2 i)
    (x0 x1 x2 : Vec F S1x1024x256 .bf16) (xs0 xs1 : Vec F S1024x1 .f32) (xs2 : Vec F S1024x256 .f32) :
    { L3 : List (View.Piece (Elt F) S1x1024x256 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ owns (c : Thread nD τ) arg7 fullShare xs0 ∗ owns (c : Thread nD τ) arg8 fullShare xs1 ∗ owns (c : Thread nD τ) arg9 fullShare xs2) -∗ K ⟨⟩))
          ⊢ wp frame (wpE (defs₀ (F := F)) Variants.none c none) E (cc1__flash_causal_kernel i arg3 harg3 arg4 harg4 arg5 harg5 arg6 harg6 arg7 harg7 arg8 harg8 arg9 harg9) K } := by
  refine ⟨?_, fun E K => ?run⟩
  case run =>
    simp only [cc1__flash_causal_kernel_eq_skeleton]; unfold cc1__flash_causal_kernel_skel
    simp only [k1_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg7.eq_unread hfs0; obtain rfl := harg8.eq_unread hfs1; obtain rfl := harg9.eq_unread hfs2
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; iexact H3
    isplitl [HS0]
    · iexists _; isplitr; · ipureintro; exact harg7.read_unread _
      iexact HS0
    isplitl [HS1]
    · iexists _; isplitr; · ipureintro; exact harg8.read_unread _
      iexact HS1
    iexists _; isplitr; · ipureintro; exact harg9.read_unread _
    iexact HS2

end Cert.Kernel.Hand

end
-- ==== Proof.KRegion1Cases.lean ====
/-
  Region 1: what each case of the body leaves in the three scratch buffers and in the output block, read back from the
  pieces its run found.
-/
import proofs.«151727_j7834020348210_2_alg».proof.Proof.KRegion1RunA
import proofs.«151727_j7834020348210_2_alg».proof.Proof.KRegion1RunB
import proofs.«151727_j7834020348210_2_alg».proof.Proof.KRegion1RunC
import proofs.«151727_j7834020348210_2_alg».proof.Proof.KRegion1RunD
import proofs.«151727_j7834020348210_2_alg».proof.Proof.KRegion1RunE

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Case A's pieces for scratch 0 cover it. -/
theorem scover1_A_0 (c : Dev nD) (i : grid1.Coords) (arg3 : Memref sig .tc .vmem S1x1024x256 .bf16) (harg3 : arg3.IsWhole) (arg4 : Memref sig .tc .vmem S1x1024x256 .bf16) (harg4 : arg4.IsWhole) (arg5 : Memref sig .tc .vmem S1x1024x256 .bf16) (harg5 : arg5.IsWhole) (arg6 : Memref sig .tc .vmem S1x1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : cond1_0 i) (hc1 : cond1_1 i) (hc2 : ¬cond1_2 i) (x0 x1 x2 : Vec F S1x1024x256 .bf16) (y : S1024x1.Idx) :
    ∃ pc ∈ (kernelRun1_A c i arg3 harg3 arg4 harg4 arg5 harg5 arg6 harg6 arg7 harg7 arg8 harg8 arg9 harg9 hc0 hc1 hc2 x0 x1 x2).1, y ∈ pc.1.set :=
  View.cover_of_tiledL (kernelRun1_A c i arg3 harg3 arg4 harg4 arg5 harg5 arg6 harg6 arg7 harg7 arg8 harg8 arg9 harg9 hc0 hc1 hc2 x0 x1 x2).1 S1024x1.size (by sl_kernel_rfl) y
/-- What case A leaves in scratch 0: its pieces read back. -/
def sout1_A_0 (c : Dev nD) (i : grid1.Coords) (arg3 : Memref sig .tc .vmem S1x1024x256 .bf16) (harg3 : arg3.IsWhole) (arg4 : Memref sig .tc .vmem S1x1024x256 .bf16) (harg4 : arg4.IsWhole) (arg5 : Memref sig .tc .vmem S1x1024x256 .bf16) (harg5 : arg5.IsWhole) (arg6 : Memref sig .tc .vmem S1x1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : cond1_0 i) (hc1 : cond1_1 i) (hc2 : ¬cond1_2 i) (x0 x1 x2 : Vec F S1x1024x256 .bf16) : Vec F S1024x1 .f32 :=
  VS1_0.read (Elt F) (VS1_0.writes (Elt F) VS1_0.junk (kernelRun1_A c i arg3 harg3 arg4 harg4 arg5 harg5 arg6 harg6 arg7 harg7 arg8 harg8 arg9 harg9 hc0 hc1 hc2 x0 x1 x2).1)
/-- Case A's pieces for scratch 1 cover it. -/
theorem scover1_A_1 (c : Dev nD) (i : grid1.Coords) (arg3 : Memref sig .tc .vmem S1x1024x256 .bf16) (harg3 : arg3.IsWhole) (arg4 : Memref sig .tc .vmem S1x1024x256 .bf16) (harg4 : arg4.IsWhole) (arg5 : Memref sig .tc .vmem S1x1024x256 .bf16) (harg5 : arg5.IsWhole) (arg6 : Memref sig .tc .vmem S1x1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : cond1_0 i) (hc1 : cond1_1 i) (hc2 : ¬cond1_2 i) (x0 x1 x2 : Vec F S1x1024x256 .bf16) (y : S1024x1.Idx) :
    ∃ pc ∈ (kernelRun1_A c i arg3 harg3 arg4 harg4 arg5 harg5 arg6 harg6 arg7 harg7 arg8 harg8 arg9 harg9 hc0 hc1 hc2 x0 x1 x2).2.1, y ∈ pc.1.set :=
  View.cover_of_tiledL (kernelRun1_A c i arg3 harg3 arg4 harg4 arg5 harg5 arg6 harg6 arg7 harg7 arg8 harg8 arg9 harg9 hc0 hc1 hc2 x0 x1 x2).2.1 S1024x1.size (by sl_kernel_rfl) y
/-- What case A leaves in scratch 1: its pieces read back. -/
def sout1_A_1 (c : Dev nD) (i : grid1.Coords) (arg3 : Memref sig .tc .vmem S1x1024x256 .bf16) (harg3 : arg3.IsWhole) (arg4 : Memref sig .tc .vmem S1x1024x256 .bf16) (harg4 : arg4.IsWhole) (arg5 : Memref sig .tc .vmem S1x1024x256 .bf16) (harg5 : arg5.IsWhole) (arg6 : Memref sig .tc .vmem S1x1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : cond1_0 i) (hc1 : cond1_1 i) (hc2 : ¬cond1_2 i) (x0 x1 x2 : Vec F S1x1024x256 .bf16) : Vec F S1024x1 .f32 :=
  VS1_1.read (Elt F) (VS1_1.writes (Elt F) VS1_1.junk (kernelRun1_A c i arg3 harg3 arg4 harg4 arg5 harg5 arg6 harg6 arg7 harg7 arg8 harg8 arg9 harg9 hc0 hc1 hc2 x0 x1 x2).2.1)
/-- Case A's pieces for scratch 2 cover it. -/
theorem scover1_A_2 (c : Dev nD) (i : grid1.Coords) (arg3 : Memref sig .tc .vmem S1x1024x256 .bf16) (harg3 : arg3.IsWhole) (arg4 : Memref sig .tc .vmem S1x1024x256 .bf16) (harg4 : arg4.IsWhole) (arg5 : Memref sig .tc .vmem S1x1024x256 .bf16) (harg5 : arg5.IsWhole) (arg6 : Memref sig .tc .vmem S1x1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : cond1_0 i) (hc1 : cond1_1 i) (hc2 : ¬cond1_2 i) (x0 x1 x2 : Vec F S1x1024x256 .bf16) (y : S1024x256.Idx) :
    ∃ pc ∈ (kernelRun1_A c i arg3 harg3 arg4 harg4 arg5 harg5 arg6 harg6 arg7 harg7 arg8 harg8 arg9 harg9 hc0 hc1 hc2 x0 x1 x2).2.2.1, y ∈ pc.1.set :=
  View.cover_of_tiledL (kernelRun1_A c i arg3 harg3 arg4 harg4 arg5 harg5 arg6 harg6 arg7 harg7 arg8 harg8 arg9 harg9 hc0 hc1 hc2 x0 x1 x2).2.2.1 S1024x256.size (by sl_kernel_rfl) y
/-- What case A leaves in scratch 2: its pieces read back. -/
def sout1_A_2 (c : Dev nD) (i : grid1.Coords) (arg3 : Memref sig .tc .vmem S1x1024x256 .bf16) (harg3 : arg3.IsWhole) (arg4 : Memref sig .tc .vmem S1x1024x256 .bf16) (harg4 : arg4.IsWhole) (arg5 : Memref sig .tc .vmem S1x1024x256 .bf16) (harg5 : arg5.IsWhole) (arg6 : Memref sig .tc .vmem S1x1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : cond1_0 i) (hc1 : cond1_1 i) (hc2 : ¬cond1_2 i) (x0 x1 x2 : Vec F S1x1024x256 .bf16) : Vec F S1024x256 .f32 :=
  VS1_2.read (Elt F) (VS1_2.writes (Elt F) VS1_2.junk (kernelRun1_A c i arg3 harg3 arg4 harg4 arg5 harg5 arg6 harg6 arg7 harg7 arg8 harg8 arg9 harg9 hc0 hc1 hc2 x0 x1 x2).2.2.1)

/-- Case B's pieces for scratch 0 cover it. -/
theorem scover1_B_0 (c : Dev nD) (i : grid1.Coords) (arg3 : Memref sig .tc .vmem S1x1024x256 .bf16) (harg3 : arg3.IsWhole) (arg4 : Memref sig .tc .vmem S1x1024x256 .bf16) (harg4 : arg4.IsWhole) (arg5 : Memref sig .tc .vmem S1x1024x256 .bf16) (harg5 : arg5.IsWhole) (arg6 : Memref sig .tc .vmem S1x1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : cond1_1 i) (hc2 : ¬cond1_2 i) (x0 x1 x2 : Vec F S1x1024x256 .bf16) (xs0 xs1 : Vec F S1024x1 .f32) (xs2 : Vec F S1024x256 .f32) (y : S1024x1.Idx) :
    ∃ pc ∈ (kernelRun1_B c i arg3 harg3 arg4 harg4 arg5 harg5 arg6 harg6 arg7 harg7 arg8 harg8 arg9 harg9 hc0 hc1 hc2 x0 x1 x2 xs0 xs1 xs2).1, y ∈ pc.1.set :=
  View.cover_of_tiledL (kernelRun1_B c i arg3 harg3 arg4 harg4 arg5 harg5 arg6 harg6 arg7 harg7 arg8 harg8 arg9 harg9 hc0 hc1 hc2 x0 x1 x2 xs0 xs1 xs2).1 S1024x1.size (by sl_kernel_rfl) y
/-- What case B leaves in scratch 0: its pieces read back. -/
def sout1_B_0 (c : Dev nD) (i : grid1.Coords) (arg3 : Memref sig .tc .vmem S1x1024x256 .bf16) (harg3 : arg3.IsWhole) (arg4 : Memref sig .tc .vmem S1x1024x256 .bf16) (harg4 : arg4.IsWhole) (arg5 : Memref sig .tc .vmem S1x1024x256 .bf16) (harg5 : arg5.IsWhole) (arg6 : Memref sig .tc .vmem S1x1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : cond1_1 i) (hc2 : ¬cond1_2 i) (x0 x1 x2 : Vec F S1x1024x256 .bf16) (xs0 xs1 : Vec F S1024x1 .f32) (xs2 : Vec F S1024x256 .f32) : Vec F S1024x1 .f32 :=
  VS1_0.read (Elt F) (VS1_0.writes (Elt F) VS1_0.junk (kernelRun1_B c i arg3 harg3 arg4 harg4 arg5 harg5 arg6 harg6 arg7 harg7 arg8 harg8 arg9 harg9 hc0 hc1 hc2 x0 x1 x2 xs0 xs1 xs2).1)
/-- Case B's pieces for scratch 1 cover it. -/
theorem scover1_B_1 (c : Dev nD) (i : grid1.Coords) (arg3 : Memref sig .tc .vmem S1x1024x256 .bf16) (harg3 : arg3.IsWhole) (arg4 : Memref sig .tc .vmem S1x1024x256 .bf16) (harg4 : arg4.IsWhole) (arg5 : Memref sig .tc .vmem S1x1024x256 .bf16) (harg5 : arg5.IsWhole) (arg6 : Memref sig .tc .vmem S1x1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : cond1_1 i) (hc2 : ¬cond1_2 i) (x0 x1 x2 : Vec F S1x1024x256 .bf16) (xs0 xs1 : Vec F S1024x1 .f32) (xs2 : Vec F S1024x256 .f32) (y : S1024x1.Idx) :
    ∃ pc ∈ (kernelRun1_B c i arg3 harg3 arg4 harg4 arg5 harg5 arg6 harg6 arg7 harg7 arg8 harg8 arg9 harg9 hc0 hc1 hc2 x0 x1 x2 xs0 xs1 xs2).2.1, y ∈ pc.1.set :=
  View.cover_of_tiledL (kernelRun1_B c i arg3 harg3 arg4 harg4 arg5 harg5 arg6 harg6 arg7 harg7 arg8 harg8 arg9 harg9 hc0 hc1 hc2 x0 x1 x2 xs0 xs1 xs2).2.1 S1024x1.size (by sl_kernel_rfl) y
/-- What case B leaves in scratch 1: its pieces read back. -/
def sout1_B_1 (c : Dev nD) (i : grid1.Coords) (arg3 : Memref sig .tc .vmem S1x1024x256 .bf16) (harg3 : arg3.IsWhole) (arg4 : Memref sig .tc .vmem S1x1024x256 .bf16) (harg4 : arg4.IsWhole) (arg5 : Memref sig .tc .vmem S1x1024x256 .bf16) (harg5 : arg5.IsWhole) (arg6 : Memref sig .tc .vmem S1x1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : cond1_1 i) (hc2 : ¬cond1_2 i) (x0 x1 x2 : Vec F S1x1024x256 .bf16) (xs0 xs1 : Vec F S1024x1 .f32) (xs2 : Vec F S1024x256 .f32) : Vec F S1024x1 .f32 :=
  VS1_1.read (Elt F) (VS1_1.writes (Elt F) VS1_1.junk (kernelRun1_B c i arg3 harg3 arg4 harg4 arg5 harg5 arg6 harg6 arg7 harg7 arg8 harg8 arg9 harg9 hc0 hc1 hc2 x0 x1 x2 xs0 xs1 xs2).2.1)
/-- Case B's pieces for scratch 2 cover it. -/
theorem scover1_B_2 (c : Dev nD) (i : grid1.Coords) (arg3 : Memref sig .tc .vmem S1x1024x256 .bf16) (harg3 : arg3.IsWhole) (arg4 : Memref sig .tc .vmem S1x1024x256 .bf16) (harg4 : arg4.IsWhole) (arg5 : Memref sig .tc .vmem S1x1024x256 .bf16) (harg5 : arg5.IsWhole) (arg6 : Memref sig .tc .vmem S1x1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : cond1_1 i) (hc2 : ¬cond1_2 i) (x0 x1 x2 : Vec F S1x1024x256 .bf16) (xs0 xs1 : Vec F S1024x1 .f32) (xs2 : Vec F S1024x256 .f32) (y : S1024x256.Idx) :
    ∃ pc ∈ (kernelRun1_B c i arg3 harg3 arg4 harg4 arg5 harg5 arg6 harg6 arg7 harg7 arg8 harg8 arg9 harg9 hc0 hc1 hc2 x0 x1 x2 xs0 xs1 xs2).2.2.1, y ∈ pc.1.set :=
  View.cover_of_tiledL (kernelRun1_B c i arg3 harg3 arg4 harg4 arg5 harg5 arg6 harg6 arg7 harg7 arg8 harg8 arg9 harg9 hc0 hc1 hc2 x0 x1 x2 xs0 xs1 xs2).2.2.1 S1024x256.size (by sl_kernel_rfl) y
/-- What case B leaves in scratch 2: its pieces read back. -/
def sout1_B_2 (c : Dev nD) (i : grid1.Coords) (arg3 : Memref sig .tc .vmem S1x1024x256 .bf16) (harg3 : arg3.IsWhole) (arg4 : Memref sig .tc .vmem S1x1024x256 .bf16) (harg4 : arg4.IsWhole) (arg5 : Memref sig .tc .vmem S1x1024x256 .bf16) (harg5 : arg5.IsWhole) (arg6 : Memref sig .tc .vmem S1x1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : cond1_1 i) (hc2 : ¬cond1_2 i) (x0 x1 x2 : Vec F S1x1024x256 .bf16) (xs0 xs1 : Vec F S1024x1 .f32) (xs2 : Vec F S1024x256 .f32) : Vec F S1024x256 .f32 :=
  VS1_2.read (Elt F) (VS1_2.writes (Elt F) VS1_2.junk (kernelRun1_B c i arg3 harg3 arg4 harg4 arg5 harg5 arg6 harg6 arg7 harg7 arg8 harg8 arg9 harg9 hc0 hc1 hc2 x0 x1 x2 xs0 xs1 xs2).2.2.1)

/-- Case D's pieces for scratch 0 cover it. -/
theorem scover1_D_0 (c : Dev nD) (i : grid1.Coords) (arg3 : Memref sig .tc .vmem S1x1024x256 .bf16) (harg3 : arg3.IsWhole) (arg4 : Memref sig .tc .vmem S1x1024x256 .bf16) (harg4 : arg4.IsWhole) (arg5 : Memref sig .tc .vmem S1x1024x256 .bf16) (harg5 : arg5.IsWhole) (arg6 : Memref sig .tc .vmem S1x1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : cond1_1 i) (hc2 : cond1_2 i) (x0 x1 x2 : Vec F S1x1024x256 .bf16) (xs0 xs1 : Vec F S1024x1 .f32) (xs2 : Vec F S1024x256 .f32) (y : S1024x1.Idx) :
    ∃ pc ∈ (kernelRun1_D c i arg3 harg3 arg4 harg4 arg5 harg5 arg6 harg6 arg7 harg7 arg8 harg8 arg9 harg9 hc0 hc1 hc2 x0 x1 x2 xs0 xs1 xs2).1, y ∈ pc.1.set :=
  View.cover_of_tiledL (kernelRun1_D c i arg3 harg3 arg4 harg4 arg5 harg5 arg6 harg6 arg7 harg7 arg8 harg8 arg9 harg9 hc0 hc1 hc2 x0 x1 x2 xs0 xs1 xs2).1 S1024x1.size (by sl_kernel_rfl) y
/-- What case D leaves in scratch 0: its pieces read back. -/
def sout1_D_0 (c : Dev nD) (i : grid1.Coords) (arg3 : Memref sig .tc .vmem S1x1024x256 .bf16) (harg3 : arg3.IsWhole) (arg4 : Memref sig .tc .vmem S1x1024x256 .bf16) (harg4 : arg4.IsWhole) (arg5 : Memref sig .tc .vmem S1x1024x256 .bf16) (harg5 : arg5.IsWhole) (arg6 : Memref sig .tc .vmem S1x1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : cond1_1 i) (hc2 : cond1_2 i) (x0 x1 x2 : Vec F S1x1024x256 .bf16) (xs0 xs1 : Vec F S1024x1 .f32) (xs2 : Vec F S1024x256 .f32) : Vec F S1024x1 .f32 :=
  VS1_0.read (Elt F) (VS1_0.writes (Elt F) VS1_0.junk (kernelRun1_D c i arg3 harg3 arg4 harg4 arg5 harg5 arg6 harg6 arg7 harg7 arg8 harg8 arg9 harg9 hc0 hc1 hc2 x0 x1 x2 xs0 xs1 xs2).1)
/-- Case D's pieces for scratch 1 cover it. -/
theorem scover1_D_1 (c : Dev nD) (i : grid1.Coords) (arg3 : Memref sig .tc .vmem S1x1024x256 .bf16) (harg3 : arg3.IsWhole) (arg4 : Memref sig .tc .vmem S1x1024x256 .bf16) (harg4 : arg4.IsWhole) (arg5 : Memref sig .tc .vmem S1x1024x256 .bf16) (harg5 : arg5.IsWhole) (arg6 : Memref sig .tc .vmem S1x1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : cond1_1 i) (hc2 : cond1_2 i) (x0 x1 x2 : Vec F S1x1024x256 .bf16) (xs0 xs1 : Vec F S1024x1 .f32) (xs2 : Vec F S1024x256 .f32) (y : S1024x1.Idx) :
    ∃ pc ∈ (kernelRun1_D c i arg3 harg3 arg4 harg4 arg5 harg5 arg6 harg6 arg7 harg7 arg8 harg8 arg9 harg9 hc0 hc1 hc2 x0 x1 x2 xs0 xs1 xs2).2.1, y ∈ pc.1.set :=
  View.cover_of_tiledL (kernelRun1_D c i arg3 harg3 arg4 harg4 arg5 harg5 arg6 harg6 arg7 harg7 arg8 harg8 arg9 harg9 hc0 hc1 hc2 x0 x1 x2 xs0 xs1 xs2).2.1 S1024x1.size (by sl_kernel_rfl) y
/-- What case D leaves in scratch 1: its pieces read back. -/
def sout1_D_1 (c : Dev nD) (i : grid1.Coords) (arg3 : Memref sig .tc .vmem S1x1024x256 .bf16) (harg3 : arg3.IsWhole) (arg4 : Memref sig .tc .vmem S1x1024x256 .bf16) (harg4 : arg4.IsWhole) (arg5 : Memref sig .tc .vmem S1x1024x256 .bf16) (harg5 : arg5.IsWhole) (arg6 : Memref sig .tc .vmem S1x1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : cond1_1 i) (hc2 : cond1_2 i) (x0 x1 x2 : Vec F S1x1024x256 .bf16) (xs0 xs1 : Vec F S1024x1 .f32) (xs2 : Vec F S1024x256 .f32) : Vec F S1024x1 .f32 :=
  VS1_1.read (Elt F) (VS1_1.writes (Elt F) VS1_1.junk (kernelRun1_D c i arg3 harg3 arg4 harg4 arg5 harg5 arg6 harg6 arg7 harg7 arg8 harg8 arg9 harg9 hc0 hc1 hc2 x0 x1 x2 xs0 xs1 xs2).2.1)
/-- Case D's pieces for scratch 2 cover it. -/
theorem scover1_D_2 (c : Dev nD) (i : grid1.Coords) (arg3 : Memref sig .tc .vmem S1x1024x256 .bf16) (harg3 : arg3.IsWhole) (arg4 : Memref sig .tc .vmem S1x1024x256 .bf16) (harg4 : arg4.IsWhole) (arg5 : Memref sig .tc .vmem S1x1024x256 .bf16) (harg5 : arg5.IsWhole) (arg6 : Memref sig .tc .vmem S1x1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : cond1_1 i) (hc2 : cond1_2 i) (x0 x1 x2 : Vec F S1x1024x256 .bf16) (xs0 xs1 : Vec F S1024x1 .f32) (xs2 : Vec F S1024x256 .f32) (y : S1024x256.Idx) :
    ∃ pc ∈ (kernelRun1_D c i arg3 harg3 arg4 harg4 arg5 harg5 arg6 harg6 arg7 harg7 arg8 harg8 arg9 harg9 hc0 hc1 hc2 x0 x1 x2 xs0 xs1 xs2).2.2.1, y ∈ pc.1.set :=
  View.cover_of_tiledL (kernelRun1_D c i arg3 harg3 arg4 harg4 arg5 harg5 arg6 harg6 arg7 harg7 arg8 harg8 arg9 harg9 hc0 hc1 hc2 x0 x1 x2 xs0 xs1 xs2).2.2.1 S1024x256.size (by sl_kernel_rfl) y
/-- What case D leaves in scratch 2: its pieces read back. -/
def sout1_D_2 (c : Dev nD) (i : grid1.Coords) (arg3 : Memref sig .tc .vmem S1x1024x256 .bf16) (harg3 : arg3.IsWhole) (arg4 : Memref sig .tc .vmem S1x1024x256 .bf16) (harg4 : arg4.IsWhole) (arg5 : Memref sig .tc .vmem S1x1024x256 .bf16) (harg5 : arg5.IsWhole) (arg6 : Memref sig .tc .vmem S1x1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : cond1_1 i) (hc2 : cond1_2 i) (x0 x1 x2 : Vec F S1x1024x256 .bf16) (xs0 xs1 : Vec F S1024x1 .f32) (xs2 : Vec F S1024x256 .f32) : Vec F S1024x256 .f32 :=
  VS1_2.read (Elt F) (VS1_2.writes (Elt F) VS1_2.junk (kernelRun1_D c i arg3 harg3 arg4 harg4 arg5 harg5 arg6 harg6 arg7 harg7 arg8 harg8 arg9 harg9 hc0 hc1 hc2 x0 x1 x2 xs0 xs1 xs2).2.2.1)
/-- Case D's pieces for the output block cover it. -/
theorem cover1_D_3 (c : Dev nD) (i : grid1.Coords) (arg3 : Memref sig .tc .vmem S1x1024x256 .bf16) (harg3 : arg3.IsWhole) (arg4 : Memref sig .tc .vmem S1x1024x256 .bf16) (harg4 : arg4.IsWhole) (arg5 : Memref sig .tc .vmem S1x1024x256 .bf16) (harg5 : arg5.IsWhole) (arg6 : Memref sig .tc .vmem S1x1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : cond1_1 i) (hc2 : cond1_2 i) (x0 x1 x2 : Vec F S1x1024x256 .bf16) (xs0 xs1 : Vec F S1024x1 .f32) (xs2 : Vec F S1024x256 .f32) (y : S1x1024x256.Idx) :
    ∃ pc ∈ (kernelRun1_D c i arg3 harg3 arg4 harg4 arg5 harg5 arg6 harg6 arg7 harg7 arg8 harg8 arg9 harg9 hc0 hc1 hc2 x0 x1 x2 xs0 xs1 xs2).2.2.2.1, y ∈ pc.1.set :=
  View.cover_of_tiledL (kernelRun1_D c i arg3 harg3 arg4 harg4 arg5 harg5 arg6 harg6 arg7 harg7 arg8 harg8 arg9 harg9 hc0 hc1 hc2 x0 x1 x2 xs0 xs1 xs2).2.2.2.1 S1x1024x256.size (by sl_kernel_rfl) y
/-- What case D leaves in the output block: its pieces read back. -/
def out1_D_3 (c : Dev nD) (i : grid1.Coords) (arg3 : Memref sig .tc .vmem S1x1024x256 .bf16) (harg3 : arg3.IsWhole) (arg4 : Memref sig .tc .vmem S1x1024x256 .bf16) (harg4 : arg4.IsWhole) (arg5 : Memref sig .tc .vmem S1x1024x256 .bf16) (harg5 : arg5.IsWhole) (arg6 : Memref sig .tc .vmem S1x1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : cond1_1 i) (hc2 : cond1_2 i) (x0 x1 x2 : Vec F S1x1024x256 .bf16) (xs0 xs1 : Vec F S1024x1 .f32) (xs2 : Vec F S1024x256 .f32) : Vec F S1x1024x256 .f32 :=
  VO1_3.read (Elt F) (VO1_3.writes (Elt F) VO1_3.junk (kernelRun1_D c i arg3 harg3 arg4 harg4 arg5 harg5 arg6 harg6 arg7 harg7 arg8 harg8 arg9 harg9 hc0 hc1 hc2 x0 x1 x2 xs0 xs1 xs2).2.2.2.1)

/-- Case E's pieces for the output block cover it. -/
theorem cover1_E_3 (c : Dev nD) (i : grid1.Coords) (arg3 : Memref sig .tc .vmem S1x1024x256 .bf16) (harg3 : arg3.IsWhole) (arg4 : Memref sig .tc .vmem S1x1024x256 .bf16) (harg4 : arg4.IsWhole) (arg5 : Memref sig .tc .vmem S1x1024x256 .bf16) (harg5 : arg5.IsWhole) (arg6 : Memref sig .tc .vmem S1x1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : ¬cond1_1 i) (hc2 : cond1_2 i) (x0 x1 x2 : Vec F S1x1024x256 .bf16) (xs0 xs1 : Vec F S1024x1 .f32) (xs2 : Vec F S1024x256 .f32) (y : S1x1024x256.Idx) :
    ∃ pc ∈ (kernelRun1_E c i arg3 harg3 arg4 harg4 arg5 harg5 arg6 harg6 arg7 harg7 arg8 harg8 arg9 harg9 hc0 hc1 hc2 x0 x1 x2 xs0 xs1 xs2).1, y ∈ pc.1.set :=
  View.cover_of_tiledL (kernelRun1_E c i arg3 harg3 arg4 harg4 arg5 harg5 arg6 harg6 arg7 harg7 arg8 harg8 arg9 harg9 hc0 hc1 hc2 x0 x1 x2 xs0 xs1 xs2).1 S1x1024x256.size (by sl_kernel_rfl) y
/-- What case E leaves in the output block: its pieces read back. -/
def out1_E_3 (c : Dev nD) (i : grid1.Coords) (arg3 : Memref sig .tc .vmem S1x1024x256 .bf16) (harg3 : arg3.IsWhole) (arg4 : Memref sig .tc .vmem S1x1024x256 .bf16) (harg4 : arg4.IsWhole) (arg5 : Memref sig .tc .vmem S1x1024x256 .bf16) (harg5 : arg5.IsWhole) (arg6 : Memref sig .tc .vmem S1x1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : ¬cond1_1 i) (hc2 : cond1_2 i) (x0 x1 x2 : Vec F S1x1024x256 .bf16) (xs0 xs1 : Vec F S1024x1 .f32) (xs2 : Vec F S1024x256 .f32) : Vec F S1x1024x256 .f32 :=
  VO1_3.read (Elt F) (VO1_3.writes (Elt F) VO1_3.junk (kernelRun1_E c i arg3 harg3 arg4 harg4 arg5 harg5 arg6 harg6 arg7 harg7 arg8 harg8 arg9 harg9 hc0 hc1 hc2 x0 x1 x2 xs0 xs1 xs2).1)

end Cert.Kernel.Hand

end
-- ==== Proof.KRegion1.lean ====
/-
  Region 1: the contents of the output block and of the three scratch buffers after every grid point, by recursion
  on the point (the running maximum, sum and accumulator are what the point before left), the region's invariant and
  proof data, and the body's obligation at every point by cases on the three conditions.
-/
import proofs.«151727_j7834020348210_2_alg».proof.Proof.KRegion1Cases

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The output block and the three scratch buffers (row maxima, row sums, accumulator). -/
abbrev St1 (F : FTy → Type) [FloatOps F] : Type := Vec F S1x1024x256 .f32 × Vec F S1024x1 .f32 × Vec F S1024x1 .f32 × Vec F S1024x256 .f32

/-- A placeholder for the output block where the body stores nothing into it. -/
def junkO : Vec F S1x1024x256 .f32 := VO1_3.read (Elt F) VO1_3.junk

/-- After a point with ki = 0: reset, then one tile folded in. -/
def nextA (c : Dev nD) (t : Fin cfg1.N) (h0 : cond1_0 (grid1.coords t)) (x0 x1 x2 : Vec F S1x1024x256 .bf16) : St1 F :=
  (junkO, sout1_A_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) h0 (c0_imp_c1 t h0) (c0_not_c2 t h0) x0 x1 x2,
    sout1_A_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) h0 (c0_imp_c1 t h0) (c0_not_c2 t h0) x0 x1 x2,
    sout1_A_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) h0 (c0_imp_c1 t h0) (c0_not_c2 t h0) x0 x1 x2)
/-- After a point with 0 < ki ≤ qi, ki < 3: one tile folded into what the point before left. -/
def nextB (c : Dev nD) (t : Fin cfg1.N) (h0 : ¬cond1_0 (grid1.coords t)) (h1 : cond1_1 (grid1.coords t)) (h2 : ¬cond1_2 (grid1.coords t)) (x0 x1 x2 : Vec F S1x1024x256 .bf16) (p : St1 F) : St1 F :=
  (junkO, sout1_B_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) h0 h1 h2 x0 x1 x2 p.2.1 p.2.2.1 p.2.2.2,
    sout1_B_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) h0 h1 h2 x0 x1 x2 p.2.1 p.2.2.1 p.2.2.2,
    sout1_B_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) h0 h1 h2 x0 x1 x2 p.2.1 p.2.2.1 p.2.2.2)
/-- After a point above the diagonal that is not the last of its row: nothing changes. -/
def nextC (p : St1 F) : St1 F := (junkO, p.2.1, p.2.2.1, p.2.2.2)
/-- After the last point of the last query tile's row: one tile folded in, then the output block stored. -/
def nextD (c : Dev nD) (t : Fin cfg1.N) (h0 : ¬cond1_0 (grid1.coords t)) (h1 : cond1_1 (grid1.coords t)) (h2 : cond1_2 (grid1.coords t)) (x0 x1 x2 : Vec F S1x1024x256 .bf16) (p : St1 F) : St1 F :=
  (out1_D_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) h0 h1 h2 x0 x1 x2 p.2.1 p.2.2.1 p.2.2.2,
    sout1_D_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) h0 h1 h2 x0 x1 x2 p.2.1 p.2.2.1 p.2.2.2,
    sout1_D_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) h0 h1 h2 x0 x1 x2 p.2.1 p.2.2.1 p.2.2.2,
    sout1_D_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) h0 h1 h2 x0 x1 x2 p.2.1 p.2.2.1 p.2.2.2)
/-- After the last point of an earlier query tile's row: the output block stored from what the point before left. -/
def nextE (c : Dev nD) (t : Fin cfg1.N) (h0 : ¬cond1_0 (grid1.coords t)) (h1 : ¬cond1_1 (grid1.coords t)) (h2 : cond1_2 (grid1.coords t)) (x0 x1 x2 : Vec F S1x1024x256 .bf16) (p : St1 F) : St1 F :=
  (out1_E_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) h0 h1 h2 x0 x1 x2 p.2.1 p.2.2.1 p.2.2.2, p.2.1, p.2.2.1, p.2.2.2)

section
variable (V : (c : Dev nD) → (b : Ref sig .tc) → Buf (Elt F) ((c : Thread nD τ).loc b))

/-- What the output block's staging buffer and the three scratch buffers hold after the body at position n. -/
def outsAt1 (c : Dev nD) : (n : ℕ) → n < cfg1.N → St1 F
  | 0, hn => nextA c ⟨0, hn⟩ (c0_first ⟨0, hn⟩ rfl) (iblk1 V c 0 ⟨0, hn⟩) (iblk1 V c 1 ⟨0, hn⟩) (iblk1 V c 2 ⟨0, hn⟩)
  | n + 1, hn =>
    if h0 : cond1_0 (grid1.coords ⟨n + 1, hn⟩) then
      nextA c ⟨n + 1, hn⟩ h0 (iblk1 V c 0 ⟨n + 1, hn⟩) (iblk1 V c 1 ⟨n + 1, hn⟩) (iblk1 V c 2 ⟨n + 1, hn⟩)
    else if h1 : cond1_1 (grid1.coords ⟨n + 1, hn⟩) then
      if h2 : cond1_2 (grid1.coords ⟨n + 1, hn⟩) then
        nextD c ⟨n + 1, hn⟩ h0 h1 h2 (iblk1 V c 0 ⟨n + 1, hn⟩) (iblk1 V c 1 ⟨n + 1, hn⟩) (iblk1 V c 2 ⟨n + 1, hn⟩) (outsAt1 c n (Nat.lt_of_succ_lt hn))
      else
        nextB c ⟨n + 1, hn⟩ h0 h1 h2 (iblk1 V c 0 ⟨n + 1, hn⟩) (iblk1 V c 1 ⟨n + 1, hn⟩) (iblk1 V c 2 ⟨n + 1, hn⟩) (outsAt1 c n (Nat.lt_of_succ_lt hn))
    else
      if h2 : cond1_2 (grid1.coords ⟨n + 1, hn⟩) then
        nextE c ⟨n + 1, hn⟩ h0 h1 h2 (iblk1 V c 0 ⟨n + 1, hn⟩) (iblk1 V c 1 ⟨n + 1, hn⟩) (iblk1 V c 2 ⟨n + 1, hn⟩) (outsAt1 c n (Nat.lt_of_succ_lt hn))
      else
        nextC (outsAt1 c n (Nat.lt_of_succ_lt hn))

theorem outsAt1_A (c : Dev nD) (t : Fin cfg1.N) (h0 : cond1_0 (grid1.coords t)) :
    outsAt1 V c t.val t.isLt = nextA c t h0 (iblk1 V c 0 t) (iblk1 V c 1 t) (iblk1 V c 2 t) := by
  obtain ⟨n, hn⟩ := t
  cases n with
  | zero => rfl
  | succ n => exact dif_pos h0

theorem outsAt1_B (c : Dev nD) (t : Fin cfg1.N) (h0 : ¬cond1_0 (grid1.coords t)) (h1 : cond1_1 (grid1.coords t)) (h2 : ¬cond1_2 (grid1.coords t)) :
    outsAt1 V c t.val t.isLt = nextB c t h0 h1 h2 (iblk1 V c 0 t) (iblk1 V c 1 t) (iblk1 V c 2 t) (outsAt1 V c (t.val - 1) (Nat.lt_of_le_of_lt (Nat.sub_le _ _) t.isLt)) := by
  obtain ⟨n, hn⟩ := t
  cases n with
  | zero => exact absurd (c0_first ⟨0, hn⟩ rfl) h0
  | succ n => exact (dif_neg h0).trans ((dif_pos h1).trans (dif_neg h2))

theorem outsAt1_C (c : Dev nD) (t : Fin cfg1.N) (h0 : ¬cond1_0 (grid1.coords t)) (h1 : ¬cond1_1 (grid1.coords t)) (h2 : ¬cond1_2 (grid1.coords t)) :
    outsAt1 V c t.val t.isLt = nextC (outsAt1 V c (t.val - 1) (Nat.lt_of_le_of_lt (Nat.sub_le _ _) t.isLt)) := by
  obtain ⟨n, hn⟩ := t
  cases n with
  | zero => exact absurd (c0_first ⟨0, hn⟩ rfl) h0
  | succ n => exact (dif_neg h0).trans ((dif_neg h1).trans (dif_neg h2))

theorem outsAt1_D (c : Dev nD) (t : Fin cfg1.N) (h0 : ¬cond1_0 (grid1.coords t)) (h1 : cond1_1 (grid1.coords t)) (h2 : cond1_2 (grid1.coords t)) :
    outsAt1 V c t.val t.isLt = nextD c t h0 h1 h2 (iblk1 V c 0 t) (iblk1 V c 1 t) (iblk1 V c 2 t) (outsAt1 V c (t.val - 1) (Nat.lt_of_le_of_lt (Nat.sub_le _ _) t.isLt)) := by
  obtain ⟨n, hn⟩ := t
  cases n with
  | zero => exact absurd (c0_first ⟨0, hn⟩ rfl) h0
  | succ n => exact (dif_neg h0).trans ((dif_pos h1).trans (dif_pos h2))

theorem outsAt1_E (c : Dev nD) (t : Fin cfg1.N) (h0 : ¬cond1_0 (grid1.coords t)) (h1 : ¬cond1_1 (grid1.coords t)) (h2 : cond1_2 (grid1.coords t)) :
    outsAt1 V c t.val t.isLt = nextE c t h0 h1 h2 (iblk1 V c 0 t) (iblk1 V c 1 t) (iblk1 V c 2 t) (outsAt1 V c (t.val - 1) (Nat.lt_of_le_of_lt (Nat.sub_le _ _) t.isLt)) := by
  obtain ⟨n, hn⟩ := t
  cases n with
  | zero => exact absurd (c0_first ⟨0, hn⟩ rfl) h0
  | succ n => exact (dif_neg h0).trans ((dif_neg h1).trans (dif_pos h2))

/-- The region invariant before position n: before the first point every scratch buffer at anything; afterwards the
    three scratch buffers at what the point before left. -/
def PhiS (c : Dev nD) : (n : ℕ) → n ≤ cfg1.N → sProp 𝕄
  | 0, _ => Pipeline.ΦA spec1 c
  | n + 1, hn => iprop(Rst1 c ∗ owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(Rst1 c ∗ owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2) ∗ (∃ r, prngReg c r)) := rfl

theorem PhiS_pos (c : Dev nD) (n : ℕ) (h : n ≤ cfg1.N) (hz : n ≠ 0) :
    PhiS V c n h = iprop(Rst1 c ∗ owns (c : Thread nD τ) scM1_0 fullShare ((outsAt1 V c (n - 1) (by omega)).2.1) ∗ owns (c : Thread nD τ) scM1_1 fullShare ((outsAt1 V c (n - 1) (by omega)).2.2.1) ∗ owns (c : Thread nD τ) scM1_2 fullShare ((outsAt1 V c (n - 1) (by omega)).2.2.2) ∗ (∃ r, prngReg c r)) := by
  cases n with
  | zero => exact absurd rfl hz
  | succ n => rfl

/-! ## The pipeline's proof data -/

/-- The proof data of region 1 on core c: the arrays as the region finds them; after the body at point t each
    input's buffer at its block and the output's at what the recursion says; the invariant carries the scratch. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 8000000 in
/-- The body at any point: the inputs' staging buffers hold their blocks; the three conditions say which case the point
    is in; the invariant hands the body the scratch at what the point before left (at anything at the first point)
    and takes it back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  by_cases h0 : cond1_0 (grid1.coords t)
  · have h1 := c0_imp_c1 t h0
    have h2 := c0_not_c2 t h0
    rw [Dat.leavesExact_idle (dat1 V c) 3 t (idleAt1_3 t h2) (noFlush1_3 t h2)]
    rw [outsAt1_A V c t h0]
    unfold nextA sout1_A_0 sout1_A_1 sout1_A_2; (try dsimp only)
    by_cases hz : t.val = 0
    · rw [PhiS_castSucc V c t, PhiS_zero V c _ _ hz]
      iintro ⟨HΦ, Ho, ⟨%d0, H0⟩, ⟨%d1, H1⟩, ⟨%d2, H2⟩, ⟨%d3, H3⟩⟩
      ihave HΦ' := (PhiA1_out c) $$ HΦ
      icases HΦ' with ⟨HR, HS0, HS1, HS2, Hg⟩
      iapply ((kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) h0 h1 h2 (iblk1 V c 0 t) (iblk1 V c 1 t) (iblk1 V c 2 t)).2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%es0, HS0⟩, ⟨%es1, HS1⟩, ⟨%es2, HS2⟩⟩
      isplitl [HR HS0 HS1 HS2 Hg]
      · isplitl [HR]; · iexact HR
        isplitl [HS0]
        · unfold owns; iexists _; isplitr
          swap; · iexact HS0
          ipureintro; exact View.read_writes_of_cover _ _ _ _ _ (scover1_A_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) h0 h1 h2 (iblk1 V c 0 t) (iblk1 V c 1 t) (iblk1 V c 2 t))
        isplitl [HS1]
        · unfold owns; iexists _; isplitr
          swap; · iexact HS1
          ipureintro; exact View.read_writes_of_cover _ _ _ _ _ (scover1_A_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) h0 h1 h2 (iblk1 V c 0 t) (iblk1 V c 1 t) (iblk1 V c 2 t))
        isplitl [HS2]
        · unfold owns; iexists _; isplitr
          swap; · iexact HS2
          ipureintro; exact View.read_writes_of_cover _ _ _ _ _ (scover1_A_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) h0 h1 h2 (iblk1 V c 0 t) (iblk1 V c 1 t) (iblk1 V c 2 t))
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨⟨HR, HS0, HS1, HS2, Hg⟩, Ho, ⟨%d0, H0⟩, ⟨%d1, H1⟩, ⟨%d2, H2⟩, ⟨%d3, H3⟩⟩
      iapply ((kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) h0 h1 h2 (iblk1 V c 0 t) (iblk1 V c 1 t) (iblk1 V c 2 t)).2.2.2 _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      isplitl [HS2]; · iexists _; iexact HS2
      iintro ⟨H0, H1, H2, H3, ⟨%es0, HS0⟩, ⟨%es1, HS1⟩, ⟨%es2, HS2⟩⟩
      isplitl [HR HS0 HS1 HS2 Hg]
      · isplitl [HR]; · iexact HR
        isplitl [HS0]
        · unfold owns; iexists _; isplitr
          swap; · iexact HS0
          ipureintro; exact View.read_writes_of_cover _ _ _ _ _ (scover1_A_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) h0 h1 h2 (iblk1 V c 0 t) (iblk1 V c 1 t) (iblk1 V c 2 t))
        isplitl [HS1]
        · unfold owns; iexists _; isplitr
          swap; · iexact HS1
          ipureintro; exact View.read_writes_of_cover _ _ _ _ _ (scover1_A_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) h0 h1 h2 (iblk1 V c 0 t) (iblk1 V c 1 t) (iblk1 V c 2 t))
        isplitl [HS2]
        · unfold owns; iexists _; isplitr
          swap; · iexact HS2
          ipureintro; exact View.read_writes_of_cover _ _ _ _ _ (scover1_A_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) h0 h1 h2 (iblk1 V c 0 t) (iblk1 V c 1 t) (iblk1 V c 2 t))
        iexact Hg
      isplitl [Ho]; · iexact Ho
      isplitl [H0]; · iexact H0
      isplitl [H1]; · iexact H1
      isplitl [H2]; · iexact H2
      iexists _; iexact H3
  · have hz : t.val ≠ 0 := fun hz => h0 (c0_first t hz)
    by_cases h1 : cond1_1 (grid1.coords t)
    · by_cases h2 : cond1_2 (grid1.coords t)
      · rw [show (dat1 V c).leavesExact 3 t = owns (c : Thread nD τ) (ms1_3 t) fullShare ((dat1 V c).after 3 t) from by
          unfold Dat.leavesExact; rw [liveAt1_3 t h2], after1_3]
        rw [outsAt1_D V c t h0 h1 h2]
        unfold nextD out1_D_3 sout1_D_0 sout1_D_1 sout1_D_2; (try dsimp only)
        rw [PhiS_castSucc V c t, PhiS_pos V c _ _ hz]
        iintro ⟨⟨HR, HS0, HS1, HS2, Hg⟩, Ho, ⟨%d0, H0⟩, ⟨%d1, H1⟩, ⟨%d2, H2⟩, ⟨%d3, H3⟩⟩
        iapply ((kernelRun1_D c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) h0 h1 h2 (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2).2.2.2.2 Set.univ _)
        isplitl [H0]; · iexact H0
        isplitl [H1]; · iexact H1
        isplitl [H2]; · iexact H2
        isplitl [H3]; · iexists _; iexact H3
        isplitl [HS0]; · iexact HS0
        isplitl [HS1]; · iexact HS1
        isplitl [HS2]; · iexact HS2
        iintro ⟨H0, H1, H2, ⟨%e3, H3⟩, ⟨%es0, HS0⟩, ⟨%es1, HS1⟩, ⟨%es2, HS2⟩⟩
        isplitl [HR HS0 HS1 HS2 Hg]
        · isplitl [HR]; · iexact HR
          isplitl [HS0]
          · unfold owns; iexists _; isplitr
            swap; · iexact HS0
            ipureintro; exact View.read_writes_of_cover _ _ _ _ _ (scover1_D_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) h0 h1 h2 (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2)
          isplitl [HS1]
          · unfold owns; iexists _; isplitr
            swap; · iexact HS1
            ipureintro; exact View.read_writes_of_cover _ _ _ _ _ (scover1_D_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) h0 h1 h2 (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2)
          isplitl [HS2]
          · unfold owns; iexists _; isplitr
            swap; · iexact HS2
            ipureintro; exact View.read_writes_of_cover _ _ _ _ _ (scover1_D_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) h0 h1 h2 (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2)
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover1_D_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) h0 h1 h2 (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2)
      · rw [Dat.leavesExact_idle (dat1 V c) 3 t (idleAt1_3 t h2) (noFlush1_3 t h2)]
        rw [outsAt1_B V c t h0 h1 h2]
        unfold nextB sout1_B_0 sout1_B_1 sout1_B_2; (try dsimp only)
        rw [PhiS_castSucc V c t, PhiS_pos V c _ _ hz]
        iintro ⟨⟨HR, HS0, HS1, HS2, Hg⟩, Ho, ⟨%d0, H0⟩, ⟨%d1, H1⟩, ⟨%d2, H2⟩, ⟨%d3, H3⟩⟩
        iapply ((kernelRun1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) h0 h1 h2 (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2).2.2.2 _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, ⟨%es0, HS0⟩, ⟨%es1, HS1⟩, ⟨%es2, HS2⟩⟩
        isplitl [HR HS0 HS1 HS2 Hg]
        · isplitl [HR]; · iexact HR
          isplitl [HS0]
          · unfold owns; iexists _; isplitr
            swap; · iexact HS0
            ipureintro; exact View.read_writes_of_cover _ _ _ _ _ (scover1_B_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) h0 h1 h2 (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2)
          isplitl [HS1]
          · unfold owns; iexists _; isplitr
            swap; · iexact HS1
            ipureintro; exact View.read_writes_of_cover _ _ _ _ _ (scover1_B_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) h0 h1 h2 (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2)
          isplitl [HS2]
          · unfold owns; iexists _; isplitr
            swap; · iexact HS2
            ipureintro; exact View.read_writes_of_cover _ _ _ _ _ (scover1_B_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) h0 h1 h2 (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2)
          iexact Hg
        isplitl [Ho]; · iexact Ho
        isplitl [H0]; · iexact H0
        isplitl [H1]; · iexact H1
        isplitl [H2]; · iexact H2
        iexists _; iexact H3
    · by_cases h2 : cond1_2 (grid1.coords t)
      · rw [show (dat1 V c).leavesExact 3 t = owns (c : Thread nD τ) (ms1_3 t) fullShare ((dat1 V c).after 3 t) from by
          unfold Dat.leavesExact; rw [liveAt1_3 t h2], after1_3]
        rw [outsAt1_E V c t h0 h1 h2]
        unfold nextE out1_E_3; (try dsimp only)
        rw [PhiS_castSucc V c t, PhiS_pos V c _ _ hz]
        iintro ⟨⟨HR, HS0, HS1, HS2, Hg⟩, Ho, ⟨%d0, H0⟩, ⟨%d1, H1⟩, ⟨%d2, H2⟩, ⟨%d3, H3⟩⟩
        iapply ((kernelRun1_E c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) h0 h1 h2 (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2).2 Set.univ _)
        isplitl [H0]; · iexact H0
        isplitl [H1]; · iexact H1
        isplitl [H2]; · iexact H2
        isplitl [H3]; · iexists _; iexact H3
        isplitl [HS0]; · iexact HS0
        isplitl [HS1]; · iexact HS1
        isplitl [HS2]; · iexact HS2
        iintro ⟨H0, H1, H2, ⟨%e3, H3⟩, HS0, HS1, HS2⟩
        isplitl [HR HS0 HS1 HS2 Hg]
        · isplitl [HR]; · iexact HR
          isplitl [HS0]; · iexact HS0
          isplitl [HS1]; · iexact HS1
          isplitl [HS2]; · iexact HS2
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover1_E_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) h0 h1 h2 (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2)
      · rw [Dat.leavesExact_idle (dat1 V c) 3 t (idleAt1_3 t h2) (noFlush1_3 t h2)]
        rw [outsAt1_C V c t h0 h1 h2]
        unfold nextC; (try dsimp only)
        rw [PhiS_castSucc V c t, PhiS_pos V c _ _ hz]
        iintro ⟨⟨HR, HS0, HS1, HS2, Hg⟩, Ho, ⟨%d0, H0⟩, ⟨%d1, H1⟩, ⟨%d2, H2⟩, ⟨%d3, H3⟩⟩
        iapply (kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) h0 h1 h2 (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2 _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, HS0, HS1, HS2⟩
        isplitl [HR HS0 HS1 HS2 Hg]
        · isplitl [HR]; · iexact HR
          isplitl [HS0]; · iexact HS0
          isplitl [HS1]; · iexact HS1
          isplitl [HS2]; · iexact HS2
          iexact Hg
        isplitl [Ho]; · iexact Ho
        isplitl [H0]; · iexact H0
        isplitl [H1]; · iexact H1
        isplitl [H2]; · iexact H2
        iexists _; iexact H3

theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point but the first the invariant gives it back: the scratch's named contents are forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht]
  iintro ⟨HR, HS0, HS1, HS2, Hg⟩
  iapply (PhiA1_in c)
  isplitl [HR]; · iexact HR
  isplitl [HS0]; · iexists _; iexact HS0
  isplitl [HS1]; · iexists _; iexact HS1
  isplitl [HS2]; · iexists _; iexact HS2
  iexact Hg

theorem hout1 (c : Dev nD) : (dat1 V c).Φ (Fin.last cfg1.N) ⊢ Pipeline.ΦA spec1 c :=
  Phi_out1 V c _ (by rw [Fin.val_last]; have : cfg1.N = 64 := N_1; omega)

end

end Cert.Kernel.Hand

end
-- ==== Proof.KRun.lean ====
/-
  The whole program's run: the host stretch (three bias reshapes), region 0 (the projections), region 1 (the attention),
  with the contents of every unscoped buffer named at each boundary; at the end every unscoped buffer holds the last
  boundary's contents — the arguments as launched, the result what region 1's write-backs leave.
-/
import proofs.«151727_j7834020348210_2_alg».proof.Proof.KRegion0
import proofs.«151727_j7834020348210_2_alg».proof.Proof.KRegion1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core c's buffers at launch. -/
abbrev W0 : Dev nD → Valuation τ sig (Elt F) := fun c b => m ((c : Dev nD), b)
/-- After the host stretch. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At region 0's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- At region 1's exit. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-- The host stretch writes only the three reshaped biases. -/
theorem W1_of_not_written (c : Dev nD) (b : Ref sig .tc) (hb : b ∉ ([main_v0, main_v1, main_v2] : List (Ref sig .tc))) :
    W1 m c (Proc.devRef .tc b) = W0 m c (Proc.devRef .tc b) :=
  StableHlo.after_of_forall_not_mem (b := Proc.devRef .tc b) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    refine ⟨?_, ?_, ?_⟩
    · exact StableHlo.devRef_ne_of_ne (fun h => hb (by rw [h]; simp))
    · exact StableHlo.devRef_ne_of_ne (fun h => hb (by rw [h]; simp))
    · exact StableHlo.devRef_ne_of_ne (fun h => hb (by rw [h]; simp))))

/-! ### The arguments end as launched -/

theorem W3_main_arg0 (c : Dev nD) : W3 m c (Proc.devRef .tc main_arg0) = m ((c : Thread nD τ).loc main_arg0) :=
  calc W3 m c (Proc.devRef .tc main_arg0)
    _ = W2 m c (Proc.devRef .tc main_arg0) := W3_of_ne m c main_arg0 (by decide)
    _ = W1 m c (Proc.devRef .tc main_arg0) := (W2_arr m c 0).trans (((dat0 (V1 m) c).arrAt_in 0 rfl _).trans (A_eq0 (V1 m) c 0))
    _ = W0 m c (Proc.devRef .tc main_arg0) := W1_of_not_written m c main_arg0 (by decide)
    _ = m ((c : Thread nD τ).loc main_arg0) := rfl

theorem W3_main_arg1 (c : Dev nD) : W3 m c (Proc.devRef .tc main_arg1) = m ((c : Thread nD τ).loc main_arg1) :=
  calc W3 m c (Proc.devRef .tc main_arg1)
    _ = W2 m c (Proc.devRef .tc main_arg1) := W3_of_ne m c main_arg1 (by decide)
    _ = W1 m c (Proc.devRef .tc main_arg1) := (W2_arr m c 1).trans (((dat0 (V1 m) c).arrAt_in 1 rfl _).trans (A_eq0 (V1 m) c 1))
    _ = W0 m c (Proc.devRef .tc main_arg1) := W1_of_not_written m c main_arg1 (by decide)
    _ = m ((c : Thread nD τ).loc main_arg1) := rfl

theorem W3_main_arg2 (c : Dev nD) : W3 m c (Proc.devRef .tc main_arg2) = m ((c : Thread nD τ).loc main_arg2) :=
  calc W3 m c (Proc.devRef .tc main_arg2)
    _ = W2 m c (Proc.devRef .tc main_arg2) := W3_of_ne m c main_arg2 (by decide)
    _ = W1 m c (Proc.devRef .tc main_arg2) := W2_of_ne m c main_arg2 (by decide)
    _ = W0 m c (Proc.devRef .tc main_arg2) := W1_of_not_written m c main_arg2 (by decide)
    _ = m ((c : Thread nD τ).loc main_arg2) := rfl

theorem W3_main_arg3 (c : Dev nD) : W3 m c (Proc.devRef .tc main_arg3) = m ((c : Thread nD τ).loc main_arg3) :=
  calc W3 m c (Proc.devRef .tc main_arg3)
    _ = W2 m c (Proc.devRef .tc main_arg3) := W3_of_ne m c main_arg3 (by decide)
    _ = W1 m c (Proc.devRef .tc main_arg3) := (W2_arr m c 2).trans (((dat0 (V1 m) c).arrAt_in 2 rfl _).trans (A_eq0 (V1 m) c 2))
    _ = W0 m c (Proc.devRef .tc main_arg3) := W1_of_not_written m c main_arg3 (by decide)
    _ = m ((c : Thread nD τ).loc main_arg3) := rfl

theorem W3_main_arg4 (c : Dev nD) : W3 m c (Proc.devRef .tc main_arg4) = m ((c : Thread nD τ).loc main_arg4) :=
  calc W3 m c (Proc.devRef .tc main_arg4)
    _ = W2 m c (Proc.devRef .tc main_arg4) := W3_of_ne m c main_arg4 (by decide)
    _ = W1 m c (Proc.devRef .tc main_arg4) := W2_of_ne m c main_arg4 (by decide)
    _ = W0 m c (Proc.devRef .tc main_arg4) := W1_of_not_written m c main_arg4 (by decide)
    _ = m ((c : Thread nD τ).loc main_arg4) := rfl

theorem W3_main_arg5 (c : Dev nD) : W3 m c (Proc.devRef .tc main_arg5) = m ((c : Thread nD τ).loc main_arg5) :=
  calc W3 m c (Proc.devRef .tc main_arg5)
    _ = W2 m c (Proc.devRef .tc main_arg5) := W3_of_ne m c main_arg5 (by decide)
    _ = W1 m c (Proc.devRef .tc main_arg5) := (W2_arr m c 3).trans (((dat0 (V1 m) c).arrAt_in 3 rfl _).trans (A_eq0 (V1 m) c 3))
    _ = W0 m c (Proc.devRef .tc main_arg5) := W1_of_not_written m c main_arg5 (by decide)
    _ = m ((c : Thread nD τ).loc main_arg5) := rfl

theorem W3_main_arg6 (c : Dev nD) : W3 m c (Proc.devRef .tc main_arg6) = m ((c : Thread nD τ).loc main_arg6) :=
  calc W3 m c (Proc.devRef .tc main_arg6)
    _ = W2 m c (Proc.devRef .tc main_arg6) := W3_of_ne m c main_arg6 (by decide)
    _ = W1 m c (Proc.devRef .tc main_arg6) := W2_of_ne m c main_arg6 (by decide)
    _ = W0 m c (Proc.devRef .tc main_arg6) := W1_of_not_written m c main_arg6 (by decide)
    _ = m ((c : Thread nD τ).loc main_arg6) := rfl

/-- The result buffer ends at what region 1's write-backs leave. -/
theorem W3_main_v4 (c : Dev nD) : W3 m c (Proc.devRef .tc main_v4) = (dat1 (V2 m) c).arrAt 3 cfg1.N := W3_arr m c 3

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_fresh' : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m c) ∗ ∃ r, prngReg c r)

/-! ## The regions as segments -/

set_option backward.isDefEq.respectTransparency.types false in
/-- Region 0 over the thread state: entered from every unscoped buffer at the contents before it, left at the contents
    after it; its arrays split out of the unscoped buffers and put back; the generator register into the invariant
    and out; nothing owed; no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents before it, left at the contents
    after it; its arrays split out of the unscoped buffers and put back; the generator register into the invariant
    and out; nothing owed; no semaphore of the kernel's own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = (dat1 (V2 m) c).Φ (Fin.last cfg1.N) from rfl]
    iintro H
    ihave H' := (hout1 (V2 m) c) $$ H
    unfold Pipeline.ΦA
    icases H' with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .host (hseg hostOps0 hostOps0_sub hostOps0_fresh' (W0 m)),
    .region (reg0 m),
    .region (reg1 m) ]
theorem main_run (c : Dev nD) : main (F := F) c = Pipeline.Seg.run (segs m) := (main_chain c).trans (by chain_rfl)

set_option backward.isDefEq.respectTransparency.types false in
/-- From any memory with zero counters every weakly fair execution of the program terminates, nothing faulting, and
    every final state has every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h => h)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨
    (h c _ (mem_uc main_arg0 (by decide))).trans (W3_main_arg0 m c),
    (h c _ (mem_uc main_arg1 (by decide))).trans (W3_main_arg1 m c),
    (h c _ (mem_uc main_arg2 (by decide))).trans (W3_main_arg2 m c),
    (h c _ (mem_uc main_arg3 (by decide))).trans (W3_main_arg3 m c),
    (h c _ (mem_uc main_arg4 (by decide))).trans (W3_main_arg4 m c),
    (h c _ (mem_uc main_arg5 (by decide))).trans (W3_main_arg5 m c),
    (h c _ (mem_uc main_arg6 (by decide))).trans (W3_main_arg6 m c)⟩) (run_all m ρ)

end Cert.Kernel.Hand

end
-- ==== Proof.KIRegion0.lean ====
/- REGION 0 of @main (custom_call 0, `cc0__qkv_proj_kernel`: three projections q, k, v = x·Wᵀ + b of one row tile of
   the activations), at a PARAMETER `V` — the TensorCore's buffer contents when the region is entered —: each window's
   block at a grid point (`iblk0`), what the body leaves in each output window's staging buffer as a function of the
   input windows' blocks (`out0_7`, `out0_8`, `out0_9`: one whole-buffer store each), the body's triple
   (`sound_kernel0`), the pipeline's proof data (`dat0`) and the body obligation at every grid point
   (`body_obligation0`). Stated at any float model `F`. -/
import proofs.«151727_j7834020348210_2_alg».proof.Proof.Gen.KernelIdeal.Launch
import proofs.«151727_j7834020348210_2_alg».proof.Proof.Gen.KernelIdeal.Skeleton
import proofs.«151727_j7834020348210_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of the tile's extents: the elaborator's structural look recurses once per coordinate
-- of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 (the activations' row tile): its current staging buffer holds its block at every point, fetched there or
    not, for ANY proof data whose array is `V`'s (`hA`) and whose body leaves the block in place (`hafter`): where the
    pipeline does not fetch, the block index has not moved; the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (the first weight matrix): its current staging buffer holds its block at every point, fetched there or
    not, for ANY proof data whose array is `V`'s (`hA`) and whose body leaves the block in place (`hafter`): where the
    pipeline does not fetch, the block index has not moved; the window is uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2 (the second weight matrix): its current staging buffer holds its block at every point, fetched there or
    not, for ANY proof data whose array is `V`'s (`hA`) and whose body leaves the block in place (`hafter`): where the
    pipeline does not fetch, the block index has not moved; the window is uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3 (the third weight matrix): its current staging buffer holds its block at every point, fetched there or
    not, for ANY proof data whose array is `V`'s (`hA`) and whose body leaves the block in place (`hafter`): where the
    pipeline does not fetch, the block index has not moved; the window is uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4 (the first bias row): its current staging buffer holds its block at every point, fetched there or
    not, for ANY proof data whose array is `V`'s (`hA`) and whose body leaves the block in place (`hafter`): where the
    pipeline does not fetch, the block index has not moved; the window is uncut and never idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5 (the second bias row): its current staging buffer holds its block at every point, fetched there or
    not, for ANY proof data whose array is `V`'s (`hA`) and whose body leaves the block in place (`hafter`): where the
    pipeline does not fetch, the block index has not moved; the window is uncut and never idle. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6 (the third bias row): its current staging buffer holds its block at every point, fetched there or
    not, for ANY proof data whose array is `V`'s (`hA`) and whose body leaves the block in place (`hafter`): where the
    pipeline does not fetch, the block index has not moved; the window is uncut and never idle. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and every store is of a whole staging buffer -/

abbrev r0_0 : Rect S1x1024x256 := Rect.unit (s := S1x1024x256) ![0, 0, 0] S1x1024x256.size inb_S1x1024x256_S1x1024x256_0_0_0
abbrev r0_1 : Rect S256x256 := Rect.unit (s := S256x256) ![0, 0] S256x256.size inb_S256x256_S256x256_0_0
abbrev r0_2 : Rect S1x256 := Rect.unit (s := S1x256) ![0, 0] S1x256.size inb_S1x256_S1x256_0_0

/-! ## What the body leaves in each output window's buffer -/

/-- Window 7's staging buffer after the body, from the input windows' blocks: its one store, of the whole buffer —
    the first projection of the row tile (first weight matrix, first bias row). -/
def out0_7 (x0 : Vec F S1x1024x256 .f32) (x1 : Vec F S256x256 .f32) (x2 : Vec F S256x256 .f32) (x3 : Vec F S256x256 .f32) (x4 : Vec F S1x256 .f32) (x5 : Vec F S1x256 .f32) (x6 : Vec F S1x256 .f32) : Vec F S1x1024x256 .bf16 :=
  View.canon [⟨r0_0, k0_pay4 (View.ld x0 r0_0) (View.ld x1 r0_1) (View.ld x4 r0_2)⟩]

/-- The one store is of the whole buffer, so it covers it. -/
theorem cover0_7 (p0 : Vec F S1x1024x256 .bf16) (y : S1x1024x256.Idx) :
    ∃ pc ∈ ([⟨r0_0, p0⟩] : List (View.Piece (Elt F) S1x1024x256 .bf16)), y ∈ pc.1.set :=
  View.cover_of_tiled [⟨r0_0, p0⟩] S1x1024x256.size (by rfl) y

/-- Window 8's staging buffer after the body, from the input windows' blocks: its one store, of the whole buffer —
    the second projection (second weight matrix, second bias row). -/
def out0_8 (x0 : Vec F S1x1024x256 .f32) (x1 : Vec F S256x256 .f32) (x2 : Vec F S256x256 .f32) (x3 : Vec F S256x256 .f32) (x4 : Vec F S1x256 .f32) (x5 : Vec F S1x256 .f32) (x6 : Vec F S1x256 .f32) : Vec F S1x1024x256 .bf16 :=
  View.canon [⟨r0_0, k0_pay5 (View.ld x0 r0_0) (View.ld x2 r0_1) (View.ld x5 r0_2)⟩]

/-- The one store is of the whole buffer, so it covers it. -/
theorem cover0_8 (p0 : Vec F S1x1024x256 .bf16) (y : S1x1024x256.Idx) :
    ∃ pc ∈ ([⟨r0_0, p0⟩] : List (View.Piece (Elt F) S1x1024x256 .bf16)), y ∈ pc.1.set :=
  View.cover_of_tiled [⟨r0_0, p0⟩] S1x1024x256.size (by rfl) y

/-- Window 9's staging buffer after the body, from the input windows' blocks: its one store, of the whole buffer —
    the third projection (third weight matrix, third bias row). -/
def out0_9 (x0 : Vec F S1x1024x256 .f32) (x1 : Vec F S256x256 .f32) (x2 : Vec F S256x256 .f32) (x3 : Vec F S256x256 .f32) (x4 : Vec F S1x256 .f32) (x5 : Vec F S1x256 .f32) (x6 : Vec F S1x256 .f32) : Vec F S1x1024x256 .bf16 :=
  View.canon [⟨r0_0, k0_pay1 (k0_pay3 (View.ld x0 r0_0) (View.ld x3 r0_1) (View.ld x6 r0_2))⟩]

/-- The one store is of the whole buffer, so it covers it. -/
theorem cover0_9 (p0 : Vec F S1x1024x256 .bf16) (y : S1x1024x256.Idx) :
    ∃ pc ∈ ([⟨r0_0, p0⟩] : List (View.Piece (Elt F) S1x1024x256 .bf16)), y ∈ pc.1.set :=
  View.cover_of_tiled [⟨r0_0, p0⟩] S1x1024x256.size (by rfl) y

/-! ## The body's triple -/

set_option maxHeartbeats 1000000 in
/-- The kernel body on whole staging memrefs, the inputs' at read contents `xW` and the outputs' at anything, runs to
    the continuation holding the inputs' as they were and each output's at `out0_W` of the inputs'. (The body loads each
    output buffer before storing it; the loaded value is not used.) -/
theorem sound_kernel0 (c : Dev nD) (E : Set ℕ) (i : grid0.Coords) (arg2 : Memref sig .tc .vmem S1x1024x256 .f32) (harg2 : arg2.IsWhole) (arg3 : Memref sig .tc .vmem S256x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x1024x256 .bf16) (harg9 : arg9.IsWhole) (arg10 : Memref sig .tc .vmem S1x1024x256 .bf16) (harg10 : arg10.IsWhole) (arg11 : Memref sig .tc .vmem S1x1024x256 .bf16) (harg11 : arg11.IsWhole)
    (x0 : Vec F S1x1024x256 .f32) (x1 : Vec F S256x256 .f32) (x2 : Vec F S256x256 .f32) (x3 : Vec F S256x256 .f32) (x4 : Vec F S1x256 .f32) (x5 : Vec F S1x256 .f32) (x6 : Vec F S1x256 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (out0_7 x0 x1 x2 x3 x4 x5 x6) ∗ owns (c : Thread nD τ) arg10 fullShare (out0_8 x0 x1 x2 x3 x4 x5 x6) ∗ owns (c : Thread nD τ) arg11 fullShare (out0_9 x0 x1 x2 x3 x4 x5 x6)) -∗ K ⟨⟩))
      ⊢ wp frame (wpE (defs₀ (F := F)) Variants.none c none) E (cc0__qkv_proj_kernel i arg2 harg2 arg3 harg3 arg4 harg4 arg5 harg5 arg6 harg6 arg7 harg7 arg8 harg8 arg9 harg9 arg10 harg10 arg11 harg11) K := by
  simp only [cc0__qkv_proj_kernel_eq_skeleton]; unfold cc0__qkv_proj_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    try dsimp only
    exact View.read_writes_eq_canon _ _ _ (cover0_7 _)
  isplitl [H8]
  · iexists _; isplitr
    swap; · iexact H8
    ipureintro
    try dsimp only
    exact View.read_writes_eq_canon _ _ _ (cover0_8 _)
  iexists _; isplitr
  swap; · iexact H9
  ipureintro
  try dsimp only
  exact View.read_writes_eq_canon _ _ _ (cover0_9 _)

/-! ## The pipeline's proof data -/

/-- The proof data of pipeline 0 on core `c`: the arrays as the region finds them (`V`); after the body at
    point `t` each input's buffer at its block and each output's at `out0_W` of the input blocks; the invariant:
    the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t) (iblk0 V c 3 t) (iblk0 V c 4 t) (iblk0 V c 5 t) (iblk0 V c 6 t)
    | ⟨8, _⟩ => out0_8 (iblk0 V c 0 t) (iblk0 V c 1 t) (iblk0 V c 2 t) (iblk0 V c 3 t) (iblk0 V c 4 t) (iblk0 V c 5 t) (iblk0 V c 6 t)
    | ⟨9, _⟩ => out0_9 (iblk0 V c 0 t) (iblk0 V c 1 t) (iblk0 V c 2 t) (iblk0 V c 3 t) (iblk0 V c 4 t) (iblk0 V c 5 t) (iblk0 V c 6 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = out0_7 (iblk0 V c 0 t) (iblk0 V c 1 t) (iblk0 V c 2 t) (iblk0 V c 3 t) (iblk0 V c 4 t) (iblk0 V c 5 t) (iblk0 V c 6 t) := by dsimp only [dat0]
theorem after0_8 (c : Dev nD) (t : Fin cfg0.N) : (dat0 V c).after 8 t = out0_8 (iblk0 V c 0 t) (iblk0 V c 1 t) (iblk0 V c 2 t) (iblk0 V c 3 t) (iblk0 V c 4 t) (iblk0 V c 5 t) (iblk0 V c 6 t) := by dsimp only [dat0]
theorem after0_9 (c : Dev nD) (t : Fin cfg0.N) : (dat0 V c).after 9 t = out0_9 (iblk0 V c 0 t) (iblk0 V c 1 t) (iblk0 V c 2 t) (iblk0 V c 3 t) (iblk0 V c 4 t) (iblk0 V c 5 t) (iblk0 V c 6 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-! ## The body obligation, at a generic point -/

/-- What the body is called with at point `t` (the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

set_option maxHeartbeats 1000000 in
/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ (grid0.coords t) _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KIRegion1Runs.lean ====
/-
  Region 1 (the causal attention kernel over key/value tiles): what its per-case runs share.
  A grid point is (batch b, query tile qi, key tile ki). The body has three conditionals on the point:
  ki = 0 (reset the running maximum, the running sum and the accumulator), ki ≤ qi (fold one key/value tile
  into them) and ki = 3 (divide the accumulator by the sum and store the output block). The three scratch buffers
  carry the running state from one point to the next; the output block is written only where ki = 3.
-/
import proofs.«151727_j7834020348210_2_alg».proof.Proof.Gen.KernelIdeal.Launch
import proofs.«151727_j7834020348210_2_alg».proof.Proof.Gen.KernelIdeal.Skeleton
import proofs.«151727_j7834020348210_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section
variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end

/-! ## The body's branch conditions, from the grid coordinates -/

/-- ki = 0. -/
abbrev cond1_0 (i : grid1.Coords) : Prop := (Scalar.cmpi .ne (Scalar.extui (Scalar.cmpi .eq (BitVec.ofNat 32 (i 2).val) 0#32)) 0#32) = 1#1
/-- ki ≤ qi. -/
abbrev cond1_1 (i : grid1.Coords) : Prop := (Scalar.cmpi .ne (Scalar.extui (Scalar.cmpi .sle (BitVec.ofNat 32 (i 2).val) (BitVec.ofNat 32 (i 1).val))) 0#32) = 1#1
/-- ki = 3. -/
abbrev cond1_2 (i : grid1.Coords) : Prop := k1_cond3 i = 1#1

/-- The key tile 0 is at or below every query tile. -/
theorem c0_imp_c1 : ∀ t : Fin cfg1.N, cond1_0 (grid1.coords t) → cond1_1 (grid1.coords t) :=
  (by decide +kernel : ∀ t : Fin grid1.N, cond1_0 (grid1.coords t) → cond1_1 (grid1.coords t))
/-- The first key tile is not the last. -/
theorem c0_not_c2 : ∀ t : Fin cfg1.N, cond1_0 (grid1.coords t) → ¬cond1_2 (grid1.coords t) :=
  (by decide +kernel : ∀ t : Fin grid1.N, cond1_0 (grid1.coords t) → ¬cond1_2 (grid1.coords t))
/-- The grid's first point has ki = 0. -/
theorem c0_first : ∀ t : Fin cfg1.N, t.val = 0 → cond1_0 (grid1.coords t) :=
  (by decide +kernel : ∀ t : Fin grid1.N, t.val = 0 → cond1_0 (grid1.coords t))

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Where ki ≠ 3 the body stores nothing into the output block, -/
theorem idleAt1_3 : ∀ t : Fin cfg1.N, ¬cond1_2 (grid1.coords t) → cfg1.idle 3 (grid1.coords t) = true := by decide +kernel
/-- and the block is not written back there. -/
theorem noFlush1_3 : ∀ t : Fin cfg1.N, ¬cond1_2 (grid1.coords t) → (cfg1.win 3).flush t = false := by decide +kernel
/-- Where ki = 3 it stores the block. -/
theorem liveAt1_3 : ∀ t : Fin cfg1.N, cond1_2 (grid1.coords t) → cfg1.idle 3 (grid1.coords t) = false := by decide +kernel

/-! ## The memrefs the body is called with -/

abbrev VO1_3 : View sig .tc .vmem S1x1024x256 .f32 := (Memref.whole cc1_stg3_0 : Memref sig .tc .vmem S1x1024x256 .f32).view
abbrev ms1_0 (t : Fin cfg1.N) : Memref sig .tc .vmem S1x1024x256 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1024x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024x256 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024x256 .f32 := win1_3.stage (cfg1.slots t 3)
abbrev hs1_3 (t : Fin cfg1.N) : (ms1_3 t).IsWhole := hstage1_3 ((cfg1.slots t 3).cast nbuf1_3)
/-- The scratch operands: the running row maxima, the running row sums, the accumulator. -/
abbrev scM1_0 : Memref sig .tc .vmem S1024x1 .f32 := Memref.whole cc1_scratch0
abbrev scM1_1 : Memref sig .tc .vmem S1024x1 .f32 := Memref.whole cc1_scratch1
abbrev scM1_2 : Memref sig .tc .vmem S1024x256 .f32 := Memref.whole cc1_scratch2
abbrev VS1_0 : View sig .tc .vmem S1024x1 .f32 := scM1_0.view
abbrev VS1_1 : View sig .tc .vmem S1024x1 .f32 := scM1_1.view
abbrev VS1_2 : View sig .tc .vmem S1024x256 .f32 := scM1_2.view

/-- The scoped buffers of the core that are neither this region's staging buffers nor its scratch (the other region's
    staging buffers), each whole at some contents. -/
def Rst1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f))

/-- The region's invariant before anything is known of the scratch gives the other scoped buffers, the three scratch
    buffers at some contents and the generator register at some state, -/
theorem PhiA1_out (c : Dev nD) :
    (Pipeline.ΦA spec1 c : sProp 𝕄)
      ⊢ iprop(Rst1 c ∗ (∃ d, owns (c : Thread nD τ) scM1_0 fullShare d) ∗ (∃ d, owns (c : Thread nD τ) scM1_1 fullShare d) ∗ (∃ d, owns (c : Thread nD τ) scM1_2 fullShare d) ∗ (∃ r, prngReg c r)) := by
  unfold Pipeline.ΦA Rst1; rw [scopedRest1_eq]; simp only [scM1_0, scM1_1, scM1_2, owns_whole]
  iintro ⟨⟨H1, H2, H3, H4, H5, H6, H7, H8, H9, H10, H11, H12, H13, H14, HS0, HS1, HS2⟩, Hg⟩
  isplitl [H1 H2 H3 H4 H5 H6 H7 H8 H9 H10 H11 H12 H13 H14]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14
  isplitl [HS0]; · iexact HS0
  isplitl [HS1]; · iexact HS1
  isplitl [HS2]; · iexact HS2
  iexact Hg

/-- and is made of them. -/
theorem PhiA1_in (c : Dev nD) :
    iprop(Rst1 c ∗ (∃ d, owns (c : Thread nD τ) scM1_0 fullShare d) ∗ (∃ d, owns (c : Thread nD τ) scM1_1 fullShare d) ∗ (∃ d, owns (c : Thread nD τ) scM1_2 fullShare d) ∗ (∃ r, prngReg c r))
      ⊢ (Pipeline.ΦA spec1 c : sProp 𝕄) := by
  unfold Pipeline.ΦA Rst1; rw [scopedRest1_eq]; simp only [scM1_0, scM1_1, scM1_2, owns_whole]
  iintro ⟨⟨H1, H2, H3, H4, H5, H6, H7, H8, H9, H10, H11, H12, H13, H14⟩, HS0, HS1, HS2, Hg⟩
  isplitr [Hg]
  swap; · iexact Hg
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [HS0]; · iexact HS0
  isplitl [HS1]; · iexact HS1
  iexact HS2

end Cert.KernelIdeal.Hand

end
-- ==== Proof.KIRegion1RunA.lean ====
/-
  Region 1, the body's run at the points of case A.
-/
import proofs.«151727_j7834020348210_2_alg».proof.Proof.KIRegion1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The body at a point of case A (ki = 0 holds, ki ≤ qi holds, ki = 3 fails): on whole staging and scratch memrefs the
    body runs to its return, handing back the inputs as they were, the output block untouched and each scratch buffer with its pieces written (the pieces are what the run finds). -/
noncomputable def kernelRun1_A (c : Dev nD) (i : grid1.Coords) (arg3 : Memref sig .tc .vmem S1x1024x256 .bf16) (harg3 : arg3.IsWhole) (arg4 : Memref sig .tc .vmem S1x1024x256 .bf16) (harg4 : arg4.IsWhole) (arg5 : Memref sig .tc .vmem S1x1024x256 .bf16) (harg5 : arg5.IsWhole) (arg6 : Memref sig .tc .vmem S1x1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : cond1_0 i) (hc1 : cond1_1 i) (hc2 : ¬cond1_2 i)
    (x0 x1 x2 : Vec F S1x1024x256 .bf16) :
    Σ' (LS0 : List (View.Piece (Elt F) S1024x1 .f32)) (LS1 : List (View.Piece (Elt F) S1024x1 .f32)), { LS2 : List (View.Piece (Elt F) S1024x256 .f32) //
      ∀ (xi3 : Vec F S1x1024x256 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__flash_causal_kernel i arg3 harg3 arg4 harg4 arg5 harg5 arg6 harg6 arg7 harg7 arg8 harg8 arg9 harg9) K } := by
  refine ⟨?_, ?_, ?_, fun xi3 E K => ?run⟩
  case run =>
    simp only [cc1__flash_causal_kernel_eq_skeleton]; unfold cc1__flash_causal_kernel_skel
    simp only [k1_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]
    · iexists _; iexact HS0
    isplitl [HS1]
    · iexists _; iexact HS1
    iexists _; iexact HS2

end Cert.KernelIdeal.Hand

end
-- ==== Proof.KIRegion1RunB.lean ====
/-
  Region 1, the body's run at the points of case B.
-/
import proofs.«151727_j7834020348210_2_alg».proof.Proof.KIRegion1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The body at a point of case B (ki = 0 fails, ki ≤ qi holds, ki = 3 fails): on whole staging and scratch memrefs the
    body runs to its return, handing back the inputs as they were, the output block untouched and each scratch buffer with its pieces written (the pieces are what the run finds). -/
noncomputable def kernelRun1_B (c : Dev nD) (i : grid1.Coords) (arg3 : Memref sig .tc .vmem S1x1024x256 .bf16) (harg3 : arg3.IsWhole) (arg4 : Memref sig .tc .vmem S1x1024x256 .bf16) (harg4 : arg4.IsWhole) (arg5 : Memref sig .tc .vmem S1x1024x256 .bf16) (harg5 : arg5.IsWhole) (arg6 : Memref sig .tc .vmem S1x1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : cond1_1 i) (hc2 : ¬cond1_2 i)
    (x0 x1 x2 : Vec F S1x1024x256 .bf16) (xs0 xs1 : Vec F S1024x1 .f32) (xs2 : Vec F S1024x256 .f32) :
    Σ' (LS0 : List (View.Piece (Elt F) S1024x1 .f32)) (LS1 : List (View.Piece (Elt F) S1024x1 .f32)), { LS2 : List (View.Piece (Elt F) S1024x256 .f32) //
      ∀ (xi3 : Vec F S1x1024x256 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__flash_causal_kernel i arg3 harg3 arg4 harg4 arg5 harg5 arg6 harg6 arg7 harg7 arg8 harg8 arg9 harg9) K } := by
  refine ⟨?_, ?_, ?_, fun xi3 E K => ?run⟩
  case run =>
    simp only [cc1__flash_causal_kernel_eq_skeleton]; unfold cc1__flash_causal_kernel_skel
    simp only [k1_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3; obtain rfl := harg7.eq_unread hfs0; obtain rfl := harg8.eq_unread hfs1; obtain rfl := harg9.eq_unread hfs2
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]
    · iexists _; iexact HS0
    isplitl [HS1]
    · iexists _; iexact HS1
    iexists _; iexact HS2

end Cert.KernelIdeal.Hand

end
-- ==== Proof.KIRegion1RunC.lean ====
/-
  Region 1, the body's run at the points of case C.
-/
import proofs.«151727_j7834020348210_2_alg».proof.Proof.KIRegion1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The body at a point of case C (ki = 0 fails, ki ≤ qi fails, ki = 3 fails): on whole staging and scratch memrefs the
    body runs to its return, handing back the inputs as they were, the output block untouched and the scratch buffers as they were. -/
theorem kernelRun1_C (c : Dev nD) (i : grid1.Coords) (arg3 : Memref sig .tc .vmem S1x1024x256 .bf16) (harg3 : arg3.IsWhole) (arg4 : Memref sig .tc .vmem S1x1024x256 .bf16) (harg4 : arg4.IsWhole) (arg5 : Memref sig .tc .vmem S1x1024x256 .bf16) (harg5 : arg5.IsWhole) (arg6 : Memref sig .tc .vmem S1x1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : ¬cond1_1 i) (hc2 : ¬cond1_2 i)
    (x0 x1 x2 : Vec F S1x1024x256 .bf16) (xs0 xs1 : Vec F S1024x1 .f32) (xs2 : Vec F S1024x256 .f32) :
    ∀ (xi3 : Vec F S1x1024x256 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0 ∗ owns (c : Thread nD τ) arg8 fullShare xs1 ∗ owns (c : Thread nD τ) arg9 fullShare xs2) -∗ K ⟨⟩))
          ⊢ wp frame (wpE (defs₀ (F := F)) Variants.none c none) E (cc1__flash_causal_kernel i arg3 harg3 arg4 harg4 arg5 harg5 arg6 harg6 arg7 harg7 arg8 harg8 arg9 harg9) K := by
  intro xi3 E K
  simp only [cc1__flash_causal_kernel_eq_skeleton]; unfold cc1__flash_causal_kernel_skel
  simp only [k1_part1_eq_skeleton]
  unfold owns
  iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
  obtain rfl := harg3.eq_unread hf0; obtain rfl := harg4.eq_unread hf1; obtain rfl := harg5.eq_unread hf2; obtain rfl := harg6.eq_unread hf3; obtain rfl := harg7.eq_unread hfs0; obtain rfl := harg8.eq_unread hfs1; obtain rfl := harg9.eq_unread hfs2
  sl_exec (disch := first | exact hc0 | exact hc1 | exact hc2)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [HS0]
  · iexists _; isplitr; · ipureintro; exact harg7.read_unread _
    iexact HS0
  isplitl [HS1]
  · iexists _; isplitr; · ipureintro; exact harg8.read_unread _
    iexact HS1
  iexists _; isplitr; · ipureintro; exact harg9.read_unread _
  iexact HS2

end Cert.KernelIdeal.Hand

end
-- ==== Proof.KIRegion1RunD.lean ====
/-
  Region 1, the body's run at the points of case D.
-/
import proofs.«151727_j7834020348210_2_alg».proof.Proof.KIRegion1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The body at a point of case D (ki = 0 fails, ki ≤ qi holds, ki = 3 holds): on whole staging and scratch memrefs the
    body runs to its return, handing back the inputs as they were, the output block with its pieces written and each scratch buffer with its pieces written (the pieces are what the run finds). -/
noncomputable def kernelRun1_D (c : Dev nD) (i : grid1.Coords) (arg3 : Memref sig .tc .vmem S1x1024x256 .bf16) (harg3 : arg3.IsWhole) (arg4 : Memref sig .tc .vmem S1x1024x256 .bf16) (harg4 : arg4.IsWhole) (arg5 : Memref sig .tc .vmem S1x1024x256 .bf16) (harg5 : arg5.IsWhole) (arg6 : Memref sig .tc .vmem S1x1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : cond1_1 i) (hc2 : cond1_2 i)
    (x0 x1 x2 : Vec F S1x1024x256 .bf16) (xs0 xs1 : Vec F S1024x1 .f32) (xs2 : Vec F S1024x256 .f32) :
    Σ' (LS0 : List (View.Piece (Elt F) S1024x1 .f32)) (LS1 : List (View.Piece (Elt F) S1024x1 .f32)) (LS2 : List (View.Piece (Elt F) S1024x256 .f32)), { L3 : List (View.Piece (Elt F) S1x1024x256 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__flash_causal_kernel i arg3 harg3 arg4 harg4 arg5 harg5 arg6 harg6 arg7 harg7 arg8 harg8 arg9 harg9) K } := by
  refine ⟨?_, ?_, ?_, ?_, fun E K => ?run⟩
  case run =>
    simp only [cc1__flash_causal_kernel_eq_skeleton]; unfold cc1__flash_causal_kernel_skel
    simp only [k1_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg7.eq_unread hfs0; obtain rfl := harg8.eq_unread hfs1; obtain rfl := harg9.eq_unread hfs2
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; iexact H3
    isplitl [HS0]
    · iexists _; iexact HS0
    isplitl [HS1]
    · iexists _; iexact HS1
    iexists _; iexact HS2

end Cert.KernelIdeal.Hand

end
-- ==== Proof.KIRegion1RunE.lean ====
/-
  Region 1, the body's run at the points of case E.
-/
import proofs.«151727_j7834020348210_2_alg».proof.Proof.KIRegion1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The body at a point of case E (ki = 0 fails, ki ≤ qi fails, ki = 3 holds): on whole staging and scratch memrefs the
    body runs to its return, handing back the inputs as they were, the output block with its pieces written and the scratch buffers as they were. -/
noncomputable def kernelRun1_E (c : Dev nD) (i : grid1.Coords) (arg3 : Memref sig .tc .vmem S1x1024x256 .bf16) (harg3 : arg3.IsWhole) (arg4 : Memref sig .tc .vmem S1x1024x256 .bf16) (harg4 : arg4.IsWhole) (arg5 : Memref sig .tc .vmem S1x1024x256 .bf16) (harg5 : arg5.IsWhole) (arg6 : Memref sig .tc .vmem S1x1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : ¬cond1_1 i) (hc2 : cond1_2 i)
    (x0 x1 x2 : Vec F S1x1024x256 .bf16) (xs0 xs1 : Vec F S1024x1 .f32) (xs2 : Vec F S1024x256 .f32) :
    { L3 : List (View.Piece (Elt F) S1x1024x256 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ owns (c : Thread nD τ) arg7 fullShare xs0 ∗ owns (c : Thread nD τ) arg8 fullShare xs1 ∗ owns (c : Thread nD τ) arg9 fullShare xs2) -∗ K ⟨⟩))
          ⊢ wp frame (wpE (defs₀ (F := F)) Variants.none c none) E (cc1__flash_causal_kernel i arg3 harg3 arg4 harg4 arg5 harg5 arg6 harg6 arg7 harg7 arg8 harg8 arg9 harg9) K } := by
  refine ⟨?_, fun E K => ?run⟩
  case run =>
    simp only [cc1__flash_causal_kernel_eq_skeleton]; unfold cc1__flash_causal_kernel_skel
    simp only [k1_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg7.eq_unread hfs0; obtain rfl := harg8.eq_unread hfs1; obtain rfl := harg9.eq_unread hfs2
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; iexact H3
    isplitl [HS0]
    · iexists _; isplitr; · ipureintro; exact harg7.read_unread _
      iexact HS0
    isplitl [HS1]
    · iexists _; isplitr; · ipureintro; exact harg8.read_unread _
      iexact HS1
    iexists _; isplitr; · ipureintro; exact harg9.read_unread _
    iexact HS2

end Cert.KernelIdeal.Hand

end
-- ==== Proof.KIRegion1Cases.lean ====
/-
  Region 1: what each case of the body leaves in the three scratch buffers and in the output block, read back from the
  pieces its run found.
-/
import proofs.«151727_j7834020348210_2_alg».proof.Proof.KIRegion1RunA
import proofs.«151727_j7834020348210_2_alg».proof.Proof.KIRegion1RunB
import proofs.«151727_j7834020348210_2_alg».proof.Proof.KIRegion1RunC
import proofs.«151727_j7834020348210_2_alg».proof.Proof.KIRegion1RunD
import proofs.«151727_j7834020348210_2_alg».proof.Proof.KIRegion1RunE

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- Case A's pieces for scratch 0 cover it. -/
theorem scover1_A_0 (c : Dev nD) (i : grid1.Coords) (arg3 : Memref sig .tc .vmem S1x1024x256 .bf16) (harg3 : arg3.IsWhole) (arg4 : Memref sig .tc .vmem S1x1024x256 .bf16) (harg4 : arg4.IsWhole) (arg5 : Memref sig .tc .vmem S1x1024x256 .bf16) (harg5 : arg5.IsWhole) (arg6 : Memref sig .tc .vmem S1x1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : cond1_0 i) (hc1 : cond1_1 i) (hc2 : ¬cond1_2 i) (x0 x1 x2 : Vec F S1x1024x256 .bf16) (y : S1024x1.Idx) :
    ∃ pc ∈ (kernelRun1_A c i arg3 harg3 arg4 harg4 arg5 harg5 arg6 harg6 arg7 harg7 arg8 harg8 arg9 harg9 hc0 hc1 hc2 x0 x1 x2).1, y ∈ pc.1.set :=
  View.cover_of_tiledL (kernelRun1_A c i arg3 harg3 arg4 harg4 arg5 harg5 arg6 harg6 arg7 harg7 arg8 harg8 arg9 harg9 hc0 hc1 hc2 x0 x1 x2).1 S1024x1.size (by sl_kernel_rfl) y
/-- What case A leaves in scratch 0: its pieces read back. -/
def sout1_A_0 (c : Dev nD) (i : grid1.Coords) (arg3 : Memref sig .tc .vmem S1x1024x256 .bf16) (harg3 : arg3.IsWhole) (arg4 : Memref sig .tc .vmem S1x1024x256 .bf16) (harg4 : arg4.IsWhole) (arg5 : Memref sig .tc .vmem S1x1024x256 .bf16) (harg5 : arg5.IsWhole) (arg6 : Memref sig .tc .vmem S1x1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : cond1_0 i) (hc1 : cond1_1 i) (hc2 : ¬cond1_2 i) (x0 x1 x2 : Vec F S1x1024x256 .bf16) : Vec F S1024x1 .f32 :=
  VS1_0.read (Elt F) (VS1_0.writes (Elt F) VS1_0.junk (kernelRun1_A c i arg3 harg3 arg4 harg4 arg5 harg5 arg6 harg6 arg7 harg7 arg8 harg8 arg9 harg9 hc0 hc1 hc2 x0 x1 x2).1)
/-- Case A's pieces for scratch 1 cover it. -/
theorem scover1_A_1 (c : Dev nD) (i : grid1.Coords) (arg3 : Memref sig .tc .vmem S1x1024x256 .bf16) (harg3 : arg3.IsWhole) (arg4 : Memref sig .tc .vmem S1x1024x256 .bf16) (harg4 : arg4.IsWhole) (arg5 : Memref sig .tc .vmem S1x1024x256 .bf16) (harg5 : arg5.IsWhole) (arg6 : Memref sig .tc .vmem S1x1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : cond1_0 i) (hc1 : cond1_1 i) (hc2 : ¬cond1_2 i) (x0 x1 x2 : Vec F S1x1024x256 .bf16) (y : S1024x1.Idx) :
    ∃ pc ∈ (kernelRun1_A c i arg3 harg3 arg4 harg4 arg5 harg5 arg6 harg6 arg7 harg7 arg8 harg8 arg9 harg9 hc0 hc1 hc2 x0 x1 x2).2.1, y ∈ pc.1.set :=
  View.cover_of_tiledL (kernelRun1_A c i arg3 harg3 arg4 harg4 arg5 harg5 arg6 harg6 arg7 harg7 arg8 harg8 arg9 harg9 hc0 hc1 hc2 x0 x1 x2).2.1 S1024x1.size (by sl_kernel_rfl) y
/-- What case A leaves in scratch 1: its pieces read back. -/
def sout1_A_1 (c : Dev nD) (i : grid1.Coords) (arg3 : Memref sig .tc .vmem S1x1024x256 .bf16) (harg3 : arg3.IsWhole) (arg4 : Memref sig .tc .vmem S1x1024x256 .bf16) (harg4 : arg4.IsWhole) (arg5 : Memref sig .tc .vmem S1x1024x256 .bf16) (harg5 : arg5.IsWhole) (arg6 : Memref sig .tc .vmem S1x1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : cond1_0 i) (hc1 : cond1_1 i) (hc2 : ¬cond1_2 i) (x0 x1 x2 : Vec F S1x1024x256 .bf16) : Vec F S1024x1 .f32 :=
  VS1_1.read (Elt F) (VS1_1.writes (Elt F) VS1_1.junk (kernelRun1_A c i arg3 harg3 arg4 harg4 arg5 harg5 arg6 harg6 arg7 harg7 arg8 harg8 arg9 harg9 hc0 hc1 hc2 x0 x1 x2).2.1)
/-- Case A's pieces for scratch 2 cover it. -/
theorem scover1_A_2 (c : Dev nD) (i : grid1.Coords) (arg3 : Memref sig .tc .vmem S1x1024x256 .bf16) (harg3 : arg3.IsWhole) (arg4 : Memref sig .tc .vmem S1x1024x256 .bf16) (harg4 : arg4.IsWhole) (arg5 : Memref sig .tc .vmem S1x1024x256 .bf16) (harg5 : arg5.IsWhole) (arg6 : Memref sig .tc .vmem S1x1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : cond1_0 i) (hc1 : cond1_1 i) (hc2 : ¬cond1_2 i) (x0 x1 x2 : Vec F S1x1024x256 .bf16) (y : S1024x256.Idx) :
    ∃ pc ∈ (kernelRun1_A c i arg3 harg3 arg4 harg4 arg5 harg5 arg6 harg6 arg7 harg7 arg8 harg8 arg9 harg9 hc0 hc1 hc2 x0 x1 x2).2.2.1, y ∈ pc.1.set :=
  View.cover_of_tiledL (kernelRun1_A c i arg3 harg3 arg4 harg4 arg5 harg5 arg6 harg6 arg7 harg7 arg8 harg8 arg9 harg9 hc0 hc1 hc2 x0 x1 x2).2.2.1 S1024x256.size (by sl_kernel_rfl) y
/-- What case A leaves in scratch 2: its pieces read back. -/
def sout1_A_2 (c : Dev nD) (i : grid1.Coords) (arg3 : Memref sig .tc .vmem S1x1024x256 .bf16) (harg3 : arg3.IsWhole) (arg4 : Memref sig .tc .vmem S1x1024x256 .bf16) (harg4 : arg4.IsWhole) (arg5 : Memref sig .tc .vmem S1x1024x256 .bf16) (harg5 : arg5.IsWhole) (arg6 : Memref sig .tc .vmem S1x1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : cond1_0 i) (hc1 : cond1_1 i) (hc2 : ¬cond1_2 i) (x0 x1 x2 : Vec F S1x1024x256 .bf16) : Vec F S1024x256 .f32 :=
  VS1_2.read (Elt F) (VS1_2.writes (Elt F) VS1_2.junk (kernelRun1_A c i arg3 harg3 arg4 harg4 arg5 harg5 arg6 harg6 arg7 harg7 arg8 harg8 arg9 harg9 hc0 hc1 hc2 x0 x1 x2).2.2.1)

/-- Case B's pieces for scratch 0 cover it. -/
theorem scover1_B_0 (c : Dev nD) (i : grid1.Coords) (arg3 : Memref sig .tc .vmem S1x1024x256 .bf16) (harg3 : arg3.IsWhole) (arg4 : Memref sig .tc .vmem S1x1024x256 .bf16) (harg4 : arg4.IsWhole) (arg5 : Memref sig .tc .vmem S1x1024x256 .bf16) (harg5 : arg5.IsWhole) (arg6 : Memref sig .tc .vmem S1x1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : cond1_1 i) (hc2 : ¬cond1_2 i) (x0 x1 x2 : Vec F S1x1024x256 .bf16) (xs0 xs1 : Vec F S1024x1 .f32) (xs2 : Vec F S1024x256 .f32) (y : S1024x1.Idx) :
    ∃ pc ∈ (kernelRun1_B c i arg3 harg3 arg4 harg4 arg5 harg5 arg6 harg6 arg7 harg7 arg8 harg8 arg9 harg9 hc0 hc1 hc2 x0 x1 x2 xs0 xs1 xs2).1, y ∈ pc.1.set :=
  View.cover_of_tiledL (kernelRun1_B c i arg3 harg3 arg4 harg4 arg5 harg5 arg6 harg6 arg7 harg7 arg8 harg8 arg9 harg9 hc0 hc1 hc2 x0 x1 x2 xs0 xs1 xs2).1 S1024x1.size (by sl_kernel_rfl) y
/-- What case B leaves in scratch 0: its pieces read back. -/
def sout1_B_0 (c : Dev nD) (i : grid1.Coords) (arg3 : Memref sig .tc .vmem S1x1024x256 .bf16) (harg3 : arg3.IsWhole) (arg4 : Memref sig .tc .vmem S1x1024x256 .bf16) (harg4 : arg4.IsWhole) (arg5 : Memref sig .tc .vmem S1x1024x256 .bf16) (harg5 : arg5.IsWhole) (arg6 : Memref sig .tc .vmem S1x1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : cond1_1 i) (hc2 : ¬cond1_2 i) (x0 x1 x2 : Vec F S1x1024x256 .bf16) (xs0 xs1 : Vec F S1024x1 .f32) (xs2 : Vec F S1024x256 .f32) : Vec F S1024x1 .f32 :=
  VS1_0.read (Elt F) (VS1_0.writes (Elt F) VS1_0.junk (kernelRun1_B c i arg3 harg3 arg4 harg4 arg5 harg5 arg6 harg6 arg7 harg7 arg8 harg8 arg9 harg9 hc0 hc1 hc2 x0 x1 x2 xs0 xs1 xs2).1)
/-- Case B's pieces for scratch 1 cover it. -/
theorem scover1_B_1 (c : Dev nD) (i : grid1.Coords) (arg3 : Memref sig .tc .vmem S1x1024x256 .bf16) (harg3 : arg3.IsWhole) (arg4 : Memref sig .tc .vmem S1x1024x256 .bf16) (harg4 : arg4.IsWhole) (arg5 : Memref sig .tc .vmem S1x1024x256 .bf16) (harg5 : arg5.IsWhole) (arg6 : Memref sig .tc .vmem S1x1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : cond1_1 i) (hc2 : ¬cond1_2 i) (x0 x1 x2 : Vec F S1x1024x256 .bf16) (xs0 xs1 : Vec F S1024x1 .f32) (xs2 : Vec F S1024x256 .f32) (y : S1024x1.Idx) :
    ∃ pc ∈ (kernelRun1_B c i arg3 harg3 arg4 harg4 arg5 harg5 arg6 harg6 arg7 harg7 arg8 harg8 arg9 harg9 hc0 hc1 hc2 x0 x1 x2 xs0 xs1 xs2).2.1, y ∈ pc.1.set :=
  View.cover_of_tiledL (kernelRun1_B c i arg3 harg3 arg4 harg4 arg5 harg5 arg6 harg6 arg7 harg7 arg8 harg8 arg9 harg9 hc0 hc1 hc2 x0 x1 x2 xs0 xs1 xs2).2.1 S1024x1.size (by sl_kernel_rfl) y
/-- What case B leaves in scratch 1: its pieces read back. -/
def sout1_B_1 (c : Dev nD) (i : grid1.Coords) (arg3 : Memref sig .tc .vmem S1x1024x256 .bf16) (harg3 : arg3.IsWhole) (arg4 : Memref sig .tc .vmem S1x1024x256 .bf16) (harg4 : arg4.IsWhole) (arg5 : Memref sig .tc .vmem S1x1024x256 .bf16) (harg5 : arg5.IsWhole) (arg6 : Memref sig .tc .vmem S1x1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : cond1_1 i) (hc2 : ¬cond1_2 i) (x0 x1 x2 : Vec F S1x1024x256 .bf16) (xs0 xs1 : Vec F S1024x1 .f32) (xs2 : Vec F S1024x256 .f32) : Vec F S1024x1 .f32 :=
  VS1_1.read (Elt F) (VS1_1.writes (Elt F) VS1_1.junk (kernelRun1_B c i arg3 harg3 arg4 harg4 arg5 harg5 arg6 harg6 arg7 harg7 arg8 harg8 arg9 harg9 hc0 hc1 hc2 x0 x1 x2 xs0 xs1 xs2).2.1)
/-- Case B's pieces for scratch 2 cover it. -/
theorem scover1_B_2 (c : Dev nD) (i : grid1.Coords) (arg3 : Memref sig .tc .vmem S1x1024x256 .bf16) (harg3 : arg3.IsWhole) (arg4 : Memref sig .tc .vmem S1x1024x256 .bf16) (harg4 : arg4.IsWhole) (arg5 : Memref sig .tc .vmem S1x1024x256 .bf16) (harg5 : arg5.IsWhole) (arg6 : Memref sig .tc .vmem S1x1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : cond1_1 i) (hc2 : ¬cond1_2 i) (x0 x1 x2 : Vec F S1x1024x256 .bf16) (xs0 xs1 : Vec F S1024x1 .f32) (xs2 : Vec F S1024x256 .f32) (y : S1024x256.Idx) :
    ∃ pc ∈ (kernelRun1_B c i arg3 harg3 arg4 harg4 arg5 harg5 arg6 harg6 arg7 harg7 arg8 harg8 arg9 harg9 hc0 hc1 hc2 x0 x1 x2 xs0 xs1 xs2).2.2.1, y ∈ pc.1.set :=
  View.cover_of_tiledL (kernelRun1_B c i arg3 harg3 arg4 harg4 arg5 harg5 arg6 harg6 arg7 harg7 arg8 harg8 arg9 harg9 hc0 hc1 hc2 x0 x1 x2 xs0 xs1 xs2).2.2.1 S1024x256.size (by sl_kernel_rfl) y
/-- What case B leaves in scratch 2: its pieces read back. -/
def sout1_B_2 (c : Dev nD) (i : grid1.Coords) (arg3 : Memref sig .tc .vmem S1x1024x256 .bf16) (harg3 : arg3.IsWhole) (arg4 : Memref sig .tc .vmem S1x1024x256 .bf16) (harg4 : arg4.IsWhole) (arg5 : Memref sig .tc .vmem S1x1024x256 .bf16) (harg5 : arg5.IsWhole) (arg6 : Memref sig .tc .vmem S1x1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : cond1_1 i) (hc2 : ¬cond1_2 i) (x0 x1 x2 : Vec F S1x1024x256 .bf16) (xs0 xs1 : Vec F S1024x1 .f32) (xs2 : Vec F S1024x256 .f32) : Vec F S1024x256 .f32 :=
  VS1_2.read (Elt F) (VS1_2.writes (Elt F) VS1_2.junk (kernelRun1_B c i arg3 harg3 arg4 harg4 arg5 harg5 arg6 harg6 arg7 harg7 arg8 harg8 arg9 harg9 hc0 hc1 hc2 x0 x1 x2 xs0 xs1 xs2).2.2.1)

/-- Case D's pieces for scratch 0 cover it. -/
theorem scover1_D_0 (c : Dev nD) (i : grid1.Coords) (arg3 : Memref sig .tc .vmem S1x1024x256 .bf16) (harg3 : arg3.IsWhole) (arg4 : Memref sig .tc .vmem S1x1024x256 .bf16) (harg4 : arg4.IsWhole) (arg5 : Memref sig .tc .vmem S1x1024x256 .bf16) (harg5 : arg5.IsWhole) (arg6 : Memref sig .tc .vmem S1x1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : cond1_1 i) (hc2 : cond1_2 i) (x0 x1 x2 : Vec F S1x1024x256 .bf16) (xs0 xs1 : Vec F S1024x1 .f32) (xs2 : Vec F S1024x256 .f32) (y : S1024x1.Idx) :
    ∃ pc ∈ (kernelRun1_D c i arg3 harg3 arg4 harg4 arg5 harg5 arg6 harg6 arg7 harg7 arg8 harg8 arg9 harg9 hc0 hc1 hc2 x0 x1 x2 xs0 xs1 xs2).1, y ∈ pc.1.set :=
  View.cover_of_tiledL (kernelRun1_D c i arg3 harg3 arg4 harg4 arg5 harg5 arg6 harg6 arg7 harg7 arg8 harg8 arg9 harg9 hc0 hc1 hc2 x0 x1 x2 xs0 xs1 xs2).1 S1024x1.size (by sl_kernel_rfl) y
/-- What case D leaves in scratch 0: its pieces read back. -/
def sout1_D_0 (c : Dev nD) (i : grid1.Coords) (arg3 : Memref sig .tc .vmem S1x1024x256 .bf16) (harg3 : arg3.IsWhole) (arg4 : Memref sig .tc .vmem S1x1024x256 .bf16) (harg4 : arg4.IsWhole) (arg5 : Memref sig .tc .vmem S1x1024x256 .bf16) (harg5 : arg5.IsWhole) (arg6 : Memref sig .tc .vmem S1x1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : cond1_1 i) (hc2 : cond1_2 i) (x0 x1 x2 : Vec F S1x1024x256 .bf16) (xs0 xs1 : Vec F S1024x1 .f32) (xs2 : Vec F S1024x256 .f32) : Vec F S1024x1 .f32 :=
  VS1_0.read (Elt F) (VS1_0.writes (Elt F) VS1_0.junk (kernelRun1_D c i arg3 harg3 arg4 harg4 arg5 harg5 arg6 harg6 arg7 harg7 arg8 harg8 arg9 harg9 hc0 hc1 hc2 x0 x1 x2 xs0 xs1 xs2).1)
/-- Case D's pieces for scratch 1 cover it. -/
theorem scover1_D_1 (c : Dev nD) (i : grid1.Coords) (arg3 : Memref sig .tc .vmem S1x1024x256 .bf16) (harg3 : arg3.IsWhole) (arg4 : Memref sig .tc .vmem S1x1024x256 .bf16) (harg4 : arg4.IsWhole) (arg5 : Memref sig .tc .vmem S1x1024x256 .bf16) (harg5 : arg5.IsWhole) (arg6 : Memref sig .tc .vmem S1x1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : cond1_1 i) (hc2 : cond1_2 i) (x0 x1 x2 : Vec F S1x1024x256 .bf16) (xs0 xs1 : Vec F S1024x1 .f32) (xs2 : Vec F S1024x256 .f32) (y : S1024x1.Idx) :
    ∃ pc ∈ (kernelRun1_D c i arg3 harg3 arg4 harg4 arg5 harg5 arg6 harg6 arg7 harg7 arg8 harg8 arg9 harg9 hc0 hc1 hc2 x0 x1 x2 xs0 xs1 xs2).2.1, y ∈ pc.1.set :=
  View.cover_of_tiledL (kernelRun1_D c i arg3 harg3 arg4 harg4 arg5 harg5 arg6 harg6 arg7 harg7 arg8 harg8 arg9 harg9 hc0 hc1 hc2 x0 x1 x2 xs0 xs1 xs2).2.1 S1024x1.size (by sl_kernel_rfl) y
/-- What case D leaves in scratch 1: its pieces read back. -/
def sout1_D_1 (c : Dev nD) (i : grid1.Coords) (arg3 : Memref sig .tc .vmem S1x1024x256 .bf16) (harg3 : arg3.IsWhole) (arg4 : Memref sig .tc .vmem S1x1024x256 .bf16) (harg4 : arg4.IsWhole) (arg5 : Memref sig .tc .vmem S1x1024x256 .bf16) (harg5 : arg5.IsWhole) (arg6 : Memref sig .tc .vmem S1x1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : cond1_1 i) (hc2 : cond1_2 i) (x0 x1 x2 : Vec F S1x1024x256 .bf16) (xs0 xs1 : Vec F S1024x1 .f32) (xs2 : Vec F S1024x256 .f32) : Vec F S1024x1 .f32 :=
  VS1_1.read (Elt F) (VS1_1.writes (Elt F) VS1_1.junk (kernelRun1_D c i arg3 harg3 arg4 harg4 arg5 harg5 arg6 harg6 arg7 harg7 arg8 harg8 arg9 harg9 hc0 hc1 hc2 x0 x1 x2 xs0 xs1 xs2).2.1)
/-- Case D's pieces for scratch 2 cover it. -/
theorem scover1_D_2 (c : Dev nD) (i : grid1.Coords) (arg3 : Memref sig .tc .vmem S1x1024x256 .bf16) (harg3 : arg3.IsWhole) (arg4 : Memref sig .tc .vmem S1x1024x256 .bf16) (harg4 : arg4.IsWhole) (arg5 : Memref sig .tc .vmem S1x1024x256 .bf16) (harg5 : arg5.IsWhole) (arg6 : Memref sig .tc .vmem S1x1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : cond1_1 i) (hc2 : cond1_2 i) (x0 x1 x2 : Vec F S1x1024x256 .bf16) (xs0 xs1 : Vec F S1024x1 .f32) (xs2 : Vec F S1024x256 .f32) (y : S1024x256.Idx) :
    ∃ pc ∈ (kernelRun1_D c i arg3 harg3 arg4 harg4 arg5 harg5 arg6 harg6 arg7 harg7 arg8 harg8 arg9 harg9 hc0 hc1 hc2 x0 x1 x2 xs0 xs1 xs2).2.2.1, y ∈ pc.1.set :=
  View.cover_of_tiledL (kernelRun1_D c i arg3 harg3 arg4 harg4 arg5 harg5 arg6 harg6 arg7 harg7 arg8 harg8 arg9 harg9 hc0 hc1 hc2 x0 x1 x2 xs0 xs1 xs2).2.2.1 S1024x256.size (by sl_kernel_rfl) y
/-- What case D leaves in scratch 2: its pieces read back. -/
def sout1_D_2 (c : Dev nD) (i : grid1.Coords) (arg3 : Memref sig .tc .vmem S1x1024x256 .bf16) (harg3 : arg3.IsWhole) (arg4 : Memref sig .tc .vmem S1x1024x256 .bf16) (harg4 : arg4.IsWhole) (arg5 : Memref sig .tc .vmem S1x1024x256 .bf16) (harg5 : arg5.IsWhole) (arg6 : Memref sig .tc .vmem S1x1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : cond1_1 i) (hc2 : cond1_2 i) (x0 x1 x2 : Vec F S1x1024x256 .bf16) (xs0 xs1 : Vec F S1024x1 .f32) (xs2 : Vec F S1024x256 .f32) : Vec F S1024x256 .f32 :=
  VS1_2.read (Elt F) (VS1_2.writes (Elt F) VS1_2.junk (kernelRun1_D c i arg3 harg3 arg4 harg4 arg5 harg5 arg6 harg6 arg7 harg7 arg8 harg8 arg9 harg9 hc0 hc1 hc2 x0 x1 x2 xs0 xs1 xs2).2.2.1)
/-- Case D's pieces for the output block cover it. -/
theorem cover1_D_3 (c : Dev nD) (i : grid1.Coords) (arg3 : Memref sig .tc .vmem S1x1024x256 .bf16) (harg3 : arg3.IsWhole) (arg4 : Memref sig .tc .vmem S1x1024x256 .bf16) (harg4 : arg4.IsWhole) (arg5 : Memref sig .tc .vmem S1x1024x256 .bf16) (harg5 : arg5.IsWhole) (arg6 : Memref sig .tc .vmem S1x1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : cond1_1 i) (hc2 : cond1_2 i) (x0 x1 x2 : Vec F S1x1024x256 .bf16) (xs0 xs1 : Vec F S1024x1 .f32) (xs2 : Vec F S1024x256 .f32) (y : S1x1024x256.Idx) :
    ∃ pc ∈ (kernelRun1_D c i arg3 harg3 arg4 harg4 arg5 harg5 arg6 harg6 arg7 harg7 arg8 harg8 arg9 harg9 hc0 hc1 hc2 x0 x1 x2 xs0 xs1 xs2).2.2.2.1, y ∈ pc.1.set :=
  View.cover_of_tiledL (kernelRun1_D c i arg3 harg3 arg4 harg4 arg5 harg5 arg6 harg6 arg7 harg7 arg8 harg8 arg9 harg9 hc0 hc1 hc2 x0 x1 x2 xs0 xs1 xs2).2.2.2.1 S1x1024x256.size (by sl_kernel_rfl) y
/-- What case D leaves in the output block: its pieces read back. -/
def out1_D_3 (c : Dev nD) (i : grid1.Coords) (arg3 : Memref sig .tc .vmem S1x1024x256 .bf16) (harg3 : arg3.IsWhole) (arg4 : Memref sig .tc .vmem S1x1024x256 .bf16) (harg4 : arg4.IsWhole) (arg5 : Memref sig .tc .vmem S1x1024x256 .bf16) (harg5 : arg5.IsWhole) (arg6 : Memref sig .tc .vmem S1x1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : cond1_1 i) (hc2 : cond1_2 i) (x0 x1 x2 : Vec F S1x1024x256 .bf16) (xs0 xs1 : Vec F S1024x1 .f32) (xs2 : Vec F S1024x256 .f32) : Vec F S1x1024x256 .f32 :=
  VO1_3.read (Elt F) (VO1_3.writes (Elt F) VO1_3.junk (kernelRun1_D c i arg3 harg3 arg4 harg4 arg5 harg5 arg6 harg6 arg7 harg7 arg8 harg8 arg9 harg9 hc0 hc1 hc2 x0 x1 x2 xs0 xs1 xs2).2.2.2.1)

/-- Case E's pieces for the output block cover it. -/
theorem cover1_E_3 (c : Dev nD) (i : grid1.Coords) (arg3 : Memref sig .tc .vmem S1x1024x256 .bf16) (harg3 : arg3.IsWhole) (arg4 : Memref sig .tc .vmem S1x1024x256 .bf16) (harg4 : arg4.IsWhole) (arg5 : Memref sig .tc .vmem S1x1024x256 .bf16) (harg5 : arg5.IsWhole) (arg6 : Memref sig .tc .vmem S1x1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : ¬cond1_1 i) (hc2 : cond1_2 i) (x0 x1 x2 : Vec F S1x1024x256 .bf16) (xs0 xs1 : Vec F S1024x1 .f32) (xs2 : Vec F S1024x256 .f32) (y : S1x1024x256.Idx) :
    ∃ pc ∈ (kernelRun1_E c i arg3 harg3 arg4 harg4 arg5 harg5 arg6 harg6 arg7 harg7 arg8 harg8 arg9 harg9 hc0 hc1 hc2 x0 x1 x2 xs0 xs1 xs2).1, y ∈ pc.1.set :=
  View.cover_of_tiledL (kernelRun1_E c i arg3 harg3 arg4 harg4 arg5 harg5 arg6 harg6 arg7 harg7 arg8 harg8 arg9 harg9 hc0 hc1 hc2 x0 x1 x2 xs0 xs1 xs2).1 S1x1024x256.size (by sl_kernel_rfl) y
/-- What case E leaves in the output block: its pieces read back. -/
def out1_E_3 (c : Dev nD) (i : grid1.Coords) (arg3 : Memref sig .tc .vmem S1x1024x256 .bf16) (harg3 : arg3.IsWhole) (arg4 : Memref sig .tc .vmem S1x1024x256 .bf16) (harg4 : arg4.IsWhole) (arg5 : Memref sig .tc .vmem S1x1024x256 .bf16) (harg5 : arg5.IsWhole) (arg6 : Memref sig .tc .vmem S1x1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : ¬cond1_1 i) (hc2 : cond1_2 i) (x0 x1 x2 : Vec F S1x1024x256 .bf16) (xs0 xs1 : Vec F S1024x1 .f32) (xs2 : Vec F S1024x256 .f32) : Vec F S1x1024x256 .f32 :=
  VO1_3.read (Elt F) (VO1_3.writes (Elt F) VO1_3.junk (kernelRun1_E c i arg3 harg3 arg4 harg4 arg5 harg5 arg6 harg6 arg7 harg7 arg8 harg8 arg9 harg9 hc0 hc1 hc2 x0 x1 x2 xs0 xs1 xs2).1)

end Cert.KernelIdeal.Hand

end
-- ==== Proof.KIRegion1.lean ====
/-
  Region 1: the contents of the output block and of the three scratch buffers after every grid point, by recursion
  on the point (the running maximum, sum and accumulator are what the point before left), the region's invariant and
  proof data, and the body's obligation at every point by cases on the three conditions.
-/
import proofs.«151727_j7834020348210_2_alg».proof.Proof.KIRegion1Cases

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The output block and the three scratch buffers (row maxima, row sums, accumulator). -/
abbrev St1 (F : FTy → Type) [FloatOps F] : Type := Vec F S1x1024x256 .f32 × Vec F S1024x1 .f32 × Vec F S1024x1 .f32 × Vec F S1024x256 .f32

/-- A placeholder for the output block where the body stores nothing into it. -/
def junkO : Vec F S1x1024x256 .f32 := VO1_3.read (Elt F) VO1_3.junk

/-- After a point with ki = 0: reset, then one tile folded in. -/
def nextA (c : Dev nD) (t : Fin cfg1.N) (h0 : cond1_0 (grid1.coords t)) (x0 x1 x2 : Vec F S1x1024x256 .bf16) : St1 F :=
  (junkO, sout1_A_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) h0 (c0_imp_c1 t h0) (c0_not_c2 t h0) x0 x1 x2,
    sout1_A_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) h0 (c0_imp_c1 t h0) (c0_not_c2 t h0) x0 x1 x2,
    sout1_A_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) h0 (c0_imp_c1 t h0) (c0_not_c2 t h0) x0 x1 x2)
/-- After a point with 0 < ki ≤ qi, ki < 3: one tile folded into what the point before left. -/
def nextB (c : Dev nD) (t : Fin cfg1.N) (h0 : ¬cond1_0 (grid1.coords t)) (h1 : cond1_1 (grid1.coords t)) (h2 : ¬cond1_2 (grid1.coords t)) (x0 x1 x2 : Vec F S1x1024x256 .bf16) (p : St1 F) : St1 F :=
  (junkO, sout1_B_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) h0 h1 h2 x0 x1 x2 p.2.1 p.2.2.1 p.2.2.2,
    sout1_B_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) h0 h1 h2 x0 x1 x2 p.2.1 p.2.2.1 p.2.2.2,
    sout1_B_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) h0 h1 h2 x0 x1 x2 p.2.1 p.2.2.1 p.2.2.2)
/-- After a point above the diagonal that is not the last of its row: nothing changes. -/
def nextC (p : St1 F) : St1 F := (junkO, p.2.1, p.2.2.1, p.2.2.2)
/-- After the last point of the last query tile's row: one tile folded in, then the output block stored. -/
def nextD (c : Dev nD) (t : Fin cfg1.N) (h0 : ¬cond1_0 (grid1.coords t)) (h1 : cond1_1 (grid1.coords t)) (h2 : cond1_2 (grid1.coords t)) (x0 x1 x2 : Vec F S1x1024x256 .bf16) (p : St1 F) : St1 F :=
  (out1_D_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) h0 h1 h2 x0 x1 x2 p.2.1 p.2.2.1 p.2.2.2,
    sout1_D_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) h0 h1 h2 x0 x1 x2 p.2.1 p.2.2.1 p.2.2.2,
    sout1_D_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) h0 h1 h2 x0 x1 x2 p.2.1 p.2.2.1 p.2.2.2,
    sout1_D_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) h0 h1 h2 x0 x1 x2 p.2.1 p.2.2.1 p.2.2.2)
/-- After the last point of an earlier query tile's row: the output block stored from what the point before left. -/
def nextE (c : Dev nD) (t : Fin cfg1.N) (h0 : ¬cond1_0 (grid1.coords t)) (h1 : ¬cond1_1 (grid1.coords t)) (h2 : cond1_2 (grid1.coords t)) (x0 x1 x2 : Vec F S1x1024x256 .bf16) (p : St1 F) : St1 F :=
  (out1_E_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) h0 h1 h2 x0 x1 x2 p.2.1 p.2.2.1 p.2.2.2, p.2.1, p.2.2.1, p.2.2.2)

section
variable (V : (c : Dev nD) → (b : Ref sig .tc) → Buf (Elt F) ((c : Thread nD τ).loc b))

/-- What the output block's staging buffer and the three scratch buffers hold after the body at position n. -/
def outsAt1 (c : Dev nD) : (n : ℕ) → n < cfg1.N → St1 F
  | 0, hn => nextA c ⟨0, hn⟩ (c0_first ⟨0, hn⟩ rfl) (iblk1 V c 0 ⟨0, hn⟩) (iblk1 V c 1 ⟨0, hn⟩) (iblk1 V c 2 ⟨0, hn⟩)
  | n + 1, hn =>
    if h0 : cond1_0 (grid1.coords ⟨n + 1, hn⟩) then
      nextA c ⟨n + 1, hn⟩ h0 (iblk1 V c 0 ⟨n + 1, hn⟩) (iblk1 V c 1 ⟨n + 1, hn⟩) (iblk1 V c 2 ⟨n + 1, hn⟩)
    else if h1 : cond1_1 (grid1.coords ⟨n + 1, hn⟩) then
      if h2 : cond1_2 (grid1.coords ⟨n + 1, hn⟩) then
        nextD c ⟨n + 1, hn⟩ h0 h1 h2 (iblk1 V c 0 ⟨n + 1, hn⟩) (iblk1 V c 1 ⟨n + 1, hn⟩) (iblk1 V c 2 ⟨n + 1, hn⟩) (outsAt1 c n (Nat.lt_of_succ_lt hn))
      else
        nextB c ⟨n + 1, hn⟩ h0 h1 h2 (iblk1 V c 0 ⟨n + 1, hn⟩) (iblk1 V c 1 ⟨n + 1, hn⟩) (iblk1 V c 2 ⟨n + 1, hn⟩) (outsAt1 c n (Nat.lt_of_succ_lt hn))
    else
      if h2 : cond1_2 (grid1.coords ⟨n + 1, hn⟩) then
        nextE c ⟨n + 1, hn⟩ h0 h1 h2 (iblk1 V c 0 ⟨n + 1, hn⟩) (iblk1 V c 1 ⟨n + 1, hn⟩) (iblk1 V c 2 ⟨n + 1, hn⟩) (outsAt1 c n (Nat.lt_of_succ_lt hn))
      else
        nextC (outsAt1 c n (Nat.lt_of_succ_lt hn))

theorem outsAt1_A (c : Dev nD) (t : Fin cfg1.N) (h0 : cond1_0 (grid1.coords t)) :
    outsAt1 V c t.val t.isLt = nextA c t h0 (iblk1 V c 0 t) (iblk1 V c 1 t) (iblk1 V c 2 t) := by
  obtain ⟨n, hn⟩ := t
  cases n with
  | zero => rfl
  | succ n => exact dif_pos h0

theorem outsAt1_B (c : Dev nD) (t : Fin cfg1.N) (h0 : ¬cond1_0 (grid1.coords t)) (h1 : cond1_1 (grid1.coords t)) (h2 : ¬cond1_2 (grid1.coords t)) :
    outsAt1 V c t.val t.isLt = nextB c t h0 h1 h2 (iblk1 V c 0 t) (iblk1 V c 1 t) (iblk1 V c 2 t) (outsAt1 V c (t.val - 1) (Nat.lt_of_le_of_lt (Nat.sub_le _ _) t.isLt)) := by
  obtain ⟨n, hn⟩ := t
  cases n with
  | zero => exact absurd (c0_first ⟨0, hn⟩ rfl) h0
  | succ n => exact (dif_neg h0).trans ((dif_pos h1).trans (dif_neg h2))

theorem outsAt1_C (c : Dev nD) (t : Fin cfg1.N) (h0 : ¬cond1_0 (grid1.coords t)) (h1 : ¬cond1_1 (grid1.coords t)) (h2 : ¬cond1_2 (grid1.coords t)) :
    outsAt1 V c t.val t.isLt = nextC (outsAt1 V c (t.val - 1) (Nat.lt_of_le_of_lt (Nat.sub_le _ _) t.isLt)) := by
  obtain ⟨n, hn⟩ := t
  cases n with
  | zero => exact absurd (c0_first ⟨0, hn⟩ rfl) h0
  | succ n => exact (dif_neg h0).trans ((dif_neg h1).trans (dif_neg h2))

theorem outsAt1_D (c : Dev nD) (t : Fin cfg1.N) (h0 : ¬cond1_0 (grid1.coords t)) (h1 : cond1_1 (grid1.coords t)) (h2 : cond1_2 (grid1.coords t)) :
    outsAt1 V c t.val t.isLt = nextD c t h0 h1 h2 (iblk1 V c 0 t) (iblk1 V c 1 t) (iblk1 V c 2 t) (outsAt1 V c (t.val - 1) (Nat.lt_of_le_of_lt (Nat.sub_le _ _) t.isLt)) := by
  obtain ⟨n, hn⟩ := t
  cases n with
  | zero => exact absurd (c0_first ⟨0, hn⟩ rfl) h0
  | succ n => exact (dif_neg h0).trans ((dif_pos h1).trans (dif_pos h2))

theorem outsAt1_E (c : Dev nD) (t : Fin cfg1.N) (h0 : ¬cond1_0 (grid1.coords t)) (h1 : ¬cond1_1 (grid1.coords t)) (h2 : cond1_2 (grid1.coords t)) :
    outsAt1 V c t.val t.isLt = nextE c t h0 h1 h2 (iblk1 V c 0 t) (iblk1 V c 1 t) (iblk1 V c 2 t) (outsAt1 V c (t.val - 1) (Nat.lt_of_le_of_lt (Nat.sub_le _ _) t.isLt)) := by
  obtain ⟨n, hn⟩ := t
  cases n with
  | zero => exact absurd (c0_first ⟨0, hn⟩ rfl) h0
  | succ n => exact (dif_neg h0).trans ((dif_neg h1).trans (dif_pos h2))

/-- The region invariant before position n: before the first point every scratch buffer at anything; afterwards the
    three scratch buffers at what the point before left. -/
def PhiS (c : Dev nD) : (n : ℕ) → n ≤ cfg1.N → sProp 𝕄
  | 0, _ => Pipeline.ΦA spec1 c
  | n + 1, hn => iprop(Rst1 c ∗ owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(Rst1 c ∗ owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2) ∗ (∃ r, prngReg c r)) := rfl

theorem PhiS_pos (c : Dev nD) (n : ℕ) (h : n ≤ cfg1.N) (hz : n ≠ 0) :
    PhiS V c n h = iprop(Rst1 c ∗ owns (c : Thread nD τ) scM1_0 fullShare ((outsAt1 V c (n - 1) (by omega)).2.1) ∗ owns (c : Thread nD τ) scM1_1 fullShare ((outsAt1 V c (n - 1) (by omega)).2.2.1) ∗ owns (c : Thread nD τ) scM1_2 fullShare ((outsAt1 V c (n - 1) (by omega)).2.2.2) ∗ (∃ r, prngReg c r)) := by
  cases n with
  | zero => exact absurd rfl hz
  | succ n => rfl

/-! ## The pipeline's proof data -/

/-- The proof data of region 1 on core c: the arrays as the region finds them; after the body at point t each
    input's buffer at its block and the output's at what the recursion says; the invariant carries the scratch. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 8000000 in
/-- The body at any point: the inputs' staging buffers hold their blocks; the three conditions say which case the point
    is in; the invariant hands the body the scratch at what the point before left (at anything at the first point)
    and takes it back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  by_cases h0 : cond1_0 (grid1.coords t)
  · have h1 := c0_imp_c1 t h0
    have h2 := c0_not_c2 t h0
    rw [Dat.leavesExact_idle (dat1 V c) 3 t (idleAt1_3 t h2) (noFlush1_3 t h2)]
    rw [outsAt1_A V c t h0]
    unfold nextA sout1_A_0 sout1_A_1 sout1_A_2; (try dsimp only)
    by_cases hz : t.val = 0
    · rw [PhiS_castSucc V c t, PhiS_zero V c _ _ hz]
      iintro ⟨HΦ, Ho, ⟨%d0, H0⟩, ⟨%d1, H1⟩, ⟨%d2, H2⟩, ⟨%d3, H3⟩⟩
      ihave HΦ' := (PhiA1_out c) $$ HΦ
      icases HΦ' with ⟨HR, HS0, HS1, HS2, Hg⟩
      iapply ((kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) h0 h1 h2 (iblk1 V c 0 t) (iblk1 V c 1 t) (iblk1 V c 2 t)).2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%es0, HS0⟩, ⟨%es1, HS1⟩, ⟨%es2, HS2⟩⟩
      isplitl [HR HS0 HS1 HS2 Hg]
      · isplitl [HR]; · iexact HR
        isplitl [HS0]
        · unfold owns; iexists _; isplitr
          swap; · iexact HS0
          ipureintro; exact View.read_writes_of_cover _ _ _ _ _ (scover1_A_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) h0 h1 h2 (iblk1 V c 0 t) (iblk1 V c 1 t) (iblk1 V c 2 t))
        isplitl [HS1]
        · unfold owns; iexists _; isplitr
          swap; · iexact HS1
          ipureintro; exact View.read_writes_of_cover _ _ _ _ _ (scover1_A_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) h0 h1 h2 (iblk1 V c 0 t) (iblk1 V c 1 t) (iblk1 V c 2 t))
        isplitl [HS2]
        · unfold owns; iexists _; isplitr
          swap; · iexact HS2
          ipureintro; exact View.read_writes_of_cover _ _ _ _ _ (scover1_A_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) h0 h1 h2 (iblk1 V c 0 t) (iblk1 V c 1 t) (iblk1 V c 2 t))
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨⟨HR, HS0, HS1, HS2, Hg⟩, Ho, ⟨%d0, H0⟩, ⟨%d1, H1⟩, ⟨%d2, H2⟩, ⟨%d3, H3⟩⟩
      iapply ((kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) h0 h1 h2 (iblk1 V c 0 t) (iblk1 V c 1 t) (iblk1 V c 2 t)).2.2.2 _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      isplitl [HS2]; · iexists _; iexact HS2
      iintro ⟨H0, H1, H2, H3, ⟨%es0, HS0⟩, ⟨%es1, HS1⟩, ⟨%es2, HS2⟩⟩
      isplitl [HR HS0 HS1 HS2 Hg]
      · isplitl [HR]; · iexact HR
        isplitl [HS0]
        · unfold owns; iexists _; isplitr
          swap; · iexact HS0
          ipureintro; exact View.read_writes_of_cover _ _ _ _ _ (scover1_A_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) h0 h1 h2 (iblk1 V c 0 t) (iblk1 V c 1 t) (iblk1 V c 2 t))
        isplitl [HS1]
        · unfold owns; iexists _; isplitr
          swap; · iexact HS1
          ipureintro; exact View.read_writes_of_cover _ _ _ _ _ (scover1_A_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) h0 h1 h2 (iblk1 V c 0 t) (iblk1 V c 1 t) (iblk1 V c 2 t))
        isplitl [HS2]
        · unfold owns; iexists _; isplitr
          swap; · iexact HS2
          ipureintro; exact View.read_writes_of_cover _ _ _ _ _ (scover1_A_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) h0 h1 h2 (iblk1 V c 0 t) (iblk1 V c 1 t) (iblk1 V c 2 t))
        iexact Hg
      isplitl [Ho]; · iexact Ho
      isplitl [H0]; · iexact H0
      isplitl [H1]; · iexact H1
      isplitl [H2]; · iexact H2
      iexists _; iexact H3
  · have hz : t.val ≠ 0 := fun hz => h0 (c0_first t hz)
    by_cases h1 : cond1_1 (grid1.coords t)
    · by_cases h2 : cond1_2 (grid1.coords t)
      · rw [show (dat1 V c).leavesExact 3 t = owns (c : Thread nD τ) (ms1_3 t) fullShare ((dat1 V c).after 3 t) from by
          unfold Dat.leavesExact; rw [liveAt1_3 t h2], after1_3]
        rw [outsAt1_D V c t h0 h1 h2]
        unfold nextD out1_D_3 sout1_D_0 sout1_D_1 sout1_D_2; (try dsimp only)
        rw [PhiS_castSucc V c t, PhiS_pos V c _ _ hz]
        iintro ⟨⟨HR, HS0, HS1, HS2, Hg⟩, Ho, ⟨%d0, H0⟩, ⟨%d1, H1⟩, ⟨%d2, H2⟩, ⟨%d3, H3⟩⟩
        iapply ((kernelRun1_D c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) h0 h1 h2 (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2).2.2.2.2 Set.univ _)
        isplitl [H0]; · iexact H0
        isplitl [H1]; · iexact H1
        isplitl [H2]; · iexact H2
        isplitl [H3]; · iexists _; iexact H3
        isplitl [HS0]; · iexact HS0
        isplitl [HS1]; · iexact HS1
        isplitl [HS2]; · iexact HS2
        iintro ⟨H0, H1, H2, ⟨%e3, H3⟩, ⟨%es0, HS0⟩, ⟨%es1, HS1⟩, ⟨%es2, HS2⟩⟩
        isplitl [HR HS0 HS1 HS2 Hg]
        · isplitl [HR]; · iexact HR
          isplitl [HS0]
          · unfold owns; iexists _; isplitr
            swap; · iexact HS0
            ipureintro; exact View.read_writes_of_cover _ _ _ _ _ (scover1_D_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) h0 h1 h2 (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2)
          isplitl [HS1]
          · unfold owns; iexists _; isplitr
            swap; · iexact HS1
            ipureintro; exact View.read_writes_of_cover _ _ _ _ _ (scover1_D_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) h0 h1 h2 (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2)
          isplitl [HS2]
          · unfold owns; iexists _; isplitr
            swap; · iexact HS2
            ipureintro; exact View.read_writes_of_cover _ _ _ _ _ (scover1_D_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) h0 h1 h2 (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2)
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover1_D_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) h0 h1 h2 (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2)
      · rw [Dat.leavesExact_idle (dat1 V c) 3 t (idleAt1_3 t h2) (noFlush1_3 t h2)]
        rw [outsAt1_B V c t h0 h1 h2]
        unfold nextB sout1_B_0 sout1_B_1 sout1_B_2; (try dsimp only)
        rw [PhiS_castSucc V c t, PhiS_pos V c _ _ hz]
        iintro ⟨⟨HR, HS0, HS1, HS2, Hg⟩, Ho, ⟨%d0, H0⟩, ⟨%d1, H1⟩, ⟨%d2, H2⟩, ⟨%d3, H3⟩⟩
        iapply ((kernelRun1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) h0 h1 h2 (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2).2.2.2 _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, ⟨%es0, HS0⟩, ⟨%es1, HS1⟩, ⟨%es2, HS2⟩⟩
        isplitl [HR HS0 HS1 HS2 Hg]
        · isplitl [HR]; · iexact HR
          isplitl [HS0]
          · unfold owns; iexists _; isplitr
            swap; · iexact HS0
            ipureintro; exact View.read_writes_of_cover _ _ _ _ _ (scover1_B_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) h0 h1 h2 (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2)
          isplitl [HS1]
          · unfold owns; iexists _; isplitr
            swap; · iexact HS1
            ipureintro; exact View.read_writes_of_cover _ _ _ _ _ (scover1_B_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) h0 h1 h2 (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2)
          isplitl [HS2]
          · unfold owns; iexists _; isplitr
            swap; · iexact HS2
            ipureintro; exact View.read_writes_of_cover _ _ _ _ _ (scover1_B_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) h0 h1 h2 (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2)
          iexact Hg
        isplitl [Ho]; · iexact Ho
        isplitl [H0]; · iexact H0
        isplitl [H1]; · iexact H1
        isplitl [H2]; · iexact H2
        iexists _; iexact H3
    · by_cases h2 : cond1_2 (grid1.coords t)
      · rw [show (dat1 V c).leavesExact 3 t = owns (c : Thread nD τ) (ms1_3 t) fullShare ((dat1 V c).after 3 t) from by
          unfold Dat.leavesExact; rw [liveAt1_3 t h2], after1_3]
        rw [outsAt1_E V c t h0 h1 h2]
        unfold nextE out1_E_3; (try dsimp only)
        rw [PhiS_castSucc V c t, PhiS_pos V c _ _ hz]
        iintro ⟨⟨HR, HS0, HS1, HS2, Hg⟩, Ho, ⟨%d0, H0⟩, ⟨%d1, H1⟩, ⟨%d2, H2⟩, ⟨%d3, H3⟩⟩
        iapply ((kernelRun1_E c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) h0 h1 h2 (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2).2 Set.univ _)
        isplitl [H0]; · iexact H0
        isplitl [H1]; · iexact H1
        isplitl [H2]; · iexact H2
        isplitl [H3]; · iexists _; iexact H3
        isplitl [HS0]; · iexact HS0
        isplitl [HS1]; · iexact HS1
        isplitl [HS2]; · iexact HS2
        iintro ⟨H0, H1, H2, ⟨%e3, H3⟩, HS0, HS1, HS2⟩
        isplitl [HR HS0 HS1 HS2 Hg]
        · isplitl [HR]; · iexact HR
          isplitl [HS0]; · iexact HS0
          isplitl [HS1]; · iexact HS1
          isplitl [HS2]; · iexact HS2
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover1_E_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) h0 h1 h2 (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2)
      · rw [Dat.leavesExact_idle (dat1 V c) 3 t (idleAt1_3 t h2) (noFlush1_3 t h2)]
        rw [outsAt1_C V c t h0 h1 h2]
        unfold nextC; (try dsimp only)
        rw [PhiS_castSucc V c t, PhiS_pos V c _ _ hz]
        iintro ⟨⟨HR, HS0, HS1, HS2, Hg⟩, Ho, ⟨%d0, H0⟩, ⟨%d1, H1⟩, ⟨%d2, H2⟩, ⟨%d3, H3⟩⟩
        iapply (kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) h0 h1 h2 (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2 _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, HS0, HS1, HS2⟩
        isplitl [HR HS0 HS1 HS2 Hg]
        · isplitl [HR]; · iexact HR
          isplitl [HS0]; · iexact HS0
          isplitl [HS1]; · iexact HS1
          isplitl [HS2]; · iexact HS2
          iexact Hg
        isplitl [Ho]; · iexact Ho
        isplitl [H0]; · iexact H0
        isplitl [H1]; · iexact H1
        isplitl [H2]; · iexact H2
        iexists _; iexact H3

theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point but the first the invariant gives it back: the scratch's named contents are forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht]
  iintro ⟨HR, HS0, HS1, HS2, Hg⟩
  iapply (PhiA1_in c)
  isplitl [HR]; · iexact HR
  isplitl [HS0]; · iexists _; iexact HS0
  isplitl [HS1]; · iexists _; iexact HS1
  isplitl [HS2]; · iexists _; iexact HS2
  iexact Hg

theorem hout1 (c : Dev nD) : (dat1 V c).Φ (Fin.last cfg1.N) ⊢ Pipeline.ΦA spec1 c :=
  Phi_out1 V c _ (by rw [Fin.val_last]; have : cfg1.N = 64 := N_1; omega)

end

end Cert.KernelIdeal.Hand

end
-- ==== Proof.KIRun.lean ====
/-
  The whole program's run: the host stretch (three bias reshapes), region 0 (the projections), region 1 (the attention),
  with the contents of every unscoped buffer named at each boundary; at the end every unscoped buffer holds the last
  boundary's contents — the arguments as launched, the result what region 1's write-backs leave.
-/
import proofs.«151727_j7834020348210_2_alg».proof.Proof.KIRegion0
import proofs.«151727_j7834020348210_2_alg».proof.Proof.KIRegion1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core c's buffers at launch. -/
abbrev W0 : Dev nD → Valuation τ sig (Elt F) := fun c b => m ((c : Dev nD), b)
/-- After the host stretch. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At region 0's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- At region 1's exit. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-- The host stretch writes only the three reshaped biases. -/
theorem W1_of_not_written (c : Dev nD) (b : Ref sig .tc) (hb : b ∉ ([main_v0, main_v1, main_v2] : List (Ref sig .tc))) :
    W1 m c (Proc.devRef .tc b) = W0 m c (Proc.devRef .tc b) :=
  StableHlo.after_of_forall_not_mem (b := Proc.devRef .tc b) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    refine ⟨?_, ?_, ?_⟩
    · exact StableHlo.devRef_ne_of_ne (fun h => hb (by rw [h]; simp))
    · exact StableHlo.devRef_ne_of_ne (fun h => hb (by rw [h]; simp))
    · exact StableHlo.devRef_ne_of_ne (fun h => hb (by rw [h]; simp))))

/-! ### The arguments end as launched -/

theorem W3_main_arg0 (c : Dev nD) : W3 m c (Proc.devRef .tc main_arg0) = m ((c : Thread nD τ).loc main_arg0) :=
  calc W3 m c (Proc.devRef .tc main_arg0)
    _ = W2 m c (Proc.devRef .tc main_arg0) := W3_of_ne m c main_arg0 (by decide)
    _ = W1 m c (Proc.devRef .tc main_arg0) := (W2_arr m c 0).trans (((dat0 (V1 m) c).arrAt_in 0 rfl _).trans (A_eq0 (V1 m) c 0))
    _ = W0 m c (Proc.devRef .tc main_arg0) := W1_of_not_written m c main_arg0 (by decide)
    _ = m ((c : Thread nD τ).loc main_arg0) := rfl

theorem W3_main_arg1 (c : Dev nD) : W3 m c (Proc.devRef .tc main_arg1) = m ((c : Thread nD τ).loc main_arg1) :=
  calc W3 m c (Proc.devRef .tc main_arg1)
    _ = W2 m c (Proc.devRef .tc main_arg1) := W3_of_ne m c main_arg1 (by decide)
    _ = W1 m c (Proc.devRef .tc main_arg1) := (W2_arr m c 1).trans (((dat0 (V1 m) c).arrAt_in 1 rfl _).trans (A_eq0 (V1 m) c 1))
    _ = W0 m c (Proc.devRef .tc main_arg1) := W1_of_not_written m c main_arg1 (by decide)
    _ = m ((c : Thread nD τ).loc main_arg1) := rfl

theorem W3_main_arg2 (c : Dev nD) : W3 m c (Proc.devRef .tc main_arg2) = m ((c : Thread nD τ).loc main_arg2) :=
  calc W3 m c (Proc.devRef .tc main_arg2)
    _ = W2 m c (Proc.devRef .tc main_arg2) := W3_of_ne m c main_arg2 (by decide)
    _ = W1 m c (Proc.devRef .tc main_arg2) := W2_of_ne m c main_arg2 (by decide)
    _ = W0 m c (Proc.devRef .tc main_arg2) := W1_of_not_written m c main_arg2 (by decide)
    _ = m ((c : Thread nD τ).loc main_arg2) := rfl

theorem W3_main_arg3 (c : Dev nD) : W3 m c (Proc.devRef .tc main_arg3) = m ((c : Thread nD τ).loc main_arg3) :=
  calc W3 m c (Proc.devRef .tc main_arg3)
    _ = W2 m c (Proc.devRef .tc main_arg3) := W3_of_ne m c main_arg3 (by decide)
    _ = W1 m c (Proc.devRef .tc main_arg3) := (W2_arr m c 2).trans (((dat0 (V1 m) c).arrAt_in 2 rfl _).trans (A_eq0 (V1 m) c 2))
    _ = W0 m c (Proc.devRef .tc main_arg3) := W1_of_not_written m c main_arg3 (by decide)
    _ = m ((c : Thread nD τ).loc main_arg3) := rfl

theorem W3_main_arg4 (c : Dev nD) : W3 m c (Proc.devRef .tc main_arg4) = m ((c : Thread nD τ).loc main_arg4) :=
  calc W3 m c (Proc.devRef .tc main_arg4)
    _ = W2 m c (Proc.devRef .tc main_arg4) := W3_of_ne m c main_arg4 (by decide)
    _ = W1 m c (Proc.devRef .tc main_arg4) := W2_of_ne m c main_arg4 (by decide)
    _ = W0 m c (Proc.devRef .tc main_arg4) := W1_of_not_written m c main_arg4 (by decide)
    _ = m ((c : Thread nD τ).loc main_arg4) := rfl

theorem W3_main_arg5 (c : Dev nD) : W3 m c (Proc.devRef .tc main_arg5) = m ((c : Thread nD τ).loc main_arg5) :=
  calc W3 m c (Proc.devRef .tc main_arg5)
    _ = W2 m c (Proc.devRef .tc main_arg5) := W3_of_ne m c main_arg5 (by decide)
    _ = W1 m c (Proc.devRef .tc main_arg5) := (W2_arr m c 3).trans (((dat0 (V1 m) c).arrAt_in 3 rfl _).trans (A_eq0 (V1 m) c 3))
    _ = W0 m c (Proc.devRef .tc main_arg5) := W1_of_not_written m c main_arg5 (by decide)
    _ = m ((c : Thread nD τ).loc main_arg5) := rfl

theorem W3_main_arg6 (c : Dev nD) : W3 m c (Proc.devRef .tc main_arg6) = m ((c : Thread nD τ).loc main_arg6) :=
  calc W3 m c (Proc.devRef .tc main_arg6)
    _ = W2 m c (Proc.devRef .tc main_arg6) := W3_of_ne m c main_arg6 (by decide)
    _ = W1 m c (Proc.devRef .tc main_arg6) := W2_of_ne m c main_arg6 (by decide)
    _ = W0 m c (Proc.devRef .tc main_arg6) := W1_of_not_written m c main_arg6 (by decide)
    _ = m ((c : Thread nD τ).loc main_arg6) := rfl

/-- The result buffer ends at what region 1's write-backs leave. -/
theorem W3_main_v4 (c : Dev nD) : W3 m c (Proc.devRef .tc main_v4) = (dat1 (V2 m) c).arrAt 3 cfg1.N := W3_arr m c 3

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_fresh' : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m c) ∗ ∃ r, prngReg c r)

/-! ## The regions as segments -/

set_option backward.isDefEq.respectTransparency.types false in
/-- Region 0 over the thread state: entered from every unscoped buffer at the contents before it, left at the contents
    after it; its arrays split out of the unscoped buffers and put back; the generator register into the invariant
    and out; nothing owed; no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents before it, left at the contents
    after it; its arrays split out of the unscoped buffers and put back; the generator register into the invariant
    and out; nothing owed; no semaphore of the kernel's own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = (dat1 (V2 m) c).Φ (Fin.last cfg1.N) from rfl]
    iintro H
    ihave H' := (hout1 (V2 m) c) $$ H
    unfold Pipeline.ΦA
    icases H' with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .host (hseg hostOps0 hostOps0_sub hostOps0_fresh' (W0 m)),
    .region (reg0 m),
    .region (reg1 m) ]
theorem main_run (c : Dev nD) : main (F := F) c = Pipeline.Seg.run (segs m) := (main_chain c).trans (by chain_rfl)

set_option backward.isDefEq.respectTransparency.types false in
/-- From any memory with zero counters every weakly fair execution of the program terminates, nothing faulting, and
    every final state has every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h => h)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨
    (h c _ (mem_uc main_arg0 (by decide))).trans (W3_main_arg0 m c),
    (h c _ (mem_uc main_arg1 (by decide))).trans (W3_main_arg1 m c),
    (h c _ (mem_uc main_arg2 (by decide))).trans (W3_main_arg2 m c),
    (h c _ (mem_uc main_arg3 (by decide))).trans (W3_main_arg3 m c),
    (h c _ (mem_uc main_arg4 (by decide))).trans (W3_main_arg4 m c),
    (h c _ (mem_uc main_arg5 (by decide))).trans (W3_main_arg5 m c),
    (h c _ (mem_uc main_arg6 (by decide))).trans (W3_main_arg6 m c)⟩) (run_all m ρ)

end Cert.KernelIdeal.Hand

end
-- ==== Proof.LibDotTransposedRhs.lean ====
/-
  A two-dimensional matrix product whose right operand is contracted on its LAST axis — `M × K` by `N × K`, the product
  `A · Bᵀ`, no batch axis (`DotDims.transposedRhs M K N`, the dimension numbers `<[1], [1], [0], [0]>`) — read at an output
  index over the extended reals: a kernel's `tpu.matmul` into a zero accumulator is the finite sum
  `Σ_{k < K} lhs (r, k) · rhs (c, k)`, with the contraction index a plain `Fin K` and the operand indices built from
  coordinates. A printed record `dot_S…_1_1_0_0_n_n` of these dimension numbers IS `DotDims.transposedRhs M K N` (`rfl`: the
  lists coincide and the well-formedness field is a proposition).
-/
import Idealize.ShloMosaic.PureOps.Ideal.Laws
import Idealize.ShloMosaic.Lib.ValueIdx

namespace Idealize.ShloMosaic.DotTransposedRhs

open Idealize.ShloMosaic.ValueIdx

variable {M K N : Nat}

theorem contr_rank : (DotDims.transposedRhs M K N).contr.rank = 1 := rfl
theorem contr_size : (DotDims.transposedRhs M K N).contr.size ⟨0, by rw [contr_rank]; exact Nat.one_pos⟩ = K := rfl

/-- The left operand's row coordinate is the output's row. -/
theorem lhsIdx_val0 (j : (⟨2, ![M, N]⟩ : Shape).Idx) (q : (DotDims.transposedRhs M K N).contr.Idx) :
    ((DotDims.transposedRhs M K N).lhsIdx j q 0).val = (j 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl

/-- The left operand's column coordinate is the contraction position. -/
theorem lhsIdx_val1 (j : (⟨2, ![M, N]⟩ : Shape).Idx) (q : (DotDims.transposedRhs M K N).contr.Idx) :
    ((DotDims.transposedRhs M K N).lhsIdx j q 1).val = (q ⟨0, by rw [contr_rank]; exact Nat.one_pos⟩).val :=
  (DotDims.transposedRhs M K N).lhsIdx_val_of_single (cl := (1 : Fin 2)) rfl j q

/-- The right operand's row coordinate is the output's column. -/
theorem rhsIdx_val0 (j : (⟨2, ![M, N]⟩ : Shape).Idx) (q : (DotDims.transposedRhs M K N).contr.Idx) :
    ((DotDims.transposedRhs M K N).rhsIdx j q 0).val = (j 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl

/-- The right operand's column coordinate is the contraction position. -/
theorem rhsIdx_val1 (j : (⟨2, ![M, N]⟩ : Shape).Idx) (q : (DotDims.transposedRhs M K N).contr.Idx) :
    ((DotDims.transposedRhs M K N).rhsIdx j q 1).val = (q ⟨0, by rw [contr_rank]; exact Nat.one_pos⟩).val :=
  (DotDims.transposedRhs M K N).rhsIdx_val_of_single (cr := (1 : Fin 2)) rfl j q

/-- The left operand's index at output index `(r, c)` and contraction position `k` is `(r, k)`. -/
theorem lhsIdx_eq (r : Fin M) (c : Fin N) (k : Fin K) :
    (DotDims.transposedRhs M K N).lhsIdx (ix2 r c) ((contrEquiv1 (DotDims.transposedRhs M K N) K contr_rank contr_size).symm k)
      = ix2 r k := by
  have hk := contrEquiv1_symm_val (DotDims.transposedRhs M K N) K contr_rank contr_size k
  funext a
  apply Fin.ext
  match a with
  | ⟨0, _⟩ => exact lhsIdx_val0 (ix2 r c) _
  | ⟨1, _⟩ => exact (lhsIdx_val1 (ix2 r c) _).trans hk

/-- The right operand's index there is `(c, k)`. -/
theorem rhsIdx_eq (r : Fin M) (c : Fin N) (k : Fin K) :
    (DotDims.transposedRhs M K N).rhsIdx (ix2 r c) ((contrEquiv1 (DotDims.transposedRhs M K N) K contr_rank contr_size).symm k)
      = ix2 c k := by
  have hk := contrEquiv1_symm_val (DotDims.transposedRhs M K N) K contr_rank contr_size k
  funext a
  apply Fin.ext
  match a with
  | ⟨0, _⟩ => exact rhsIdx_val0 (ix2 r c) _
  | ⟨1, _⟩ => exact (rhsIdx_val1 (ix2 r c) _).trans hk

/-- A kernel's product `A · Bᵀ` into the zero accumulator, at `(r, c)`: the sum over the contracted coordinate of
    `A (r, k) · B (c, k)`. -/
theorem matmul_apply_ix2 {φ₁ φ₂ : FTy} (prec : Option ContractPrecision) (lhs : FVec Ideal ⟨2, ![M, K]⟩ φ₁)
    (rhs : FVec Ideal ⟨2, ![N, K]⟩ φ₂) (r : Fin M) (c : Fin N) :
    FloatOps.matmul (DotDims.transposedRhs M K N) prec lhs rhs (constant ⟨2, ![M, N]⟩ .f32 0x00000000#32) (ix2 r c)
      = ∑ k : Fin K, lhs (ix2 r k) * rhs (ix2 c k) := by
  rw [Ideal.matmul_constant_zero_apply,
    ← Equiv.sum_comp (contrEquiv1 (DotDims.transposedRhs M K N) K contr_rank contr_size).symm]
  refine Finset.sum_congr rfl fun k _ => ?_
  rw [lhsIdx_eq, rhsIdx_eq]

end Idealize.ShloMosaic.DotTransposedRhs
-- ==== Proof.KIRegion0Value.lean ====
/- REGION 0's values over the extended reals: each of the three output arrays, after the region's last grid point, is the
   projection x·Wᵀ + b of the whole activations array, element by element (`arr0_7`, `arr0_8`, `arr0_9`). First one
   projection of a row tile read at an index (the shape casts that drop and add the leading unit axis, the format
   changes — the identity on extended reals —, the matrix product contracting both operands' last axes into a zero
   accumulator, the broadcast bias row); then from blocks to the array: what a grid point writes back is its block of the
   whole-array projection, and every index lies in some point's block. -/
import proofs.«151727_j7834020348210_2_alg».proof.Proof.KIRegion0
import proofs.«151727_j7834020348210_2_alg».proof.Proof.LibDotTransposedRhs
import Idealize.ShloMosaic.Lib.ValueIdx
import Idealize.ShloMosaic.Lib.Pipeline.Value
import Idealize.ShloMosaic.PureOps.Ideal.Laws
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx
open scoped BigOperators

theorem offs3_zero : (![0, 0, 0] : Fin 3 → Nat) = fun _ => 0 := funext fun a => by fin_cases a <;> rfl
theorem offs2_zero : (![0, 0] : Fin 2 → Nat) = fun _ => 0 := funext fun a => by fin_cases a <;> rfl

/-- The row tile with its leading unit axis dropped, at row `r`, column `d`. -/
theorem pay2_apply (x : Vec Ideal S1x1024x256 .f32) (r : Fin 1024) (d : Fin 256) :
    k0_pay2 x (ix2 r d) = x (ix3 0 r d) := by
  unfold k0_pay2
  show shapeCast S1024x256 x _ (ix2 r d) = _
  rw [shapeCast_dropUnit_apply ![1024, 256] x _ (ix2 r d)]
  congr 1
  funext a
  match a with
  | ⟨0, _⟩ => rfl
  | ⟨1, _⟩ => rfl
  | ⟨2, _⟩ => rfl

/-- One projection of the row tile before narrowing, at row `r`, column `e`: the sum over the contracted coordinate of the
    tile's row times the weight matrix's row `e`, plus the bias row's entry `e`. -/
theorem proj_apply (x : Vec Ideal S1x1024x256 .f32) (w : Vec Ideal S256x256 .f32) (b : Vec Ideal S1x256 .f32) (r : Fin 1024) (e : Fin 256) :
    (addf (matmul dot_S1024x256_S256x256_S1024x256_1_1_0_0_n_n none (k0_pay2 x) (truncf .bf16 w bitsLt_bf16_f32) (constant S1024x256 .f32 0x00000000#32))
      (broadcastTo S1024x256 (shapeCast S1x256 b shapeCasts_S1x256_S1x256) broadcasts_S1x256_S1024x256) : FVec Ideal S1024x256 .f32) (ix2 r e)
      = (∑ d : Fin 256, (x (ix3 0 r d) : EReal) * (w (ix2 e d) : EReal)) + (b (ix2 0 e) : EReal) := by
  rw [addf_apply]
  congr 1
  · show FloatOps.matmul (DotDims.transposedRhs 1024 256 256) none (k0_pay2 x) (truncf .bf16 w bitsLt_bf16_f32) (constant ⟨2, ![1024, 256]⟩ .f32 0x00000000#32) (ix2 r e) = _
    rw [DotTransposedRhs.matmul_apply_ix2]
    refine Finset.sum_congr rfl fun d _ => ?_
    rw [pay2_apply]
    rfl
  · rw [shapeCast_self]
    refine broadcastTo_apply b _ (ix2 r e) (ix2 0 e) fun a => ?_
    match a with
    | ⟨0, _⟩ => rfl
    | ⟨1, _⟩ => rfl

/-- A stored block of a projection: the projection with the leading unit axis added, narrowed. -/
theorem store_apply (v : FVec Ideal S1024x256 .f32) (j0 : Fin 1) (r : Fin 1024) (e : Fin 256) :
    (shapeCast S1x1024x256 (truncf .bf16 v bitsLt_bf16_f32) shapeCasts_S1024x256_S1x1024x256 : FVec Ideal S1x1024x256 .bf16) (ix3 j0 r e) = v (ix2 r e) := by
  rw [shapeCast_addUnit_apply ![1024, 256] (truncf .bf16 v bitsLt_bf16_f32) _ (ix3 j0 r e)]
  show v _ = v _
  congr 1
  funext a
  match a with
  | ⟨0, _⟩ => rfl
  | ⟨1, _⟩ => rfl

theorem pay4_apply (x : Vec Ideal S1x1024x256 .f32) (w : Vec Ideal S256x256 .f32) (b : Vec Ideal S1x256 .f32) (j0 : Fin 1) (r : Fin 1024) (e : Fin 256) :
    k0_pay4 x w b (ix3 j0 r e) = (∑ d : Fin 256, (x (ix3 0 r d) : EReal) * (w (ix2 e d) : EReal)) + (b (ix2 0 e) : EReal) := by
  unfold k0_pay4
  exact (store_apply _ j0 r e).trans (proj_apply x w b r e)

theorem pay5_apply (x : Vec Ideal S1x1024x256 .f32) (w : Vec Ideal S256x256 .f32) (b : Vec Ideal S1x256 .f32) (j0 : Fin 1) (r : Fin 1024) (e : Fin 256) :
    k0_pay5 x w b (ix3 j0 r e) = (∑ d : Fin 256, (x (ix3 0 r d) : EReal) * (w (ix2 e d) : EReal)) + (b (ix2 0 e) : EReal) := by
  unfold k0_pay5
  exact (store_apply _ j0 r e).trans (proj_apply x w b r e)

theorem pay13_apply (x : Vec Ideal S1x1024x256 .f32) (w : Vec Ideal S256x256 .f32) (b : Vec Ideal S1x256 .f32) (j0 : Fin 1) (r : Fin 1024) (e : Fin 256) :
    k0_pay1 (k0_pay3 x w b) (ix3 j0 r e) = (∑ d : Fin 256, (x (ix3 0 r d) : EReal) * (w (ix2 e d) : EReal)) + (b (ix2 0 e) : EReal) := by
  unfold k0_pay1 k0_pay3
  exact (store_apply _ j0 r e).trans (proj_apply x w b r e)

/-- The printed index maps, decided over the grid. -/
theorem idx_facts0 : ∀ t : Fin cfg0.N,
    (win0_0.index t (0 : Fin 3) = t.val / 4 ∧ win0_0.index t (1 : Fin 3) = t.val % 4 ∧ win0_0.index t (2 : Fin 3) = 0)
    ∧ (win0_7.index t (0 : Fin 3) = t.val / 4 ∧ win0_7.index t (1 : Fin 3) = t.val % 4 ∧ win0_7.index t (2 : Fin 3) = 0)
    ∧ (win0_8.index t (0 : Fin 3) = t.val / 4 ∧ win0_8.index t (1 : Fin 3) = t.val % 4 ∧ win0_8.index t (2 : Fin 3) = 0)
    ∧ (win0_9.index t (0 : Fin 3) = t.val / 4 ∧ win0_9.index t (1 : Fin 3) = t.val % 4 ∧ win0_9.index t (2 : Fin 3) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0) :=
  (by decide +kernel : ∀ t : Fin grid0.N, _)

/-- One projection of the whole activations array: at batch `i 0`, row `i 1`, column `i 2`, the sum over the contracted
    coordinate of the activations' row times the weight matrix's row `i 2`, plus the bias row's entry `i 2`. -/
def projArr (X : S4x4096x256.Idx → EReal) (W : S256x256.Idx → EReal) (B : S1x256.Idx → EReal) : S4x4096x256.Idx → EReal :=
  fun i => (∑ d : Fin 256, X (ix3 (n0 := 4) (n1 := 4096) (n2 := 256) (i 0) (i 1) d) * W (ix2 (n0 := 256) (n1 := 256) (i 2) d)) + B (ix2 (n0 := 1) (n1 := 256) 0 (i 2))

/-- The projection at batch `b`, row `s`, column `e`. -/
theorem projArr_apply (X : S4x4096x256.Idx → EReal) (W : S256x256.Idx → EReal) (B : S1x256.Idx → EReal) (b : Fin 4) (s : Fin 4096) (e : Fin 256) :
    projArr X W B (ix3 b s e) = (∑ d : Fin 256, X (ix3 b s d) * W (ix2 e d)) + B (ix2 0 e) := rfl

variable (V : (c : Dev nD) → (b : Ref sig .tc) → Buf (Elt Ideal) ((c : Thread nD τ).loc b))

/-! ## Output window 7: the first projection -/

/-- WHAT POINT `t` WRITES BACK of window 7 is block `t` of the first projection of the arrays as the region finds them. -/
theorem flushed0_7_eq (c : Dev nD) (t : Fin cfg0.N) :
    (dat0 (F := Ideal) V c).flushed 7 t = ((cfg0.win 7).blk t).view.read (Elt Ideal) (projArr (V c main_arg0) (V c main_arg1) (V c main_v0)) := by
  show (cfg0.win 7).cut (grid0.coords t) ((dat0 V c).after 7 t) = _
  rw [after0_7]
  unfold out0_7
  rw [View.canon_unit_zero offs3_zero]
  simp only [View.ld_unit_zero (S := S1x1024x256) offs3_zero, View.ld_unit_zero (S := S256x256) offs2_zero, View.ld_unit_zero (S := S1x256) offs2_zero]
  obtain ⟨⟨a0, a1, a2⟩, ⟨o0, o1, o2⟩, -, -, ⟨w0, w1⟩, -, -, ⟨b0, b1⟩, -, -⟩ := idx_facts0 t
  funext j
  obtain ⟨j0, r, e, rfl⟩ : ∃ (j0 : Fin 1) (r : Fin 1024) (e : Fin 256), j = ix3 j0 r e := ⟨j 0, j 1, j 2, eq_ix3 j⟩
  refine (pay4_apply _ _ _ j0 r e).trans ?_
  show _ = projArr (V c main_arg0) (V c main_arg1) (V c main_v0) (((cfg0.win 7).blk t).view.emb (ix3 j0 r e))
  unfold projArr
  have hj0 : j0.val = 0 := by omega
  congr 1
  · refine Finset.sum_congr rfl fun d _ => ?_
    congr 1
    · show V c main_arg0 (((cfg0.win 0).blk t).view.emb (ix3 0 r d)) = V c main_arg0 _
      congr 1
      funext a; apply Fin.ext
      match a with
      | ⟨0, _⟩ => show win0_0.index t (0 : Fin 3) * 1 + 1 * 0 = win0_7.index t (0 : Fin 3) * 1 + 1 * j0.val; omega
      | ⟨1, _⟩ => show win0_0.index t (1 : Fin 3) * 1024 + 1 * r.val = win0_7.index t (1 : Fin 3) * 1024 + 1 * r.val; omega
      | ⟨2, _⟩ => show win0_0.index t (2 : Fin 3) * 256 + 1 * d.val = d.val; omega
    · show V c main_arg1 (((cfg0.win 1).blk t).view.emb (ix2 e d)) = V c main_arg1 _
      congr 1
      funext a; apply Fin.ext
      match a with
      | ⟨0, _⟩ => show win0_1.index t (0 : Fin 2) * 256 + 1 * e.val = win0_7.index t (2 : Fin 3) * 256 + 1 * e.val; omega
      | ⟨1, _⟩ => show win0_1.index t (1 : Fin 2) * 256 + 1 * d.val = d.val; omega
  · show V c main_v0 (((cfg0.win 4).blk t).view.emb (ix2 0 e)) = V c main_v0 _
    congr 1
    funext a; apply Fin.ext
    match a with
    | ⟨0, _⟩ => show win0_4.index t (0 : Fin 2) * 1 + 1 * 0 = 0; omega
    | ⟨1, _⟩ => show win0_4.index t (1 : Fin 2) * 256 + 1 * e.val = win0_7.index t (2 : Fin 3) * 256 + 1 * e.val; omega

/-- An index of the array is in point `t`'s block iff each coordinate is in the block's range on its axis. -/
theorem mem_blk0_7 (t : Fin cfg0.N) (i : S4x4096x256.Idx) :
    i ∈ ((cfg0.win 7).blk t).view.set ↔ ∀ a : Fin 3, win0_7.index t a * S1x1024x256.size a ≤ (i a).val ∧ (i a).val < win0_7.index t a * S1x1024x256.size a + S1x1024x256.size a := by
  show i ∈ ((View.whole main_v3_0).slice (win0_7.rect t)).set ↔ _
  rw [View.set_slice_whole, Rect.mem_set_unit]
  exact Iff.rfl

/-- Every index of the array is in the block some point writes back: batch `b`, row `s` is in the block of the point
    `4 b + s / 1024`. -/
theorem covered0_7 (i : S4x4096x256.Idx) : ∃ t : Fin cfg0.N, (cfg0.win 7).flush t = true ∧ i ∈ ((cfg0.win 7).blk t).view.set := by
  have h0 : (i 0).val < 4 := (i 0).isLt
  have h1 : (i 1).val < 4096 := (i 1).isLt
  have h2 : (i 2).val < 256 := (i 2).isLt
  obtain ⟨t, ht⟩ : ∃ t : Fin cfg0.N, t.val = 4 * (i 0).val + (i 1).val / 1024 :=
    ⟨⟨4 * (i 0).val + (i 1).val / 1024, Nat.lt_of_lt_of_eq (by omega) N_0.symm⟩, rfl⟩
  refine ⟨t, flush0_7 t, ?_⟩
  rw [mem_blk0_7]
  obtain ⟨-, ⟨o0, o1, o2⟩, -⟩ := idx_facts0 t
  intro a
  match a with
  | ⟨0, _⟩ => show win0_7.index t (0 : Fin 3) * 1 ≤ (i 0).val ∧ (i 0).val < win0_7.index t (0 : Fin 3) * 1 + 1; omega
  | ⟨1, _⟩ => show win0_7.index t (1 : Fin 3) * 1024 ≤ (i 1).val ∧ (i 1).val < win0_7.index t (1 : Fin 3) * 1024 + 1024; omega
  | ⟨2, _⟩ => show win0_7.index t (2 : Fin 3) * 256 ≤ (i 2).val ∧ (i 2).val < win0_7.index t (2 : Fin 3) * 256 + 256; omega

/-- THE ARRAY of window 7 after the region's last point: the first projection of the arrays as the region finds them. -/
theorem final0_7 (c : Dev nD) : (dat0 (F := Ideal) V c).arrAt 7 cfg0.N = (projArr (V c main_arg0) (V c main_arg1) (V c main_v0)) :=
  (dat0 V c).arrAt_eq_of_cover 7 (projArr (V c main_arg0) (V c main_arg1) (V c main_v0)) (fun t _ => flushed0_7_eq V c t) covered0_7

/-- Element by element: at batch `b`, row `s`, column `e`. -/
theorem arr0_7 (c : Dev nD) (b : Fin 4) (s : Fin 4096) (e : Fin 256) :
    ((dat0 (F := Ideal) V c).arrAt 7 cfg0.N (ix3 b s e) : EReal)
      = @HAdd.hAdd EReal EReal EReal _
          (∑ d : Fin 256, @HMul.hMul EReal EReal EReal _ (V c main_arg0 (ix3 b s d)) (V c main_arg1 (ix2 e d)))
          (V c main_v0 (ix2 0 e)) := by
  rw [final0_7]
  rfl

/-! ## Output window 8: the second projection -/

/-- WHAT POINT `t` WRITES BACK of window 8 is block `t` of the second projection of the arrays as the region finds them. -/
theorem flushed0_8_eq (c : Dev nD) (t : Fin cfg0.N) :
    (dat0 (F := Ideal) V c).flushed 8 t = ((cfg0.win 8).blk t).view.read (Elt Ideal) (projArr (V c main_arg0) (V c main_arg3) (V c main_v1)) := by
  show (cfg0.win 8).cut (grid0.coords t) ((dat0 V c).after 8 t) = _
  rw [after0_8]
  unfold out0_8
  rw [View.canon_unit_zero offs3_zero]
  simp only [View.ld_unit_zero (S := S1x1024x256) offs3_zero, View.ld_unit_zero (S := S256x256) offs2_zero, View.ld_unit_zero (S := S1x256) offs2_zero]
  obtain ⟨⟨a0, a1, a2⟩, -, ⟨o0, o1, o2⟩, -, -, ⟨w0, w1⟩, -, -, ⟨b0, b1⟩, -⟩ := idx_facts0 t
  funext j
  obtain ⟨j0, r, e, rfl⟩ : ∃ (j0 : Fin 1) (r : Fin 1024) (e : Fin 256), j = ix3 j0 r e := ⟨j 0, j 1, j 2, eq_ix3 j⟩
  refine (pay5_apply _ _ _ j0 r e).trans ?_
  show _ = projArr (V c main_arg0) (V c main_arg3) (V c main_v1) (((cfg0.win 8).blk t).view.emb (ix3 j0 r e))
  unfold projArr
  have hj0 : j0.val = 0 := by omega
  congr 1
  · refine Finset.sum_congr rfl fun d _ => ?_
    congr 1
    · show V c main_arg0 (((cfg0.win 0).blk t).view.emb (ix3 0 r d)) = V c main_arg0 _
      congr 1
      funext a; apply Fin.ext
      match a with
      | ⟨0, _⟩ => show win0_0.index t (0 : Fin 3) * 1 + 1 * 0 = win0_8.index t (0 : Fin 3) * 1 + 1 * j0.val; omega
      | ⟨1, _⟩ => show win0_0.index t (1 : Fin 3) * 1024 + 1 * r.val = win0_8.index t (1 : Fin 3) * 1024 + 1 * r.val; omega
      | ⟨2, _⟩ => show win0_0.index t (2 : Fin 3) * 256 + 1 * d.val = d.val; omega
    · show V c main_arg3 (((cfg0.win 2).blk t).view.emb (ix2 e d)) = V c main_arg3 _
      congr 1
      funext a; apply Fin.ext
      match a with
      | ⟨0, _⟩ => show win0_2.index t (0 : Fin 2) * 256 + 1 * e.val = win0_8.index t (2 : Fin 3) * 256 + 1 * e.val; omega
      | ⟨1, _⟩ => show win0_2.index t (1 : Fin 2) * 256 + 1 * d.val = d.val; omega
  · show V c main_v1 (((cfg0.win 5).blk t).view.emb (ix2 0 e)) = V c main_v1 _
    congr 1
    funext a; apply Fin.ext
    match a with
    | ⟨0, _⟩ => show win0_5.index t (0 : Fin 2) * 1 + 1 * 0 = 0; omega
    | ⟨1, _⟩ => show win0_5.index t (1 : Fin 2) * 256 + 1 * e.val = win0_8.index t (2 : Fin 3) * 256 + 1 * e.val; omega

/-- An index of the array is in point `t`'s block iff each coordinate is in the block's range on its axis. -/
theorem mem_blk0_8 (t : Fin cfg0.N) (i : S4x4096x256.Idx) :
    i ∈ ((cfg0.win 8).blk t).view.set ↔ ∀ a : Fin 3, win0_8.index t a * S1x1024x256.size a ≤ (i a).val ∧ (i a).val < win0_8.index t a * S1x1024x256.size a + S1x1024x256.size a := by
  show i ∈ ((View.whole main_v3_1).slice (win0_8.rect t)).set ↔ _
  rw [View.set_slice_whole, Rect.mem_set_unit]
  exact Iff.rfl

/-- Every index of the array is in the block some point writes back: batch `b`, row `s` is in the block of the point
    `4 b + s / 1024`. -/
theorem covered0_8 (i : S4x4096x256.Idx) : ∃ t : Fin cfg0.N, (cfg0.win 8).flush t = true ∧ i ∈ ((cfg0.win 8).blk t).view.set := by
  have h0 : (i 0).val < 4 := (i 0).isLt
  have h1 : (i 1).val < 4096 := (i 1).isLt
  have h2 : (i 2).val < 256 := (i 2).isLt
  obtain ⟨t, ht⟩ : ∃ t : Fin cfg0.N, t.val = 4 * (i 0).val + (i 1).val / 1024 :=
    ⟨⟨4 * (i 0).val + (i 1).val / 1024, Nat.lt_of_lt_of_eq (by omega) N_0.symm⟩, rfl⟩
  refine ⟨t, flush0_8 t, ?_⟩
  rw [mem_blk0_8]
  obtain ⟨-, -, ⟨o0, o1, o2⟩, -⟩ := idx_facts0 t
  intro a
  match a with
  | ⟨0, _⟩ => show win0_8.index t (0 : Fin 3) * 1 ≤ (i 0).val ∧ (i 0).val < win0_8.index t (0 : Fin 3) * 1 + 1; omega
  | ⟨1, _⟩ => show win0_8.index t (1 : Fin 3) * 1024 ≤ (i 1).val ∧ (i 1).val < win0_8.index t (1 : Fin 3) * 1024 + 1024; omega
  | ⟨2, _⟩ => show win0_8.index t (2 : Fin 3) * 256 ≤ (i 2).val ∧ (i 2).val < win0_8.index t (2 : Fin 3) * 256 + 256; omega

/-- THE ARRAY of window 8 after the region's last point: the second projection of the arrays as the region finds them. -/
theorem final0_8 (c : Dev nD) : (dat0 (F := Ideal) V c).arrAt 8 cfg0.N = (projArr (V c main_arg0) (V c main_arg3) (V c main_v1)) :=
  (dat0 V c).arrAt_eq_of_cover 8 (projArr (V c main_arg0) (V c main_arg3) (V c main_v1)) (fun t _ => flushed0_8_eq V c t) covered0_8

/-- Element by element: at batch `b`, row `s`, column `e`. -/
theorem arr0_8 (c : Dev nD) (b : Fin 4) (s : Fin 4096) (e : Fin 256) :
    ((dat0 (F := Ideal) V c).arrAt 8 cfg0.N (ix3 b s e) : EReal)
      = @HAdd.hAdd EReal EReal EReal _
          (∑ d : Fin 256, @HMul.hMul EReal EReal EReal _ (V c main_arg0 (ix3 b s d)) (V c main_arg3 (ix2 e d)))
          (V c main_v1 (ix2 0 e)) := by
  rw [final0_8]
  rfl

/-! ## Output window 9: the third projection -/

/-- WHAT POINT `t` WRITES BACK of window 9 is block `t` of the third projection of the arrays as the region finds them. -/
theorem flushed0_9_eq (c : Dev nD) (t : Fin cfg0.N) :
    (dat0 (F := Ideal) V c).flushed 9 t = ((cfg0.win 9).blk t).view.read (Elt Ideal) (projArr (V c main_arg0) (V c main_arg5) (V c main_v2)) := by
  show (cfg0.win 9).cut (grid0.coords t) ((dat0 V c).after 9 t) = _
  rw [after0_9]
  unfold out0_9
  rw [View.canon_unit_zero offs3_zero]
  simp only [View.ld_unit_zero (S := S1x1024x256) offs3_zero, View.ld_unit_zero (S := S256x256) offs2_zero, View.ld_unit_zero (S := S1x256) offs2_zero]
  obtain ⟨⟨a0, a1, a2⟩, -, -, ⟨o0, o1, o2⟩, -, -, ⟨w0, w1⟩, -, -, ⟨b0, b1⟩⟩ := idx_facts0 t
  funext j
  obtain ⟨j0, r, e, rfl⟩ : ∃ (j0 : Fin 1) (r : Fin 1024) (e : Fin 256), j = ix3 j0 r e := ⟨j 0, j 1, j 2, eq_ix3 j⟩
  refine (pay13_apply _ _ _ j0 r e).trans ?_
  show _ = projArr (V c main_arg0) (V c main_arg5) (V c main_v2) (((cfg0.win 9).blk t).view.emb (ix3 j0 r e))
  unfold projArr
  have hj0 : j0.val = 0 := by omega
  congr 1
  · refine Finset.sum_congr rfl fun d _ => ?_
    congr 1
    · show V c main_arg0 (((cfg0.win 0).blk t).view.emb (ix3 0 r d)) = V c main_arg0 _
      congr 1
      funext a; apply Fin.ext
      match a with
      | ⟨0, _⟩ => show win0_0.index t (0 : Fin 3) * 1 + 1 * 0 = win0_9.index t (0 : Fin 3) * 1 + 1 * j0.val; omega
      | ⟨1, _⟩ => show win0_0.index t (1 : Fin 3) * 1024 + 1 * r.val = win0_9.index t (1 : Fin 3) * 1024 + 1 * r.val; omega
      | ⟨2, _⟩ => show win0_0.index t (2 : Fin 3) * 256 + 1 * d.val = d.val; omega
    · show V c main_arg5 (((cfg0.win 3).blk t).view.emb (ix2 e d)) = V c main_arg5 _
      congr 1
      funext a; apply Fin.ext
      match a with
      | ⟨0, _⟩ => show win0_3.index t (0 : Fin 2) * 256 + 1 * e.val = win0_9.index t (2 : Fin 3) * 256 + 1 * e.val; omega
      | ⟨1, _⟩ => show win0_3.index t (1 : Fin 2) * 256 + 1 * d.val = d.val; omega
  · show V c main_v2 (((cfg0.win 6).blk t).view.emb (ix2 0 e)) = V c main_v2 _
    congr 1
    funext a; apply Fin.ext
    match a with
    | ⟨0, _⟩ => show win0_6.index t (0 : Fin 2) * 1 + 1 * 0 = 0; omega
    | ⟨1, _⟩ => show win0_6.index t (1 : Fin 2) * 256 + 1 * e.val = win0_9.index t (2 : Fin 3) * 256 + 1 * e.val; omega

/-- An index of the array is in point `t`'s block iff each coordinate is in the block's range on its axis. -/
theorem mem_blk0_9 (t : Fin cfg0.N) (i : S4x4096x256.Idx) :
    i ∈ ((cfg0.win 9).blk t).view.set ↔ ∀ a : Fin 3, win0_9.index t a * S1x1024x256.size a ≤ (i a).val ∧ (i a).val < win0_9.index t a * S1x1024x256.size a + S1x1024x256.size a := by
  show i ∈ ((View.whole main_v3_2).slice (win0_9.rect t)).set ↔ _
  rw [View.set_slice_whole, Rect.mem_set_unit]
  exact Iff.rfl

/-- Every index of the array is in the block some point writes back: batch `b`, row `s` is in the block of the point
    `4 b + s / 1024`. -/
theorem covered0_9 (i : S4x4096x256.Idx) : ∃ t : Fin cfg0.N, (cfg0.win 9).flush t = true ∧ i ∈ ((cfg0.win 9).blk t).view.set := by
  have h0 : (i 0).val < 4 := (i 0).isLt
  have h1 : (i 1).val < 4096 := (i 1).isLt
  have h2 : (i 2).val < 256 := (i 2).isLt
  obtain ⟨t, ht⟩ : ∃ t : Fin cfg0.N, t.val = 4 * (i 0).val + (i 1).val / 1024 :=
    ⟨⟨4 * (i 0).val + (i 1).val / 1024, Nat.lt_of_lt_of_eq (by omega) N_0.symm⟩, rfl⟩
  refine ⟨t, flush0_9 t, ?_⟩
  rw [mem_blk0_9]
  obtain ⟨-, -, -, ⟨o0, o1, o2⟩, -⟩ := idx_facts0 t
  intro a
  match a with
  | ⟨0, _⟩ => show win0_9.index t (0 : Fin 3) * 1 ≤ (i 0).val ∧ (i 0).val < win0_9.index t (0 : Fin 3) * 1 + 1; omega
  | ⟨1, _⟩ => show win0_9.index t (1 : Fin 3) * 1024 ≤ (i 1).val ∧ (i 1).val < win0_9.index t (1 : Fin 3) * 1024 + 1024; omega
  | ⟨2, _⟩ => show win0_9.index t (2 : Fin 3) * 256 ≤ (i 2).val ∧ (i 2).val < win0_9.index t (2 : Fin 3) * 256 + 256; omega

/-- THE ARRAY of window 9 after the region's last point: the third projection of the arrays as the region finds them. -/
theorem final0_9 (c : Dev nD) : (dat0 (F := Ideal) V c).arrAt 9 cfg0.N = (projArr (V c main_arg0) (V c main_arg5) (V c main_v2)) :=
  (dat0 V c).arrAt_eq_of_cover 9 (projArr (V c main_arg0) (V c main_arg5) (V c main_v2)) (fun t _ => flushed0_9_eq V c t) covered0_9

/-- Element by element: at batch `b`, row `s`, column `e`. -/
theorem arr0_9 (c : Dev nD) (b : Fin 4) (s : Fin 4096) (e : Fin 256) :
    ((dat0 (F := Ideal) V c).arrAt 9 cfg0.N (ix3 b s e) : EReal)
      = @HAdd.hAdd EReal EReal EReal _
          (∑ d : Fin 256, @HMul.hMul EReal EReal EReal _ (V c main_arg0 (ix3 b s d)) (V c main_arg5 (ix2 e d)))
          (V c main_v2 (ix2 0 e)) := by
  rw [final0_9]
  rfl

end Cert.KernelIdeal.Hand

end
-- ==== Proof.Spec.lean ====
/-
  The specification of causal single-head attention over f32[4, 4096, 256] with three linear projections, as a
  function on extended reals: q, k, v = x · Wᵀ + b; scores q·kᵀ scaled by the f32 word 0x3D800000 (1/16), −∞ strictly
  above the diagonal; a row softmax written with the row maximum subtracted; the result the softmax-weighted sum of v.
-/
import Idealize.ShloMosaic.PureOps.Ideal
import Idealize.ShloMosaic.Lib.ValueIdx

noncomputable section

open scoped BigOperators

namespace Cert.Spec

open Idealize.ShloMosaic Idealize.ShloMosaic.ValueIdx

/-- Arrays of extended reals over the three literal shapes. -/
abbrev X := (⟨3, ![4, 4096, 256]⟩ : Shape).Idx → EReal
abbrev Wm := (⟨2, ![256, 256]⟩ : Shape).Idx → EReal
abbrev Bv := (⟨1, ![256]⟩ : Shape).Idx → EReal

/-- A linear layer: (x · Wᵀ + bias)[b, s, e] = Σ_d x[b, s, d] · W[e, d] + bias[e]. -/
def lin (x : X) (W : Wm) (bias : Bv) (b : Fin 4) (s : Fin 4096) (e : Fin 256) : EReal :=
  (∑ d : Fin 256, x (ix3 b s d) * W (ix2 e d)) + bias (ix1 e)

/-- The scaled score of query row i against key row j, −∞ strictly above the diagonal. -/
def logit (q k : Fin 4 → Fin 4096 → Fin 256 → EReal) (b : Fin 4) (i j : Fin 4096) : EReal :=
  if j.val ≤ i.val then (∑ d : Fin 256, q b i d * k b j d) * Ideal.ofBits .f32 0x3D800000#32 else ⊥

/-- The maximum of a row (from −∞). -/
def rowMax (z : Fin 4096 → EReal) : EReal := max ⊥ ((Finset.univ : Finset (Fin 4096)).fold max ⊥ z)

/-- The softmax of a row at j, with the row maximum subtracted before exponentiating. -/
def attn (z : Fin 4096 → EReal) (j : Fin 4096) : EReal :=
  Ideal.div (Ideal.exp (z j - rowMax z)) (0 + ∑ j' : Fin 4096, Ideal.exp (z j' - rowMax z))

/-- The attention output: the softmax-weighted sum of the value rows. -/
def out (q k v : Fin 4 → Fin 4096 → Fin 256 → EReal) (b : Fin 4) (i : Fin 4096) (d : Fin 256) : EReal :=
  ∑ j : Fin 4096, attn (logit q k b i) j * v b j d

/-- The whole function of the seven argument arrays. -/
def G (x : X) (Wq : Wm) (bq : Bv) (Wk : Wm) (bk : Bv) (Wv : Wm) (bv : Bv) : X :=
  fun idx => out (lin x Wq bq) (lin x Wk bk) (lin x Wv bv) (idx 0) (idx 1) (idx 2)

/-- `G` at an index given by its coordinates. -/
theorem G_ix3 (x : X) (Wq : Wm) (bq : Bv) (Wk : Wm) (bk : Bv) (Wv : Wm) (bv : Bv) (b : Fin 4) (i : Fin 4096) (d : Fin 256) :
    G x Wq bq Wk bk Wv bv (ix3 b i d) = out (lin x Wq bq) (lin x Wk bk) (lin x Wv bv) b i d := rfl

end Cert.Spec

end
-- ==== Proof.LibERealSum.lean ====
/-
  Finite sums of products on the extended reals, when every entry is a real number.

  The coercion of ℝ into the extended reals commutes with finite sums (by induction on the index set: it commutes with the
  sum of two reals and sends 0 to 0), and with products. So an identity between finite sums of products of reals holds on
  the extended reals as soon as every entry involved is the image of a real: a common real factor q of the second operands
  moves out of the sum, Σ_k a_k · (b_k · q) = q · Σ_k a_k · b_k. Without that hypothesis the identity fails: with q = ⊤, one
  b_k · a_k positive and another negative, the left side adds ⊤ and ⊥ while the right side multiplies ⊤ by a real.
-/
import Idealize.ShloMosaic.PureOps.Ideal

open scoped BigOperators

namespace Idealize.ShloMosaic.ERealSum

/-- The coercion of the reals into the extended reals commutes with finite sums. -/
theorem coe_finset_sum {ι : Type*} (s : Finset ι) (f : ι → ℝ) :
    ((∑ k ∈ s, f k : ℝ) : EReal) = ∑ k ∈ s, ((f k : ℝ) : EReal) := by
  classical
  induction s using Finset.induction_on with
  | empty => simp
  | insert a s ha ih => rw [Finset.sum_insert ha, Finset.sum_insert ha, EReal.coe_add, ih]

/-- A common real factor of the second operands moves out of a finite sum of products of reals. -/
theorem sum_mul_scaled {ι : Type*} [Fintype ι] (a b : ι → EReal) (q : EReal)
    (ha : ∀ k, ∃ r : ℝ, a k = r) (hb : ∀ k, ∃ r : ℝ, b k = r) (hq : ∃ r : ℝ, q = r) :
    ∑ k, a k * (b k * q) = q * ∑ k, a k * b k := by
  choose a' ha using ha
  choose b' hb using hb
  obtain ⟨q', rfl⟩ := hq
  simp only [ha, hb, ← EReal.coe_mul, ← coe_finset_sum]
  congr 1
  rw [Finset.mul_sum]
  exact Finset.sum_congr rfl fun k _ => by ring

end Idealize.ShloMosaic.ERealSum
-- ==== Proof.LibOnlineLse.lean ====
/-
  The online computation of a row's log-sum-exp, tile by tile, on the extended reals.

  A row of logits is walked in tiles of B columns. Two running quantities are kept: the maximum m of the
  entries seen so far (−∞ before the first tile) and the sum l of exp(x − m) over the entries seen so far
  (0 before the first tile). A tile with entries s_0, …, s_{B−1} and maximum c updates them to

      m' = max m c,      l' = exp(m − m') · l + Σ_j exp(s_j − m').

  When every entry is a real number the pair after k ≥ 1 tiles is exactly (M, Σ exp(x − M)), the sums over
  all the entries seen and M their maximum: exp(m − m') · exp(x − m) = exp(x − m') for real x, m, m', and a
  real factor distributes over a finite sum of reals. On the first tile the old maximum is −∞, exp(−∞) = 0
  and the old sum is 0, so the rescaled old sum contributes 0. Both laws used (the exponential of a sum, and
  distributivity) fail at the infinities, which is why the entries are taken real.
-/
import Idealize.ShloMosaic.PureOps.Ideal
import proofs.«151727_j7834020348210_2_alg».proof.Proof.LibERealSum

open scoped BigOperators

namespace Idealize.ShloMosaic.OnlineLse

/-- One tile's update of the running pair (maximum, shifted sum of exponentials): with c the maximum of the
    tile's entries (the fold of max from −∞), the new maximum is m' = max m c and the new sum is
    exp(m − m') · l + Σ_j exp(s_j − m'). -/
noncomputable def step {B : ℕ} (st : EReal × EReal) (s : Fin B → EReal) : EReal × EReal :=
  (max st.1 ((Finset.univ : Finset (Fin B)).fold max ⊥ s),
   Ideal.exp (st.1 - max st.1 ((Finset.univ : Finset (Fin B)).fold max ⊥ s)) * st.2
     + ∑ j, Ideal.exp (s j - max st.1 ((Finset.univ : Finset (Fin B)).fold max ⊥ s)))

/-- The running pair after the first k tiles, from (−∞, 0): tile t has the entries s t 0, …, s t (B−1). -/
noncomputable def run {B : ℕ} (s : ℕ → Fin B → EReal) : ℕ → EReal × EReal
  | 0 => (⊥, 0)
  | k + 1 => step (run s k) (s k)

/-- The coercion of the reals into the extended reals commutes with the maximum of two (it is monotone). -/
theorem coe_max (a b : ℝ) : ((max a b : ℝ) : EReal) = max ((a : ℝ) : EReal) ((b : ℝ) : EReal) :=
  EReal.coe_strictMono.monotone.map_max

/-- A real upper bound of a family of reals that one member attains is the fold of max from −∞ over the
    family: the fold is below every upper bound of the members and of −∞, and above every member. -/
theorem fold_max_coe_eq {n : ℕ} (L : Fin n → ℝ) (M : ℝ) (hle : ∀ j, L j ≤ M) (hat : ∃ j, L j = M) :
    (Finset.univ : Finset (Fin n)).fold max ⊥ (fun j => ((L j : ℝ) : EReal)) = ((M : ℝ) : EReal) := by
  obtain ⟨j, hj⟩ := hat
  apply le_antisymm
  · exact (Finset.fold_max_le _).mpr ⟨bot_le, fun x _ => EReal.coe_le_coe_iff.mpr (hle x)⟩
  · exact (Finset.le_fold_max _).mpr (Or.inr ⟨j, Finset.mem_univ j, by rw [hj]⟩)

/-- The fold of max from −∞ over a nonempty finite family of reals is a real: the greatest member, an upper
    bound of the family that one member attains. -/
theorem fold_max_coe {n : ℕ} (hn : 0 < n) (L : Fin n → ℝ) :
    ∃ M : ℝ, (∀ j, L j ≤ M) ∧ (∃ j, L j = M)
      ∧ (Finset.univ : Finset (Fin n)).fold max ⊥ (fun j => ((L j : ℝ) : EReal)) = ((M : ℝ) : EReal) := by
  have hne : (Finset.univ : Finset (Fin n)).Nonempty := ⟨⟨0, hn⟩, Finset.mem_univ _⟩
  obtain ⟨j, _, hj⟩ := Finset.exists_mem_eq_sup' hne L
  have hle : ∀ i, L i ≤ Finset.univ.sup' hne L := fun i => Finset.le_sup' L (Finset.mem_univ i)
  exact ⟨_, hle, ⟨j, hj.symm⟩, fold_max_coe_eq L _ hle ⟨j, hj.symm⟩⟩

/-- A finite sum of exponentials of differences of reals, computed on the extended reals, is the coerced
    real sum: the difference of two reals is real, its exponential is the real exponential, and the coercion
    commutes with finite sums. -/
theorem sum_exp_coe {ι : Type*} [Fintype ι] (f : ι → ℝ) (M : ℝ) :
    ∑ j, Ideal.exp (((f j : ℝ) : EReal) - ((M : ℝ) : EReal)) = ((∑ j, Real.exp (f j - M) : ℝ) : EReal) := by
  rw [ERealSum.coe_finset_sum]
  exact Finset.sum_congr rfl fun j _ => by rw [← EReal.coe_sub, Ideal.exp_coe]

/-- The first tile, from (−∞, 0): the new maximum is the tile's maximum c, and the new sum is Σ_j exp(s_j − c),
    since −∞ − c = −∞, exp(−∞) = 0 and 0 · 0 = 0. -/
theorem step_init {B : ℕ} (c : ℝ) (s : Fin B → ℝ)
    (hc : (Finset.univ : Finset (Fin B)).fold max ⊥ (fun j => ((s j : ℝ) : EReal)) = ((c : ℝ) : EReal)) :
    step ((⊥ : EReal), (0 : EReal)) (fun j => ((s j : ℝ) : EReal))
      = (((c : ℝ) : EReal), ((∑ j, Real.exp (s j - c) : ℝ) : EReal)) := by
  unfold step
  simp only [hc, bot_le, max_eq_right, EReal.bot_sub, Ideal.exp_bot, mul_zero, zero_add]
  rw [sum_exp_coe]

/-- A later tile, from a real pair (m, l): every operation stays in the reals, so the new pair is
    (max m c, exp(m − max m c) · l + Σ_j exp(s_j − max m c)) computed in the reals. -/
theorem step_coe {B : ℕ} (m l c : ℝ) (s : Fin B → ℝ)
    (hc : (Finset.univ : Finset (Fin B)).fold max ⊥ (fun j => ((s j : ℝ) : EReal)) = ((c : ℝ) : EReal)) :
    step (((m : ℝ) : EReal), ((l : ℝ) : EReal)) (fun j => ((s j : ℝ) : EReal))
      = (((max m c : ℝ) : EReal),
         ((Real.exp (m - max m c) * l + ∑ j, Real.exp (s j - max m c) : ℝ) : EReal)) := by
  unfold step
  simp only [hc, ← coe_max]
  rw [sum_exp_coe, ← EReal.coe_sub, Ideal.exp_coe, ← EReal.coe_mul, ← EReal.coe_add]

/-- Moving the shift of a sum of exponentials from M₀ to M: exp(M₀ − M) · Σ exp(x − M₀) = Σ exp(x − M),
    because exp(M₀ − M) · exp(x − M₀) = exp(x − M) and a real factor distributes over a finite sum. -/
theorem rescale_sum {B : ℕ} (s : ℕ → Fin B → ℝ) (n : ℕ) (M₀ M : ℝ) :
    Real.exp (M₀ - M) * ∑ t ∈ Finset.range n, ∑ j, Real.exp (s t j - M₀)
      = ∑ t ∈ Finset.range n, ∑ j, Real.exp (s t j - M) := by
  rw [Finset.mul_sum]
  refine Finset.sum_congr rfl fun t _ => ?_
  rw [Finset.mul_sum]
  refine Finset.sum_congr rfl fun j _ => ?_
  rw [← Real.exp_add]
  congr 1
  ring

/-- The running pair after k ≥ 1 tiles of real entries is (M, Σ_{t<k} Σ_j exp(s t j − M)), with M the maximum
    of all the entries seen: a real upper bound of them that one of them attains. By induction on k: the first
    tile by step_init; a later tile by step_coe, the new maximum being max M₀ c (attained by the old maximiser
    or by the tile's), and the old sum moved to the new shift by rescale_sum. -/
theorem run_real {B : ℕ} (hB : 0 < B) (s : ℕ → Fin B → ℝ) (k : ℕ) (hk : 0 < k) :
    ∃ M : ℝ, (∀ t, t < k → ∀ j, s t j ≤ M) ∧ (∃ t, t < k ∧ ∃ j, s t j = M)
      ∧ run (fun t j => ((s t j : ℝ) : EReal)) k
          = (((M : ℝ) : EReal), ((∑ t ∈ Finset.range k, ∑ j, Real.exp (s t j - M) : ℝ) : EReal)) := by
  obtain ⟨k, rfl⟩ : ∃ k' : ℕ, k = k' + 1 := ⟨k - 1, by omega⟩
  clear hk
  induction k with
  | zero =>
    obtain ⟨c, hle, ⟨j, hj⟩, hc⟩ := fold_max_coe hB (s 0)
    refine ⟨c, ?_, ⟨0, Nat.one_pos, j, hj⟩, ?_⟩
    · intro t ht i
      obtain rfl : t = 0 := by omega
      exact hle i
    · show step ((⊥ : EReal), (0 : EReal)) (fun j => ((s 0 j : ℝ) : EReal)) = _
      rw [step_init c (s 0) hc, Finset.sum_range_one]
  | succ k ih =>
    obtain ⟨M₀, hle₀, ⟨t₀, ht₀, j₀, hj₀⟩, hrun⟩ := ih
    obtain ⟨c, hlec, ⟨jc, hjc⟩, hc⟩ := fold_max_coe hB (s (k + 1))
    refine ⟨max M₀ c, ?_, ?_, ?_⟩
    · intro t ht i
      rcases Nat.lt_succ_iff_lt_or_eq.mp ht with h | rfl
      · exact le_trans (hle₀ t h i) (le_max_left _ _)
      · exact le_trans (hlec i) (le_max_right _ _)
    · rcases le_total M₀ c with h | h
      · exact ⟨k + 1, by omega, jc, by rw [hjc, max_eq_right h]⟩
      · exact ⟨t₀, by omega, j₀, by rw [hj₀, max_eq_left h]⟩
    · show step (run (fun t j => ((s t j : ℝ) : EReal)) (k + 1)) (fun j => ((s (k + 1) j : ℝ) : EReal)) = _
      rw [hrun, step_coe M₀ _ c (s (k + 1)) hc, rescale_sum, ← Finset.sum_range_succ]

end Idealize.ShloMosaic.OnlineLse
-- ==== Proof.LibFlashRow.lean ====
/-
  The online (tile by tile) computation of one softmax-weighted row sum on the extended reals, with masked logits.

  A row of logits is walked in tiles of B columns. A logit is a real number or −∞ (a masked column); column j of tile t
  carries a value vector v t j with real entries. Three running quantities are kept: the maximum m of the logits seen so
  far (−∞ before the first tile), the sum l of exp(x − m) over the logits x seen so far (0 at the start), and the vector
  acc of the sums of exp(x − m) · v over the columns seen so far (0 at the start). A tile with logits s_0, …, s_{B−1},
  maximum c and values v_0, …, v_{B−1} updates them to

      m' = max m c,    l' = exp(m − m') · l + Σ_j exp(s_j − m'),    acc' = exp(m − m') · acc + Σ_j exp(s_j − m') · v_j.

  If every tile walked has at least one real logit, then after k ≥ 1 tiles m is a real number M, the greatest logit seen,
  l is the real number L = Σ exp(x − M) over all logits seen, which is ≥ 1 because the greatest logit contributes exp 0,
  and acc = Σ exp(x − M) · v. A masked logit contributes exp(−∞ − M) = exp(−∞) = 0 to every sum. So acc / l is the
  softmax-weighted sum of the value vectors, computed in one pass with the global maximum; tiles that are masked
  entirely add nothing to it.

  The proof works in the real numbers: the weight exp(x − M) of a logit x (0 if x = −∞) is a real number, with
  exp(M₀ − M) · exp(x − M₀) = exp(x − M) whether x is real or −∞; a real factor distributes over a finite sum of reals;
  and the coercion of the reals into the extended reals commutes with finite sums, products and the maximum. Neither the
  exponential of a sum nor distributivity holds at the infinities, which is why every quantity is first shown real.
-/
import Idealize.ShloMosaic.PureOps.Ideal
import proofs.«151727_j7834020348210_2_alg».proof.Proof.LibERealSum
import proofs.«151727_j7834020348210_2_alg».proof.Proof.LibOnlineLse

open scoped BigOperators

namespace Idealize.ShloMosaic.FlashRow

/-- One tile's update of the running triple (maximum, shifted sum of exponentials, shifted weighted sum of the value
    vectors): with c the maximum of the tile's logits (the fold of max from −∞), the new maximum is m' = max m c, the
    new sum is exp(m − m') · l + Σ_j exp(s_j − m'), and coordinate d of the new weighted sum is
    exp(m − m') · acc_d + Σ_j exp(s_j − m') · v_j d. -/
noncomputable def step {B D : ℕ} (st : EReal × EReal × (Fin D → EReal)) (s : Fin B → EReal)
    (v : Fin B → Fin D → EReal) : EReal × EReal × (Fin D → EReal) :=
  (max st.1 ((Finset.univ : Finset (Fin B)).fold max ⊥ s),
   Ideal.exp (st.1 - max st.1 ((Finset.univ : Finset (Fin B)).fold max ⊥ s)) * st.2.1
     + ∑ j, Ideal.exp (s j - max st.1 ((Finset.univ : Finset (Fin B)).fold max ⊥ s)),
   fun d => Ideal.exp (st.1 - max st.1 ((Finset.univ : Finset (Fin B)).fold max ⊥ s)) * st.2.2 d
     + ∑ j, Ideal.exp (s j - max st.1 ((Finset.univ : Finset (Fin B)).fold max ⊥ s)) * v j d)

/-- The running triple after the first k tiles, from (−∞, 0, 0): tile t has the logits s t 0, …, s t (B−1) and the
    value vectors v t 0, …, v t (B−1). -/
noncomputable def run {B D : ℕ} (s : ℕ → Fin B → EReal) (v : ℕ → Fin B → Fin D → EReal) :
    ℕ → EReal × EReal × (Fin D → EReal)
  | 0 => (⊥, 0, fun _ => 0)
  | k + 1 => step (run s v k) (s k) (v k)

/-- The weight of a logit x against the real shift M, as a real number: 0 for x = −∞, and exp(x − M) otherwise. -/
noncomputable def ew (x : EReal) (M : ℝ) : ℝ := if x = ⊥ then 0 else Real.exp (x.toReal - M)

/-- The weight of a masked logit is 0. -/
theorem ew_bot (M : ℝ) : ew ⊥ M = 0 := by rw [ew, if_pos rfl]

/-- The weight of the logit M against the shift M is exp 0 = 1. -/
theorem ew_self (M : ℝ) : ew ((M : ℝ) : EReal) M = 1 := by
  rw [ew, if_neg (EReal.coe_ne_bot M), EReal.toReal_coe, sub_self, Real.exp_zero]

/-- A weight is nonnegative: it is 0 or an exponential. -/
theorem ew_nonneg (x : EReal) (M : ℝ) : 0 ≤ ew x M := by
  unfold ew
  split_ifs
  · exact le_rfl
  · exact (Real.exp_pos _).le

/-- Moving the shift of a weight from M₀ to M: exp(M₀ − M) · exp(x − M₀) = exp(x − M) for a real x, and both sides
    are 0 for x = −∞. -/
theorem ew_rescale (x : EReal) (M₀ M : ℝ) : Real.exp (M₀ - M) * ew x M₀ = ew x M := by
  unfold ew
  split_ifs
  · rw [mul_zero]
  · rw [← Real.exp_add]
    congr 1
    ring

/-- On the extended reals, exp(x − M) for a logit x that is −∞ or real and a real M is the coerced weight:
    −∞ − M = −∞ and exp(−∞) = 0; the difference of two reals is real and its exponential is the real one. -/
theorem exp_sub_coe (x : EReal) (M : ℝ) (hx : x = ⊥ ∨ ∃ r : ℝ, x = (r : EReal)) :
    Ideal.exp (x - ((M : ℝ) : EReal)) = ((ew x M : ℝ) : EReal) := by
  rcases hx with rfl | ⟨r, rfl⟩
  · rw [EReal.bot_sub, Ideal.exp_bot, ew_bot, EReal.coe_zero]
  · rw [← EReal.coe_sub, Ideal.exp_coe, ew, if_neg (EReal.coe_ne_bot r), EReal.toReal_coe]

/-- The exponential of a difference of two reals, computed on the extended reals, is the coerced real one. -/
theorem exp_coe_sub (m M : ℝ) :
    Ideal.exp (((m : ℝ) : EReal) - ((M : ℝ) : EReal)) = ((Real.exp (m - M) : ℝ) : EReal) := by
  rw [← EReal.coe_sub, Ideal.exp_coe]

/-- The fold of max from −∞ over a tile of logits, each −∞ or real and at least one real, is a real number: the
    greatest logit of the tile, an upper bound of the tile that one logit attains. The fold is above every member; it
    is below −∞ or below some member, and the first is impossible because a real member lies below the fold. -/
theorem fold_max_tile {n : ℕ} (s : Fin n → EReal) (hs : ∀ j, s j = ⊥ ∨ ∃ r : ℝ, s j = (r : EReal))
    (hreal : ∃ j, ∃ r : ℝ, s j = (r : EReal)) :
    ∃ c : ℝ, (∀ j, s j ≤ ((c : ℝ) : EReal)) ∧ (∃ j, s j = ((c : ℝ) : EReal))
      ∧ (Finset.univ : Finset (Fin n)).fold max ⊥ s = ((c : ℝ) : EReal) := by
  obtain ⟨j₀, r₀, hj₀⟩ := hreal
  have hge : ∀ j, s j ≤ (Finset.univ : Finset (Fin n)).fold max ⊥ s := fun j =>
    (Finset.le_fold_max _).mpr (Or.inr ⟨j, Finset.mem_univ j, le_rfl⟩)
  have hne : (Finset.univ : Finset (Fin n)).fold max ⊥ s ≠ ⊥ := by
    intro h
    have h0 := hge j₀
    rw [h, hj₀] at h0
    exact EReal.coe_ne_bot r₀ (le_bot_iff.mp h0)
  rcases (Finset.le_fold_max ((Finset.univ : Finset (Fin n)).fold max ⊥ s)).mp le_rfl with h | ⟨j, _, hj⟩
  · exact absurd (le_bot_iff.mp h) hne
  · have heq : (Finset.univ : Finset (Fin n)).fold max ⊥ s = s j := le_antisymm hj (hge j)
    rcases hs j with hb | ⟨c, hc⟩
    · exact absurd (heq.trans hb) hne
    · refine ⟨c, fun i => ?_, ⟨j, hc⟩, heq.trans hc⟩
      rw [← hc, ← heq]
      exact hge i

/-- The first tile, from (−∞, 0, 0): the new maximum is the tile's maximum c, the new sum is Σ_j exp(s_j − c) and the
    new weighted sum is Σ_j exp(s_j − c) · v_j, since −∞ − c = −∞, exp(−∞) = 0 and 0 · 0 = 0. -/
theorem step_init {B D : ℕ} (c : ℝ) (s : Fin B → EReal) (v : Fin B → Fin D → EReal) (w : Fin B → Fin D → ℝ)
    (hs : ∀ j, s j = ⊥ ∨ ∃ r : ℝ, s j = (r : EReal))
    (hv : ∀ j d, v j d = ((w j d : ℝ) : EReal))
    (hc : (Finset.univ : Finset (Fin B)).fold max ⊥ s = ((c : ℝ) : EReal)) :
    step ((⊥ : EReal), (0 : EReal), (fun _ => (0 : EReal))) s v
      = (((c : ℝ) : EReal), ((∑ j, ew (s j) c : ℝ) : EReal),
         fun d => ((∑ j, ew (s j) c * w j d : ℝ) : EReal)) := by
  unfold step
  simp only [hc, bot_le, max_eq_right, EReal.bot_sub, Ideal.exp_bot, mul_zero, zero_add]
  refine Prod.ext rfl (Prod.ext ?_ (funext fun d => ?_))
  · show ∑ j, Ideal.exp (s j - ((c : ℝ) : EReal)) = ((∑ j, ew (s j) c : ℝ) : EReal)
    rw [ERealSum.coe_finset_sum]
    exact Finset.sum_congr rfl fun j _ => exp_sub_coe _ _ (hs j)
  · show ∑ j, Ideal.exp (s j - ((c : ℝ) : EReal)) * v j d = ((∑ j, ew (s j) c * w j d : ℝ) : EReal)
    rw [ERealSum.coe_finset_sum]
    exact Finset.sum_congr rfl fun j _ => by rw [exp_sub_coe _ _ (hs j), hv, EReal.coe_mul]

/-- A later tile, from a real triple (m, l, a): every operation stays in the reals, so the new triple is
    (max m c, exp(m − max m c) · l + Σ_j e_j, exp(m − max m c) · a + Σ_j e_j · w_j) computed in the reals, with e_j the
    weight of the logit s_j against the shift max m c. -/
theorem step_coe {B D : ℕ} (m l c : ℝ) (a : Fin D → ℝ) (s : Fin B → EReal) (v : Fin B → Fin D → EReal)
    (w : Fin B → Fin D → ℝ)
    (hs : ∀ j, s j = ⊥ ∨ ∃ r : ℝ, s j = (r : EReal))
    (hv : ∀ j d, v j d = ((w j d : ℝ) : EReal))
    (hc : (Finset.univ : Finset (Fin B)).fold max ⊥ s = ((c : ℝ) : EReal)) :
    step (((m : ℝ) : EReal), ((l : ℝ) : EReal), (fun d => ((a d : ℝ) : EReal))) s v
      = (((max m c : ℝ) : EReal),
         ((Real.exp (m - max m c) * l + ∑ j, ew (s j) (max m c) : ℝ) : EReal),
         fun d => ((Real.exp (m - max m c) * a d + ∑ j, ew (s j) (max m c) * w j d : ℝ) : EReal)) := by
  unfold step
  simp only [hc, ← OnlineLse.coe_max, exp_coe_sub]
  refine Prod.ext rfl (Prod.ext ?_ (funext fun d => ?_))
  · show ((Real.exp (m - max m c) : ℝ) : EReal) * ((l : ℝ) : EReal)
        + ∑ j, Ideal.exp (s j - ((max m c : ℝ) : EReal))
      = ((Real.exp (m - max m c) * l + ∑ j, ew (s j) (max m c) : ℝ) : EReal)
    rw [EReal.coe_add, EReal.coe_mul, ERealSum.coe_finset_sum]
    congr 1
    exact Finset.sum_congr rfl fun j _ => exp_sub_coe _ _ (hs j)
  · show ((Real.exp (m - max m c) : ℝ) : EReal) * ((a d : ℝ) : EReal)
        + ∑ j, Ideal.exp (s j - ((max m c : ℝ) : EReal)) * v j d
      = ((Real.exp (m - max m c) * a d + ∑ j, ew (s j) (max m c) * w j d : ℝ) : EReal)
    rw [EReal.coe_add, EReal.coe_mul, ERealSum.coe_finset_sum]
    congr 1
    exact Finset.sum_congr rfl fun j _ => by rw [exp_sub_coe _ _ (hs j), hv, EReal.coe_mul]

/-- Moving the shift of a sum of weights from M₀ to M: exp(M₀ − M) · Σ e(x, M₀) = Σ e(x, M), term by term, a real
    factor distributing over a finite sum. -/
theorem rescale_sum {B : ℕ} (s : ℕ → Fin B → EReal) (n : ℕ) (M₀ M : ℝ) :
    Real.exp (M₀ - M) * ∑ t ∈ Finset.range n, ∑ j, ew (s t j) M₀
      = ∑ t ∈ Finset.range n, ∑ j, ew (s t j) M := by
  rw [Finset.mul_sum]
  refine Finset.sum_congr rfl fun t _ => ?_
  rw [Finset.mul_sum]
  exact Finset.sum_congr rfl fun j _ => ew_rescale _ _ _

/-- Moving the shift of a weighted sum from M₀ to M: exp(M₀ − M) · Σ e(x, M₀) · w = Σ e(x, M) · w, term by term. -/
theorem rescale_wsum {B D : ℕ} (s : ℕ → Fin B → EReal) (w : ℕ → Fin B → Fin D → ℝ) (d : Fin D) (n : ℕ)
    (M₀ M : ℝ) :
    Real.exp (M₀ - M) * ∑ t ∈ Finset.range n, ∑ j, ew (s t j) M₀ * w t j d
      = ∑ t ∈ Finset.range n, ∑ j, ew (s t j) M * w t j d := by
  rw [Finset.mul_sum]
  refine Finset.sum_congr rfl fun t _ => ?_
  rw [Finset.mul_sum]
  exact Finset.sum_congr rfl fun j _ => by rw [← mul_assoc, ew_rescale]

/-- The running triple after k ≥ 1 tiles, each with at least one real logit, in the reals: it is
    (M, Σ e(s t j, M), Σ e(s t j, M) · w t j) with the sums over the tiles t < k and their columns j, and M the
    greatest logit seen: a real upper bound of the logits that one of them attains. By induction on k: the first tile
    by step_init; a later tile by step_coe, the new maximum being max M₀ c (attained by the old maximiser or by the
    tile's), and the old sums moved to the new shift by rescale_sum and rescale_wsum. -/
theorem run_real {B D : ℕ} (s : ℕ → Fin B → EReal) (v : ℕ → Fin B → Fin D → EReal)
    (w : ℕ → Fin B → Fin D → ℝ) (k : ℕ) (hk : 0 < k)
    (hs : ∀ t j, s t j = ⊥ ∨ ∃ r : ℝ, s t j = (r : EReal))
    (hreal : ∀ t, t < k → ∃ j, ∃ r : ℝ, s t j = (r : EReal))
    (hv : ∀ t j d, v t j d = ((w t j d : ℝ) : EReal)) :
    ∃ M : ℝ, (∀ t, t < k → ∀ j, s t j ≤ ((M : ℝ) : EReal)) ∧ (∃ t, t < k ∧ ∃ j, s t j = ((M : ℝ) : EReal))
      ∧ run s v k
          = (((M : ℝ) : EReal), ((∑ t ∈ Finset.range k, ∑ j, ew (s t j) M : ℝ) : EReal),
             fun d => ((∑ t ∈ Finset.range k, ∑ j, ew (s t j) M * w t j d : ℝ) : EReal)) := by
  obtain ⟨k, rfl⟩ : ∃ k' : ℕ, k = k' + 1 := ⟨k - 1, by omega⟩
  clear hk
  induction k with
  | zero =>
    obtain ⟨c, hle, ⟨j, hj⟩, hc⟩ := fold_max_tile (s 0) (hs 0) (hreal 0 Nat.one_pos)
    refine ⟨c, ?_, ⟨0, Nat.one_pos, j, hj⟩, ?_⟩
    · intro t ht i
      obtain rfl : t = 0 := by omega
      exact hle i
    · show step ((⊥ : EReal), (0 : EReal), (fun _ => (0 : EReal))) (s 0) (v 0) = _
      rw [step_init c (s 0) (v 0) (w 0) (hs 0) (hv 0) hc]
      simp only [zero_add, Finset.sum_range_one]
  | succ k ih =>
    obtain ⟨M₀, hle₀, ⟨t₀, ht₀, j₀, hj₀⟩, hrun⟩ := ih fun t ht => hreal t (Nat.lt_succ_of_lt ht)
    obtain ⟨c, hlec, ⟨jc, hjc⟩, hc⟩ := fold_max_tile (s (k + 1)) (hs (k + 1)) (hreal (k + 1) (Nat.lt_succ_self _))
    refine ⟨max M₀ c, ?_, ?_, ?_⟩
    · intro t ht i
      rcases Nat.lt_succ_iff_lt_or_eq.mp ht with h | rfl
      · exact le_trans (hle₀ t h i) (EReal.coe_le_coe_iff.mpr (le_max_left _ _))
      · exact le_trans (hlec i) (EReal.coe_le_coe_iff.mpr (le_max_right _ _))
    · rcases le_total M₀ c with h | h
      · exact ⟨k + 1, by omega, jc, by rw [hjc, max_eq_right h]⟩
      · exact ⟨t₀, by omega, j₀, by rw [hj₀, max_eq_left h]⟩
    · show step (run s v (k + 1)) (s (k + 1)) (v (k + 1)) = _
      rw [hrun, step_coe M₀ _ c _ (s (k + 1)) (v (k + 1)) (w (k + 1)) (hs (k + 1)) (hv (k + 1)) hc]
      refine Prod.ext rfl (Prod.ext ?_ (funext fun d => ?_))
      · show ((_ : ℝ) : EReal) = ((_ : ℝ) : EReal)
        rw [rescale_sum, ← Finset.sum_range_succ]
      · show ((_ : ℝ) : EReal) = ((_ : ℝ) : EReal)
        rw [rescale_wsum, ← Finset.sum_range_succ]

/-- A sum over the pairs (tile, column) of T tiles is the double sum over the first K tiles and their columns when
    the terms of the tiles from K on vanish. -/
theorem sum_prod_eq_sum_range {α : Type*} [AddCommMonoid α] {B : ℕ} (K T : ℕ) (hKT : K ≤ T)
    (f : ℕ → Fin B → α) (h0 : ∀ t, K ≤ t → ∀ j, f t j = 0) :
    ∑ p : Fin T × Fin B, f p.1 p.2 = ∑ t ∈ Finset.range K, ∑ j, f t j := by
  refine (Fintype.sum_prod_type' (fun (t : Fin T) (j : Fin B) => f t j)).trans ?_
  refine (Fin.sum_univ_eq_sum_range (fun t => ∑ j, f t j) T).trans ?_
  symm
  refine Finset.sum_subset ?_ ?_
  · intro t ht
    exact Finset.mem_range.mpr (lt_of_lt_of_le (Finset.mem_range.mp ht) hKT)
  · intro t _ ht
    have hKt : K ≤ t := Nat.le_of_not_lt fun h => ht (Finset.mem_range.mpr h)
    exact Finset.sum_eq_zero fun j _ => h0 t hKt j

/-- The sum of the weights of the logits of K tiles against a shift M that one of the logits equals is positive: every
    weight is nonnegative and that logit has weight exp 0 = 1, so the sum is at least 1. -/
theorem sum_ew_pos {B : ℕ} (s : ℕ → Fin B → EReal) (K : ℕ) (M : ℝ) (t₀ : ℕ) (ht₀ : t₀ < K) (j₀ : Fin B)
    (hj₀ : s t₀ j₀ = ((M : ℝ) : EReal)) : 0 < ∑ t ∈ Finset.range K, ∑ j, ew (s t j) M := by
  have h1 : (1 : ℝ) ≤ ∑ j, ew (s t₀ j) M := by
    have h := Finset.single_le_sum (f := fun j => ew (s t₀ j) M) (fun j _ => ew_nonneg _ _)
      (Finset.mem_univ j₀)
    have h' : ew (s t₀ j₀) M = 1 := by rw [hj₀, ew_self]
    rw [← h']
    exact h
  have h2 : ∑ j, ew (s t₀ j) M ≤ ∑ t ∈ Finset.range K, ∑ j, ew (s t j) M :=
    Finset.single_le_sum (f := fun t => ∑ j, ew (s t j) M)
      (fun t _ => Finset.sum_nonneg fun j _ => ew_nonneg _ _) (Finset.mem_range.mpr ht₀)
  exact lt_of_lt_of_le one_pos (h1.trans h2)

/-- The online triple after K ≥ 1 tiles, each with at least one real logit: the maximum is a real number M, the
    greatest logit seen; the sum is a positive real number L, the sum of exp(x − M) over the logits seen, computed on
    the extended reals; and the weighted sum is Σ exp(x − M) · v, computed on the extended reals. L ≥ 1 because every
    weight is nonnegative and the greatest logit has weight exp 0 = 1. -/
theorem run_spec {B D : ℕ} (_hB : 0 < B) (s : ℕ → Fin B → EReal) (v : ℕ → Fin B → Fin D → EReal) (K : ℕ)
    (hK : 0 < K)
    (hs : ∀ t j, s t j = ⊥ ∨ ∃ r : ℝ, s t j = (r : EReal))
    (hreal : ∀ t, t < K → ∃ j, ∃ r : ℝ, s t j = (r : EReal))
    (hv : ∀ t j d, ∃ r : ℝ, v t j d = (r : EReal)) :
    ∃ (M : ℝ) (L : ℝ), 0 < L
      ∧ (∀ t, t < K → ∀ j, s t j ≤ (M : EReal)) ∧ (∃ t, t < K ∧ ∃ j, s t j = (M : EReal))
      ∧ (run s v K).1 = (M : EReal)
      ∧ (run s v K).2.1 = (L : EReal)
      ∧ (L : EReal) = ∑ t ∈ Finset.range K, ∑ j, Ideal.exp (s t j - (M : EReal))
      ∧ ∀ d, (run s v K).2.2 d = ∑ t ∈ Finset.range K, ∑ j, Ideal.exp (s t j - (M : EReal)) * v t j d := by
  choose w hw using hv
  obtain ⟨M, hle, ⟨t₀, ht₀, j₀, hj₀⟩, hrun⟩ := run_real s v w K hK hs hreal hw
  refine ⟨M, ∑ t ∈ Finset.range K, ∑ j, ew (s t j) M, ?_, hle, ⟨t₀, ht₀, j₀, hj₀⟩, ?_, ?_, ?_, ?_⟩
  · exact sum_ew_pos s K M t₀ ht₀ j₀ hj₀
  · rw [hrun]
  · rw [hrun]
  · rw [ERealSum.coe_finset_sum]
    refine Finset.sum_congr rfl fun t _ => ?_
    rw [ERealSum.coe_finset_sum]
    exact Finset.sum_congr rfl fun j _ => (exp_sub_coe _ _ (hs t j)).symm
  · intro d
    rw [hrun]
    show ((∑ t ∈ Finset.range K, ∑ j, ew (s t j) M * w t j d : ℝ) : EReal) = _
    rw [ERealSum.coe_finset_sum]
    refine Finset.sum_congr rfl fun t _ => ?_
    rw [ERealSum.coe_finset_sum]
    exact Finset.sum_congr rfl fun j _ => by rw [exp_sub_coe _ _ (hs t j), hw, EReal.coe_mul]

/-- The online quotient is the one-shot softmax-weighted sum. Of T tiles, the first K ≥ 1 have at least one real logit
    each and the tiles from K on are masked entirely. The one-shot computation takes the maximum Mx of all T · B logits
    (folded from −∞), the sum Lx of exp(x − Mx) over all of them, and the sum over all of them of (exp(x − Mx) / Lx) · v.
    Then the online sum after K tiles is a positive real number, and the online weighted sum divided by the online sum
    equals the one-shot sum, coordinate by coordinate. Mx is the real maximum M of the first K tiles (a masked logit is
    −∞ ≤ M); a masked logit has weight 0, so Lx is the online sum L and the masked tiles add 0 to the weighted sum;
    dividing by the nonzero real L is multiplying by 1 / L, and (Σ e · w) · (1 / L) = Σ (e · (1 / L)) · w in the reals. -/
theorem run_eq_softmax {B D : ℕ} (_hB : 0 < B) (s : ℕ → Fin B → EReal) (v : ℕ → Fin B → Fin D → EReal)
    (K T : ℕ) (hK : 0 < K) (hKT : K ≤ T)
    (hs : ∀ t j, s t j = ⊥ ∨ ∃ r : ℝ, s t j = (r : EReal))
    (hreal : ∀ t, t < K → ∃ j, ∃ r : ℝ, s t j = (r : EReal))
    (hv : ∀ t j d, ∃ r : ℝ, v t j d = (r : EReal))
    (hmask : ∀ t, K ≤ t → ∀ j, s t j = ⊥) :
    let Mx : EReal := max ⊥ ((Finset.univ : Finset (Fin T × Fin B)).fold max ⊥ (fun p => s p.1 p.2))
    let Lx : EReal := 0 + ∑ p : Fin T × Fin B, Ideal.exp (s p.1 p.2 - Mx)
    (∃ Lr : ℝ, 0 < Lr ∧ (run s v K).2.1 = (Lr : EReal))
      ∧ ∀ d, Ideal.div ((run s v K).2.2 d) ((run s v K).2.1)
          = ∑ p : Fin T × Fin B, Ideal.div (Ideal.exp (s p.1 p.2 - Mx)) Lx * v p.1 p.2 d := by
  intro Mx Lx
  choose w hw using hv
  obtain ⟨M, hle, ⟨t₀, ht₀, j₀, hj₀⟩, hrun⟩ := run_real s v w K hK hs hreal hw
  have hL : 0 < ∑ t ∈ Finset.range K, ∑ j, ew (s t j) M := sum_ew_pos s K M t₀ ht₀ j₀ hj₀
  have hall : ∀ p : Fin T × Fin B, s p.1 p.2 ≤ ((M : ℝ) : EReal) := by
    intro p
    rcases lt_or_ge (p.1 : ℕ) K with h | h
    · exact hle _ h _
    · rw [hmask _ h]
      exact bot_le
  have hMx : Mx = ((M : ℝ) : EReal) := by
    show max ⊥ ((Finset.univ : Finset (Fin T × Fin B)).fold max ⊥ (fun p => s p.1 p.2)) = _
    rw [max_eq_right bot_le]
    apply le_antisymm
    · exact (Finset.fold_max_le _).mpr ⟨bot_le, fun p _ => hall p⟩
    · exact (Finset.le_fold_max _).mpr
        (Or.inr ⟨(⟨t₀, lt_of_lt_of_le ht₀ hKT⟩, j₀), Finset.mem_univ _, le_of_eq hj₀.symm⟩)
  have hLx : Lx = ((∑ t ∈ Finset.range K, ∑ j, ew (s t j) M : ℝ) : EReal) := by
    show 0 + ∑ p : Fin T × Fin B, Ideal.exp (s p.1 p.2 - Mx) = _
    rw [hMx, zero_add,
      ← sum_prod_eq_sum_range K T hKT (fun t j => ew (s t j) M) (fun t ht j => by rw [hmask t ht j, ew_bot]),
      ERealSum.coe_finset_sum]
    exact Finset.sum_congr rfl fun p _ => exp_sub_coe _ _ (hs _ _)
  refine ⟨⟨_, hL, by rw [hrun]⟩, fun d => ?_⟩
  have hterm : ∀ p : Fin T × Fin B, Ideal.div (Ideal.exp (s p.1 p.2 - Mx)) Lx * v p.1 p.2 d
      = ((ew (s p.1 p.2) M * (1 / ∑ t ∈ Finset.range K, ∑ j, ew (s t j) M) * w p.1 p.2 d : ℝ) : EReal) := by
    intro p
    rw [hLx, hMx, Ideal.div_coe hL.ne', exp_sub_coe _ _ (hs _ _), hw, EReal.coe_mul, EReal.coe_mul]
  rw [Finset.sum_congr rfl fun p _ => hterm p, hrun]
  show Ideal.div ((∑ t ∈ Finset.range K, ∑ j, ew (s t j) M * w t j d : ℝ) : EReal)
      ((∑ t ∈ Finset.range K, ∑ j, ew (s t j) M : ℝ) : EReal) = _
  rw [Ideal.div_coe hL.ne', ← ERealSum.coe_finset_sum, ← EReal.coe_mul,
    sum_prod_eq_sum_range K T hKT
      (fun t j => ew (s t j) M * (1 / ∑ t ∈ Finset.range K, ∑ j, ew (s t j) M) * w t j d)
      (fun t ht j => by rw [hmask t ht j, ew_bot, zero_mul, zero_mul])]
  congr 1
  rw [Finset.sum_mul]
  refine Finset.sum_congr rfl fun t _ => ?_
  rw [Finset.sum_mul]
  exact Finset.sum_congr rfl fun j _ => by ring

end Idealize.ShloMosaic.FlashRow
-- ==== Proof.SpecRow.lean ====
/-
  One row of causal attention, walked in four tiles of 1024 key columns, is the specification's row.

  Query row i of batch b meets the key columns 0 … 4095. Cut into tiles of 1024 columns, tile t holds the columns
  t·1024 … t·1024 + 1023; its logits are the specification's masked, scaled scores at those columns. Only the tiles
  0 … ⌊i / 1024⌋ contain a column at or below the diagonal: each of them has a real logit at its first column (t·1024 ≤ i),
  and every later tile is −∞ throughout. The pairs (tile, column in tile) are in bijection with the 4096 columns, so the
  one-shot softmax-weighted sum over the pairs is the specification's sum over the columns, and its maximum and its
  normaliser are the specification's; the online recurrence over the first ⌊i / 1024⌋ + 1 tiles computes it.
-/
import proofs.«151727_j7834020348210_2_alg».proof.Proof.Spec
import proofs.«151727_j7834020348210_2_alg».proof.Proof.LibFlashRow
import proofs.«151727_j7834020348210_2_alg».proof.Proof.LibERealSum

noncomputable section

open scoped BigOperators

namespace Cert.SpecRow

open Idealize.ShloMosaic Idealize.ShloMosaic.ValueIdx

/-- Column t·1024 + j of a row of 4096, as an index (reduced modulo 4096 past the end). -/
def col (t : ℕ) (j : Fin 1024) : Fin 4096 := ⟨(t * 1024 + j.val) % 4096, Nat.mod_lt _ (by norm_num)⟩

/-- For a tile below 4 the column is t·1024 + j itself. -/
theorem col_val (t : ℕ) (ht : t < 4) (j : Fin 1024) : (col t j).val = t * 1024 + j.val := by
  have hj := j.isLt
  show (t * 1024 + j.val) % 4096 = _
  exact Nat.mod_eq_of_lt (by omega)

/-- The logits of query row i of batch b against key tile t (−∞ past the fourth tile). -/
def tileS (q k : Fin 4 → Fin 4096 → Fin 256 → EReal) (b : Fin 4) (i : Fin 4096) (t : ℕ) (j : Fin 1024) : EReal :=
  if t < 4 then Spec.logit q k b i (col t j) else ⊥

/-- The value rows of key tile t. -/
def tileV (v : Fin 4 → Fin 4096 → Fin 256 → EReal) (b : Fin 4) (t : ℕ) (j : Fin 1024) (d : Fin 256) : EReal :=
  v b (col t j) d

/-- The pairs (tile, column in tile) are the 4096 columns. -/
def colEquiv : Fin 4 × Fin 1024 ≃ Fin 4096 where
  toFun p := col p.1.val p.2
  invFun c := (⟨c.val / 1024, by have := c.isLt; omega⟩, ⟨c.val % 1024, Nat.mod_lt _ (by norm_num)⟩)
  left_inv p := by
    obtain ⟨t, j⟩ := p
    have ht := t.isLt
    have hj := j.isLt
    have hc := col_val t.val ht j
    refine Prod.ext (Fin.ext ?_) (Fin.ext ?_)
    · show (col t.val j).val / 1024 = t.val
      omega
    · show (col t.val j).val % 1024 = j.val
      omega
  right_inv c := by
    have hc := c.isLt
    apply Fin.ext
    show (c.val / 1024 * 1024 + c.val % 1024) % 4096 = c.val
    omega

theorem colEquiv_apply (p : Fin 4 × Fin 1024) : colEquiv p = col p.1.val p.2 := rfl

/-- The scale word denotes a real number. -/
theorem scale_real : ∃ r : ℝ, Ideal.ofBits .f32 0x3D800000#32 = (r : EReal) := by
  unfold Ideal.ofBits Ideal.ieee
  dsimp only
  rw [if_neg (by decide), if_neg (by decide)]
  exact ⟨_, rfl⟩

/-- A linear layer of real arrays has real entries. -/
theorem lin_real (x : Spec.X) (W : Spec.Wm) (bias : Spec.Bv) (hx : ∀ i, ∃ r : ℝ, x i = (r : EReal))
    (hW : ∀ i, ∃ r : ℝ, W i = (r : EReal)) (hb : ∀ i, ∃ r : ℝ, bias i = (r : EReal)) (b : Fin 4) (s : Fin 4096)
    (e : Fin 256) : ∃ r : ℝ, Spec.lin x W bias b s e = (r : EReal) := by
  choose x' hx' using hx
  choose W' hW' using hW
  choose b' hb' using hb
  unfold Spec.lin
  simp only [hx', hW', hb', ← EReal.coe_mul, ← ERealSum.coe_finset_sum, ← EReal.coe_add]
  exact ⟨_, rfl⟩

/-- At or below the diagonal a logit of real q and k is real. -/
theorem logit_real (q k : Fin 4 → Fin 4096 → Fin 256 → EReal) (hq : ∀ b i d, ∃ r : ℝ, q b i d = (r : EReal))
    (hk : ∀ b i d, ∃ r : ℝ, k b i d = (r : EReal)) (b : Fin 4) (i j : Fin 4096) (h : j.val ≤ i.val) :
    ∃ r : ℝ, Spec.logit q k b i j = (r : EReal) := by
  choose q' hq' using hq
  choose k' hk' using hk
  obtain ⟨c, hc⟩ := scale_real
  unfold Spec.logit
  rw [if_pos h, hc]
  simp only [hq', hk', ← EReal.coe_mul, ← ERealSum.coe_finset_sum]
  exact ⟨_, rfl⟩

/-- Strictly above the diagonal a logit is −∞. -/
theorem logit_bot (q k : Fin 4 → Fin 4096 → Fin 256 → EReal) (b : Fin 4) (i j : Fin 4096) (h : ¬ j.val ≤ i.val) :
    Spec.logit q k b i j = ⊥ := by
  unfold Spec.logit
  rw [if_neg h]

/-- A tile's logit is −∞ or a real number. -/
theorem tileS_real_or_bot (q k : Fin 4 → Fin 4096 → Fin 256 → EReal) (hq : ∀ b i d, ∃ r : ℝ, q b i d = (r : EReal))
    (hk : ∀ b i d, ∃ r : ℝ, k b i d = (r : EReal)) (b : Fin 4) (i : Fin 4096) (t : ℕ) (j : Fin 1024) :
    tileS q k b i t j = ⊥ ∨ ∃ r : ℝ, tileS q k b i t j = (r : EReal) := by
  unfold tileS
  by_cases ht : t < 4
  · rw [if_pos ht]
    by_cases h : (col t j).val ≤ i.val
    · exact Or.inr (logit_real q k hq hk b i _ h)
    · exact Or.inl (logit_bot q k b i _ h)
  · rw [if_neg ht]; exact Or.inl rfl

/-- The fold of max over the pairs is the fold over the columns. -/
theorem fold_pairs (z : Fin 4096 → EReal) :
    (Finset.univ : Finset (Fin 4 × Fin 1024)).fold max ⊥ (fun p => z (colEquiv p))
      = (Finset.univ : Finset (Fin 4096)).fold max ⊥ z := by
  rw [← Finset.univ_map_equiv_to_embedding colEquiv, Finset.fold_map]
  rfl

/-- The online recurrence over the tiles 0 … ⌊i / 1024⌋ of row i ends with a positive real normaliser, and its weighted
    sum divided by the normaliser is the specification's output row. -/
theorem row_eq_out (q k v : Fin 4 → Fin 4096 → Fin 256 → EReal) (hq : ∀ b i d, ∃ r : ℝ, q b i d = (r : EReal))
    (hk : ∀ b i d, ∃ r : ℝ, k b i d = (r : EReal)) (hv : ∀ b i d, ∃ r : ℝ, v b i d = (r : EReal)) (b : Fin 4)
    (i : Fin 4096) :
    let st := Idealize.ShloMosaic.FlashRow.run (tileS q k b i) (tileV v b) (i.val / 1024 + 1)
    (∃ Lr : ℝ, 0 < Lr ∧ st.2.1 = (Lr : EReal)) ∧ ∀ d : Fin 256, Ideal.div (st.2.2 d) st.2.1 = Spec.out q k v b i d := by
  intro st
  have hi := i.isLt
  have hreal : ∀ t, t < i.val / 1024 + 1 → ∃ j, ∃ r : ℝ, tileS q k b i t j = (r : EReal) := by
    intro t ht
    have ht4 : t < 4 := by omega
    refine ⟨⟨0, by norm_num⟩, ?_⟩
    unfold tileS
    rw [if_pos ht4]
    refine logit_real q k hq hk b i _ ?_
    rw [col_val t ht4]
    show t * 1024 + 0 ≤ i.val
    omega
  have hmask : ∀ t, i.val / 1024 + 1 ≤ t → ∀ j, tileS q k b i t j = ⊥ := by
    intro t ht j
    unfold tileS
    by_cases ht4 : t < 4
    · rw [if_pos ht4]
      refine logit_bot q k b i _ ?_
      rw [col_val t ht4]
      omega
    · rw [if_neg ht4]
  have H := Idealize.ShloMosaic.FlashRow.run_eq_softmax (B := 1024) (D := 256) (by norm_num) (tileS q k b i) (tileV v b)
    (i.val / 1024 + 1) 4 (Nat.succ_pos _) (by omega) (tileS_real_or_bot q k hq hk b i) hreal
    (fun t j d => hv b (col t j) d) hmask
  dsimp only at H
  refine ⟨H.1, fun d => (H.2 d).trans ?_⟩
  have hS : ∀ p : Fin 4 × Fin 1024, tileS q k b i p.1.val p.2 = Spec.logit q k b i (colEquiv p) := by
    intro p
    unfold tileS
    rw [if_pos p.1.isLt]
    rfl
  have hMx : max ⊥ ((Finset.univ : Finset (Fin 4 × Fin 1024)).fold max ⊥ (fun p => tileS q k b i p.1.val p.2))
      = Spec.rowMax (Spec.logit q k b i) := by
    unfold Spec.rowMax
    rw [← fold_pairs]
    simp only [hS]
  rw [hMx]
  have hLx : ∑ p : Fin 4 × Fin 1024, Ideal.exp (tileS q k b i p.1.val p.2 - Spec.rowMax (Spec.logit q k b i))
      = ∑ j : Fin 4096, Ideal.exp (Spec.logit q k b i j - Spec.rowMax (Spec.logit q k b i)) := by
    simp only [hS]
    exact Equiv.sum_comp colEquiv (fun j => Ideal.exp (Spec.logit q k b i j - Spec.rowMax (Spec.logit q k b i)))
  rw [hLx]
  show _ = ∑ j : Fin 4096, Spec.attn (Spec.logit q k b i) j * v b j d
  refine (Finset.sum_congr rfl fun p _ => ?_).trans
    (Equiv.sum_comp colEquiv (fun j => Spec.attn (Spec.logit q k b i) j * v b j d))
  rw [hS p]
  rfl

end Cert.SpecRow

end
-- ==== Proof.LibFiniteTest.lean ====
/-
  The test "every entry is finite", read at one entry over the extended reals.

  A precondition `jnp.all(jnp.abs(x) < inf)` prints, per array, as a comparison of `Host.absf x` with the float word of +∞
  lifted to the array's shape. On the extended reals that word denotes ⊤ and |a| is max a (−a), which is below ⊤ exactly
  when a is neither ⊤ nor ⊥: an entry passing the test is the image of a real number.
-/
import Idealize.ShloMosaic.PureOps.Ideal.Laws
import Idealize.ShloMosaic.Lib.ValueIdx

noncomputable section

namespace Idealize.ShloMosaic.FiniteTest

/-- The rank-0 shape has one index. -/
theorem subsingleton_scalarIdx : Subsingleton (⟨0, ![]⟩ : Shape).Idx := ⟨fun a b => funext fun d => d.elim0⟩

/-- The float word of +∞ denotes ⊤. -/
theorem inf_word : Ideal.ofBits .f32 0x7F800000#32 = (⊤ : EReal) := by simp [Ideal.ofBits, Ideal.ieee]

/-- An extended real whose absolute value is below ⊤ is a real number. -/
theorem real_of_abs_lt_top (a : EReal) (h : Ideal.cmp .olt (max a (-a)) (⊤ : EReal) = 1#1) : ∃ r : ℝ, a = r := by
  induction a using EReal.rec with
  | bot => exfalso; simp [Ideal.cmp] at h
  | coe r => exact ⟨r, rfl⟩
  | top => exfalso; simp [Ideal.cmp] at h

/-- One array's test at one entry: an entry whose absolute value compares below the lifted +∞ word is a real number. -/
theorem real_of_test {s : Shape} (x : FVec Ideal s .f32)
    (hb : (⟨0, ![]⟩ : Shape).BroadcastsInDim s (![] : Fin 0 → Fin s.rank)) (i : s.Idx)
    (h : cmpf .olt (Host.absf x) (broadcastInDim s ![] hb (constant (F := Ideal) ⟨0, ![]⟩ .f32 0x7F800000#32)) i = 1#1) :
    ∃ r : ℝ, x i = r := by
  have e : Ideal.cmp .olt (max (x i) (-(x i))) (Ideal.ofBits .f32 0x7F800000#32) = 1#1 := h
  rw [inf_word] at e
  exact real_of_abs_lt_top (x i) e

end Idealize.ShloMosaic.FiniteTest

end
-- ==== Proof.Finite.lean ====
/-
  Finite inputs are real numbers. The precondition is the conjunction of seven tests "every entry of the array has absolute
  value below +∞", one per argument array; over the extended reals each test says that every entry of its array is the
  image of a real number.
-/
import proofs.«151727_j7834020348210_2_alg».proof.Defs
import proofs.«151727_j7834020348210_2_alg».proof.Proof.Gen.Pre_finite_inputs
import proofs.«151727_j7834020348210_2_alg».proof.Proof.LibFiniteTest
import Idealize.ShloMosaic.Lib.ReduceAll
import Idealize.ShloMosaic.Lib.Affine

noncomputable section

namespace Cert.Finite

open Idealize.ShloMosaic Idealize.ShloMosaic.TcCoe Idealize.SL.Sem Idealize.ShloMosaic.ValueIdx Cert.Pre_finite_inputs
  Cert.Pre_finite_inputs.Facts

/-- A conjunction of one-bit words at an index is the conjunction of the words there. -/
theorem andi_apply {s : Shape} (a b : IVec s 1) (i : s.Idx) : andi a b i = IntOp.andi (a i) (b i) := rfl

/-- If the test function of the seven arrays is all ones, every entry of every array is a real number. -/
theorem real_of_fn [Cert.Pre_finite_inputs.Facts] (a0 : FVec Ideal S4x4096x256 .f32) (a1 : FVec Ideal S256x256 .f32)
    (a2 : FVec Ideal S256 .f32) (a3 : FVec Ideal S256x256 .f32) (a4 : FVec Ideal S256 .f32) (a5 : FVec Ideal S256x256 .f32)
    (a6 : FVec Ideal S256 .f32)
    (h : Cert.Pre_finite_inputs.fn (F := Ideal) a0 a1 a2 a3 a4 a5 a6 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) ∧ (∀ i, ∃ r : ℝ, a5 i = (r : EReal))
      ∧ (∀ i, ∃ r : ℝ, a6 i = (r : EReal)) := by
  haveI : Subsingleton S_.Idx := FiniteTest.subsingleton_scalarIdx
  have h0 := congrFun h ValueIdx.ix0
  dsimp only [Cert.Pre_finite_inputs.fn, Cert.Pre_finite_inputs.fn_part1] at h0
  simp only [andi_apply, IntOp.andi_eq_one] at h0
  obtain ⟨⟨⟨⟨⟨⟨t0, t1⟩, t2⟩, t3⟩, t4⟩, t5⟩, t6⟩ := h0
  exact ⟨fun i => FiniteTest.real_of_test a0 _ i (Host.reduce_andi_all _ _ _ _ _ t0 i),
    fun i => FiniteTest.real_of_test a1 _ i (Host.reduce_andi_all _ _ _ _ _ t1 i),
    fun i => FiniteTest.real_of_test a2 _ i (Host.reduce_andi_all _ _ _ _ _ t2 i),
    fun i => FiniteTest.real_of_test a3 _ i (Host.reduce_andi_all _ _ _ _ _ t3 i),
    fun i => FiniteTest.real_of_test a4 _ i (Host.reduce_andi_all _ _ _ _ _ t4 i),
    fun i => FiniteTest.real_of_test a5 _ i (Host.reduce_andi_all _ _ _ _ _ t5 i),
    fun i => FiniteTest.real_of_test a6 _ i (Host.reduce_andi_all _ _ _ _ _ t6 i)⟩

/-- Under the kernel's precondition every entry of each of the seven argument arrays, on every core, is a real number. -/
theorem real_args (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal))
      ∧ (∀ i, ∃ r : ℝ, m ((c.tc : Thread Cert.KernelIdeal.nD Cert.KernelIdeal.τ).loc Cert.KernelIdeal.main_arg1) i = (r : EReal))
      ∧ (∀ i, ∃ r : ℝ, m ((c.tc : Thread Cert.KernelIdeal.nD Cert.KernelIdeal.τ).loc Cert.KernelIdeal.main_arg2) i = (r : EReal))
      ∧ (∀ i, ∃ r : ℝ, m ((c.tc : Thread Cert.KernelIdeal.nD Cert.KernelIdeal.τ).loc Cert.KernelIdeal.main_arg3) i = (r : EReal))
      ∧ (∀ i, ∃ r : ℝ, m ((c.tc : Thread Cert.KernelIdeal.nD Cert.KernelIdeal.τ).loc Cert.KernelIdeal.main_arg4) i = (r : EReal))
      ∧ (∀ i, ∃ r : ℝ, m ((c.tc : Thread Cert.KernelIdeal.nD Cert.KernelIdeal.τ).loc Cert.KernelIdeal.main_arg5) i = (r : EReal))
      ∧ (∀ i, ∃ r : ℝ, m ((c.tc : Thread Cert.KernelIdeal.nD Cert.KernelIdeal.τ).loc Cert.KernelIdeal.main_arg6) i = (r : EReal)) :=
  real_of_fn _ _ _ _ _ _ _ (h c)

end Cert.Finite

end
-- ==== Proof.KIProj.lean ====
/-
  The projections q, k, v that region 0 leaves in its three result arrays, as the specification's linear layers of the
  argument arrays: the host stretch recasts each bias vector to a row, region 0 multiplies the rows of x by the
  transposed weights and adds the bias row.
-/
import proofs.«151727_j7834020348210_2_alg».proof.Proof.KIRun
import proofs.«151727_j7834020348210_2_alg».proof.Proof.KIRegion0Value
import proofs.«151727_j7834020348210_2_alg».proof.Proof.SpecRow
import proofs.«151727_j7834020348210_2_alg».proof.Proof.Finite
import Idealize.ShloMosaic.Lib.StableHlo.Run
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

open Idealize.ShloMosaic.ValueIdx

variable (m : (ℓ : Loc nD τ sig) → Buf (Elt Ideal) ℓ)

/-- The host stretch recasts the bias vector to a row. -/
theorem V1_main_v0 (c : Dev nD) (e : Fin 256) :
    (V1 (F := Ideal) m c main_v0 : S1x256.Idx → EReal) (ix2 0 e) = (m ((c : Thread nD τ).loc main_arg2) : S256.Idx → EReal) (ix1 e) := by
  have h : (V1 (F := Ideal) m c main_v0 : S1x256.Idx → EReal) = shapeCast S1x256 (m ((c : Thread nD τ).loc main_arg2) : S256.Idx → EReal) Facts₀.shapeCasts_S256_S1x256 := by
    show StableHlo.after hostOps0 (W0 m c) (Proc.devRef .tc main_v0) = _
    after_results
    rfl
  rw [h]
  exact shapeCast_a_1a_apply _ _ 0 e

/-- The host stretch recasts the bias vector to a row. -/
theorem V1_main_v1 (c : Dev nD) (e : Fin 256) :
    (V1 (F := Ideal) m c main_v1 : S1x256.Idx → EReal) (ix2 0 e) = (m ((c : Thread nD τ).loc main_arg4) : S256.Idx → EReal) (ix1 e) := by
  have h : (V1 (F := Ideal) m c main_v1 : S1x256.Idx → EReal) = shapeCast S1x256 (m ((c : Thread nD τ).loc main_arg4) : S256.Idx → EReal) Facts₀.shapeCasts_S256_S1x256 := by
    show StableHlo.after hostOps0 (W0 m c) (Proc.devRef .tc main_v1) = _
    after_results
    rfl
  rw [h]
  exact shapeCast_a_1a_apply _ _ 0 e

/-- The host stretch recasts the bias vector to a row. -/
theorem V1_main_v2 (c : Dev nD) (e : Fin 256) :
    (V1 (F := Ideal) m c main_v2 : S1x256.Idx → EReal) (ix2 0 e) = (m ((c : Thread nD τ).loc main_arg6) : S256.Idx → EReal) (ix1 e) := by
  have h : (V1 (F := Ideal) m c main_v2 : S1x256.Idx → EReal) = shapeCast S1x256 (m ((c : Thread nD τ).loc main_arg6) : S256.Idx → EReal) Facts₀.shapeCasts_S256_S1x256 := by
    show StableHlo.after hostOps0 (W0 m c) (Proc.devRef .tc main_v2) = _
    after_results
    rfl
  rw [h]
  exact shapeCast_a_1a_apply _ _ 0 e

/-- The q projection as region 0 leaves it: the linear layer of the arguments. -/
theorem V2_q (c : Dev nD) (b : Fin 4) (i : Fin 4096) (e : Fin 256) :
    (V2 (F := Ideal) m c main_v3_0 : S4x4096x256.Idx → EReal) (ix3 b i e)
      = Cert.Spec.lin (m ((c : Thread nD τ).loc main_arg0)) (m ((c : Thread nD τ).loc main_arg1)) (m ((c : Thread nD τ).loc main_arg2)) b i e := by
  have h1 : (V2 (F := Ideal) m c main_v3_0 : S4x4096x256.Idx → EReal) = (dat0 (V1 m) c).arrAt 7 cfg0.N := W2_arr m c 7
  rw [h1, final0_7, projArr_apply, V1_main_v0]
  have hx : (V1 (F := Ideal) m c main_arg0 : S4x4096x256.Idx → EReal) = m ((c : Thread nD τ).loc main_arg0) := W1_of_not_written m c main_arg0 (by decide)
  have hw : (V1 (F := Ideal) m c main_arg1 : S256x256.Idx → EReal) = m ((c : Thread nD τ).loc main_arg1) := W1_of_not_written m c main_arg1 (by decide)
  rw [hx, hw]
  rfl

/-- The k projection as region 0 leaves it: the linear layer of the arguments. -/
theorem V2_k (c : Dev nD) (b : Fin 4) (i : Fin 4096) (e : Fin 256) :
    (V2 (F := Ideal) m c main_v3_1 : S4x4096x256.Idx → EReal) (ix3 b i e)
      = Cert.Spec.lin (m ((c : Thread nD τ).loc main_arg0)) (m ((c : Thread nD τ).loc main_arg3)) (m ((c : Thread nD τ).loc main_arg4)) b i e := by
  have h1 : (V2 (F := Ideal) m c main_v3_1 : S4x4096x256.Idx → EReal) = (dat0 (V1 m) c).arrAt 8 cfg0.N := W2_arr m c 8
  rw [h1, final0_8, projArr_apply, V1_main_v1]
  have hx : (V1 (F := Ideal) m c main_arg0 : S4x4096x256.Idx → EReal) = m ((c : Thread nD τ).loc main_arg0) := W1_of_not_written m c main_arg0 (by decide)
  have hw : (V1 (F := Ideal) m c main_arg3 : S256x256.Idx → EReal) = m ((c : Thread nD τ).loc main_arg3) := W1_of_not_written m c main_arg3 (by decide)
  rw [hx, hw]
  rfl

/-- The v projection as region 0 leaves it: the linear layer of the arguments. -/
theorem V2_v (c : Dev nD) (b : Fin 4) (i : Fin 4096) (e : Fin 256) :
    (V2 (F := Ideal) m c main_v3_2 : S4x4096x256.Idx → EReal) (ix3 b i e)
      = Cert.Spec.lin (m ((c : Thread nD τ).loc main_arg0)) (m ((c : Thread nD τ).loc main_arg5)) (m ((c : Thread nD τ).loc main_arg6)) b i e := by
  have h1 : (V2 (F := Ideal) m c main_v3_2 : S4x4096x256.Idx → EReal) = (dat0 (V1 m) c).arrAt 9 cfg0.N := W2_arr m c 9
  rw [h1, final0_9, projArr_apply, V1_main_v2]
  have hx : (V1 (F := Ideal) m c main_arg0 : S4x4096x256.Idx → EReal) = m ((c : Thread nD τ).loc main_arg0) := W1_of_not_written m c main_arg0 (by decide)
  have hw : (V1 (F := Ideal) m c main_arg5 : S256x256.Idx → EReal) = m ((c : Thread nD τ).loc main_arg5) := W1_of_not_written m c main_arg5 (by decide)
  rw [hx, hw]
  rfl

end Cert.KernelIdeal.Hand

end
-- ==== Proof.KIPieces1.lean ====
/-
  Region 1: what each case leaves in the scratch buffers and in the output block, as the body's arithmetic (the
  payload terms) of the point's input blocks and of the scratch contents the point found.
-/
import proofs.«151727_j7834020348210_2_alg».proof.Proof.KIRegion1Cases
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

theorem hz2 : (![0, 0] : Fin 2 → Nat) = fun _ => 0 := funext fun a => by fin_cases a <;> rfl
theorem hz3 : (![0, 0, 0] : Fin 3 → Nat) = fun _ => 0 := funext fun a => by fin_cases a <;> rfl

theorem sout1_B_0_eq (c : Dev nD) (i : grid1.Coords) (arg3 : Memref sig .tc .vmem S1x1024x256 .bf16) (harg3 : arg3.IsWhole) (arg4 : Memref sig .tc .vmem S1x1024x256 .bf16) (harg4 : arg4.IsWhole) (arg5 : Memref sig .tc .vmem S1x1024x256 .bf16) (harg5 : arg5.IsWhole) (arg6 : Memref sig .tc .vmem S1x1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : cond1_1 i) (hc2 : ¬cond1_2 i) (x0 x1 x2 : Vec F S1x1024x256 .bf16) (xs0 xs1 : Vec F S1024x1 .f32) (xs2 : Vec F S1024x256 .f32) :
    sout1_B_0 c i arg3 harg3 arg4 harg4 arg5 harg5 arg6 harg6 arg7 harg7 arg8 harg8 arg9 harg9 hc0 hc1 hc2 x0 x1 x2 xs0 xs1 xs2 = k1_pay5 (k1_pay9 (BitVec.ofNat 32 (i 1).val) (BitVec.ofNat 32 (i 2).val) x0 x1 xs0) := by
  unfold sout1_B_0
  rw [View.read_writes_eq_canon _ _ _ (scover1_B_0 c i arg3 harg3 arg4 harg4 arg5 harg5 arg6 harg6 arg7 harg7 arg8 harg8 arg9 harg9 hc0 hc1 hc2 x0 x1 x2 xs0 xs1 xs2)]
  unfold kernelRun1_B
  dsimp only
  sl_unfold_words
  first | rw [View.canon_unit_zero hz2] | rw [View.canon_cons_unit_zero hz2]
  simp only [View.readAt_eq_ld, View.readCov_unit_zero (S := S1024x1) _ hz2, View.readCov_unit_zero (S := S1024x256) _ hz2, harg3.read_unread, harg4.read_unread, harg5.read_unread, harg6.read_unread, harg7.read_unread, harg8.read_unread, harg9.read_unread,
    View.ld_unit_zero (S := S1x1024x256) hz3, View.ld_unit_zero (S := S1024x1) hz2, View.ld_unit_zero (S := S1024x256) hz2]
  try rfl

theorem sout1_B_1_eq (c : Dev nD) (i : grid1.Coords) (arg3 : Memref sig .tc .vmem S1x1024x256 .bf16) (harg3 : arg3.IsWhole) (arg4 : Memref sig .tc .vmem S1x1024x256 .bf16) (harg4 : arg4.IsWhole) (arg5 : Memref sig .tc .vmem S1x1024x256 .bf16) (harg5 : arg5.IsWhole) (arg6 : Memref sig .tc .vmem S1x1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : cond1_1 i) (hc2 : ¬cond1_2 i) (x0 x1 x2 : Vec F S1x1024x256 .bf16) (xs0 xs1 : Vec F S1024x1 .f32) (xs2 : Vec F S1024x256 .f32) :
    sout1_B_1 c i arg3 harg3 arg4 harg4 arg5 harg5 arg6 harg6 arg7 harg7 arg8 harg8 arg9 harg9 hc0 hc1 hc2 x0 x1 x2 xs0 xs1 xs2 = k1_pay12 (BitVec.ofNat 32 (i 1).val) (BitVec.ofNat 32 (i 2).val) x0 x1 xs0 xs1 := by
  unfold sout1_B_1
  rw [View.read_writes_eq_canon _ _ _ (scover1_B_1 c i arg3 harg3 arg4 harg4 arg5 harg5 arg6 harg6 arg7 harg7 arg8 harg8 arg9 harg9 hc0 hc1 hc2 x0 x1 x2 xs0 xs1 xs2)]
  unfold kernelRun1_B
  dsimp only
  sl_unfold_words
  first | rw [View.canon_unit_zero hz2] | rw [View.canon_cons_unit_zero hz2]
  simp only [View.readAt_eq_ld, View.readCov_unit_zero (S := S1024x1) _ hz2, View.readCov_unit_zero (S := S1024x256) _ hz2, harg3.read_unread, harg4.read_unread, harg5.read_unread, harg6.read_unread, harg7.read_unread, harg8.read_unread, harg9.read_unread,
    View.ld_unit_zero (S := S1x1024x256) hz3, View.ld_unit_zero (S := S1024x1) hz2, View.ld_unit_zero (S := S1024x256) hz2]
  try rfl

theorem sout1_B_2_eq (c : Dev nD) (i : grid1.Coords) (arg3 : Memref sig .tc .vmem S1x1024x256 .bf16) (harg3 : arg3.IsWhole) (arg4 : Memref sig .tc .vmem S1x1024x256 .bf16) (harg4 : arg4.IsWhole) (arg5 : Memref sig .tc .vmem S1x1024x256 .bf16) (harg5 : arg5.IsWhole) (arg6 : Memref sig .tc .vmem S1x1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : cond1_1 i) (hc2 : ¬cond1_2 i) (x0 x1 x2 : Vec F S1x1024x256 .bf16) (xs0 xs1 : Vec F S1024x1 .f32) (xs2 : Vec F S1024x256 .f32) :
    sout1_B_2 c i arg3 harg3 arg4 harg4 arg5 harg5 arg6 harg6 arg7 harg7 arg8 harg8 arg9 harg9 hc0 hc1 hc2 x0 x1 x2 xs0 xs1 xs2 = k1_pay4 (k1_pay7 x2) (k1_pay10 (BitVec.ofNat 32 (i 1).val) (BitVec.ofNat 32 (i 2).val) x0 x1 xs0) (k1_pay11 (BitVec.ofNat 32 (i 1).val) (BitVec.ofNat 32 (i 2).val) x0 x1 xs0) xs2 := by
  unfold sout1_B_2
  rw [View.read_writes_eq_canon _ _ _ (scover1_B_2 c i arg3 harg3 arg4 harg4 arg5 harg5 arg6 harg6 arg7 harg7 arg8 harg8 arg9 harg9 hc0 hc1 hc2 x0 x1 x2 xs0 xs1 xs2)]
  unfold kernelRun1_B
  dsimp only
  sl_unfold_words
  first | rw [View.canon_unit_zero hz2] | rw [View.canon_cons_unit_zero hz2]
  simp only [View.readAt_eq_ld, View.readCov_unit_zero (S := S1024x1) _ hz2, View.readCov_unit_zero (S := S1024x256) _ hz2, harg3.read_unread, harg4.read_unread, harg5.read_unread, harg6.read_unread, harg7.read_unread, harg8.read_unread, harg9.read_unread,
    View.ld_unit_zero (S := S1x1024x256) hz3, View.ld_unit_zero (S := S1024x1) hz2, View.ld_unit_zero (S := S1024x256) hz2]
  try rfl

theorem sout1_A_0_eq (c : Dev nD) (i : grid1.Coords) (arg3 : Memref sig .tc .vmem S1x1024x256 .bf16) (harg3 : arg3.IsWhole) (arg4 : Memref sig .tc .vmem S1x1024x256 .bf16) (harg4 : arg4.IsWhole) (arg5 : Memref sig .tc .vmem S1x1024x256 .bf16) (harg5 : arg5.IsWhole) (arg6 : Memref sig .tc .vmem S1x1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : cond1_0 i) (hc1 : cond1_1 i) (hc2 : ¬cond1_2 i) (x0 x1 x2 : Vec F S1x1024x256 .bf16) :
    sout1_A_0 c i arg3 harg3 arg4 harg4 arg5 harg5 arg6 harg6 arg7 harg7 arg8 harg8 arg9 harg9 hc0 hc1 hc2 x0 x1 x2 = k1_pay5 (k1_pay9 (BitVec.ofNat 32 (i 1).val) (BitVec.ofNat 32 (i 2).val) x0 x1 (k1_pay1 (F := F))) := by
  unfold sout1_A_0
  rw [View.read_writes_eq_canon _ _ _ (scover1_A_0 c i arg3 harg3 arg4 harg4 arg5 harg5 arg6 harg6 arg7 harg7 arg8 harg8 arg9 harg9 hc0 hc1 hc2 x0 x1 x2)]
  unfold kernelRun1_A
  dsimp only
  sl_unfold_words
  first | rw [View.canon_unit_zero hz2] | rw [View.canon_cons_unit_zero hz2]
  simp only [View.readAt_eq_ld, View.readCov_unit_zero (S := S1024x1) _ hz2, View.readCov_unit_zero (S := S1024x256) _ hz2, harg3.read_unread, harg4.read_unread, harg5.read_unread, harg6.read_unread, harg7.read_unread, harg8.read_unread, harg9.read_unread,
    View.ld_unit_zero (S := S1x1024x256) hz3, View.ld_unit_zero (S := S1024x1) hz2, View.ld_unit_zero (S := S1024x256) hz2]
  try rfl

theorem sout1_A_1_eq (c : Dev nD) (i : grid1.Coords) (arg3 : Memref sig .tc .vmem S1x1024x256 .bf16) (harg3 : arg3.IsWhole) (arg4 : Memref sig .tc .vmem S1x1024x256 .bf16) (harg4 : arg4.IsWhole) (arg5 : Memref sig .tc .vmem S1x1024x256 .bf16) (harg5 : arg5.IsWhole) (arg6 : Memref sig .tc .vmem S1x1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : cond1_0 i) (hc1 : cond1_1 i) (hc2 : ¬cond1_2 i) (x0 x1 x2 : Vec F S1x1024x256 .bf16) :
    sout1_A_1 c i arg3 harg3 arg4 harg4 arg5 harg5 arg6 harg6 arg7 harg7 arg8 harg8 arg9 harg9 hc0 hc1 hc2 x0 x1 x2 = k1_pay12 (BitVec.ofNat 32 (i 1).val) (BitVec.ofNat 32 (i 2).val) x0 x1 (k1_pay1 (F := F)) (k1_pay2 (F := F)) := by
  unfold sout1_A_1
  rw [View.read_writes_eq_canon _ _ _ (scover1_A_1 c i arg3 harg3 arg4 harg4 arg5 harg5 arg6 harg6 arg7 harg7 arg8 harg8 arg9 harg9 hc0 hc1 hc2 x0 x1 x2)]
  unfold kernelRun1_A
  dsimp only
  sl_unfold_words
  first | rw [View.canon_unit_zero hz2] | rw [View.canon_cons_unit_zero hz2]
  simp only [View.readAt_eq_ld, View.readCov_unit_zero (S := S1024x1) _ hz2, View.readCov_unit_zero (S := S1024x256) _ hz2, harg3.read_unread, harg4.read_unread, harg5.read_unread, harg6.read_unread, harg7.read_unread, harg8.read_unread, harg9.read_unread,
    View.ld_unit_zero (S := S1x1024x256) hz3, View.ld_unit_zero (S := S1024x1) hz2, View.ld_unit_zero (S := S1024x256) hz2]
  try rfl

theorem sout1_A_2_eq (c : Dev nD) (i : grid1.Coords) (arg3 : Memref sig .tc .vmem S1x1024x256 .bf16) (harg3 : arg3.IsWhole) (arg4 : Memref sig .tc .vmem S1x1024x256 .bf16) (harg4 : arg4.IsWhole) (arg5 : Memref sig .tc .vmem S1x1024x256 .bf16) (harg5 : arg5.IsWhole) (arg6 : Memref sig .tc .vmem S1x1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : cond1_0 i) (hc1 : cond1_1 i) (hc2 : ¬cond1_2 i) (x0 x1 x2 : Vec F S1x1024x256 .bf16) :
    sout1_A_2 c i arg3 harg3 arg4 harg4 arg5 harg5 arg6 harg6 arg7 harg7 arg8 harg8 arg9 harg9 hc0 hc1 hc2 x0 x1 x2 = k1_pay4 (k1_pay7 x2) (k1_pay10 (BitVec.ofNat 32 (i 1).val) (BitVec.ofNat 32 (i 2).val) x0 x1 (k1_pay1 (F := F))) (k1_pay11 (BitVec.ofNat 32 (i 1).val) (BitVec.ofNat 32 (i 2).val) x0 x1 (k1_pay1 (F := F))) (k1_pay3 (F := F)) := by
  unfold sout1_A_2
  rw [View.read_writes_eq_canon _ _ _ (scover1_A_2 c i arg3 harg3 arg4 harg4 arg5 harg5 arg6 harg6 arg7 harg7 arg8 harg8 arg9 harg9 hc0 hc1 hc2 x0 x1 x2)]
  unfold kernelRun1_A
  dsimp only
  sl_unfold_words
  first | rw [View.canon_unit_zero hz2] | rw [View.canon_cons_unit_zero hz2]
  simp only [View.readAt_eq_ld, View.readCov_unit_zero (S := S1024x1) _ hz2, View.readCov_unit_zero (S := S1024x256) _ hz2, harg3.read_unread, harg4.read_unread, harg5.read_unread, harg6.read_unread, harg7.read_unread, harg8.read_unread, harg9.read_unread,
    View.ld_unit_zero (S := S1x1024x256) hz3, View.ld_unit_zero (S := S1024x1) hz2, View.ld_unit_zero (S := S1024x256) hz2]
  try rfl

theorem sout1_D_0_eq (c : Dev nD) (i : grid1.Coords) (arg3 : Memref sig .tc .vmem S1x1024x256 .bf16) (harg3 : arg3.IsWhole) (arg4 : Memref sig .tc .vmem S1x1024x256 .bf16) (harg4 : arg4.IsWhole) (arg5 : Memref sig .tc .vmem S1x1024x256 .bf16) (harg5 : arg5.IsWhole) (arg6 : Memref sig .tc .vmem S1x1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : cond1_1 i) (hc2 : cond1_2 i) (x0 x1 x2 : Vec F S1x1024x256 .bf16) (xs0 xs1 : Vec F S1024x1 .f32) (xs2 : Vec F S1024x256 .f32) :
    sout1_D_0 c i arg3 harg3 arg4 harg4 arg5 harg5 arg6 harg6 arg7 harg7 arg8 harg8 arg9 harg9 hc0 hc1 hc2 x0 x1 x2 xs0 xs1 xs2 = k1_pay5 (k1_pay9 (BitVec.ofNat 32 (i 1).val) (BitVec.ofNat 32 (i 2).val) x0 x1 xs0) := by
  unfold sout1_D_0
  rw [View.read_writes_eq_canon _ _ _ (scover1_D_0 c i arg3 harg3 arg4 harg4 arg5 harg5 arg6 harg6 arg7 harg7 arg8 harg8 arg9 harg9 hc0 hc1 hc2 x0 x1 x2 xs0 xs1 xs2)]
  unfold kernelRun1_D
  dsimp only
  sl_unfold_words
  first | rw [View.canon_unit_zero hz2] | rw [View.canon_cons_unit_zero hz2]
  simp only [View.readAt_eq_ld, View.readCov_unit_zero (S := S1024x1) _ hz2, View.readCov_unit_zero (S := S1024x256) _ hz2, harg3.read_unread, harg4.read_unread, harg5.read_unread, harg6.read_unread, harg7.read_unread, harg8.read_unread, harg9.read_unread,
    View.ld_unit_zero (S := S1x1024x256) hz3, View.ld_unit_zero (S := S1024x1) hz2, View.ld_unit_zero (S := S1024x256) hz2]
  try rfl

theorem sout1_D_1_eq (c : Dev nD) (i : grid1.Coords) (arg3 : Memref sig .tc .vmem S1x1024x256 .bf16) (harg3 : arg3.IsWhole) (arg4 : Memref sig .tc .vmem S1x1024x256 .bf16) (harg4 : arg4.IsWhole) (arg5 : Memref sig .tc .vmem S1x1024x256 .bf16) (harg5 : arg5.IsWhole) (arg6 : Memref sig .tc .vmem S1x1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : cond1_1 i) (hc2 : cond1_2 i) (x0 x1 x2 : Vec F S1x1024x256 .bf16) (xs0 xs1 : Vec F S1024x1 .f32) (xs2 : Vec F S1024x256 .f32) :
    sout1_D_1 c i arg3 harg3 arg4 harg4 arg5 harg5 arg6 harg6 arg7 harg7 arg8 harg8 arg9 harg9 hc0 hc1 hc2 x0 x1 x2 xs0 xs1 xs2 = k1_pay12 (BitVec.ofNat 32 (i 1).val) (BitVec.ofNat 32 (i 2).val) x0 x1 xs0 xs1 := by
  unfold sout1_D_1
  rw [View.read_writes_eq_canon _ _ _ (scover1_D_1 c i arg3 harg3 arg4 harg4 arg5 harg5 arg6 harg6 arg7 harg7 arg8 harg8 arg9 harg9 hc0 hc1 hc2 x0 x1 x2 xs0 xs1 xs2)]
  unfold kernelRun1_D
  dsimp only
  sl_unfold_words
  first | rw [View.canon_unit_zero hz2] | rw [View.canon_cons_unit_zero hz2]
  simp only [View.readAt_eq_ld, View.readCov_unit_zero (S := S1024x1) _ hz2, View.readCov_unit_zero (S := S1024x256) _ hz2, harg3.read_unread, harg4.read_unread, harg5.read_unread, harg6.read_unread, harg7.read_unread, harg8.read_unread, harg9.read_unread,
    View.ld_unit_zero (S := S1x1024x256) hz3, View.ld_unit_zero (S := S1024x1) hz2, View.ld_unit_zero (S := S1024x256) hz2]
  try rfl

theorem sout1_D_2_eq (c : Dev nD) (i : grid1.Coords) (arg3 : Memref sig .tc .vmem S1x1024x256 .bf16) (harg3 : arg3.IsWhole) (arg4 : Memref sig .tc .vmem S1x1024x256 .bf16) (harg4 : arg4.IsWhole) (arg5 : Memref sig .tc .vmem S1x1024x256 .bf16) (harg5 : arg5.IsWhole) (arg6 : Memref sig .tc .vmem S1x1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : cond1_1 i) (hc2 : cond1_2 i) (x0 x1 x2 : Vec F S1x1024x256 .bf16) (xs0 xs1 : Vec F S1024x1 .f32) (xs2 : Vec F S1024x256 .f32) :
    sout1_D_2 c i arg3 harg3 arg4 harg4 arg5 harg5 arg6 harg6 arg7 harg7 arg8 harg8 arg9 harg9 hc0 hc1 hc2 x0 x1 x2 xs0 xs1 xs2 = k1_pay4 (k1_pay7 x2) (k1_pay10 (BitVec.ofNat 32 (i 1).val) (BitVec.ofNat 32 (i 2).val) x0 x1 xs0) (k1_pay11 (BitVec.ofNat 32 (i 1).val) (BitVec.ofNat 32 (i 2).val) x0 x1 xs0) xs2 := by
  unfold sout1_D_2
  rw [View.read_writes_eq_canon _ _ _ (scover1_D_2 c i arg3 harg3 arg4 harg4 arg5 harg5 arg6 harg6 arg7 harg7 arg8 harg8 arg9 harg9 hc0 hc1 hc2 x0 x1 x2 xs0 xs1 xs2)]
  unfold kernelRun1_D
  dsimp only
  sl_unfold_words
  first | rw [View.canon_unit_zero hz2] | rw [View.canon_cons_unit_zero hz2]
  simp only [View.readAt_eq_ld, View.readCov_unit_zero (S := S1024x1) _ hz2, View.readCov_unit_zero (S := S1024x256) _ hz2, harg3.read_unread, harg4.read_unread, harg5.read_unread, harg6.read_unread, harg7.read_unread, harg8.read_unread, harg9.read_unread,
    View.ld_unit_zero (S := S1x1024x256) hz3, View.ld_unit_zero (S := S1024x1) hz2, View.ld_unit_zero (S := S1024x256) hz2]
  try rfl

theorem out1_D_3_eq (c : Dev nD) (i : grid1.Coords) (arg3 : Memref sig .tc .vmem S1x1024x256 .bf16) (harg3 : arg3.IsWhole) (arg4 : Memref sig .tc .vmem S1x1024x256 .bf16) (harg4 : arg4.IsWhole) (arg5 : Memref sig .tc .vmem S1x1024x256 .bf16) (harg5 : arg5.IsWhole) (arg6 : Memref sig .tc .vmem S1x1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : cond1_1 i) (hc2 : cond1_2 i) (x0 x1 x2 : Vec F S1x1024x256 .bf16) (xs0 xs1 : Vec F S1024x1 .f32) (xs2 : Vec F S1024x256 .f32) :
    out1_D_3 c i arg3 harg3 arg4 harg4 arg5 harg5 arg6 harg6 arg7 harg7 arg8 harg8 arg9 harg9 hc0 hc1 hc2 x0 x1 x2 xs0 xs1 xs2 = k1_pay6 (k1_pay12 (BitVec.ofNat 32 (i 1).val) (BitVec.ofNat 32 (i 2).val) x0 x1 xs0 xs1) (k1_pay12 (BitVec.ofNat 32 (i 1).val) (BitVec.ofNat 32 (i 2).val) x0 x1 xs0 xs1) (k1_pay4 (k1_pay7 x2) (k1_pay10 (BitVec.ofNat 32 (i 1).val) (BitVec.ofNat 32 (i 2).val) x0 x1 xs0) (k1_pay11 (BitVec.ofNat 32 (i 1).val) (BitVec.ofNat 32 (i 2).val) x0 x1 xs0) xs2) := by
  unfold out1_D_3
  rw [View.read_writes_eq_canon _ _ _ (cover1_D_3 c i arg3 harg3 arg4 harg4 arg5 harg5 arg6 harg6 arg7 harg7 arg8 harg8 arg9 harg9 hc0 hc1 hc2 x0 x1 x2 xs0 xs1 xs2)]
  unfold kernelRun1_D
  dsimp only
  sl_unfold_words
  first | rw [View.canon_unit_zero hz3] | rw [View.canon_cons_unit_zero hz3]
  simp only [View.readAt_eq_ld, View.readCov_unit_zero (S := S1024x1) _ hz2, View.readCov_unit_zero (S := S1024x256) _ hz2, harg3.read_unread, harg4.read_unread, harg5.read_unread, harg6.read_unread, harg7.read_unread, harg8.read_unread, harg9.read_unread,
    View.ld_unit_zero (S := S1x1024x256) hz3, View.ld_unit_zero (S := S1024x1) hz2, View.ld_unit_zero (S := S1024x256) hz2]
  try rfl

theorem out1_E_3_eq (c : Dev nD) (i : grid1.Coords) (arg3 : Memref sig .tc .vmem S1x1024x256 .bf16) (harg3 : arg3.IsWhole) (arg4 : Memref sig .tc .vmem S1x1024x256 .bf16) (harg4 : arg4.IsWhole) (arg5 : Memref sig .tc .vmem S1x1024x256 .bf16) (harg5 : arg5.IsWhole) (arg6 : Memref sig .tc .vmem S1x1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : ¬cond1_1 i) (hc2 : cond1_2 i) (x0 x1 x2 : Vec F S1x1024x256 .bf16) (xs0 xs1 : Vec F S1024x1 .f32) (xs2 : Vec F S1024x256 .f32) :
    out1_E_3 c i arg3 harg3 arg4 harg4 arg5 harg5 arg6 harg6 arg7 harg7 arg8 harg8 arg9 harg9 hc0 hc1 hc2 x0 x1 x2 xs0 xs1 xs2 = k1_pay6 xs1 xs1 xs2 := by
  unfold out1_E_3
  rw [View.read_writes_eq_canon _ _ _ (cover1_E_3 c i arg3 harg3 arg4 harg4 arg5 harg5 arg6 harg6 arg7 harg7 arg8 harg8 arg9 harg9 hc0 hc1 hc2 x0 x1 x2 xs0 xs1 xs2)]
  unfold kernelRun1_E
  dsimp only
  sl_unfold_words
  first | rw [View.canon_unit_zero hz3] | rw [View.canon_cons_unit_zero hz3]
  simp only [View.readAt_eq_ld, View.readCov_unit_zero (S := S1024x1) _ hz2, View.readCov_unit_zero (S := S1024x256) _ hz2, harg3.read_unread, harg4.read_unread, harg5.read_unread, harg6.read_unread, harg7.read_unread, harg8.read_unread, harg9.read_unread,
    View.ld_unit_zero (S := S1x1024x256) hz3, View.ld_unit_zero (S := S1024x1) hz2, View.ld_unit_zero (S := S1024x256) hz2]
  try rfl

end Cert.KernelIdeal.Hand

end
-- ==== Proof.KIBlocks1.lean ====
/-
  Region 1 (causal attention, grid of 4 × 4 × 4 points (batch, query tile, key tile) in row-major order): where each
  window's block sits in its array. Point t has batch t / 16, query tile (t / 4) mod 4 and key tile t mod 4. The query
  and output windows read and write rows qi·1024 … qi·1024 + 1023 of batch b; the key and value windows read rows
  min(ki, qi)·1024 … of batch b. The output blocks written back (the points with ki = 3) tile the output array: row s of
  batch b lies in the block of point 16·b + 4·(s / 1024) + 3.
-/
import proofs.«151727_j7834020348210_2_alg».proof.Proof.KIRegion1
import proofs.«151727_j7834020348210_2_alg».proof.Proof.SpecRow
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.SpecRow (col col_val)

/-! ## The grid -/

/-- The batch of point t. -/
def bOf (t : Fin cfg1.N) : Fin 4 := ⟨t.val / 16 % 4, Nat.mod_lt _ (by norm_num)⟩
/-- The query tile of point t. -/
def qiOf (t : Fin cfg1.N) : ℕ := t.val / 4 % 4
/-- The key tile of point t. -/
def kiOf (t : Fin cfg1.N) : ℕ := t.val % 4

theorem coords1_val : ∀ t : Fin cfg1.N, (grid1.coords t 0).val = t.val / 16 ∧ (grid1.coords t 1).val = (t.val / 4) % 4
    ∧ (grid1.coords t 2).val = t.val % 4 :=
  (by decide +kernel : ∀ t : Fin grid1.N, (grid1.coords t 0).val = t.val / 16 ∧ (grid1.coords t 1).val = (t.val / 4) % 4
    ∧ (grid1.coords t 2).val = t.val % 4)

theorem cond1_0_iff : ∀ t : Fin cfg1.N, cond1_0 (grid1.coords t) ↔ t.val % 4 = 0 :=
  (by decide +kernel : ∀ t : Fin grid1.N, cond1_0 (grid1.coords t) ↔ t.val % 4 = 0)
theorem cond1_1_iff : ∀ t : Fin cfg1.N, cond1_1 (grid1.coords t) ↔ t.val % 4 ≤ (t.val / 4) % 4 :=
  (by decide +kernel : ∀ t : Fin grid1.N, cond1_1 (grid1.coords t) ↔ t.val % 4 ≤ (t.val / 4) % 4)
theorem cond1_2_iff : ∀ t : Fin cfg1.N, cond1_2 (grid1.coords t) ↔ t.val % 4 = 3 :=
  (by decide +kernel : ∀ t : Fin grid1.N, cond1_2 (grid1.coords t) ↔ t.val % 4 = 3)

/-- The block indices of the four windows at point t, decided once over the grid. -/
theorem idx1_facts : ∀ t : Fin cfg1.N,
    (win1_0.index t (0 : Fin 3) = t.val / 16 ∧ win1_0.index t (1 : Fin 3) = t.val / 4 % 4 ∧ win1_0.index t (2 : Fin 3) = 0)
    ∧ (win1_1.index t (0 : Fin 3) = t.val / 16 ∧ win1_1.index t (1 : Fin 3) = min (t.val % 4) (t.val / 4 % 4) ∧ win1_1.index t (2 : Fin 3) = 0)
    ∧ (win1_2.index t (0 : Fin 3) = t.val / 16 ∧ win1_2.index t (1 : Fin 3) = min (t.val % 4) (t.val / 4 % 4) ∧ win1_2.index t (2 : Fin 3) = 0)
    ∧ (win1_3.index t (0 : Fin 3) = t.val / 16 ∧ win1_3.index t (1 : Fin 3) = t.val / 4 % 4 ∧ win1_3.index t (2 : Fin 3) = 0) :=
  (by decide +kernel : ∀ t : Fin grid1.N, _)

theorem qiOf_lt (t : Fin cfg1.N) : qiOf t < 4 := Nat.mod_lt _ (by norm_num)
theorem kiOf_lt (t : Fin cfg1.N) : kiOf t < 4 := Nat.mod_lt _ (by norm_num)

section
variable (V : (c : Dev nD) → (b : Ref sig .tc) → Buf (Elt Ideal) ((c : Thread nD τ).loc b))

/-! ## The input blocks, read at an index -/

/-- The query block at point t is rows qi·1024 … of batch b. -/
theorem iblk1_0_apply (c : Dev nD) (t : Fin cfg1.N) (r : Fin 1024) (d : Fin 256) :
    iblk1 (F := Ideal) V c 0 t (ix3 0 r d) = V c main_v3_0 (ix3 (bOf t) (col (qiOf t) r) d) := by
  have hN : cfg1.N = 64 := N_1
  have ht : t.val < 64 := hN ▸ t.isLt
  have hr : r.val < 1024 := r.isLt
  obtain ⟨⟨e0, e1, e2⟩, -, -, -⟩ := idx1_facts t
  unfold iblk1
  rw [View.read_apply]
  show V c main_v3_0 (((cfg1.win 0).blk t).view.emb (ix3 0 r d)) = _
  congr 1
  funext a
  apply Fin.ext
  match a with
  | ⟨0, _⟩ => show win1_0.index t (0 : Fin 3) * 1 + 1 * 0 = t.val / 16 % 4; rw [e0]; omega
  | ⟨1, _⟩ =>
    show win1_0.index t (1 : Fin 3) * 1024 + 1 * r.val = (col (qiOf t) r).val
    rw [e1, col_val (qiOf t) (qiOf_lt t) r]; unfold qiOf; omega
  | ⟨2, _⟩ => show win1_0.index t (2 : Fin 3) * 256 + 1 * d.val = d.val; rw [e2]; omega

/-- The key block at point t is rows min(ki, qi)·1024 … of batch b. -/
theorem iblk1_1_apply (c : Dev nD) (t : Fin cfg1.N) (r : Fin 1024) (d : Fin 256) :
    iblk1 (F := Ideal) V c 1 t (ix3 0 r d) = V c main_v3_1 (ix3 (bOf t) (col (min (kiOf t) (qiOf t)) r) d) := by
  have hN : cfg1.N = 64 := N_1
  have ht : t.val < 64 := hN ▸ t.isLt
  have hr : r.val < 1024 := r.isLt
  obtain ⟨-, ⟨e0, e1, e2⟩, -, -⟩ := idx1_facts t
  unfold iblk1
  rw [View.read_apply]
  show V c main_v3_1 (((cfg1.win 1).blk t).view.emb (ix3 0 r d)) = _
  congr 1
  funext a
  apply Fin.ext
  match a with
  | ⟨0, _⟩ => show win1_1.index t (0 : Fin 3) * 1 + 1 * 0 = t.val / 16 % 4; rw [e0]; omega
  | ⟨1, _⟩ =>
    show win1_1.index t (1 : Fin 3) * 1024 + 1 * r.val = (col (min (kiOf t) (qiOf t)) r).val
    rw [e1, col_val _ (lt_of_le_of_lt (min_le_left _ _) (kiOf_lt t)) r]; unfold qiOf kiOf; omega
  | ⟨2, _⟩ => show win1_1.index t (2 : Fin 3) * 256 + 1 * d.val = d.val; rw [e2]; omega

/-- The value block at point t is rows min(ki, qi)·1024 … of batch b. -/
theorem iblk1_2_apply (c : Dev nD) (t : Fin cfg1.N) (r : Fin 1024) (d : Fin 256) :
    iblk1 (F := Ideal) V c 2 t (ix3 0 r d) = V c main_v3_2 (ix3 (bOf t) (col (min (kiOf t) (qiOf t)) r) d) := by
  have hN : cfg1.N = 64 := N_1
  have ht : t.val < 64 := hN ▸ t.isLt
  have hr : r.val < 1024 := r.isLt
  obtain ⟨-, -, ⟨e0, e1, e2⟩, -⟩ := idx1_facts t
  unfold iblk1
  rw [View.read_apply]
  show V c main_v3_2 (((cfg1.win 2).blk t).view.emb (ix3 0 r d)) = _
  congr 1
  funext a
  apply Fin.ext
  match a with
  | ⟨0, _⟩ => show win1_2.index t (0 : Fin 3) * 1 + 1 * 0 = t.val / 16 % 4; rw [e0]; omega
  | ⟨1, _⟩ =>
    show win1_2.index t (1 : Fin 3) * 1024 + 1 * r.val = (col (min (kiOf t) (qiOf t)) r).val
    rw [e1, col_val _ (lt_of_le_of_lt (min_le_left _ _) (kiOf_lt t)) r]; unfold qiOf kiOf; omega
  | ⟨2, _⟩ => show win1_2.index t (2 : Fin 3) * 256 + 1 * d.val = d.val; rw [e2]; omega

end

/-! ## The output blocks -/

/-- An array of the output's shape read through point t's output block: rows qi·1024 … of batch b. -/
theorem read_blk1_3 (G : S4x4096x256.Idx → EReal) (t : Fin cfg1.N) (r : Fin 1024) (d : Fin 256) :
    ((cfg1.win 3).blk t).view.read (Elt Ideal) G (ix3 0 r d) = G (ix3 (bOf t) (col (qiOf t) r) d) := by
  have hN : cfg1.N = 64 := N_1
  have ht : t.val < 64 := hN ▸ t.isLt
  have hr : r.val < 1024 := r.isLt
  obtain ⟨-, -, -, ⟨e0, e1, e2⟩⟩ := idx1_facts t
  rw [View.read_apply]
  show G (((cfg1.win 3).blk t).view.emb (ix3 0 r d)) = _
  congr 1
  funext a
  apply Fin.ext
  match a with
  | ⟨0, _⟩ => show win1_3.index t (0 : Fin 3) * 1 + 1 * 0 = t.val / 16 % 4; rw [e0]; omega
  | ⟨1, _⟩ =>
    show win1_3.index t (1 : Fin 3) * 1024 + 1 * r.val = (col (qiOf t) r).val
    rw [e1, col_val (qiOf t) (qiOf_lt t) r]; unfold qiOf; omega
  | ⟨2, _⟩ => show win1_3.index t (2 : Fin 3) * 256 + 1 * d.val = d.val; rw [e2]; omega

/-- Every index of a block is (0, r, d). -/
theorem eq_ix3_unit (y : S1x1024x256.Idx) : y = ix3 (0 : Fin 1) (y 1 : Fin 1024) (y 2 : Fin 256) := by
  funext a
  match a with
  | ⟨0, _⟩ => exact Fin.ext (by have h : (y 0).val < 1 := (y 0).isLt; show (y 0).val = 0; omega)
  | ⟨1, _⟩ => rfl
  | ⟨2, _⟩ => rfl

/-- An index of the output array is in point t's block iff each coordinate is in the block's range on its axis. -/
theorem mem_blk1_3 (t : Fin cfg1.N) (i : S4x4096x256.Idx) :
    i ∈ ((cfg1.win 3).blk t).view.set ↔ ∀ a : Fin 3, win1_3.index t a * S1x1024x256.size a ≤ (i a).val
      ∧ (i a).val < win1_3.index t a * S1x1024x256.size a + S1x1024x256.size a := by
  show i ∈ ((View.whole main_v4).slice (win1_3.rect t)).set ↔ _
  rw [View.set_slice_whole, Rect.mem_set_unit]
  exact Iff.rfl

/-- The output blocks written back tile the output array: row s of batch b is in the block of point
    16·b + 4·(s / 1024) + 3. -/
theorem cover1_3 (c : Dev nD) : ∀ i : ((cfg1.win 3).arr.view.loc (c.tc : Thread nD τ)).2.ty.Idx,
    ∃ t : Fin cfg1.N, (cfg1.win 3).flush t = true ∧ i ∈ ((cfg1.win 3).blk t).view.set := by
  show ∀ i : S4x4096x256.Idx, ∃ t : Fin cfg1.N, (cfg1.win 3).flush t = true ∧ i ∈ ((cfg1.win 3).blk t).view.set
  intro i
  have hN : cfg1.N = 64 := N_1
  have h0 : (i 0).val < 4 := (i 0).isLt
  have h1 : (i 1).val < 4096 := (i 1).isLt
  have h2 : (i 2).val < 256 := (i 2).isLt
  obtain ⟨t, htv⟩ : ∃ t : Fin cfg1.N, t.val = 16 * (i 0).val + 4 * ((i 1).val / 1024) + 3 :=
    ⟨⟨16 * (i 0).val + 4 * ((i 1).val / 1024) + 3, by rw [hN]; omega⟩, rfl⟩
  obtain ⟨-, -, -, ⟨e0, e1, e2⟩⟩ := idx1_facts t
  refine ⟨t, (flush1_3 t).mpr (by omega), ?_⟩
  rw [mem_blk1_3]
  intro a
  match a with
  | ⟨0, _⟩ =>
    show win1_3.index t (0 : Fin 3) * 1 ≤ (i 0).val ∧ (i 0).val < win1_3.index t (0 : Fin 3) * 1 + 1
    rw [e0]; omega
  | ⟨1, _⟩ =>
    show win1_3.index t (1 : Fin 3) * 1024 ≤ (i 1).val ∧ (i 1).val < win1_3.index t (1 : Fin 3) * 1024 + 1024
    rw [e1]; omega
  | ⟨2, _⟩ =>
    show win1_3.index t (2 : Fin 3) * 256 ≤ (i 2).val ∧ (i 2).val < win1_3.index t (2 : Fin 3) * 256 + 256
    rw [e2]; omega

section
variable (V : (c : Dev nD) → (b : Ref sig .tc) → Buf (Elt Ideal) ((c : Thread nD τ).loc b))

/-- If at every point with ki = 3 the output block holds the rows qi·1024 … of batch b of an array G, the output array
    ends holding G. -/
theorem flushed1_3_of (c : Dev nD) (G : Buf (Elt Ideal) ((cfg1.win 3).arr.view.loc (c.tc : Thread nD τ)))
    (hrow : ∀ (t : Fin cfg1.N), t.val % 4 = 3 → ∀ (r : Fin 1024) (d : Fin 256),
      (outsAt1 (F := Ideal) V c t.val t.isLt).1 (ix3 0 r d) = G (ix3 (bOf t) (col (qiOf t) r) d)) :
    (dat1 (F := Ideal) V c).arrAt 3 cfg1.N = G :=
  (dat1 (F := Ideal) V c).arrAt_eq_of_cover 3 G (fun t hf => by
    show (cfg1.win 3).cut (grid1.coords t) ((dat1 (F := Ideal) V c).after 3 t) = _
    rw [after1_3]
    have key : ∀ y : S1x1024x256.Idx,
        (outsAt1 (F := Ideal) V c t.val t.isLt).1 y = ((cfg1.win 3).blk t).view.read (Elt Ideal) G y := by
      intro y
      obtain ⟨r, d, rfl⟩ : ∃ (r : Fin 1024) (d : Fin 256), y = ix3 (0 : Fin 1) r d := ⟨y 1, y 2, eq_ix3_unit y⟩
      exact (hrow t ((flush1_3 t).mp hf) r d).trans (read_blk1_3 G t r d).symm
    exact funext key) (cover1_3 c)

end

end Cert.KernelIdeal.Hand

end
-- ==== Proof.KIPayLib.lean ====
/-
  The attention kernel's operations read at an index, at the ideal values: the words of the causal mask, the constants,
  the kept-dimension column layout operations, the two matrix products and the two row reductions.

  The mask compares two 32-bit position words, block number · 1024 + coordinate; with block numbers below 4 and
  coordinates below 1024 neither wraps nor is negative as a signed word, so the signed comparison is the comparison of
  the natural numbers. The product q·kᵀ contracts the last axes of both operands, the product p·v the last axis of the
  left against the first of the right; read at an output index each is a finite sum over the one contraction
  coordinate. A reduction over axis 1 of a [1024, 1024] array read at row r ranges over the row's entries (r, c).
-/
import proofs.«151727_j7834020348210_2_alg».proof.Proof.Gen.KernelIdeal.Skeleton
import proofs.«151727_j7834020348210_2_alg».proof.Proof.LibFlashRow
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.PayRow

open Cert.KernelIdeal Cert.KernelIdeal.Gen Idealize.ShloMosaic Idealize.ShloMosaic.ValueIdx

/-! ## Words and constants -/

/-- The f32 word 0xFF800000 is −∞. -/
theorem ofBits_neg_inf : Ideal.ofBits .f32 0xFF800000#32 = ⊥ := by simp [Ideal.ofBits, Ideal.ieee]

/-- The f32 word 0x3F800000 is 1. -/
theorem ofBits_one : Ideal.ofBits .f32 0x3F800000#32 = 1 := by
  simp [Ideal.ofBits, Ideal.ieee, -EReal.coe_mul]; norm_num

/-- The named constant "neg_big" is −∞ at the ideal values. -/
theorem neg_big_eq : Named.named (F := Ideal) κ "neg_big" (φ := .f32) 0xFF333332#32 = ⊥ :=
  IdealRules.named_const.ideal_named_scalar _ _ _ _ rfl

/-- The exponential of a vector reads the exponential of the element. -/
theorem exp_apply {s : Shape} {φ : FTy} (a : FVec Ideal s φ) (i : s.Idx) : exp a i = Ideal.exp (a i) := rfl

/-- An integer sum of vectors reads the sum of the elements' words. -/
theorem addi_apply {s : Shape} {w : ℕ} (x y : IVec s w) (i : s.Idx) : addi x y i = x i + y i := rfl

/-- An integer comparison of vectors compares the elements' words. -/
theorem cmpi_apply {s : Shape} {w : ℕ} (p : CmpIPredicate) (x y : IVec s w) (i : s.Idx) :
    cmpi p x y i = IntOp.cmpi p (x i) (y i) := rfl

/-- A block number below 4 times 1024 plus a coordinate below 1024, computed on 32-bit words, does not wrap and is
    nonnegative as a signed word: its signed value is the natural number. -/
theorem word_toInt (q : Fin 4) (r : Fin 1024) :
    (BitVec.ofNat 32 q.val * 1024#32 + BitVec.ofNat 32 r.val).toInt = ((q.val * 1024 + r.val : ℕ) : ℤ) := by
  have hq := q.isLt
  have hr := r.isLt
  have hn : (BitVec.ofNat 32 q.val * 1024#32 + BitVec.ofNat 32 r.val).toNat = q.val * 1024 + r.val := by
    simp only [BitVec.toNat_add, BitVec.toNat_mul, BitVec.toNat_ofNat]
    omega
  rw [BitVec.toInt_eq_toNat_of_lt (by rw [hn]; omega), hn]

/-- The causal mask's bit: the signed comparison "query position ≥ key position" of the two position words is the
    comparison of the natural numbers. -/
theorem mask_bit (qi ki : Fin 4) (r c : Fin 1024) :
    IntOp.cmpi .sge (BitVec.ofNat 32 qi.val * 1024#32 + BitVec.ofNat 32 r.val)
        (BitVec.ofNat 32 ki.val * 1024#32 + BitVec.ofNat 32 c.val)
      = if ki.val * 1024 + c.val ≤ qi.val * 1024 + r.val then 1#1 else 0#1 := by
  show BitVec.ofBool ((BitVec.ofNat 32 ki.val * 1024#32 + BitVec.ofNat 32 c.val).sle
      (BitVec.ofNat 32 qi.val * 1024#32 + BitVec.ofNat 32 r.val)) = _
  rw [BitVec.sle, word_toInt, word_toInt]
  by_cases h : ki.val * 1024 + c.val ≤ qi.val * 1024 + r.val
  · rw [if_pos h, decide_eq_true (by exact_mod_cast h)]
    rfl
  · rw [if_neg h, decide_eq_false (by exact_mod_cast h)]
    rfl

/-! ## Layout operations of the kept-dimension column forms, read at an index -/

/-- An [a] array cast to [a, 1] reads, at (i, u), the operand at i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column broadcast to [a, b] reads, at (p, c), the column at p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-! ## The two matrix products read at an index -/

/-- The left operand index of the product q·kᵀ at output (r, c): its row is the output's row. -/
theorem qk_lhs0 (i : S1024x1024.Idx) (q : dot_S1024x256_S1024x256_S1024x1024_1_1_0_0_n_n.contr.Idx) :
    (dot_S1024x256_S1024x256_S1024x1024_1_1_0_0_n_n.lhsIdx i q 0).val = (i 0).val := by
  unfold DotDims.lhsIdx
  rw [dif_neg (show ¬(0 : Fin S1024x256.rank) ∈ dot_S1024x256_S1024x256_S1024x1024_1_1_0_0_n_n.lhsBatch by decide),
    dif_pos (show (0 : Fin S1024x256.rank) ∈ dot_S1024x256_S1024x256_S1024x1024_1_1_0_0_n_n.lhsNonContracting by decide)]
  rfl

/-- The right operand index of the product q·kᵀ at output (r, c): its row is the output's column. -/
theorem qk_rhs0 (i : S1024x1024.Idx) (q : dot_S1024x256_S1024x256_S1024x1024_1_1_0_0_n_n.contr.Idx) :
    (dot_S1024x256_S1024x256_S1024x1024_1_1_0_0_n_n.rhsIdx i q 0).val = (i 1).val := by
  unfold DotDims.rhsIdx
  rw [dif_neg (show ¬(0 : Fin S1024x256.rank) ∈ dot_S1024x256_S1024x256_S1024x1024_1_1_0_0_n_n.rhsBatch by decide),
    dif_pos (show (0 : Fin S1024x256.rank) ∈ dot_S1024x256_S1024x256_S1024x1024_1_1_0_0_n_n.rhsNonContracting by decide)]
  rfl

/-- The product q·kᵀ into the zero accumulator, read at (r, c): the sum over the 256 feature coordinates of the
    products of row r of the left operand and row c of the right operand (both last axes contracted). -/
theorem qk_apply (A B : FVec Ideal S1024x256 .bf16) (r c : Fin 1024) :
    FloatOps.matmul dot_S1024x256_S1024x256_S1024x1024_1_1_0_0_n_n none A B
        (constant (F := Ideal) S1024x1024 .f32 0x00000000#32) (ix2 r c)
      = ∑ d : Fin 256, A (ix2 r d) * B (ix2 c d) := by
  rw [Ideal.matmul_constant_zero_apply,
    ← Equiv.sum_comp (contrEquiv1 dot_S1024x256_S1024x256_S1024x1024_1_1_0_0_n_n 256 rfl rfl).symm]
  refine Finset.sum_congr rfl fun k _ => ?_
  have hk := contrEquiv1_symm_val dot_S1024x256_S1024x256_S1024x1024_1_1_0_0_n_n 256 rfl rfl k
  have el : dot_S1024x256_S1024x256_S1024x1024_1_1_0_0_n_n.lhsIdx (ix2 r c)
      ((contrEquiv1 dot_S1024x256_S1024x256_S1024x1024_1_1_0_0_n_n 256 rfl rfl).symm k) = ix2 r k :=
    funext fun a => Fin.ext (by
      match a with
      | ⟨0, _⟩ => exact qk_lhs0 _ _
      | ⟨1, _⟩ => exact (dot_S1024x256_S1024x256_S1024x1024_1_1_0_0_n_n.lhsIdx_val_of_single rfl _ _).trans hk)
  have er : dot_S1024x256_S1024x256_S1024x1024_1_1_0_0_n_n.rhsIdx (ix2 r c)
      ((contrEquiv1 dot_S1024x256_S1024x256_S1024x1024_1_1_0_0_n_n 256 rfl rfl).symm k) = ix2 c k :=
    funext fun a => Fin.ext (by
      match a with
      | ⟨0, _⟩ => exact qk_rhs0 _ _
      | ⟨1, _⟩ => exact (dot_S1024x256_S1024x256_S1024x1024_1_1_0_0_n_n.rhsIdx_val_of_single rfl _ _).trans hk)
  rw [el, er]

/-- The left operand index of the product p·v at output (r, d): its row is the output's row. -/
theorem pv_lhs0 (i : S1024x256.Idx) (q : dot_S1024x1024_S1024x256_S1024x256_1_0_0_1_n_n.contr.Idx) :
    (dot_S1024x1024_S1024x256_S1024x256_1_0_0_1_n_n.lhsIdx i q 0).val = (i 0).val := by
  unfold DotDims.lhsIdx
  rw [dif_neg (show ¬(0 : Fin S1024x1024.rank) ∈ dot_S1024x1024_S1024x256_S1024x256_1_0_0_1_n_n.lhsBatch by decide),
    dif_pos (show (0 : Fin S1024x1024.rank) ∈ dot_S1024x1024_S1024x256_S1024x256_1_0_0_1_n_n.lhsNonContracting by decide)]
  rfl

/-- The right operand index of the product p·v at output (r, d): its column is the output's column. -/
theorem pv_rhs1 (i : S1024x256.Idx) (q : dot_S1024x1024_S1024x256_S1024x256_1_0_0_1_n_n.contr.Idx) :
    (dot_S1024x1024_S1024x256_S1024x256_1_0_0_1_n_n.rhsIdx i q 1).val = (i 1).val := by
  unfold DotDims.rhsIdx
  rw [dif_neg (show ¬(1 : Fin S1024x256.rank) ∈ dot_S1024x1024_S1024x256_S1024x256_1_0_0_1_n_n.rhsBatch by decide),
    dif_pos (show (1 : Fin S1024x256.rank) ∈ dot_S1024x1024_S1024x256_S1024x256_1_0_0_1_n_n.rhsNonContracting by decide)]
  rfl

/-- The product p·v into the zero accumulator, read at (r, d): the sum over the 1024 key columns of the products of
    row r of the left operand and column d of the right operand (the left's last axis against the right's first). -/
theorem pv_apply (P : FVec Ideal S1024x1024 .bf16) (V : FVec Ideal S1024x256 .bf16) (r : Fin 1024) (d : Fin 256) :
    FloatOps.matmul dot_S1024x1024_S1024x256_S1024x256_1_0_0_1_n_n none P V
        (constant (F := Ideal) S1024x256 .f32 0x00000000#32) (ix2 r d)
      = ∑ c : Fin 1024, P (ix2 r c) * V (ix2 c d) := by
  rw [Ideal.matmul_constant_zero_apply,
    ← Equiv.sum_comp (contrEquiv1 dot_S1024x1024_S1024x256_S1024x256_1_0_0_1_n_n 1024 rfl rfl).symm]
  refine Finset.sum_congr rfl fun k _ => ?_
  have hk := contrEquiv1_symm_val dot_S1024x1024_S1024x256_S1024x256_1_0_0_1_n_n 1024 rfl rfl k
  have el : dot_S1024x1024_S1024x256_S1024x256_1_0_0_1_n_n.lhsIdx (ix2 r d)
      ((contrEquiv1 dot_S1024x1024_S1024x256_S1024x256_1_0_0_1_n_n 1024 rfl rfl).symm k) = ix2 r k :=
    funext fun a => Fin.ext (by
      match a with
      | ⟨0, _⟩ => exact pv_lhs0 _ _
      | ⟨1, _⟩ => exact (dot_S1024x1024_S1024x256_S1024x256_1_0_0_1_n_n.lhsIdx_val_of_single rfl _ _).trans hk)
  have er : dot_S1024x1024_S1024x256_S1024x256_1_0_0_1_n_n.rhsIdx (ix2 r d)
      ((contrEquiv1 dot_S1024x1024_S1024x256_S1024x256_1_0_0_1_n_n 1024 rfl rfl).symm k) = ix2 k d :=
    funext fun a => Fin.ext (by
      match a with
      | ⟨0, _⟩ => exact (dot_S1024x1024_S1024x256_S1024x256_1_0_0_1_n_n.rhsIdx_val_of_single rfl _ _).trans hk
      | ⟨1, _⟩ => exact pv_rhs1 _ _)
  rw [el, er]

/-! ## The two row reductions read at an index -/

/-- The index a row reduction reads: row r with the reduced coordinate c put back on axis 1. -/
theorem lift_row (r c : Fin 1024) : reduces_S1024x1024_S1024.lift (ix1 r) c = ix2 r c :=
  funext fun a => Fin.ext (by
    match a with
    | ⟨0, _⟩ => rfl
    | ⟨1, _⟩ => rfl)

/-- The row maximum: a maximum reduction over axis 1 from the word of −∞, read at row r, is the fold of max from −∞
    over the row's 1024 entries. -/
theorem rowmax_apply (src : FVec Ideal S1024x1024 .f32) (hφ : FKind.Formats .f32)
    (hacc : (0xFF800000#32 : BitVec 32) = FKind.maximumf.neutral .f32 hφ) (r : Fin 1024) :
    multiReduction .maximumf [1] S1024 src 0xFF800000#32 reduces_S1024x1024_S1024 hφ hacc (ix1 r)
      = (Finset.univ : Finset (Fin 1024)).fold max ⊥ (fun c => src (ix2 r c)) := by
  refine (Ideal.multiReduction_maximumf_single src 0xFF800000#32 reduces_S1024x1024_S1024 hφ hacc (ix1 r)).trans ?_
  show (Finset.univ : Finset (Fin 1024)).fold max (Ideal.ofBits .f32 0xFF800000#32)
      (src ∘ reduces_S1024x1024_S1024.lift (ix1 r)) = _
  rw [ofBits_neg_inf]
  congr 1
  funext c
  exact congrArg src (lift_row r c)

/-- The row sum: an add reduction over axis 1 from the zero word, read at row r, is the sum of the row's 1024
    entries. -/
theorem rowsum_apply (src : FVec Ideal S1024x1024 .f32) (hφ : FKind.Formats .f32)
    (hacc : (0x00000000#32 : BitVec 32) = FKind.add.neutral .f32 hφ) (r : Fin 1024) :
    multiReduction .add [1] S1024 src 0x00000000#32 reduces_S1024x1024_S1024 hφ hacc (ix1 r)
      = ∑ c : Fin 1024, src (ix2 r c) := by
  refine (Ideal.multiReduction_add_single src 0x00000000#32 reduces_S1024x1024_S1024 hφ hacc (ix1 r)).trans ?_
  show ∑ c : Fin 1024, src (reduces_S1024x1024_S1024.lift (ix1 r) c) = _
  exact Finset.sum_congr rfl fun c _ => congrArg src (lift_row r c)

end Cert.KernelIdeal.PayRow
-- ==== Proof.KIPayRow.lean ====
/-
  One attention row of the flash-attention kernel's payloads, read at an index at the ideal values.

  The kernel keeps three scratch arrays: the running maxima [1024, 1], the running sums [1024, 1] and the running
  weighted sums [1024, 256]. Row r of the three is the running triple (m, l, acc) of query row r. The payloads that
  initialise them hold (−∞, 0, 0). For one key/value tile the payloads compute, on row r: the scores
  s_c = (q_r · k_c) · scale where key position ≤ query position and −∞ elsewhere (the named constant of the mask is
  −∞ at the ideal values); the new maximum m' = max m (max_c s_c), the row maximum being a fold of max from −∞; the
  factor exp(m − m'); the weights exp(s_c − m'); the new sum exp(m − m') · l + Σ_c exp(s_c − m') (the add reduction
  starts from 0); and the new weighted sum exp(m − m') · acc_d + Σ_c exp(s_c − m') · v_cd, a matrix product of the
  weights with the value tile. That is the online-softmax step of LibFlashRow on the row. The final payload divides
  row r of the weighted sums by the row's sum when that sum is positive. Format changes between f32 and bf16 are the
  identity on the extended reals.
-/
import proofs.«151727_j7834020348210_2_alg».proof.Proof.Gen.KernelIdeal.Skeleton
import proofs.«151727_j7834020348210_2_alg».proof.Proof.LibFlashRow
import proofs.«151727_j7834020348210_2_alg».proof.Proof.KIPayLib
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.PayRow

open Cert.KernelIdeal Cert.KernelIdeal.Gen Idealize.ShloMosaic Idealize.ShloMosaic.ValueIdx

/-! ## The row state -/

/-- Row r of the running state held in the three scratch arrays: the running maximum, the running sum and the
    running weighted sum (one entry per value coordinate). -/
def rowState (mv lv : Vec Ideal S1024x1 .f32) (accv : Vec Ideal S1024x256 .f32) (r : Fin 1024) :
    EReal × EReal × (Fin 256 → EReal) :=
  (mv (ix2 r 0), lv (ix2 r 0), fun d => accv (ix2 r d))

/-- The initial scratch arrays hold (−∞, 0, 0) in every row. -/
theorem init_row (r : Fin 1024) :
    rowState (k1_pay1 (F := Ideal)) (k1_pay2 (F := Ideal)) (k1_pay3 (F := Ideal)) r = (⊥, 0, fun _ => 0) := by
  unfold rowState k1_pay1 k1_pay2 k1_pay3
  simp only [shapeCast_self, broadcast_apply]
  show (Ideal.ofBits .f32 0xFF800000#32, Ideal.ofBits .f32 0x00000000#32,
    fun _ : Fin 256 => Ideal.ofBits .f32 0x00000000#32) = _
  rw [ofBits_neg_inf, Ideal.ofBits_zero_f32]

/-- The final payload divides the weighted sum by the running sum when the running sum is a positive real: the
    comparison with 0 selects the sum itself as the divisor, its column is broadcast along the value coordinates, and
    the leading unit axis is added by a shape cast. -/
theorem final_row (lv : Vec Ideal S1024x1 .f32) (accv : Vec Ideal S1024x256 .f32) (r : Fin 1024) (d : Fin 256)
    (hl : ∃ Lr : ℝ, 0 < Lr ∧ lv (ix2 r 0) = (Lr : EReal)) :
    k1_pay6 (F := Ideal) lv lv accv (ix3 0 r d) = Ideal.div (accv (ix2 r d)) (lv (ix2 r 0)) := by
  obtain ⟨Lr, hLr, hlv⟩ := hl
  unfold k1_pay6
  refine (shapeCast_ab_1ab_apply _ _ 0 r d).trans ?_
  rw [divf_apply]
  congr 1
  refine (broadcastTo_a1_ab_apply _ _ r d).trans ?_
  rw [select_apply, cmpf_apply, broadcast_apply]
  show Scalar.select (Ideal.cmp .ogt (lv (ix2 r 0)) (Ideal.ofBits .f32 0x00000000#32)) (lv (ix2 r 0)) _ = _
  rw [Ideal.ofBits_zero_f32, hlv]
  have hpos : (0 : EReal) < ((Lr : ℝ) : EReal) := by exact_mod_cast hLr
  show Scalar.select (BitVec.ofBool (decide ((0 : EReal) < ((Lr : ℝ) : EReal)))) _ _ = _
  rw [decide_eq_true hpos]
  exact select_one _ _

/-! ## The payloads read at an index -/

/-- The masked, scaled scores at (r, c), for any block numbers: where the mask bit (query position ≥ key position,
    compared as signed 32-bit words) is set, the scaled product of query row r and key row c; elsewhere −∞. -/
theorem pay8_raw (a1 a2 : BitVec 32) (xq xk : Vec Ideal S1x1024x256 .bf16) (r c : Fin 1024) :
    k1_pay8 (F := Ideal) a1 a2 xq xk (ix2 r c)
      = Scalar.select (IntOp.cmpi .sge (a1 * 1024#32 + BitVec.ofNat 32 r.val) (a2 * 1024#32 + BitVec.ofNat 32 c.val))
          ((∑ d : Fin 256, xq (ix3 0 r d) * xk (ix3 0 c d)) * Ideal.ofBits .f32 0x3D800000#32) ⊥ := by
  unfold k1_pay8
  simp only [select_apply, cmpi_apply, addi_apply, broadcast_apply, mulf_apply, matmul]
  have h0 : iota .tc S1024x1024 32 [0] iota_S1024x1024_d0_w32 (ix2 r c) = BitVec.ofNat 32 r.val :=
    iota_single_apply _ _ _ _ _ _
  have h1 : iota .tc S1024x1024 32 [1] iota_S1024x1024_d1_w32 (ix2 r c) = BitVec.ofNat 32 c.val :=
    iota_single_apply _ _ _ _ _ _
  have hq : ∀ d : Fin 256, shapeCast S1024x256 xq shapeCasts_S1x1024x256_S1024x256 (ix2 r d) = xq (ix3 0 r d) :=
    fun d => shapeCast_1ab_ab_apply xq _ r d
  have hk : ∀ d : Fin 256, shapeCast S1024x256 xk shapeCasts_S1x1024x256_S1024x256 (ix2 c d) = xk (ix3 0 c d) :=
    fun d => shapeCast_1ab_ab_apply xk _ c d
  rw [h0, h1, qk_apply, neg_big_eq]
  simp only [hq, hk]
  have hm : ∀ a : BitVec 32, Scalar.muli a 1024#32 = a * 1024#32 := fun _ => rfl
  have ho : FloatOps.ofBits (F := Ideal) .f32 0x3D800000#32 = Ideal.ofBits .f32 0x3D800000#32 := rfl
  rw [hm, hm, ho]

/-- The masked, scaled scores at (r, c) at the grid's block numbers qi, ki < 4: the mask is the causal condition
    "key position ≤ query position" on the natural numbers (nothing wraps). -/
theorem pay8_apply (qi ki : Fin 4) (xq xk : Vec Ideal S1x1024x256 .bf16) (r c : Fin 1024) :
    k1_pay8 (F := Ideal) (BitVec.ofNat 32 qi.val) (BitVec.ofNat 32 ki.val) xq xk (ix2 r c)
      = if ki.val * 1024 + c.val ≤ qi.val * 1024 + r.val
        then (∑ d : Fin 256, xq (ix3 0 r d) * xk (ix3 0 c d)) * Ideal.ofBits .f32 0x3D800000#32 else ⊥ := by
  rw [pay8_raw, mask_bit]
  split_ifs with h
  · exact select_one _ _
  · exact select_zero _ _

/-- The new running maximum of row r: the maximum of the old one and the fold of max from −∞ over the row's scores. -/
theorem pay9_apply (a1 a2 : BitVec 32) (xq xk : Vec Ideal S1x1024x256 .bf16) (mv : Vec Ideal S1024x1 .f32)
    (r : Fin 1024) :
    k1_pay9 (F := Ideal) a1 a2 xq xk mv (ix2 r 0)
      = max (mv (ix2 r 0)) ((Finset.univ : Finset (Fin 1024)).fold max ⊥
          (fun c => k1_pay8 (F := Ideal) a1 a2 xq xk (ix2 r c))) := by
  unfold k1_pay9
  refine (maximumf_apply _ _ _).trans ?_
  refine congrArg (max (mv (ix2 r 0))) ?_
  refine (shapeCast_a_a1_apply _ _ r 0).trans ?_
  exact rowmax_apply _ _ _ r

/-- The rescaling factor of row r: the exponential of the old maximum minus the new one. -/
theorem pay10_apply (a1 a2 : BitVec 32) (xq xk : Vec Ideal S1x1024x256 .bf16) (mv : Vec Ideal S1024x1 .f32)
    (r : Fin 1024) :
    k1_pay10 (F := Ideal) a1 a2 xq xk mv (ix2 r 0)
      = Ideal.exp (mv (ix2 r 0) - k1_pay9 (F := Ideal) a1 a2 xq xk mv (ix2 r 0)) := by
  unfold k1_pay10
  refine (exp_apply _ _).trans ?_
  exact congrArg Ideal.exp (subf_apply _ _ _)

/-- The weights at (r, c): the exponential of the score minus the row's new maximum. -/
theorem pay11_apply (a1 a2 : BitVec 32) (xq xk : Vec Ideal S1x1024x256 .bf16) (mv : Vec Ideal S1024x1 .f32)
    (r c : Fin 1024) :
    k1_pay11 (F := Ideal) a1 a2 xq xk mv (ix2 r c)
      = Ideal.exp (k1_pay8 (F := Ideal) a1 a2 xq xk (ix2 r c) - k1_pay9 (F := Ideal) a1 a2 xq xk mv (ix2 r 0)) := by
  unfold k1_pay11
  refine (exp_apply _ _).trans ?_
  refine congrArg Ideal.exp ?_
  refine (subf_apply _ _ _).trans ?_
  exact congrArg (k1_pay8 (F := Ideal) a1 a2 xq xk (ix2 r c) - ·) (broadcastTo_a1_ab_apply _ _ r c)

/-- The new running sum of row r: the rescaled old sum plus the sum of the row's weights. -/
theorem pay12_apply (a1 a2 : BitVec 32) (xq xk : Vec Ideal S1x1024x256 .bf16) (mv lv : Vec Ideal S1024x1 .f32)
    (r : Fin 1024) :
    k1_pay12 (F := Ideal) a1 a2 xq xk mv lv (ix2 r 0)
      = k1_pay10 (F := Ideal) a1 a2 xq xk mv (ix2 r 0) * lv (ix2 r 0)
        + ∑ c : Fin 1024, k1_pay11 (F := Ideal) a1 a2 xq xk mv (ix2 r c) := by
  unfold k1_pay12
  refine (congrFun (shapeCast_self _ _) _).trans ?_
  refine (addf_apply _ _ _).trans ?_
  refine congrArg₂ (· + ·) (mulf_apply _ _ _) ?_
  refine (shapeCast_a_a1_apply _ _ r 0).trans ?_
  exact rowsum_apply _ _ _ r

/-- The new weighted sum at (r, d): the rescaled old one plus the sum over the key columns of weight times value. -/
theorem pay4_apply (xv : Vec Ideal S1x1024x256 .bf16) (p10 : FVec Ideal S1024x1 .f32)
    (p11 : FVec Ideal S1024x1024 .f32) (accv : Vec Ideal S1024x256 .f32) (r : Fin 1024) (d : Fin 256) :
    k1_pay4 (F := Ideal) (k1_pay7 (F := Ideal) xv) p10 p11 accv (ix2 r d)
      = p10 (ix2 r 0) * accv (ix2 r d) + ∑ c : Fin 1024, p11 (ix2 r c) * xv (ix3 0 c d) := by
  unfold k1_pay4 k1_pay7
  refine (congrFun (shapeCast_self _ _) _).trans ?_
  refine (addf_apply _ _ _).trans ?_
  refine congrArg₂ (· + ·) ?_ ?_
  · refine (mulf_apply _ _ _).trans ?_
    exact congrArg (· * accv (ix2 r d)) (broadcastTo_a1_ab_apply _ _ r d)
  · refine (pv_apply _ _ r d).trans ?_
    refine Finset.sum_congr rfl fun c _ => ?_
    exact congrArg₂ (· * ·) (truncf_apply _ _ _) (shapeCast_1ab_ab_apply xv _ c d)

/-- One key/value tile's update of row r of the scratch arrays is the online-softmax step on that row, with the
    tile's logits the row's masked scaled scores and the tile's value vectors the rows of the value tile. -/
theorem step_row (a1 a2 : BitVec 32) (xq xk xv : Vec Ideal S1x1024x256 .bf16) (mv lv : Vec Ideal S1024x1 .f32)
    (accv : Vec Ideal S1024x256 .f32) (r : Fin 1024) :
    rowState (k1_pay5 (k1_pay9 a1 a2 xq xk mv)) (k1_pay12 a1 a2 xq xk mv lv)
        (k1_pay4 (k1_pay7 xv) (k1_pay10 a1 a2 xq xk mv) (k1_pay11 a1 a2 xq xk mv) accv) r
      = Idealize.ShloMosaic.FlashRow.step (rowState mv lv accv r)
          (fun c : Fin 1024 => k1_pay8 a1 a2 xq xk (ix2 r c))
          (fun (c : Fin 1024) (d : Fin 256) => xv (ix3 0 c d)) := by
  unfold rowState Idealize.ShloMosaic.FlashRow.step
  refine Prod.ext ?_ (Prod.ext ?_ (funext fun d => ?_))
  · show k1_pay5 (F := Ideal) (k1_pay9 (F := Ideal) a1 a2 xq xk mv) (ix2 r 0) = _
    unfold k1_pay5
    rw [shapeCast_self]
    exact pay9_apply a1 a2 xq xk mv r
  · show k1_pay12 (F := Ideal) a1 a2 xq xk mv lv (ix2 r 0) = _
    rw [pay12_apply, pay10_apply]
    simp only [pay11_apply, pay9_apply]
  · show k1_pay4 (F := Ideal) (k1_pay7 (F := Ideal) xv) (k1_pay10 (F := Ideal) a1 a2 xq xk mv)
        (k1_pay11 (F := Ideal) a1 a2 xq xk mv) accv (ix2 r d) = _
    rw [pay4_apply, pay10_apply]
    simp only [pay11_apply, pay9_apply]

end Cert.KernelIdeal.PayRow
-- ==== Proof.KIValue1.lean ====
/- REGION 1's value over the extended reals: after the region, the result array is causal attention of the three arrays
   the region reads — for every batch b and query row i, the softmax-weighted sum of the value rows over the key
   columns j ≤ i, the softmax written with the row maximum subtracted (`final1`).

   The grid walks (batch b, query tile qi, key tile ki) in row-major order. The three scratch buffers carry, for each
   row r of the query tile, a running triple (maximum, sum of exponentials, weighted sum of value rows). The invariant
   (`RowInv`), proved by induction along the grid (`inv_all`): after point (b, qi, ki), row r holds the triple of query
   row qi·1024 + r after the key tiles 0 … min ki qi. At ki = 0 the body resets the triple and folds tile 0; at
   0 < ki ≤ qi it folds tile ki onto what the point before left (same b and qi, key tile ki − 1); at ki > qi it leaves
   the scratch alone, and min ki qi = qi = min (ki − 1) qi. The logits the body computes for a tile at or below the
   diagonal tile are the specification's masked scaled scores (`tile_logits`), its value block the specification's
   value rows (`tile_values`). At ki = 3 the body stores the accumulator divided by the row sums; the triple is then the
   one after the tiles 0 … qi, whose sum is a positive real number and whose quotient is the specification's output row
   (`out_row`). -/
import proofs.«151727_j7834020348210_2_alg».proof.Proof.KIRegion1
import proofs.«151727_j7834020348210_2_alg».proof.Proof.KIPieces1
import proofs.«151727_j7834020348210_2_alg».proof.Proof.KIBlocks1
import proofs.«151727_j7834020348210_2_alg».proof.Proof.KIPayRow
import proofs.«151727_j7834020348210_2_alg».proof.Proof.SpecRow
import proofs.«151727_j7834020348210_2_alg».proof.Proof.LibFlashRow
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe
open Idealize.SL.Sem
open Idealize.ShloMosaic.Pipeline (Dat)
open Idealize.ShloMosaic.ValueIdx
open Cert.SpecRow (col col_val tileS tileV)

open Cert.KernelIdeal.PayRow
open Idealize.ShloMosaic.FlashRow (run step)

variable (V : (c : Dev nD) → (b : Ref sig .tc) → Buf (Elt Ideal) ((c : Thread nD τ).loc b))

/-- The three arrays the region reads, as functions of batch, row and column. -/
def qf (c : Dev nD) : Fin 4 → Fin 4096 → Fin 256 → EReal := fun b i d => V c main_v3_0 (ix3 b i d)
def kf (c : Dev nD) : Fin 4 → Fin 4096 → Fin 256 → EReal := fun b i d => V c main_v3_1 (ix3 b i d)
def vf (c : Dev nD) : Fin 4 → Fin 4096 → Fin 256 → EReal := fun b i d => V c main_v3_2 (ix3 b i d)

/-- At a point at or below the diagonal tile (key tile ki ≤ query tile qi), the logits the body computes for row r
    of the query tile against the key tile are the specification's masked, scaled scores of query row qi·1024 + r
    against the key columns ki·1024 …: the mask "key column ≤ query row" is the same inequality. -/
theorem tile_logits (c : Dev nD) (t : Fin cfg1.N) (h1 : kiOf t ≤ qiOf t) (r : Fin 1024) :
    (fun cc : Fin 1024 => k1_pay8 (F := Ideal) (BitVec.ofNat 32 (grid1.coords t 1).val) (BitVec.ofNat 32 (grid1.coords t 2).val)
        (iblk1 V c 0 t) (iblk1 V c 1 t) (ix2 r cc))
      = tileS (qf V c) (kf V c) (bOf t) (col (qiOf t) r) (kiOf t) := by
  obtain ⟨-, e1, e2⟩ := coords1_val t
  have hq := qiOf_lt t
  have hk := kiOf_lt t
  funext cc
  rw [e1, e2]
  refine (pay8_apply ⟨qiOf t, hq⟩ ⟨kiOf t, hk⟩ (iblk1 V c 0 t) (iblk1 V c 1 t) r cc).trans ?_
  unfold tileS
  rw [if_pos hk]
  unfold Cert.Spec.logit
  refine if_congr ?_ ?_ rfl
  · rw [col_val _ hk, col_val _ hq]
  · congr 1
    refine Finset.sum_congr rfl fun d _ => ?_
    rw [iblk1_0_apply, iblk1_1_apply, Nat.min_eq_left h1]
    rfl

/-- There the value block is the specification's value rows of the key tile. -/
theorem tile_values (c : Dev nD) (t : Fin cfg1.N) (h1 : kiOf t ≤ qiOf t) :
    (fun (cc : Fin 1024) (d : Fin 256) => iblk1 (F := Ideal) V c 2 t (ix3 0 cc d)) = tileV (vf V c) (bOf t) (kiOf t) := by
  funext cc d
  rw [iblk1_2_apply, Nat.min_eq_left h1]
  rfl

/-- One fold at a point at or below the diagonal tile: if row r of the scratch holds the running triple after the
    key tiles before ki, then after the body's fold it holds the triple after the key tiles up to ki. -/
theorem fold_row (c : Dev nD) (t : Fin cfg1.N) (h1 : kiOf t ≤ qiOf t) (mv lv : Vec Ideal S1024x1 .f32) (accv : Vec Ideal S1024x256 .f32)
    (r : Fin 1024)
    (hp : rowState mv lv accv r = run (tileS (qf V c) (kf V c) (bOf t) (col (qiOf t) r)) (tileV (vf V c) (bOf t)) (kiOf t)) :
    rowState
        (k1_pay5 (k1_pay9 (BitVec.ofNat 32 (grid1.coords t 1).val) (BitVec.ofNat 32 (grid1.coords t 2).val) (iblk1 V c 0 t) (iblk1 V c 1 t) mv))
        (k1_pay12 (BitVec.ofNat 32 (grid1.coords t 1).val) (BitVec.ofNat 32 (grid1.coords t 2).val) (iblk1 V c 0 t) (iblk1 V c 1 t) mv lv)
        (k1_pay4 (k1_pay7 (iblk1 V c 2 t))
          (k1_pay10 (BitVec.ofNat 32 (grid1.coords t 1).val) (BitVec.ofNat 32 (grid1.coords t 2).val) (iblk1 V c 0 t) (iblk1 V c 1 t) mv)
          (k1_pay11 (BitVec.ofNat 32 (grid1.coords t 1).val) (BitVec.ofNat 32 (grid1.coords t 2).val) (iblk1 V c 0 t) (iblk1 V c 1 t) mv) accv) r
      = run (tileS (qf V c) (kf V c) (bOf t) (col (qiOf t) r)) (tileV (vf V c) (bOf t)) (kiOf t + 1) := by
  rw [step_row, hp, tile_logits V c t h1 r, tile_values V c t h1]
  rfl

/-- The point before a point whose key tile is not the first: the same batch and query tile, the key tile before. -/
theorem prev_facts (t : Fin cfg1.N) (hk : t.val % 4 ≠ 0) :
    bOf ⟨t.val - 1, Nat.lt_of_le_of_lt (Nat.sub_le _ _) t.isLt⟩ = bOf t
      ∧ qiOf ⟨t.val - 1, Nat.lt_of_le_of_lt (Nat.sub_le _ _) t.isLt⟩ = qiOf t
      ∧ kiOf ⟨t.val - 1, Nat.lt_of_le_of_lt (Nat.sub_le _ _) t.isLt⟩ + 1 = kiOf t := by
  refine ⟨Fin.ext ?_, ?_, ?_⟩
  · show (t.val - 1) / 16 % 4 = t.val / 16 % 4
    omega
  · show (t.val - 1) / 4 % 4 = t.val / 4 % 4
    omega
  · show (t.val - 1) % 4 + 1 = t.val % 4
    omega

/-- THE INVARIANT at point t = (b, qi, ki): row r of the scratch buffers holds the running triple of query row
    qi·1024 + r of batch b after the key tiles 0 … min ki qi. -/
def RowInv (c : Dev nD) (t : Fin cfg1.N) : Prop := ∀ r : Fin 1024,
  rowState (outsAt1 (F := Ideal) V c t.val t.isLt).2.1 (outsAt1 (F := Ideal) V c t.val t.isLt).2.2.1 (outsAt1 (F := Ideal) V c t.val t.isLt).2.2.2 r
    = run (tileS (qf V c) (kf V c) (bOf t) (col (qiOf t) r)) (tileV (vf V c) (bOf t)) (min (kiOf t) (qiOf t) + 1)

/-- A point with ki = 0: the scratch is reset to (−∞, 0, 0), the triple after no tile, and tile 0 is folded in. -/
theorem inv_A (c : Dev nD) (t : Fin cfg1.N) (h0 : cond1_0 (grid1.coords t)) : RowInv V c t := by
  intro r
  have hk : kiOf t = 0 := (cond1_0_iff t).mp h0
  have h1 : kiOf t ≤ qiOf t := by rw [hk]; exact Nat.zero_le _
  rw [outsAt1_A V c t h0, Nat.min_eq_left h1]
  unfold nextA
  dsimp only
  rw [sout1_A_0_eq, sout1_A_1_eq, sout1_A_2_eq]
  exact fold_row V c t h1 _ _ _ r ((init_row r).trans (by rw [hk]; rfl))

/-- The row triple the point before left, restated at this point's batch, query tile and key tile. -/
theorem prev_row (c : Dev nD) (t : Fin cfg1.N) (h0 : ¬cond1_0 (grid1.coords t)) (h1 : kiOf t ≤ qiOf t)
    (ih : RowInv V c ⟨t.val - 1, Nat.lt_of_le_of_lt (Nat.sub_le _ _) t.isLt⟩) (r : Fin 1024) :
    rowState (outsAt1 (F := Ideal) V c (t.val - 1) (Nat.lt_of_le_of_lt (Nat.sub_le _ _) t.isLt)).2.1
        (outsAt1 (F := Ideal) V c (t.val - 1) (Nat.lt_of_le_of_lt (Nat.sub_le _ _) t.isLt)).2.2.1
        (outsAt1 (F := Ideal) V c (t.val - 1) (Nat.lt_of_le_of_lt (Nat.sub_le _ _) t.isLt)).2.2.2 r
      = run (tileS (qf V c) (kf V c) (bOf t) (col (qiOf t) r)) (tileV (vf V c) (bOf t)) (kiOf t) := by
  have hk : t.val % 4 ≠ 0 := fun h => h0 ((cond1_0_iff t).mpr h)
  obtain ⟨eb, eq, ek⟩ := prev_facts t hk
  have h := ih r
  rw [eb, eq] at h
  refine h.trans ?_
  congr 1
  omega

/-- A point with 0 < ki ≤ qi, ki < 3: one more tile folded in. -/
theorem inv_B (c : Dev nD) (t : Fin cfg1.N) (h0 : ¬cond1_0 (grid1.coords t)) (h1 : cond1_1 (grid1.coords t)) (h2 : ¬cond1_2 (grid1.coords t))
    (ih : RowInv V c ⟨t.val - 1, Nat.lt_of_le_of_lt (Nat.sub_le _ _) t.isLt⟩) : RowInv V c t := by
  intro r
  have h1' : kiOf t ≤ qiOf t := (cond1_1_iff t).mp h1
  rw [outsAt1_B V c t h0 h1 h2, Nat.min_eq_left h1']
  unfold nextB
  dsimp only
  rw [sout1_B_0_eq, sout1_B_1_eq, sout1_B_2_eq]
  exact fold_row V c t h1' _ _ _ r (prev_row V c t h0 h1' ih r)

/-- The same at ki = 3 (the last query tile's last point). -/
theorem inv_D (c : Dev nD) (t : Fin cfg1.N) (h0 : ¬cond1_0 (grid1.coords t)) (h1 : cond1_1 (grid1.coords t)) (h2 : cond1_2 (grid1.coords t))
    (ih : RowInv V c ⟨t.val - 1, Nat.lt_of_le_of_lt (Nat.sub_le _ _) t.isLt⟩) : RowInv V c t := by
  intro r
  have h1' : kiOf t ≤ qiOf t := (cond1_1_iff t).mp h1
  rw [outsAt1_D V c t h0 h1 h2, Nat.min_eq_left h1']
  unfold nextD
  dsimp only
  rw [sout1_D_0_eq, sout1_D_1_eq, sout1_D_2_eq]
  exact fold_row V c t h1' _ _ _ r (prev_row V c t h0 h1' ih r)

/-- Above the diagonal tile the scratch is what the point before left, and min ki qi = qi = min (ki − 1) qi. -/
theorem keep_row (c : Dev nD) (t : Fin cfg1.N) (h0 : ¬cond1_0 (grid1.coords t)) (h1 : ¬cond1_1 (grid1.coords t))
    (ih : RowInv V c ⟨t.val - 1, Nat.lt_of_le_of_lt (Nat.sub_le _ _) t.isLt⟩) (r : Fin 1024) :
    rowState (outsAt1 (F := Ideal) V c (t.val - 1) (Nat.lt_of_le_of_lt (Nat.sub_le _ _) t.isLt)).2.1
        (outsAt1 (F := Ideal) V c (t.val - 1) (Nat.lt_of_le_of_lt (Nat.sub_le _ _) t.isLt)).2.2.1
        (outsAt1 (F := Ideal) V c (t.val - 1) (Nat.lt_of_le_of_lt (Nat.sub_le _ _) t.isLt)).2.2.2 r
      = run (tileS (qf V c) (kf V c) (bOf t) (col (qiOf t) r)) (tileV (vf V c) (bOf t)) (min (kiOf t) (qiOf t) + 1) := by
  have hk : t.val % 4 ≠ 0 := fun h => h0 ((cond1_0_iff t).mpr h)
  have h1' : ¬kiOf t ≤ qiOf t := fun h => h1 ((cond1_1_iff t).mpr h)
  obtain ⟨eb, eq, ek⟩ := prev_facts t hk
  have h := ih r
  rw [eb, eq] at h
  refine h.trans ?_
  congr 1
  omega

theorem inv_C (c : Dev nD) (t : Fin cfg1.N) (h0 : ¬cond1_0 (grid1.coords t)) (h1 : ¬cond1_1 (grid1.coords t)) (h2 : ¬cond1_2 (grid1.coords t))
    (ih : RowInv V c ⟨t.val - 1, Nat.lt_of_le_of_lt (Nat.sub_le _ _) t.isLt⟩) : RowInv V c t := by
  intro r
  rw [outsAt1_C V c t h0 h1 h2]
  unfold nextC
  dsimp only
  exact keep_row V c t h0 h1 ih r

theorem inv_E (c : Dev nD) (t : Fin cfg1.N) (h0 : ¬cond1_0 (grid1.coords t)) (h1 : ¬cond1_1 (grid1.coords t)) (h2 : cond1_2 (grid1.coords t))
    (ih : RowInv V c ⟨t.val - 1, Nat.lt_of_le_of_lt (Nat.sub_le _ _) t.isLt⟩) : RowInv V c t := by
  intro r
  rw [outsAt1_E V c t h0 h1 h2]
  unfold nextE
  dsimp only
  exact keep_row V c t h0 h1 ih r

/-- The invariant holds at every point, by induction along the grid's order. -/
theorem inv_all (c : Dev nD) : ∀ (n : ℕ) (hn : n < cfg1.N), RowInv V c ⟨n, hn⟩ := by
  intro n
  induction n with
  | zero => intro hn; exact inv_A V c ⟨0, hn⟩ (c0_first ⟨0, hn⟩ rfl)
  | succ n ih =>
    intro hn
    have ihn : RowInv V c ⟨(⟨n + 1, hn⟩ : Fin cfg1.N).val - 1, Nat.lt_of_le_of_lt (Nat.sub_le _ _) hn⟩ := ih (Nat.lt_of_succ_lt hn)
    by_cases h0 : cond1_0 (grid1.coords ⟨n + 1, hn⟩)
    · exact inv_A V c _ h0
    · by_cases h1 : cond1_1 (grid1.coords ⟨n + 1, hn⟩)
      · by_cases h2 : cond1_2 (grid1.coords ⟨n + 1, hn⟩)
        · exact inv_D V c _ h0 h1 h2 ihn
        · exact inv_B V c _ h0 h1 h2 ihn
      · by_cases h2 : cond1_2 (grid1.coords ⟨n + 1, hn⟩)
        · exact inv_E V c _ h0 h1 h2 ihn
        · exact inv_C V c _ h0 h1 h2 ihn

/-- At a point with ki = 3 the output block is the body's quotient of the accumulator by the row sums, taken of the
    scratch as the point leaves it. -/
theorem out_block (c : Dev nD) (t : Fin cfg1.N) (h2 : cond1_2 (grid1.coords t)) :
    (outsAt1 (F := Ideal) V c t.val t.isLt).1
      = k1_pay6 (outsAt1 (F := Ideal) V c t.val t.isLt).2.2.1 (outsAt1 (F := Ideal) V c t.val t.isLt).2.2.1 (outsAt1 (F := Ideal) V c t.val t.isLt).2.2.2 := by
  have h0 : ¬cond1_0 (grid1.coords t) := fun h => c0_not_c2 t h h2
  by_cases h1 : cond1_1 (grid1.coords t)
  · rw [outsAt1_D V c t h0 h1 h2]
    unfold nextD
    dsimp only
    rw [out1_D_3_eq, sout1_D_1_eq, sout1_D_2_eq]
  · rw [outsAt1_E V c t h0 h1 h2]
    unfold nextE
    dsimp only
    rw [out1_E_3_eq]

/-- Row r of the output block stored at a point with ki = 3 is the specification's output row qi·1024 + r of batch b:
    the scratch holds the running triple after the tiles 0 … qi, whose row sum is a positive real and whose quotient is
    the softmax-weighted sum. -/
theorem out_row (c : Dev nD) (hq : ∀ b i d, ∃ x : ℝ, qf V c b i d = (x : EReal)) (hk : ∀ b i d, ∃ x : ℝ, kf V c b i d = (x : EReal))
    (hv : ∀ b i d, ∃ x : ℝ, vf V c b i d = (x : EReal)) (t : Fin cfg1.N) (h3 : t.val % 4 = 3) (r : Fin 1024) (d : Fin 256) :
    (outsAt1 (F := Ideal) V c t.val t.isLt).1 (ix3 0 r d) = Cert.Spec.out (qf V c) (kf V c) (vf V c) (bOf t) (col (qiOf t) r) d := by
  have h2 : cond1_2 (grid1.coords t) := (cond1_2_iff t).mpr h3
  have hq4 := qiOf_lt t
  have hcol : (col (qiOf t) r).val / 1024 + 1 = min (kiOf t) (qiOf t) + 1 := by
    rw [col_val _ hq4]
    have := r.isLt
    unfold kiOf
    omega
  have hst : run (tileS (qf V c) (kf V c) (bOf t) (col (qiOf t) r)) (tileV (vf V c) (bOf t)) ((col (qiOf t) r).val / 1024 + 1)
      = rowState (outsAt1 (F := Ideal) V c t.val t.isLt).2.1 (outsAt1 (F := Ideal) V c t.val t.isLt).2.2.1 (outsAt1 (F := Ideal) V c t.val t.isLt).2.2.2 r := by
    rw [hcol]
    exact (inv_all V c t.val t.isLt r).symm
  obtain ⟨hL, hdiv⟩ := Cert.SpecRow.row_eq_out (qf V c) (kf V c) (vf V c) hq hk hv (bOf t) (col (qiOf t) r)
  rw [hst] at hL hdiv
  rw [out_block V c t h2, final_row _ _ r d hL]
  exact hdiv d

/-- THE RESULT ARRAY after the region: causal attention of the three arrays the region reads, the softmax written
    with the row maximum subtracted, element by element. -/
theorem final1 (c : Dev nD)
    (hq : ∀ (b : Fin 4) (i : Fin 4096) (d : Fin 256), ∃ x : ℝ, (V c main_v3_0 : S4x4096x256.Idx → EReal) (ix3 b i d) = (x : EReal))
    (hk : ∀ (b : Fin 4) (i : Fin 4096) (d : Fin 256), ∃ x : ℝ, (V c main_v3_1 : S4x4096x256.Idx → EReal) (ix3 b i d) = (x : EReal))
    (hv : ∀ (b : Fin 4) (i : Fin 4096) (d : Fin 256), ∃ x : ℝ, (V c main_v3_2 : S4x4096x256.Idx → EReal) (ix3 b i d) = (x : EReal)) :
    ((dat1 (F := Ideal) V c).arrAt 3 cfg1.N : S4x4096x256.Idx → EReal)
      = fun idx => Cert.Spec.out (fun b i d => V c main_v3_0 (ix3 b i d)) (fun b i d => V c main_v3_1 (ix3 b i d))
          (fun b i d => V c main_v3_2 (ix3 b i d)) (idx 0) (idx 1) (idx 2) :=
  flushed1_3_of V c (fun idx : S4x4096x256.Idx => Cert.Spec.out (qf V c) (kf V c) (vf V c) (idx 0) (idx 1) (idx 2))
    fun t h3 r d => out_row V c hq hk hv t h3 r d

end Cert.KernelIdeal.Hand

end
-- ==== Proof.KIFinal.lean ====
/-
  The result array of the idealized kernel program after its run: the specification's function of the seven
  argument arrays. Region 1 leaves the softmax-weighted sums of the value rows that region 0 left, region 0 leaves
  the three linear layers of the arguments, and finite arguments make every projection entry a real.
-/
import proofs.«151727_j7834020348210_2_alg».proof.Proof.KIProj
import proofs.«151727_j7834020348210_2_alg».proof.Proof.KIValue1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

open Idealize.ShloMosaic.ValueIdx

variable (m : (ℓ : Loc nD τ sig) → Buf (Elt Ideal) ℓ)

/-- After the run the result buffer holds the causal attention of the three projections of x. -/
theorem kernel_value (hpre : Cert.Pre_KernelIdeal m) (c : Dev nD) :
    (W3 (F := Ideal) m c (Proc.devRef .tc main_v4) : S4x4096x256.Idx → EReal)
      = Cert.Spec.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  obtain ⟨h0, h1, h2, h3, h4, h5, h6⟩ := Cert.Finite.real_args m hpre c
  have hq : ∀ b i d, ∃ r : ℝ, (V2 (F := Ideal) m c main_v3_0 : S4x4096x256.Idx → EReal) (ix3 b i d) = (r : EReal) :=
    fun b i d => by rw [V2_q]; exact Cert.SpecRow.lin_real _ _ _ h0 h1 h2 b i d
  have hk : ∀ b i d, ∃ r : ℝ, (V2 (F := Ideal) m c main_v3_1 : S4x4096x256.Idx → EReal) (ix3 b i d) = (r : EReal) :=
    fun b i d => by rw [V2_k]; exact Cert.SpecRow.lin_real _ _ _ h0 h3 h4 b i d
  have hv : ∀ b i d, ∃ r : ℝ, (V2 (F := Ideal) m c main_v3_2 : S4x4096x256.Idx → EReal) (ix3 b i d) = (r : EReal) :=
    fun b i d => by rw [V2_v]; exact Cert.SpecRow.lin_real _ _ _ h0 h5 h6 b i d
  rw [W3_main_v4]
  refine (final1 (V2 m) c hq hk hv).trans ?_
  have eq : (fun (b : Fin 4) (i : Fin 4096) (d : Fin 256) => (V2 (F := Ideal) m c main_v3_0 : S4x4096x256.Idx → EReal) (ix3 b i d))
      = Cert.Spec.lin (m ((c : Thread nD τ).loc main_arg0)) (m ((c : Thread nD τ).loc main_arg1)) (m ((c : Thread nD τ).loc main_arg2)) :=
    funext fun b => funext fun i => funext fun d => V2_q m c b i d
  have ek : (fun (b : Fin 4) (i : Fin 4096) (d : Fin 256) => (V2 (F := Ideal) m c main_v3_1 : S4x4096x256.Idx → EReal) (ix3 b i d))
      = Cert.Spec.lin (m ((c : Thread nD τ).loc main_arg0)) (m ((c : Thread nD τ).loc main_arg3)) (m ((c : Thread nD τ).loc main_arg4)) :=
    funext fun b => funext fun i => funext fun d => V2_k m c b i d
  have ev : (fun (b : Fin 4) (i : Fin 4096) (d : Fin 256) => (V2 (F := Ideal) m c main_v3_2 : S4x4096x256.Idx → EReal) (ix3 b i d))
      = Cert.Spec.lin (m ((c : Thread nD τ).loc main_arg0)) (m ((c : Thread nD τ).loc main_arg5)) (m ((c : Thread nD τ).loc main_arg6)) :=
    funext fun b => funext fun i => funext fun d => V2_v m c b i d
  have e : ∀ (a : Fin 4) (b : Fin 4096) (d : Fin 256),
      Cert.Spec.out (fun b i d => (V2 (F := Ideal) m c main_v3_0 : S4x4096x256.Idx → EReal) (ix3 b i d))
          (fun b i d => (V2 (F := Ideal) m c main_v3_1 : S4x4096x256.Idx → EReal) (ix3 b i d))
          (fun b i d => (V2 (F := Ideal) m c main_v3_2 : S4x4096x256.Idx → EReal) (ix3 b i d)) a b d
        = Cert.Spec.out (Cert.Spec.lin (m ((c : Thread nD τ).loc main_arg0)) (m ((c : Thread nD τ).loc main_arg1)) (m ((c : Thread nD τ).loc main_arg2)))
          (Cert.Spec.lin (m ((c : Thread nD τ).loc main_arg0)) (m ((c : Thread nD τ).loc main_arg3)) (m ((c : Thread nD τ).loc main_arg4)))
          (Cert.Spec.lin (m ((c : Thread nD τ).loc main_arg0)) (m ((c : Thread nD τ).loc main_arg5)) (m ((c : Thread nD τ).loc main_arg6))) a b d := by
    intro a b d; rw [eq, ek, ev]
  funext idx
  exact e (idx 0) (idx 1) (idx 2)

end Cert.KernelIdeal.Hand

end
-- ==== Proof.RefSpec.lean ====
/-
  The reference computes the specification. Read one operation at a time at an index, the reference's result array is:
  three linear layers q, k, v = x · Wᵀ + b; the scores q·kᵀ times the f32 word 0x3D800000, replaced by −∞ where the mask bit
  "column > row" is set; the row maximum from −∞; the exponentials of score minus maximum, their row sum from 0, the
  quotient; and the sum over rows of v weighted by the quotients. Index by index this is `Cert.Spec.G`.
-/
import proofs.«151727_j7834020348210_2_alg».proof.Proof.Gen.ReferenceIdeal.Read
import proofs.«151727_j7834020348210_2_alg».proof.Proof.Spec
import proofs.«151727_j7834020348210_2_alg».proof.Defs
import proofs.«151727_j7834020348210_2_alg».proof.Proof.Gen.Pre_finite_inputs
import Idealize.ShloMosaic.Lib.WordArith

noncomputable section

open scoped BigOperators

namespace Cert.RefSpec

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-! ## Two bit patterns -/

/-- The f32 word 0xFF800000 denotes −∞. -/
theorem ofBits_neg_inf : Ideal.ofBits .f32 0xFF800000#32 = (⊥ : EReal) := by
  simp [Ideal.ofBits, Ideal.ieee]

/-- The f32 word 0 denotes 0. -/
theorem ofBits_zero : Ideal.ofBits .f32 0x00000000#32 = (0 : EReal) := by
  simp [Ideal.ofBits, Ideal.ieee]

/-! ## The three linear layers -/

theorem q_eq (x : Spec.X) (W : Spec.Wm) (bias : Spec.Bv) (b : Fin 4) (s : Fin 4096) (e : Fin 256) :
    val_main_v3 (F := Ideal) x W bias (ix3 b s e) = Spec.lin x W bias b s e := by
  rw [val_main_v3_apply, val_main_v0_apply, val_main_v2_apply, val_main_v1_apply, Ideal.addf_def]
  unfold Spec.lin
  have e1 : ∀ k : Fin 256, lidx_main_v0 (ix3 b s e) k = ix3 b s k := fun k => by funext a; fin_cases a <;> rfl
  have e2 : ∀ k : Fin 256, ridx_main_v0 (ix3 b s e) k = ix2 e k := fun k => by funext a; fin_cases a <;> rfl
  have e3 : idx_main_v1 (idx_main_v2 (ix3 b s e)) = ix1 e := by funext a; fin_cases a <;> rfl
  simp only [e1, e2, e3]

theorem k_eq (x : Spec.X) (W : Spec.Wm) (bias : Spec.Bv) (b : Fin 4) (s : Fin 4096) (e : Fin 256) :
    val_main_v7 (F := Ideal) x W bias (ix3 b s e) = Spec.lin x W bias b s e := by
  rw [val_main_v7_apply, val_main_v4_apply, val_main_v6_apply, val_main_v5_apply, Ideal.addf_def]
  unfold Spec.lin
  have e1 : ∀ k : Fin 256, lidx_main_v4 (ix3 b s e) k = ix3 b s k := fun k => by funext a; fin_cases a <;> rfl
  have e2 : ∀ k : Fin 256, ridx_main_v4 (ix3 b s e) k = ix2 e k := fun k => by funext a; fin_cases a <;> rfl
  have e3 : idx_main_v5 (idx_main_v6 (ix3 b s e)) = ix1 e := by funext a; fin_cases a <;> rfl
  simp only [e1, e2, e3]

theorem v_eq (x : Spec.X) (W : Spec.Wm) (bias : Spec.Bv) (b : Fin 4) (s : Fin 4096) (e : Fin 256) :
    val_main_v11 (F := Ideal) x W bias (ix3 b s e) = Spec.lin x W bias b s e := by
  rw [val_main_v11_apply, val_main_v8_apply, val_main_v10_apply, val_main_v9_apply, Ideal.addf_def]
  unfold Spec.lin
  have e1 : ∀ k : Fin 256, lidx_main_v8 (ix3 b s e) k = ix3 b s k := fun k => by funext a; fin_cases a <;> rfl
  have e2 : ∀ k : Fin 256, ridx_main_v8 (ix3 b s e) k = ix2 e k := fun k => by funext a; fin_cases a <;> rfl
  have e3 : idx_main_v9 (idx_main_v10 (ix3 b s e)) = ix1 e := by funext a; fin_cases a <;> rfl
  simp only [e1, e2, e3]

/-! ## The causal mask and the masked, scaled scores -/

/-- The mask bit at (i, j): set exactly strictly above the diagonal. -/
theorem mask_eq (i j : Fin 4096) :
    val_main_v16 (F := Ideal) (ix2 i j) = if j.val ≤ i.val then 0#1 else 1#1 := by
  rw [val_main_v16_apply, val_main_call0_v4_apply, val_main_call0_v2_apply, val_main_call0_v0_apply,
    val_main_call0_v1_apply, val_main_call0_c_apply, val_main_call0_v3_apply, val_main_call0_v5_apply,
    val_main_call0_c_0_apply, val_main_v15_apply, val_main_c_apply]
  show Scalar.select (IntOp.cmpi .sge (IntOp.addi (BitVec.ofNat 32 i.val) 0#32) (BitVec.ofNat 32 j.val)) 0#1 1#1 = _
  have hi : i.val < 4096 := i.isLt
  have hj : j.val < 4096 := j.isLt
  have ti : (IntOp.addi (BitVec.ofNat 32 i.val) 0#32).toInt = (i.val : Int) := by
    show (BitVec.ofNat 32 i.val + 0#32).toInt = _
    rw [BitVec.add_zero]; exact WordArith.toInt_ofNat_small _ (by omega)
  have tj : (BitVec.ofNat 32 j.val).toInt = (j.val : Int) := WordArith.toInt_ofNat_small _ (by omega)
  by_cases h : j.val ≤ i.val
  · rw [if_pos h, (IntOp.cmpi_sge).mpr (by rw [ti, tj]; exact_mod_cast h)]; exact select_one _ _
  · have hz : IntOp.cmpi .sge (IntOp.addi (BitVec.ofNat 32 i.val) 0#32) (BitVec.ofNat 32 j.val) = 0#1 :=
      eq_zero_of_ne_one (fun hc => h (by have := (IntOp.cmpi_sge).mp hc; rw [ti, tj] at this; exact_mod_cast this))
    rw [if_neg h, hz]; exact select_zero _ _

/-- The masked, scaled score at (b, i, j). -/
theorem z_eq (x : Spec.X) (Wq : Spec.Wm) (bq : Spec.Bv) (Wk : Spec.Wm) (bk : Spec.Bv) (b : Fin 4) (i j : Fin 4096) :
    val_main_v17 (F := Ideal) x Wq bq Wk bk (ix3 b i j) = Spec.logit (Spec.lin x Wq bq) (Spec.lin x Wk bk) b i j := by
  rw [val_main_v17_apply, val_main_call1_v1_apply, val_main_call1_v2_apply, val_main_call1_v0_apply, val_main_cst_0_apply,
    val_main_v14_apply, val_main_v12_apply, val_main_v13_apply, val_main_cst_apply]
  simp only [Ideal.mulf_def, Ideal.ofBits_def, ofBits_neg_inf]
  have e0 : idx_main_call1_v1 (ix3 b i j) = ix2 i j := by funext a; fin_cases a <;> rfl
  have e1 : ∀ k : Fin 256, lidx_main_v12 (ix3 b i j) k = ix3 b i k := fun k => by funext a; fin_cases a <;> rfl
  have e2 : ∀ k : Fin 256, ridx_main_v12 (ix3 b i j) k = ix3 b j k := fun k => by funext a; fin_cases a <;> rfl
  rw [e0, mask_eq]
  simp only [e1, e2, q_eq, k_eq]
  unfold Spec.logit
  by_cases h : j.val ≤ i.val
  · rw [if_pos h, if_pos h]; exact select_zero _ _
  · rw [if_neg h, if_neg h]; exact select_one _ _

/-! ## The row maximum -/

/-- The reduced index (b, i) with the coordinate k put back on the last axis is (b, i, k). -/
theorem lift_ix (h : S4x4096x4096.Reduces [2] S4x4096) (b : Fin 4) (i : Fin 4096) (k : Fin (S4x4096x4096.size 2)) :
    h.lift (ix2 b i) k = ix3 b i (⟨k.val, k.isLt⟩ : Fin 4096) := by
  funext c; apply Fin.ext; fin_cases c <;> rfl

theorem h_red : S4x4096x4096.Reduces [2] S4x4096 := by decide

/-- A fold by the ideal instance's maximum is a fold by `max`. -/
theorem fold_maximumf_eq {ι : Type} (s : Finset ι) (f : ι → EReal) (init : EReal) :
    s.fold (FloatOps.maximumf (F := Ideal) (φ := .f32)) init f = s.fold max init f := rfl

theorem m_eq (x : Spec.X) (Wq : Spec.Wm) (bq : Spec.Bv) (Wk : Spec.Wm) (bk : Spec.Bv) (b : Fin 4) (i : Fin 4096) :
    val_main_v20 (F := Ideal) x Wq bq Wk bk (ix2 b i)
      = Spec.rowMax (fun j => val_main_v17 (F := Ideal) x Wq bq Wk bk (ix3 b i j)) := by
  rw [val_main_v20_apply, val_main_v19_apply, val_main_cst_2_apply, Ideal.maximumf_def, Ideal.ofBits_def, ofBits_neg_inf]
  unfold Spec.rowMax val_main_v18
  rw [Host.reduce_eq_fold_single FloatOps.maximumf _ _ reducesTo_S4x4096x4096_S4x4096_d2 h_red h_S_]
  have hf : (val_main_v17 (F := Ideal) x Wq bq Wk bk ∘ h_red.lift (ix2 b i))
      = fun j : Fin 4096 => val_main_v17 (F := Ideal) x Wq bq Wk bk (ix3 b i j) :=
    funext fun k => congrArg (val_main_v17 (F := Ideal) x Wq bq Wk bk) (lift_ix h_red b i k)
  rw [hf, val_main_cst_1_apply, Ideal.ofBits_def, ofBits_neg_inf]
  exact congrArg (max ⊥) (fold_maximumf_eq _ _ _)

/-! ## The softmax and the output -/

/-- The exponential of a score minus its row's maximum. -/
theorem e_eq (x : Spec.X) (Wq : Spec.Wm) (bq : Spec.Bv) (Wk : Spec.Wm) (bk : Spec.Bv) (b : Fin 4) (i j : Fin 4096) :
    val_main_v24 (F := Ideal) x Wq bq Wk bk (ix3 b i j)
      = Ideal.exp (val_main_v17 (F := Ideal) x Wq bq Wk bk (ix3 b i j)
          - Spec.rowMax (fun j' => val_main_v17 (F := Ideal) x Wq bq Wk bk (ix3 b i j'))) := by
  rw [val_main_v24_apply, val_main_v23_apply, val_main_v22_apply, val_main_v21_apply, Ideal.hostUnary_exp_def, Ideal.subf_def]
  have e : idx_main_v21 (idx_main_v22 (ix3 b i j)) = ix2 b i := by funext a; fin_cases a <;> rfl
  rw [e, m_eq]

/-- The softmax weight at (b, i, j). -/
theorem p_eq (x : Spec.X) (Wq : Spec.Wm) (bq : Spec.Bv) (Wk : Spec.Wm) (bk : Spec.Bv) (b : Fin 4) (i j : Fin 4096) :
    val_main_v28 (F := Ideal) x Wq bq Wk bk (ix3 b i j)
      = Spec.attn (fun j' => val_main_v17 (F := Ideal) x Wq bq Wk bk (ix3 b i j')) j := by
  rw [val_main_v28_apply, val_main_v27_apply, val_main_v26_apply, val_main_v25_apply, val_main_cst_3_apply,
    Ideal.hostDivf_def, Ideal.ofBits_def, ofBits_zero]
  have e : ∀ k : Fin 4096, idx_main_v25 (idx_main_v26 (idx_main_v27 (ix3 b i j))) k = ix3 b i k :=
    fun k => by funext a; fin_cases a <;> rfl
  simp only [e, e_eq]
  rfl

/-- The reference's result array, as a function of its seven argument arrays, is the specification. -/
theorem ref_eq (x : Spec.X) (Wq : Spec.Wm) (bq : Spec.Bv) (Wk : Spec.Wm) (bk : Spec.Bv) (Wv : Spec.Wm) (bv : Spec.Bv) :
    val_main_v29 (F := Ideal) x Wq bq Wk bk Wv bv = Spec.G x Wq bq Wk bk Wv bv := by
  funext idx
  obtain ⟨b, i, d, rfl⟩ : ∃ (b : Fin 4) (i : Fin 4096) (d : Fin 256), idx = ix3 b i d := ⟨_, _, _, eq_ix3 idx⟩
  rw [Spec.G_ix3, val_main_v29_apply]
  unfold Spec.out
  refine Finset.sum_congr rfl fun j _ => ?_
  have e1 : lidx_main_v29 (ix3 b i d) j = ix3 b i j := by funext a; fin_cases a <;> rfl
  have e2 : ridx_main_v29 (ix3 b i d) j = ix3 b j d := by funext a; fin_cases a <;> rfl
  rw [e1, e2, p_eq, v_eq]
  have ez : (fun j' => val_main_v17 (F := Ideal) x Wq bq Wk bk (ix3 b i j'))
      = Spec.logit (Spec.lin x Wq bq) (Spec.lin x Wk bk) b i := funext fun j' => z_eq x Wq bq Wk bk b i j'
  rw [ez]

/-- The same, for the result term of the reference's run from a memory m on core c. -/
theorem ref_run_eq (m : (ℓ : Loc nD τ sig) → Buf (Elt Ideal) ℓ) (c : Dev nD) :
    Cert.ReferenceIdeal.Value.res_out0 (F := Ideal) m c
      = Spec.G (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) :=
  (val_main_v29_eq (F := Ideal) m c).trans (ref_eq _ _ _ _ _ _ _)

end Cert.RefSpec

/-! ## The reference's frame -/

namespace Cert.RefSpec

open Idealize.ShloMosaic Idealize.ShloMosaic.TcCoe Idealize.SL.Sem

theorem frame_ri : Cert.frame_ReferenceIdeal := fun m ρ _ =>
  (θ_run Cert.ReferenceIdeal.defs _ _).mono (fun _ h c => (h c).2) (Cert.ReferenceIdeal.Value.run (F := Ideal) m ρ)

end Cert.RefSpec

end
-- ==== Proof.lean ====
/-
  The certificate of a causal self-attention kernel against its jnp reference.

  The kernel is a program of two regions. Region 0 computes q, k, v = x · Wᵀ + b on row tiles of 1024 rows. Region 1
  walks, for every batch and every tile of 1024 query rows, the key/value tiles at or below the diagonal, keeping for
  each query row a running maximum m of its masked scaled scores, the sum l of exp(score − m) and the accumulator
  acc = Σ exp(score − m) · v; a new tile rescales l and acc by exp(m_old − m_new). After the last tile the output row
  is acc / l. The reference computes the masked scores of a whole row, subtracts the row maximum, exponentiates,
  divides by the row sum and multiplies by v. On finite inputs both are Σ_j softmax(score)_j · v_j: the scores at or
  below the diagonal are reals, those above it are −∞ and contribute exp(−∞) = 0 to every sum, each rescaling is
  exp(a) · exp(b) = exp(a + b) in the reals, and a real factor moves through a finite sum of reals. The mask value
  the kernel uses is a named constant that denotes −∞ at the ideal instance.

  The frames of the two kernel programs are proved from the body's run at every grid point (by cases on the three
  conditions of region 1's body), with the contents of the scratch buffers carried from each point to the next.
-/
import proofs.«151727_j7834020348210_2_alg».proof.Defs
import proofs.«151727_j7834020348210_2_alg».proof.Proof.Gen.Kernel
import proofs.«151727_j7834020348210_2_alg».proof.Proof.Gen.KernelIdeal
import proofs.«151727_j7834020348210_2_alg».proof.Proof.Gen.ReferenceIdeal
import proofs.«151727_j7834020348210_2_alg».proof.Proof.Gen.Pre_finite_inputs
import proofs.«151727_j7834020348210_2_alg».proof.Proof.KRun
import proofs.«151727_j7834020348210_2_alg».proof.Proof.KIFinal
import proofs.«151727_j7834020348210_2_alg».proof.Proof.RefSpec
import Idealize.ShloMosaic.PureOps.IdealRules

noncomputable section

namespace Cert.Proof

open Idealize.ShloMosaic Idealize.ShloMosaic.TcCoe Idealize.SL.Sem

/-- The word-level program runs and leaves its arguments as launched. -/
theorem frame_k : Cert.frame_Kernel := fun m ρ _ => Cert.Kernel.Hand.frame (F := Bits) m ρ

/-- So does the idealized program. -/
theorem frame_ki : Cert.frame_KernelIdeal := fun m ρ _ => Cert.KernelIdeal.Hand.frame (F := Ideal) m ρ

/-- The one rewrite of the ideal pass: the finite stand-in for −∞ is named, and the name denotes −∞. -/
theorem preserves : Cert.preserves_Kernel_KernelIdeal :=
  IdealRules.named_const.statement Cert.KernelIdeal.κ "neg_big" .f32 0xFF333332#32 ⊥ rfl

/-- Both idealized programs end with the specification's function of the arguments in their result arrays. -/
theorem algebraic : Cert.algebraic_KernelIdeal_ReferenceIdeal := by
  intro m ρ m' ρ' hpre hagree
  refine ⟨fun c => Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · refine (θ_run Cert.KernelIdeal.defs _ _).mono (fun r h c => ?_) (Cert.KernelIdeal.Hand.run_all (F := Ideal) m ρ)
    refine ⟨(h c _ (Cert.KernelIdeal.Hand.mem_uc Cert.KernelIdeal.main_v4 (by decide))).trans (Cert.KernelIdeal.Hand.kernel_value m hpre c), ?_⟩
    exact ⟨(h c _ (Cert.KernelIdeal.Hand.mem_uc Cert.KernelIdeal.main_arg0 (by decide))).trans (Cert.KernelIdeal.Hand.W3_main_arg0 m c),
      (h c _ (Cert.KernelIdeal.Hand.mem_uc Cert.KernelIdeal.main_arg1 (by decide))).trans (Cert.KernelIdeal.Hand.W3_main_arg1 m c),
      (h c _ (Cert.KernelIdeal.Hand.mem_uc Cert.KernelIdeal.main_arg2 (by decide))).trans (Cert.KernelIdeal.Hand.W3_main_arg2 m c),
      (h c _ (Cert.KernelIdeal.Hand.mem_uc Cert.KernelIdeal.main_arg3 (by decide))).trans (Cert.KernelIdeal.Hand.W3_main_arg3 m c),
      (h c _ (Cert.KernelIdeal.Hand.mem_uc Cert.KernelIdeal.main_arg4 (by decide))).trans (Cert.KernelIdeal.Hand.W3_main_arg4 m c),
      (h c _ (Cert.KernelIdeal.Hand.mem_uc Cert.KernelIdeal.main_arg5 (by decide))).trans (Cert.KernelIdeal.Hand.W3_main_arg5 m c),
      (h c _ (Cert.KernelIdeal.Hand.mem_uc Cert.KernelIdeal.main_arg6 (by decide))).trans (Cert.KernelIdeal.Hand.W3_main_arg6 m c)⟩
  · refine (θ_run Cert.ReferenceIdeal.defs _ _).mono (fun _ h c => ⟨(h c).1.trans ((Cert.RefSpec.ref_run_eq m' c).trans ?_), (h c).2⟩)
      (Cert.ReferenceIdeal.Value.run (F := Ideal) m' ρ')
    rw [(hagree c).1, (hagree c).2.1, (hagree c).2.2.1, (hagree c).2.2.2.1, (hagree c).2.2.2.2.1, (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, Cert.RefSpec.frame_ri, preserves, algebraic⟩

end Cert.Proof

end
